-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S16384x16 : Shape := ⟨2, ![16384, 16]⟩
abbrev S1040000x1 : Shape := ⟨2, ![1040000, 1]⟩
abbrev S16x1 : Shape := ⟨2, ![16, 1]⟩
abbrev S1 : Shape := ⟨1, ![1]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S1040000x1 : S_.BroadcastsInDim S1040000x1 (![] : Fin 0 → Fin S1040000x1.rank)
  reducesTo_S1040000x1_S_d0_1 : S1040000x1.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn_part1 {F : FTy → Type} [FloatOps F] (main_arg0 : IVec S16384x26 32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S16384x26 32 := broadcastInDim S16384x26 ![] bcast_S_S16384x26 main_c_8
  let main_v25 : IVec S16384x26 1 := cmpi .sge main_arg0 main_v24
  let main_c_9 : IVec S_ 32 := constantI S_ 32 39999#32
  let main_v26 : IVec S16384x26 32 := broadcastInDim S16384x26 ![] bcast_S_S16384x26 main_c_9
  let main_v27 : IVec S16384x26 1 := cmpi .sle main_arg0 main_v26
  let main_v28 : IVec S16384x26 1 := andi main_v25 main_v27
  let main_c_10 : IVec S_ 1 := constantI S_ 1 1#1
  let main_v29 : IVec S_ 1 := (fun x v => Host.reduce IntOp.andi x v reducesTo_S16384x26_S_d0_1 h_S_) main_v28 main_c_10
  let main_v30 : IVec S_ 1 := andi main_v23 main_v29
  main_v30

def fn {F : FTy → Type} [FloatOps F] (main_arg0 : IVec S16384x26 32) (main_arg1 : FVec F S16384x16 .f32) (main_arg2 : FVec F S1040000x1 .f32) (main_arg3 : FVec F S16x1 .f32) (main_arg4 : FVec F S1 .f32) (main_arg5 : FVec F S1 .f32) : IVec S_ 1 :=
  let main_v0 : FVec F S16384x16 .f32 := Host.absf main_arg1
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S1040000x1 .f32 := Host.absf main_arg2
  let main_cst_0 : FVec F S_ .f32 := constant S_ .f32 0x7F800000#32
  let main_v5 : FVec F S1040000x1 .f32 := broadcastInDim S1040000x1 ![] bcast_S_S1040000x1 main_cst_0
  let main_v6 : IVec S1040000x1 1 := cmpf .olt main_v4 main_v5
  let main_c_1 : IVec S_ 1 := constantI S_ 1 1#1
  let main_v7 : IVec S_ 1 := (fun x v => Host.reduce IntOp.andi x v reducesTo_S1040000x1_S_d0_1 h_S_) main_v6 main_c_1
  let main_v8 : IVec S_ 1 := andi main_v3 main_v7
  let main_v9 : FVec F S16x1 .f32 := Host.absf main_arg3
  let main_cst_2 : FVec F S_ .f32 := constant S_ .f32 0x7F800000#32
  let main_v10 : FVec F S16x1 .f32 := broadcastInDim S16x1 ![] bcast_S_S16x1 main_cst_2
  let main_v11 : IVec S16x1 1 := cmpf .olt main_v9 main_v10
  let main_c_3 : IVec S_ 1 := constantI S_ 1 1#1
  let main_v12 : IVec S_ 1 := (fun x v => Host.reduce IntOp.andi x v reducesTo_S16x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg5 main_v13 main_v16
-- ==== Kernel.lean ====
abbrev S16384x26 : Shape := ⟨2, ![16384, 26]⟩
abbrev S16384x16 : Shape := ⟨2, ![16384, 16]⟩
abbrev S1040000x1 : Shape := ⟨2, ![1040000, 1]⟩
abbrev S16x1 : Shape := ⟨2, ![16, 1]⟩
abbrev S1 : Shape := ⟨1, ![1]⟩
abbrev S26 : Shape := ⟨1, ![26]⟩
abbrev S_ : Shape := ⟨0, ![]⟩
abbrev S1x26 : Shape := ⟨2, ![1, 26]⟩
abbrev S32x512x26 : Shape := ⟨3, ![32, 512, 26]⟩
abbrev S32x26x512 : Shape := ⟨3, ![32, 26, 512]⟩
abbrev S425984 : Shape := ⟨1, ![425984]⟩
abbrev S32x512x16 : Shape := ⟨3, ![32, 512, 16]⟩
abbrev S32x16x512 : Shape := ⟨3, ![32, 16, 512]⟩
abbrev S262144 : Shape := ⟨1, ![262144]⟩
abbrev S1040000 : Shape := ⟨1, ![1040000]⟩
abbrev S16 : Shape := ⟨1, ![16]⟩
abbrev S16x16 : Shape := ⟨2, ![16, 16]⟩
abbrev S256 : Shape := ⟨1, ![256]⟩
abbrev S272 : Shape := ⟨1, ![272]⟩
abbrev S16384 : Shape := ⟨1, ![16384]⟩
abbrev S13312 : Shape := ⟨1, ![13312]⟩
abbrev S8192 : Shape := ⟨1, ![8192]⟩
abbrev S512 : Shape := ⟨1, ![512]⟩
abbrev S80000 : Shape := ⟨1, ![80000]⟩
abbrev S16384x1 : Shape := ⟨2, ![16384, 1]⟩

abbrev nBuf : Table → Nat
  | .hbm => 28
  | .shared => 1
  | .local .scVector .vmem => 5
  | _ => 0

abbrev bufTy : (tb : Table) → Fin (nBuf tb) → BufTy
  | .hbm, ⟨0, _⟩ => ⟨S16384x26, .i32⟩
  | .hbm, ⟨1, _⟩ => ⟨S16384x16, .f32⟩
  | .hbm, ⟨2, _⟩ => ⟨S1040000x1, .f32⟩
  | .hbm, ⟨3, _⟩ => ⟨S16x1, .f32⟩
  | .hbm, ⟨4, _⟩ => ⟨S1, .f32⟩
  | .hbm, ⟨5, _⟩ => ⟨S1, .f32⟩
  | .hbm, ⟨6, _⟩ => ⟨S26, .i32⟩
  | .hbm, ⟨7, _⟩ => ⟨S_, .i32⟩
  | .hbm, ⟨8, _⟩ => ⟨S26, .i32⟩
  | .hbm, ⟨9, _⟩ => ⟨S26, .i32⟩
  | .hbm, ⟨10, _⟩ => ⟨S1x26, .i32⟩
  | .hbm, ⟨11, _⟩ => ⟨S16384x26, .i32⟩
  | .hbm, ⟨12, _⟩ => ⟨S16384x26, .i32⟩
  | .hbm, ⟨13, _⟩ => ⟨S32x512x26, .i32⟩
  | .hbm, ⟨14, _⟩ => ⟨S32x26x512, .i32⟩
  | .hbm, ⟨15, _⟩ => ⟨S425984, .i32⟩
  | .hbm, ⟨16, _⟩ => ⟨S32x512x16, .f32⟩
  | .hbm, ⟨17, _⟩ => ⟨S32x16x512, .f32⟩
  | .hbm, ⟨18, _⟩ => ⟨S262144, .f32⟩
  | .hbm, ⟨19, _⟩ => ⟨S1040000, .f32⟩
  | .hbm, ⟨20, _⟩ => ⟨S16, .f32⟩
  | .hbm, ⟨21, _⟩ => ⟨S16x16, .f32⟩
  | .hbm, ⟨22, _⟩ => ⟨S256, .f32⟩
  | .hbm, ⟨23, _⟩ => ⟨S1, .f32⟩
  | .hbm, ⟨24, _⟩ => ⟨S16, .f32⟩
  | .hbm, ⟨25, _⟩ => ⟨S272, .f32⟩
  | .hbm, ⟨26, _⟩ => ⟨S16384, .f32⟩
  | .hbm, ⟨27, _⟩ => ⟨S16384x1, .f32⟩
  | .shared, ⟨0, _⟩ => ⟨S1040000, .f32⟩
  | .local .scVector .vmem, ⟨0, _⟩ => ⟨S13312, .i32⟩
  | .local .scVector .vmem, ⟨1, _⟩ => ⟨S13312, .f32⟩
  | .local .scVector .vmem, ⟨2, _⟩ => ⟨S8192, .f32⟩
  | .local .scVector .vmem, ⟨3, _⟩ => ⟨S272, .f32⟩
  | .local .scVector .vmem, ⟨4, _⟩ => ⟨S512, .f32⟩
  | _, _ => ⟨S16384x26, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v8_scv : Ref sig .scVector := ⟨.hbm, 15, rfl⟩
abbrev main_v11_scv : Ref sig .scVector := ⟨.hbm, 18, rfl⟩
abbrev main_v12_scv : Ref sig .scVector := ⟨.hbm, 19, rfl⟩
abbrev main_v18_scv : Ref sig .scVector := ⟨.hbm, 25, rfl⟩
abbrev main_v19_scv : Ref sig .scVector := ⟨.hbm, 26, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c13_i32 : BitVec 32 := 13#32
  let v2 : BitVec 1 := Scalar.cmpi .slt arg1 c13_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c80000_i32_1061 : BitVec 32 := 80000#32
  let v5678 : BitVec 32 := Scalar.muli arg1 c80000_i32_1061
  ![v5678.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v5 : BitVec 32 := Scalar.muli v1 c13312_i32
  ![v5.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v6 : BitVec 32 := Scalar.muli v1 c16_i32
  let c512_i32 : BitVec 32 := 512#32
  let v7 : BitVec 32 := Scalar.muli v6 c512_i32
  ![v7.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_1060 : BitVec 32 := 512#32
  let v5676 : BitVec 32 := Scalar.muli v1 c512_i32_1060
  ![v5676.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ (k0_h1 : k0_cond1 i = 1#1), ∀ a, (k0_off1 i) a + S80000.size a ≤ S1040000.size a
  k0_off2_inb : ∀ i : grid0.Coords, ∀ a, (k0_off2 i) a + S13312.size a ≤ S425984.size a
  k0_off3_inb : ∀ i : grid0.Coords, ∀ a, (k0_off3 i) a + S8192.size a ≤ S262144.size a
  k0_off4_inb : ∀ i : grid0.Coords, ∀ a, (k0_off4 i) a + S512.size a ≤ S16384.size a

class Shapes1.Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  shapeCasts_S16384x26_S32x512x26 : S16384x26.ShapeCasts S32x512x26
  transposes_S32x512x26_S32x26x512_0_2_1 : S32x512x26.Transposes [0, 2, 1] S32x26x512
  shapeCasts_S32x26x512_S425984 : S32x26x512.ShapeCasts S425984
  shapeCasts_S16384x16_S32x512x16 : S16384x16.ShapeCasts S32x512x16
  transposes_S32x512x16_S32x16x512_0_2_1 : S32x512x16.Transposes [0, 2, 1] S32x16x512
  shapeCasts_S32x16x512_S262144 : S32x16x512.ShapeCasts S262144
  shapeCasts_S1040000x1_S1040000 : S1040000x1.ShapeCasts S1040000
  shapeCasts_S16x1_S16 : S16x1.ShapeCasts S16
  bcast_S16_S16x16_0 : S16.BroadcastsInDim S16x16 (![0] : Fin 1 → Fin S16x16.rank)
  shapeCasts_S16x16_S256 : S16x16.ShapeCasts S256
  bcast_S1_S16_0 : S1.BroadcastsInDim S16 (![0] : Fin 1 → Fin S16.rank)
  concatenates_S256_S16_S272_d0 : Shape.Concatenates [S256, S16] S272 0
  inb_S1040000_S1040000_0 : ∀ a, (![0] : Fin 1 → Nat) a + S1040000.size a ≤ S1040000.size a
  gathers_S1040000_S13312 : S1040000.Gathers 0 S13312
  inb_S272_S16_256 : ∀ a, (![256] : Fin 1 → Nat) a + S16.size a ≤ S272.size a
  h_S16 : 0 < S16.numel
  shapeCasts_S16_S16 : S16.ShapeCasts S16
  inb_S13312_S16_0 : ∀ a, (![0] : Fin 1 → Nat) a + S16.size a ≤ S13312.size a
  inb_S13312_S16_512 : ∀ a, (![512] : Fin 1 → Nat) a + S16.size a ≤ S13312.size a
  inb_S13312_S16_1024 : ∀ a, (![1024] : Fin 1 → Nat) a + S16.size a ≤ S13312.size a
  inb_S13312_S16_1536 : ∀ a, (![1536] : Fin 1 → Nat) a + S16.size a ≤ S13312.size a
  inb_S13312_S16_2048 : ∀ a, (![2048] : Fin 1 → Nat) a + S16.size a ≤ S13312.size a
  inb_S13312_S16_2560 : ∀ a, (![2560] : Fin 1 → Nat) a + S16.size a ≤ S13312.size a
  inb_S13312_S16_3072 : ∀ a, (![3072] : Fin 1 → Nat) a + S16.size a ≤ S13312.size a
  inb_S13312_S16_3584 : ∀ a, (![3584] : Fin 1 → Nat) a + S16.size a ≤ S13312.size a
  inb_S13312_S16_4096 : ∀ a, (![4096] : Fin 1 → Nat) a + S16.size a ≤ S13312.size a
  inb_S13312_S16_4608 : ∀ a, (![4608] : Fin 1 → Nat) a + S16.size a ≤ S13312.size a
  inb_S13312_S16_5120 : ∀ a, (![5120] : Fin 1 → Nat) a + S16.size a ≤ S13312.size a
  inb_S13312_S16_5632 : ∀ a, (![5632] : Fin 1 → Nat) a + S16.size a ≤ S13312.size a
  inb_S13312_S16_6144 : ∀ a, (![6144] : Fin 1 → Nat) a + S16.size a ≤ S13312.size a
  inb_S13312_S16_6656 : ∀ a, (![6656] : Fin 1 → Nat) a + S16.size a ≤ S13312.size a
  inb_S13312_S16_7168 : ∀ a, (![7168] : Fin 1 → Nat) a + S16.size a ≤ S13312.size a
  inb_S13312_S16_7680 : ∀ a, (![7680] : Fin 1 → Nat) a + S16.size a ≤ S13312.size a
  inb_S13312_S16_8192 : ∀ a, (![8192] : Fin 1 → Nat) a + S16.size a ≤ S13312.size a
  inb_S13312_S16_8704 : ∀ a, (![8704] : Fin 1 → Nat) a + S16.size a ≤ S13312.size a
  inb_S13312_S16_9216 : ∀ a, (![9216] : Fin 1 → Nat) a + S16.size a ≤ S13312.size a
  inb_S13312_S16_9728 : ∀ a, (![9728] : Fin 1 → Nat) a + S16.size a ≤ S13312.size a
  inb_S13312_S16_10240 : ∀ a, (![10240] : Fin 1 → Nat) a + S16.size a ≤ S13312.size a
  inb_S13312_S16_10752 : ∀ a, (![10752] : Fin 1 → Nat) a + S16.size a ≤ S13312.size a
  inb_S13312_S16_11264 : ∀ a, (![11264] : Fin 1 → Nat) a + S16.size a ≤ S13312.size a
  inb_S13312_S16_11776 : ∀ a, (![11776] : Fin 1 → Nat) a + S16.size a ≤ S13312.size a
  inb_S13312_S16_12288 : ∀ a, (![12288] : Fin 1 → Nat) a + S16.size a ≤ S13312.size a
  inb_S13312_S16_12800 : ∀ a, (![12800] : Fin 1 → Nat) a + S16.size a ≤ S13312.size a
  inb_S272_S16_0 : ∀ a, (![0] : Fin 1 → Nat) a + S16.size a ≤ S272.size a
  inb_S8192_S16_0 : ∀ a, (![0] : Fin 1 → Nat) a + S16.size a ≤ S8192.size a
  inb_S272_S16_16 : ∀ a, (![16] : Fin 1 → Nat) a + S16.size a ≤ S272.size a
  inb_S8192_S16_512 : ∀ a, (![512] : Fin 1 → Nat) a + S16.size a ≤ S8192.size a
  inb_S272_S16_32 : ∀ a, (![32] : Fin 1 → Nat) a + S16.size a ≤ S272.size a
  inb_S8192_S16_1024 : ∀ a, (![1024] : Fin 1 → Nat) a + S16.size a ≤ S8192.size a
  inb_S272_S16_48 : ∀ a, (![48] : Fin 1 → Nat) a + S16.size a ≤ S272.size a
  inb_S8192_S16_1536 : ∀ a, (![1536] : Fin 1 → Nat) a + S16.size a ≤ S8192.size a
  inb_S272_S16_64 : ∀ a, (![64] : Fin 1 → Nat) a + S16.size a ≤ S272.size a
  inb_S8192_S16_2048 : ∀ a, (![2048] : Fin 1 → Nat) a + S16.size a ≤ S8192.size a
  inb_S272_S16_80 : ∀ a, (![80] : Fin 1 → Nat) a + S16.size a ≤ S272.size a
  inb_S8192_S16_2560 : ∀ a, (![2560] : Fin 1 → Nat) a + S16.size a ≤ S8192.size a
  inb_S272_S16_96 : ∀ a, (![96] : Fin 1 → Nat) a + S16.size a ≤ S272.size a
  inb_S8192_S16_3072 : ∀ a, (![3072] : Fin 1 → Nat) a + S16.size a ≤ S8192.size a
  inb_S272_S16_112 : ∀ a, (![112] : Fin 1 → Nat) a + S16.size a ≤ S272.size a
  inb_S8192_S16_3584 : ∀ a, (![3584] : Fin 1 → Nat) a + S16.size a ≤ S8192.size a
  inb_S272_S16_128 : ∀ a, (![128] : Fin 1 → Nat) a + S16.size a ≤ S272.size a
  inb_S8192_S16_4096 : ∀ a, (![4096] : Fin 1 → Nat) a + S16.size a ≤ S8192.size a
  inb_S272_S16_144 : ∀ a, (![144] : Fin 1 → Nat) a + S16.size a ≤ S272.size a
  inb_S8192_S16_4608 : ∀ a, (![4608] : Fin 1 → Nat) a + S16.size a ≤ S8192.size a
  inb_S272_S16_160 : ∀ a, (![160] : Fin 1 → Nat) a + S16.size a ≤ S272.size a
  inb_S8192_S16_5120 : ∀ a, (![5120] : Fin 1 → Nat) a + S16.size a ≤ S8192.size a
  inb_S272_S16_176 : ∀ a, (![176] : Fin 1 → Nat) a + S16.size a ≤ S272.size a
  inb_S8192_S16_5632 : ∀ a, (![5632] : Fin 1 → Nat) a + S16.size a ≤ S8192.size a
  inb_S272_S16_192 : ∀ a, (![192] : Fin 1 → Nat) a + S16.size a ≤ S272.size a
  inb_S8192_S16_6144 : ∀ a, (![6144] : Fin 1 → Nat) a + S16.size a ≤ S8192.size a
  inb_S272_S16_208 : ∀ a, (![208] : Fin 1 → Nat) a + S16.size a ≤ S272.size a
  inb_S8192_S16_6656 : ∀ a, (![6656] : Fin 1 → Nat) a + S16.size a ≤ S8192.size a
  inb_S272_S16_224 : ∀ a, (![224] : Fin 1 → Nat) a + S16.size a ≤ S272.size a
  inb_S8192_S16_7168 : ∀ a, (![7168] : Fin 1 → Nat) a + S16.size a ≤ S8192.size a
  inb_S272_S16_240 : ∀ a, (![240] : Fin 1 → Nat) a + S16.size a ≤ S272.size a
  inb_S8192_S16_7680 : ∀ a, (![7680] : Fin 1 → Nat) a + S16.size a ≤ S8192.size a
  inb_S512_S16_0 : ∀ a, (![0] : Fin 1 → Nat) a + S16.size a ≤ S512.size a
  inb_S13312_S16_16 : ∀ a, (![16] : Fin 1 → Nat) a + S16.size a ≤ S13312.size a
  inb_S13312_S16_528 : ∀ a, (![528] : Fin 1 → Nat) a + S16.size a ≤ S13312.size a
  inb_S13312_S16_1040 : ∀ a, (![1040] : Fin 1 → Nat) a + S16.size a ≤ S13312.size a
  inb_S13312_S16_1552 : ∀ a, (![1552] : Fin 1 → Nat) a + S16.size a ≤ S13312.size a
  inb_S13312_S16_2064 : ∀ a, (![2064] : Fin 1 → Nat) a + S16.size a ≤ S13312.size a
  inb_S13312_S16_2576 : ∀ a, (![2576] : Fin 1 → Nat) a + S16.size a ≤ S13312.size a
  inb_S13312_S16_3088 : ∀ a, (![3088] : Fin 1 → Nat) a + S16.size a ≤ S13312.size a
  inb_S13312_S16_3600 : ∀ a, (![3600] : Fin 1 → Nat) a + S16.size a ≤ S13312.size a
  inb_S13312_S16_4112 : ∀ a, (![4112] : Fin 1 → Nat) a + S16.size a ≤ S13312.size a
  inb_S13312_S16_4624 : ∀ a, (![4624] : Fin 1 → Nat) a + S16.size a ≤ S13312.size a
  inb_S13312_S16_5136 : ∀ a, (![5136] : Fin 1 → Nat) a + S16.size a ≤ S13312.size a
  inb_S13312_S16_5648 : ∀ a, (![5648] : Fin 1 → Nat) a + S16.size a ≤ S13312.size a
  inb_S13312_S16_6160 : ∀ a, (![6160] : Fin 1 → Nat) a + S16.size a ≤ S13312.size a
  inb_S13312_S16_6672 : ∀ a, (![6672] : Fin 1 → Nat) a + S16.size a ≤ S13312.size a
  inb_S13312_S16_7184 : ∀ a, (![7184] : Fin 1 → Nat) a + S16.size a ≤ S13312.size a
  inb_S13312_S16_7696 : ∀ a, (![7696] : Fin 1 → Nat) a + S16.size a ≤ S13312.size a
  inb_S13312_S16_8208 : ∀ a, (![8208] : Fin 1 → Nat) a + S16.size a ≤ S13312.size a
  inb_S13312_S16_8720 : ∀ a, (![8720] : Fin 1 → Nat) a + S16.size a ≤ S13312.size a
  inb_S13312_S16_9232 : ∀ a, (![9232] : Fin 1 → Nat) a + S16.size a ≤ S13312.size a
  inb_S13312_S16_9744 : ∀ a, (![9744] : Fin 1 → Nat) a + S16.size a ≤ S13312.size a
  inb_S13312_S16_10256 : ∀ a, (![10256] : Fin 1 → Nat) a + S16.size a ≤ S13312.size a
  inb_S13312_S16_10768 : ∀ a, (![10768] : Fin 1 → Nat) a + S16.size a ≤ S13312.size a
  inb_S13312_S16_11280 : ∀ a, (![11280] : Fin 1 → Nat) a + S16.size a ≤ S13312.size a
  inb_S13312_S16_11792 : ∀ a, (![11792] : Fin 1 → Nat) a + S16.size a ≤ S13312.size a
  inb_S13312_S16_12304 : ∀ a, (![12304] : Fin 1 → Nat) a + S16.size a ≤ S13312.size a
  inb_S13312_S16_12816 : ∀ a, (![12816] : Fin 1 → Nat) a + S16.size a ≤ S13312.size a
  inb_S8192_S16_16 : ∀ a, (![16] : Fin 1 → Nat) a + S16.size a ≤ S8192.size a
  inb_S8192_S16_528 : ∀ a, (![528] : Fin 1 → Nat) a + S16.size a ≤ S8192.size a
  inb_S8192_S16_1040 : ∀ a, (![1040] : Fin 1 → Nat) a + S16.size a ≤ S8192.size a
  inb_S8192_S16_1552 : ∀ a, (![1552] : Fin 1 → Nat) a + S16.size a ≤ S8192.size a
  inb_S8192_S16_2064 : ∀ a, (![2064] : Fin 1 → Nat) a + S16.size a ≤ S8192.size a
  inb_S8192_S16_2576 : ∀ a, (![2576] : Fin 1 → Nat) a + S16.size a ≤ S8192.size a
  inb_S8192_S16_3088 : ∀ a, (![3088] : Fin 1 → Nat) a + S16.size a ≤ S8192.size a
  inb_S8192_S16_3600 : ∀ a, (![3600] : Fin 1 → Nat) a + S16.size a ≤ S8192.size a
  inb_S8192_S16_4112 : ∀ a, (![4112] : Fin 1 → Nat) a + S16.size a ≤ S8192.size a
  inb_S8192_S16_4624 : ∀ a, (![4624] : Fin 1 → Nat) a + S16.size a ≤ S8192.size a
  inb_S8192_S16_5136 : ∀ a, (![5136] : Fin 1 → Nat) a + S16.size a ≤ S8192.size a
  inb_S8192_S16_5648 : ∀ a, (![5648] : Fin 1 → Nat) a + S16.size a ≤ S8192.size a
  inb_S8192_S16_6160 : ∀ a, (![6160] : Fin 1 → Nat) a + S16.size a ≤ S8192.size a
  inb_S8192_S16_6672 : ∀ a, (![6672] : Fin 1 → Nat) a + S16.size a ≤ S8192.size a
  inb_S8192_S16_7184 : ∀ a, (![7184] : Fin 1 → Nat) a + S16.size a ≤ S8192.size a
  inb_S8192_S16_7696 : ∀ a, (![7696] : Fin 1 → Nat) a + S16.size a ≤ S8192.size a
  inb_S512_S16_16 : ∀ a, (![16] : Fin 1 → Nat) a + S16.size a ≤ S512.size a
  inb_S13312_S16_32 : ∀ a, (![32] : Fin 1 → Nat) a + S16.size a ≤ S13312.size a
  inb_S13312_S16_544 : ∀ a, (![544] : Fin 1 → Nat) a + S16.size a ≤ S13312.size a
  inb_S13312_S16_1056 : ∀ a, (![1056] : Fin 1 → Nat) a + S16.size a ≤ S13312.size a
  inb_S13312_S16_1568 : ∀ a, (![1568] : Fin 1 → Nat) a + S16.size a ≤ S13312.size a
  inb_S13312_S16_2080 : ∀ a, (![2080] : Fin 1 → Nat) a + S16.size a ≤ S13312.size a
  inb_S13312_S16_2592 : ∀ a, (![2592] : Fin 1 → Nat) a + S16.size a ≤ S13312.size a
  inb_S13312_S16_3104 : ∀ a, (![3104] : Fin 1 → Nat) a + S16.size a ≤ S13312.size a
  inb_S13312_S16_3616 : ∀ a, (![3616] : Fin 1 → Nat) a + S16.size a ≤ S13312.size a
  inb_S13312_S16_4128 : ∀ a, (![4128] : Fin 1 → Nat) a + S16.size a ≤ S13312.size a
  inb_S13312_S16_4640 : ∀ a, (![4640] : Fin 1 → Nat) a + S16.size a ≤ S13312.size a
  inb_S13312_S16_5152 : ∀ a, (![5152] : Fin 1 → Nat) a + S16.size a ≤ S13312.size a
  inb_S13312_S16_5664 : ∀ a, (![5664] : Fin 1 → Nat) a + S16.size a ≤ S13312.size a
  inb_S13312_S16_6176 : ∀ a, (![6176] : Fin 1 → Nat) a + S16.size a ≤ S13312.size a
  inb_S13312_S16_6688 : ∀ a, (![6688] : Fin 1 → Nat) a + S16.size a ≤ S13312.size a
  inb_S13312_S16_7200 : ∀ a, (![7200] : Fin 1 → Nat) a + S16.size a ≤ S13312.size a
  inb_S13312_S16_7712 : ∀ a, (![7712] : Fin 1 → Nat) a + S16.size a ≤ S13312.size a
  inb_S13312_S16_8224 : ∀ a, (![8224] : Fin 1 → Nat) a + S16.size a ≤ S13312.size a
  inb_S13312_S16_8736 : ∀ a, (![8736] : Fin 1 → Nat) a + S16.size a ≤ S13312.size a
  inb_S13312_S16_9248 : ∀ a, (![9248] : Fin 1 → Nat) a + S16.size a ≤ S13312.size a
  inb_S13312_S16_9760 : ∀ a, (![9760] : Fin 1 → Nat) a + S16.size a ≤ S13312.size a
  inb_S13312_S16_10272 : ∀ a, (![10272] : Fin 1 → Nat) a + S16.size a ≤ S13312.size a
  inb_S13312_S16_10784 : ∀ a, (![10784] : Fin 1 → Nat) a + S16.size a ≤ S13312.size a
  inb_S13312_S16_11296 : ∀ a, (![11296] : Fin 1 → Nat) a + S16.size a ≤ S13312.size a
  inb_S13312_S16_11808 : ∀ a, (![11808] : Fin 1 → Nat) a + S16.size a ≤ S13312.size a
  inb_S13312_S16_12320 : ∀ a, (![12320] : Fin 1 → Nat) a + S16.size a ≤ S13312.size a
  inb_S13312_S16_12832 : ∀ a, (![12832] : Fin 1 → Nat) a + S16.size a ≤ S13312.size a
  inb_S8192_S16_32 : ∀ a, (![32] : Fin 1 → Nat) a + S16.size a ≤ S8192.size a
  inb_S8192_S16_544 : ∀ a, (![544] : Fin 1 → Nat) a + S16.size a ≤ S8192.size a
  inb_S8192_S16_1056 : ∀ a, (![1056] : Fin 1 → Nat) a + S16.size a ≤ S8192.size a
  inb_S8192_S16_1568 : ∀ a, (![1568] : Fin 1 → Nat) a + S16.size a ≤ S8192.size a
  inb_S8192_S16_2080 : ∀ a, (![2080] : Fin 1 → Nat) a + S16.size a ≤ S8192.size a
  inb_S8192_S16_2592 : ∀ a, (![2592] : Fin 1 → Nat) a + S16.size a ≤ S8192.size a
  inb_S8192_S16_3104 : ∀ a, (![3104] : Fin 1 → Nat) a + S16.size a ≤ S8192.size a
  inb_S8192_S16_3616 : ∀ a, (![3616] : Fin 1 → Nat) a + S16.size a ≤ S8192.size a
  inb_S8192_S16_4128 : ∀ a, (![4128] : Fin 1 → Nat) a + S16.size a ≤ S8192.size a
  inb_S8192_S16_4640 : ∀ a, (![4640] : Fin 1 → Nat) a + S16.size a ≤ S8192.size a
  inb_S8192_S16_5152 : ∀ a, (![5152] : Fin 1 → Nat) a + S16.size a ≤ S8192.size a
  inb_S8192_S16_5664 : ∀ a, (![5664] : Fin 1 → Nat) a + S16.size a ≤ S8192.size a
  inb_S8192_S16_6176 : ∀ a, (![6176] : Fin 1 → Nat) a + S16.size a ≤ S8192.size a
  inb_S8192_S16_6688 : ∀ a, (![6688] : Fin 1 → Nat) a + S16.size a ≤ S8192.size a
  inb_S8192_S16_7200 : ∀ a, (![7200] : Fin 1 → Nat) a + S16.size a ≤ S8192.size a
  inb_S8192_S16_7712 : ∀ a, (![7712] : Fin 1 → Nat) a + S16.size a ≤ S8192.size a
  inb_S512_S16_32 : ∀ a, (![32] : Fin 1 → Nat) a + S16.size a ≤ S512.size a
  inb_S13312_S16_48 : ∀ a, (![48] : Fin 1 → Nat) a + S16.size a ≤ S13312.size a
  inb_S13312_S16_560 : ∀ a, (![560] : Fin 1 → Nat) a + S16.size a ≤ S13312.size a
  inb_S13312_S16_1072 : ∀ a, (![1072] : Fin 1 → Nat) a + S16.size a ≤ S13312.size a
  inb_S13312_S16_1584 : ∀ a, (![1584] : Fin 1 → Nat) a + S16.size a ≤ S13312.size a
  inb_S13312_S16_2096 : ∀ a, (![2096] : Fin 1 → Nat) a + S16.size a ≤ S13312.size a
  inb_S13312_S16_2608 : ∀ a, (![2608] : Fin 1 → Nat) a + S16.size a ≤ S13312.size a
  inb_S13312_S16_3120 : ∀ a, (![3120] : Fin 1 → Nat) a + S16.size a ≤ S13312.size a
  inb_S13312_S16_3632 : ∀ a, (![3632] : Fin 1 → Nat) a + S16.size a ≤ S13312.size a
  inb_S13312_S16_4144 : ∀ a, (![4144] : Fin 1 → Nat) a + S16.size a ≤ S13312.size a
  inb_S13312_S16_4656 : ∀ a, (![4656] : Fin 1 → Nat) a + S16.size a ≤ S13312.size a
  inb_S13312_S16_5168 : ∀ a, (![5168] : Fin 1 → Nat) a + S16.size a ≤ S13312.size a
  inb_S13312_S16_5680 : ∀ a, (![5680] : Fin 1 → Nat) a + S16.size a ≤ S13312.size a
  inb_S13312_S16_6192 : ∀ a, (![6192] : Fin 1 → Nat) a + S16.size a ≤ S13312.size a
  inb_S13312_S16_6704 : ∀ a, (![6704] : Fin 1 → Nat) a + S16.size a ≤ S13312.size a
  inb_S13312_S16_7216 : ∀ a, (![7216] : Fin 1 → Nat) a + S16.size a ≤ S13312.size a
  inb_S13312_S16_7728 : ∀ a, (![7728] : Fin 1 → Nat) a + S16.size a ≤ S13312.size a
  inb_S13312_S16_8240 : ∀ a, (![8240] : Fin 1 → Nat) a + S16.size a ≤ S13312.size a
  inb_S13312_S16_8752 : ∀ a, (![8752] : Fin 1 → Nat) a + S16.size a ≤ S13312.size a
  inb_S13312_S16_9264 : ∀ a, (![9264] : Fin 1 → Nat) a + S16.size a ≤ S13312.size a
  inb_S13312_S16_9776 : ∀ a, (![9776] : Fin 1 → Nat) a + S16.size a ≤ S13312.size a
  inb_S13312_S16_10288 : ∀ a, (![10288] : Fin 1 → Nat) a + S16.size a ≤ S13312.size a
  inb_S13312_S16_10800 : ∀ a, (![10800] : Fin 1 → Nat) a + S16.size a ≤ S13312.size a
  inb_S13312_S16_11312 : ∀ a, (![11312] : Fin 1 → Nat) a + S16.size a ≤ S13312.size a
  inb_S13312_S16_11824 : ∀ a, (![11824] : Fin 1 → Nat) a + S16.size a ≤ S13312.size a
  inb_S13312_S16_12336 : ∀ a, (![12336] : Fin 1 → Nat) a + S16.size a ≤ S13312.size a
  inb_S13312_S16_12848 : ∀ a, (![12848] : Fin 1 → Nat) a + S16.size a ≤ S13312.size a
  inb_S8192_S16_48 : ∀ a, (![48] : Fin 1 → Nat) a + S16.size a ≤ S8192.size a
  inb_S8192_S16_560 : ∀ a, (![560] : Fin 1 → Nat) a + S16.size a ≤ S8192.size a
  inb_S8192_S16_1072 : ∀ a, (![1072] : Fin 1 → Nat) a + S16.size a ≤ S8192.size a
  inb_S8192_S16_1584 : ∀ a, (![1584] : Fin 1 → Nat) a + S16.size a ≤ S8192.size a
  inb_S8192_S16_2096 : ∀ a, (![2096] : Fin 1 → Nat) a + S16.size a ≤ S8192.size a
  inb_S8192_S16_2608 : ∀ a, (![2608] : Fin 1 → Nat) a + S16.size a ≤ S8192.size a
  inb_S8192_S16_3120 : ∀ a, (![3120] : Fin 1 → Nat) a + S16.size a ≤ S8192.size a
  inb_S8192_S16_3632 : ∀ a, (![3632] : Fin 1 → Nat) a + S16.size a ≤ S8192.size a
  inb_S8192_S16_4144 : ∀ a, (![4144] : Fin 1 → Nat) a + S16.size a ≤ S8192.size a
  inb_S8192_S16_4656 : ∀ a, (![4656] : Fin 1 → Nat) a + S16.size a ≤ S8192.size a
  inb_S8192_S16_5168 : ∀ a, (![5168] : Fin 1 → Nat) a + S16.size a ≤ S8192.size a
  inb_S8192_S16_5680 : ∀ a, (![5680] : Fin 1 → Nat) a + S16.size a ≤ S8192.size a
  inb_S8192_S16_6192 : ∀ a, (![6192] : Fin 1 → Nat) a + S16.size a ≤ S8192.size a
  inb_S8192_S16_6704 : ∀ a, (![6704] : Fin 1 → Nat) a + S16.size a ≤ S8192.size a
  inb_S8192_S16_7216 : ∀ a, (![7216] : Fin 1 → Nat) a + S16.size a ≤ S8192.size a
  inb_S8192_S16_7728 : ∀ a, (![7728] : Fin 1 → Nat) a + S16.size a ≤ S8192.size a
  inb_S512_S16_48 : ∀ a, (![48] : Fin 1 → Nat) a + S16.size a ≤ S512.size a
  inb_S13312_S16_64 : ∀ a, (![64] : Fin 1 → Nat) a + S16.size a ≤ S13312.size a
  inb_S13312_S16_576 : ∀ a, (![576] : Fin 1 → Nat) a + S16.size a ≤ S13312.size a
  inb_S13312_S16_1088 : ∀ a, (![1088] : Fin 1 → Nat) a + S16.size a ≤ S13312.size a
  inb_S13312_S16_1600 : ∀ a, (![1600] : Fin 1 → Nat) a + S16.size a ≤ S13312.size a
  inb_S13312_S16_2112 : ∀ a, (![2112] : Fin 1 → Nat) a + S16.size a ≤ S13312.size a
  inb_S13312_S16_2624 : ∀ a, (![2624] : Fin 1 → Nat) a + S16.size a ≤ S13312.size a
  inb_S13312_S16_3136 : ∀ a, (![3136] : Fin 1 → Nat) a + S16.size a ≤ S13312.size a
  inb_S13312_S16_3648 : ∀ a, (![3648] : Fin 1 → Nat) a + S16.size a ≤ S13312.size a
  inb_S13312_S16_4160 : ∀ a, (![4160] : Fin 1 → Nat) a + S16.size a ≤ S13312.size a
  inb_S13312_S16_4672 : ∀ a, (![4672] : Fin 1 → Nat) a + S16.size a ≤ S13312.size a
  inb_S13312_S16_5184 : ∀ a, (![5184] : Fin 1 → Nat) a + S16.size a ≤ S13312.size a
  inb_S13312_S16_5696 : ∀ a, (![5696] : Fin 1 → Nat) a + S16.size a ≤ S13312.size a
  inb_S13312_S16_6208 : ∀ a, (![6208] : Fin 1 → Nat) a + S16.size a ≤ S13312.size a
  inb_S13312_S16_6720 : ∀ a, (![6720] : Fin 1 → Nat) a + S16.size a ≤ S13312.size a
  inb_S13312_S16_7232 : ∀ a, (![7232] : Fin 1 → Nat) a + S16.size a ≤ S13312.size a
  inb_S13312_S16_7744 : ∀ a, (![7744] : Fin 1 → Nat) a + S16.size a ≤ S13312.size a
  inb_S13312_S16_8256 : ∀ a, (![8256] : Fin 1 → Nat) a + S16.size a ≤ S13312.size a
  inb_S13312_S16_8768 : ∀ a, (![8768] : Fin 1 → Nat) a + S16.size a ≤ S13312.size a
  inb_S13312_S16_9280 : ∀ a, (![9280] : Fin 1 → Nat) a + S16.size a ≤ S13312.size a
  inb_S13312_S16_9792 : ∀ a, (![9792] : Fin 1 → Nat) a + S16.size a ≤ S13312.size a
  inb_S13312_S16_10304 : ∀ a, (![10304] : Fin 1 → Nat) a + S16.size a ≤ S13312.size a
  inb_S13312_S16_10816 : ∀ a, (![10816] : Fin 1 → Nat) a + S16.size a ≤ S13312.size a
  inb_S13312_S16_11328 : ∀ a, (![11328] : Fin 1 → Nat) a + S16.size a ≤ S13312.size a
  inb_S13312_S16_11840 : ∀ a, (![11840] : Fin 1 → Nat) a + S16.size a ≤ S13312.size a
  inb_S13312_S16_12352 : ∀ a, (![12352] : Fin 1 → Nat) a + S16.size a ≤ S13312.size a
  inb_S13312_S16_12864 : ∀ a, (![12864] : Fin 1 → Nat) a + S16.size a ≤ S13312.size a
  inb_S8192_S16_64 : ∀ a, (![64] : Fin 1 → Nat) a + S16.size a ≤ S8192.size a
  inb_S8192_S16_576 : ∀ a, (![576] : Fin 1 → Nat) a + S16.size a ≤ S8192.size a
  inb_S8192_S16_1088 : ∀ a, (![1088] : Fin 1 → Nat) a + S16.size a ≤ S8192.size a
  inb_S8192_S16_1600 : ∀ a, (![1600] : Fin 1 → Nat) a + S16.size a ≤ S8192.size a
  inb_S8192_S16_2112 : ∀ a, (![2112] : Fin 1 → Nat) a + S16.size a ≤ S8192.size a
  inb_S8192_S16_2624 : ∀ a, (![2624] : Fin 1 → Nat) a + S16.size a ≤ S8192.size a
  inb_S8192_S16_3136 : ∀ a, (![3136] : Fin 1 → Nat) a + S16.size a ≤ S8192.size a
  inb_S8192_S16_3648 : ∀ a, (![3648] : Fin 1 → Nat) a + S16.size a ≤ S8192.size a
  inb_S8192_S16_4160 : ∀ a, (![4160] : Fin 1 → Nat) a + S16.size a ≤ S8192.size a
  inb_S8192_S16_4672 : ∀ a, (![4672] : Fin 1 → Nat) a + S16.size a ≤ S8192.size a
  inb_S8192_S16_5184 : ∀ a, (![5184] : Fin 1 → Nat) a + S16.size a ≤ S8192.size a
  inb_S8192_S16_5696 : ∀ a, (![5696] : Fin 1 → Nat) a + S16.size a ≤ S8192.size a
  inb_S8192_S16_6208 : ∀ a, (![6208] : Fin 1 → Nat) a + S16.size a ≤ S8192.size a
  inb_S8192_S16_6720 : ∀ a, (![6720] : Fin 1 → Nat) a + S16.size a ≤ S8192.size a
  inb_S8192_S16_7232 : ∀ a, (![7232] : Fin 1 → Nat) a + S16.size a ≤ S8192.size a
  inb_S8192_S16_7744 : ∀ a, (![7744] : Fin 1 → Nat) a + S16.size a ≤ S8192.size a
  inb_S512_S16_64 : ∀ a, (![64] : Fin 1 → Nat) a + S16.size a ≤ S512.size a
  inb_S13312_S16_80 : ∀ a, (![80] : Fin 1 → Nat) a + S16.size a ≤ S13312.size a
  inb_S13312_S16_592 : ∀ a, (![592] : Fin 1 → Nat) a + S16.size a ≤ S13312.size a
  inb_S13312_S16_1104 : ∀ a, (![1104] : Fin 1 → Nat) a + S16.size a ≤ S13312.size a
  inb_S13312_S16_1616 : ∀ a, (![1616] : Fin 1 → Nat) a + S16.size a ≤ S13312.size a
  inb_S13312_S16_2128 : ∀ a, (![2128] : Fin 1 → Nat) a + S16.size a ≤ S13312.size a
  inb_S13312_S16_2640 : ∀ a, (![2640] : Fin 1 → Nat) a + S16.size a ≤ S13312.size a
  inb_S13312_S16_3152 : ∀ a, (![3152] : Fin 1 → Nat) a + S16.size a ≤ S13312.size a
  inb_S13312_S16_3664 : ∀ a, (![3664] : Fin 1 → Nat) a + S16.size a ≤ S13312.size a
  inb_S13312_S16_4176 : ∀ a, (![4176] : Fin 1 → Nat) a + S16.size a ≤ S13312.size a
  inb_S13312_S16_4688 : ∀ a, (![4688] : Fin 1 → Nat) a + S16.size a ≤ S13312.size a
  inb_S13312_S16_5200 : ∀ a, (![5200] : Fin 1 → Nat) a + S16.size a ≤ S13312.size a
  inb_S13312_S16_5712 : ∀ a, (![5712] : Fin 1 → Nat) a + S16.size a ≤ S13312.size a
  inb_S13312_S16_6224 : ∀ a, (![6224] : Fin 1 → Nat) a + S16.size a ≤ S13312.size a
  inb_S13312_S16_6736 : ∀ a, (![6736] : Fin 1 → Nat) a + S16.size a ≤ S13312.size a
  inb_S13312_S16_7248 : ∀ a, (![7248] : Fin 1 → Nat) a + S16.size a ≤ S13312.size a
  inb_S13312_S16_7760 : ∀ a, (![7760] : Fin 1 → Nat) a + S16.size a ≤ S13312.size a
  inb_S13312_S16_8272 : ∀ a, (![8272] : Fin 1 → Nat) a + S16.size a ≤ S13312.size a
  inb_S13312_S16_8784 : ∀ a, (![8784] : Fin 1 → Nat) a + S16.size a ≤ S13312.size a
  inb_S13312_S16_9296 : ∀ a, (![9296] : Fin 1 → Nat) a + S16.size a ≤ S13312.size a
  inb_S13312_S16_9808 : ∀ a, (![9808] : Fin 1 → Nat) a + S16.size a ≤ S13312.size a
  inb_S13312_S16_10320 : ∀ a, (![10320] : Fin 1 → Nat) a + S16.size a ≤ S13312.size a
  inb_S13312_S16_10832 : ∀ a, (![10832] : Fin 1 → Nat) a + S16.size a ≤ S13312.size a
  inb_S13312_S16_11344 : ∀ a, (![11344] : Fin 1 → Nat) a + S16.size a ≤ S13312.size a
  inb_S13312_S16_11856 : ∀ a, (![11856] : Fin 1 → Nat) a + S16.size a ≤ S13312.size a
  inb_S13312_S16_12368 : ∀ a, (![12368] : Fin 1 → Nat) a + S16.size a ≤ S13312.size a
  inb_S13312_S16_12880 : ∀ a, (![12880] : Fin 1 → Nat) a + S16.size a ≤ S13312.size a
  inb_S8192_S16_80 : ∀ a, (![80] : Fin 1 → Nat) a + S16.size a ≤ S8192.size a
  inb_S8192_S16_592 : ∀ a, (![592] : Fin 1 → Nat) a + S16.size a ≤ S8192.size a
  inb_S8192_S16_1104 : ∀ a, (![1104] : Fin 1 → Nat) a + S16.size a ≤ S8192.size a
  inb_S8192_S16_1616 : ∀ a, (![1616] : Fin 1 → Nat) a + S16.size a ≤ S8192.size a
  inb_S8192_S16_2128 : ∀ a, (![2128] : Fin 1 → Nat) a + S16.size a ≤ S8192.size a
  inb_S8192_S16_2640 : ∀ a, (![2640] : Fin 1 → Nat) a + S16.size a ≤ S8192.size a
  inb_S8192_S16_3152 : ∀ a, (![3152] : Fin 1 → Nat) a + S16.size a ≤ S8192.size a
  inb_S8192_S16_3664 : ∀ a, (![3664] : Fin 1 → Nat) a + S16.size a ≤ S8192.size a
  inb_S8192_S16_4176 : ∀ a, (![4176] : Fin 1 → Nat) a + S16.size a ≤ S8192.size a
  inb_S8192_S16_4688 : ∀ a, (![4688] : Fin 1 → Nat) a + S16.size a ≤ S8192.size a
  inb_S8192_S16_5200 : ∀ a, (![5200] : Fin 1 → Nat) a + S16.size a ≤ S8192.size a
  inb_S8192_S16_5712 : ∀ a, (![5712] : Fin 1 → Nat) a + S16.size a ≤ S8192.size a
  inb_S8192_S16_6224 : ∀ a, (![6224] : Fin 1 → Nat) a + S16.size a ≤ S8192.size a
  inb_S8192_S16_6736 : ∀ a, (![6736] : Fin 1 → Nat) a + S16.size a ≤ S8192.size a
  inb_S8192_S16_7248 : ∀ a, (![7248] : Fin 1 → Nat) a + S16.size a ≤ S8192.size a
  inb_S8192_S16_7760 : ∀ a, (![7760] : Fin 1 → Nat) a + S16.size a ≤ S8192.size a
  inb_S512_S16_80 : ∀ a, (![80] : Fin 1 → Nat) a + S16.size a ≤ S512.size a
  inb_S13312_S16_96 : ∀ a, (![96] : Fin 1 → Nat) a + S16.size a ≤ S13312.size a
  inb_S13312_S16_608 : ∀ a, (![608] : Fin 1 → Nat) a + S16.size a ≤ S13312.size a
  inb_S13312_S16_1120 : ∀ a, (![1120] : Fin 1 → Nat) a + S16.size a ≤ S13312.size a
  inb_S13312_S16_1632 : ∀ a, (![1632] : Fin 1 → Nat) a + S16.size a ≤ S13312.size a
  inb_S13312_S16_2144 : ∀ a, (![2144] : Fin 1 → Nat) a + S16.size a ≤ S13312.size a
  inb_S13312_S16_2656 : ∀ a, (![2656] : Fin 1 → Nat) a + S16.size a ≤ S13312.size a
  inb_S13312_S16_3168 : ∀ a, (![3168] : Fin 1 → Nat) a + S16.size a ≤ S13312.size a
  inb_S13312_S16_3680 : ∀ a, (![3680] : Fin 1 → Nat) a + S16.size a ≤ S13312.size a
  inb_S13312_S16_4192 : ∀ a, (![4192] : Fin 1 → Nat) a + S16.size a ≤ S13312.size a
  inb_S13312_S16_4704 : ∀ a, (![4704] : Fin 1 → Nat) a + S16.size a ≤ S13312.size a
  inb_S13312_S16_5216 : ∀ a, (![5216] : Fin 1 → Nat) a + S16.size a ≤ S13312.size a
  inb_S13312_S16_5728 : ∀ a, (![5728] : Fin 1 → Nat) a + S16.size a ≤ S13312.size a
  inb_S13312_S16_6240 : ∀ a, (![6240] : Fin 1 → Nat) a + S16.size a ≤ S13312.size a
  inb_S13312_S16_6752 : ∀ a, (![6752] : Fin 1 → Nat) a + S16.size a ≤ S13312.size a
  inb_S13312_S16_7264 : ∀ a, (![7264] : Fin 1 → Nat) a + S16.size a ≤ S13312.size a
  inb_S13312_S16_7776 : ∀ a, (![7776] : Fin 1 → Nat) a + S16.size a ≤ S13312.size a
  inb_S13312_S16_8288 : ∀ a, (![8288] : Fin 1 → Nat) a + S16.size a ≤ S13312.size a
  inb_S13312_S16_8800 : ∀ a, (![8800] : Fin 1 → Nat) a + S16.size a ≤ S13312.size a
  inb_S13312_S16_9312 : ∀ a, (![9312] : Fin 1 → Nat) a + S16.size a ≤ S13312.size a
  inb_S13312_S16_9824 : ∀ a, (![9824] : Fin 1 → Nat) a + S16.size a ≤ S13312.size a
  inb_S13312_S16_10336 : ∀ a, (![10336] : Fin 1 → Nat) a + S16.size a ≤ S13312.size a
  inb_S13312_S16_10848 : ∀ a, (![10848] : Fin 1 → Nat) a + S16.size a ≤ S13312.size a
  inb_S13312_S16_11360 : ∀ a, (![11360] : Fin 1 → Nat) a + S16.size a ≤ S13312.size a
  inb_S13312_S16_11872 : ∀ a, (![11872] : Fin 1 → Nat) a + S16.size a ≤ S13312.size a
  inb_S13312_S16_12384 : ∀ a, (![12384] : Fin 1 → Nat) a + S16.size a ≤ S13312.size a
  inb_S13312_S16_12896 : ∀ a, (![12896] : Fin 1 → Nat) a + S16.size a ≤ S13312.size a
  inb_S8192_S16_96 : ∀ a, (![96] : Fin 1 → Nat) a + S16.size a ≤ S8192.size a
  inb_S8192_S16_608 : ∀ a, (![608] : Fin 1 → Nat) a + S16.size a ≤ S8192.size a
  inb_S8192_S16_1120 : ∀ a, (![1120] : Fin 1 → Nat) a + S16.size a ≤ S8192.size a
  inb_S8192_S16_1632 : ∀ a, (![1632] : Fin 1 → Nat) a + S16.size a ≤ S8192.size a
  inb_S8192_S16_2144 : ∀ a, (![2144] : Fin 1 → Nat) a + S16.size a ≤ S8192.size a
  inb_S8192_S16_2656 : ∀ a, (![2656] : Fin 1 → Nat) a + S16.size a ≤ S8192.size a
  inb_S8192_S16_3168 : ∀ a, (![3168] : Fin 1 → Nat) a + S16.size a ≤ S8192.size a
  inb_S8192_S16_3680 : ∀ a, (![3680] : Fin 1 → Nat) a + S16.size a ≤ S8192.size a
  inb_S8192_S16_4192 : ∀ a, (![4192] : Fin 1 → Nat) a + S16.size a ≤ S8192.size a
  inb_S8192_S16_4704 : ∀ a, (![4704] : Fin 1 → Nat) a + S16.size a ≤ S8192.size a
  inb_S8192_S16_5216 : ∀ a, (![5216] : Fin 1 → Nat) a + S16.size a ≤ S8192.size a
  inb_S8192_S16_5728 : ∀ a, (![5728] : Fin 1 → Nat) a + S16.size a ≤ S8192.size a
  inb_S8192_S16_6240 : ∀ a, (![6240] : Fin 1 → Nat) a + S16.size a ≤ S8192.size a
  inb_S8192_S16_6752 : ∀ a, (![6752] : Fin 1 → Nat) a + S16.size a ≤ S8192.size a
  inb_S8192_S16_7264 : ∀ a, (![7264] : Fin 1 → Nat) a + S16.size a ≤ S8192.size a
  inb_S8192_S16_7776 : ∀ a, (![7776] : Fin 1 → Nat) a + S16.size a ≤ S8192.size a
  inb_S512_S16_96 : ∀ a, (![96] : Fin 1 → Nat) a + S16.size a ≤ S512.size a
  inb_S13312_S16_112 : ∀ a, (![112] : Fin 1 → Nat) a + S16.size a ≤ S13312.size a
  inb_S13312_S16_624 : ∀ a, (![624] : Fin 1 → Nat) a + S16.size a ≤ S13312.size a
  inb_S13312_S16_1136 : ∀ a, (![1136] : Fin 1 → Nat) a + S16.size a ≤ S13312.size a
  inb_S13312_S16_1648 : ∀ a, (![1648] : Fin 1 → Nat) a + S16.size a ≤ S13312.size a
  inb_S13312_S16_2160 : ∀ a, (![2160] : Fin 1 → Nat) a + S16.size a ≤ S13312.size a
  inb_S13312_S16_2672 : ∀ a, (![2672] : Fin 1 → Nat) a + S16.size a ≤ S13312.size a
  inb_S13312_S16_3184 : ∀ a, (![3184] : Fin 1 → Nat) a + S16.size a ≤ S13312.size a
  inb_S13312_S16_3696 : ∀ a, (![3696] : Fin 1 → Nat) a + S16.size a ≤ S13312.size a
  inb_S13312_S16_4208 : ∀ a, (![4208] : Fin 1 → Nat) a + S16.size a ≤ S13312.size a
  inb_S13312_S16_4720 : ∀ a, (![4720] : Fin 1 → Nat) a + S16.size a ≤ S13312.size a
  inb_S13312_S16_5232 : ∀ a, (![5232] : Fin 1 → Nat) a + S16.size a ≤ S13312.size a
  inb_S13312_S16_5744 : ∀ a, (![5744] : Fin 1 → Nat) a + S16.size a ≤ S13312.size a
  inb_S13312_S16_6256 : ∀ a, (![6256] : Fin 1 → Nat) a + S16.size a ≤ S13312.size a
  inb_S13312_S16_6768 : ∀ a, (![6768] : Fin 1 → Nat) a + S16.size a ≤ S13312.size a
  inb_S13312_S16_7280 : ∀ a, (![7280] : Fin 1 → Nat) a + S16.size a ≤ S13312.size a
  inb_S13312_S16_7792 : ∀ a, (![7792] : Fin 1 → Nat) a + S16.size a ≤ S13312.size a
  inb_S13312_S16_8304 : ∀ a, (![8304] : Fin 1 → Nat) a + S16.size a ≤ S13312.size a
  inb_S13312_S16_8816 : ∀ a, (![8816] : Fin 1 → Nat) a + S16.size a ≤ S13312.size a
  inb_S13312_S16_9328 : ∀ a, (![9328] : Fin 1 → Nat) a + S16.size a ≤ S13312.size a
  inb_S13312_S16_9840 : ∀ a, (![9840] : Fin 1 → Nat) a + S16.size a ≤ S13312.size a
  inb_S13312_S16_10352 : ∀ a, (![10352] : Fin 1 → Nat) a + S16.size a ≤ S13312.size a
  inb_S13312_S16_10864 : ∀ a, (![10864] : Fin 1 → Nat) a + S16.size a ≤ S13312.size a
  inb_S13312_S16_11376 : ∀ a, (![11376] : Fin 1 → Nat) a + S16.size a ≤ S13312.size a
  inb_S13312_S16_11888 : ∀ a, (![11888] : Fin 1 → Nat) a + S16.size a ≤ S13312.size a
  inb_S13312_S16_12400 : ∀ a, (![12400] : Fin 1 → Nat) a + S16.size a ≤ S13312.size a
  inb_S13312_S16_12912 : ∀ a, (![12912] : Fin 1 → Nat) a + S16.size a ≤ S13312.size a
  inb_S8192_S16_112 : ∀ a, (![112] : Fin 1 → Nat) a + S16.size a ≤ S8192.size a
  inb_S8192_S16_624 : ∀ a, (![624] : Fin 1 → Nat) a + S16.size a ≤ S8192.size a
  inb_S8192_S16_1136 : ∀ a, (![1136] : Fin 1 → Nat) a + S16.size a ≤ S8192.size a
  inb_S8192_S16_1648 : ∀ a, (![1648] : Fin 1 → Nat) a + S16.size a ≤ S8192.size a
  inb_S8192_S16_2160 : ∀ a, (![2160] : Fin 1 → Nat) a + S16.size a ≤ S8192.size a
  inb_S8192_S16_2672 : ∀ a, (![2672] : Fin 1 → Nat) a + S16.size a ≤ S8192.size a
  inb_S8192_S16_3184 : ∀ a, (![3184] : Fin 1 → Nat) a + S16.size a ≤ S8192.size a
  inb_S8192_S16_3696 : ∀ a, (![3696] : Fin 1 → Nat) a + S16.size a ≤ S8192.size a
  inb_S8192_S16_4208 : ∀ a, (![4208] : Fin 1 → Nat) a + S16.size a ≤ S8192.size a
  inb_S8192_S16_4720 : ∀ a, (![4720] : Fin 1 → Nat) a + S16.size a ≤ S8192.size a
  inb_S8192_S16_5232 : ∀ a, (![5232] : Fin 1 → Nat) a + S16.size a ≤ S8192.size a
  inb_S8192_S16_5744 : ∀ a, (![5744] : Fin 1 → Nat) a + S16.size a ≤ S8192.size a
  inb_S8192_S16_6256 : ∀ a, (![6256] : Fin 1 → Nat) a + S16.size a ≤ S8192.size a
  inb_S8192_S16_6768 : ∀ a, (![6768] : Fin 1 → Nat) a + S16.size a ≤ S8192.size a
  inb_S8192_S16_7280 : ∀ a, (![7280] : Fin 1 → Nat) a + S16.size a ≤ S8192.size a
  inb_S8192_S16_7792 : ∀ a, (![7792] : Fin 1 → Nat) a + S16.size a ≤ S8192.size a
  inb_S512_S16_112 : ∀ a, (![112] : Fin 1 → Nat) a + S16.size a ≤ S512.size a
  inb_S13312_S16_128 : ∀ a, (![128] : Fin 1 → Nat) a + S16.size a ≤ S13312.size a
  inb_S13312_S16_640 : ∀ a, (![640] : Fin 1 → Nat) a + S16.size a ≤ S13312.size a
  inb_S13312_S16_1152 : ∀ a, (![1152] : Fin 1 → Nat) a + S16.size a ≤ S13312.size a
  inb_S13312_S16_1664 : ∀ a, (![1664] : Fin 1 → Nat) a + S16.size a ≤ S13312.size a
  inb_S13312_S16_2176 : ∀ a, (![2176] : Fin 1 → Nat) a + S16.size a ≤ S13312.size a
  inb_S13312_S16_2688 : ∀ a, (![2688] : Fin 1 → Nat) a + S16.size a ≤ S13312.size a
  inb_S13312_S16_3200 : ∀ a, (![3200] : Fin 1 → Nat) a + S16.size a ≤ S13312.size a
  inb_S13312_S16_3712 : ∀ a, (![3712] : Fin 1 → Nat) a + S16.size a ≤ S13312.size a
  inb_S13312_S16_4224 : ∀ a, (![4224] : Fin 1 → Nat) a + S16.size a ≤ S13312.size a
  inb_S13312_S16_4736 : ∀ a, (![4736] : Fin 1 → Nat) a + S16.size a ≤ S13312.size a
  inb_S13312_S16_5248 : ∀ a, (![5248] : Fin 1 → Nat) a + S16.size a ≤ S13312.size a
  inb_S13312_S16_5760 : ∀ a, (![5760] : Fin 1 → Nat) a + S16.size a ≤ S13312.size a
  inb_S13312_S16_6272 : ∀ a, (![6272] : Fin 1 → Nat) a + S16.size a ≤ S13312.size a
  inb_S13312_S16_6784 : ∀ a, (![6784] : Fin 1 → Nat) a + S16.size a ≤ S13312.size a
  inb_S13312_S16_7296 : ∀ a, (![7296] : Fin 1 → Nat) a + S16.size a ≤ S13312.size a
  inb_S13312_S16_7808 : ∀ a, (![7808] : Fin 1 → Nat) a + S16.size a ≤ S13312.size a
  inb_S13312_S16_8320 : ∀ a, (![8320] : Fin 1 → Nat) a + S16.size a ≤ S13312.size a
  inb_S13312_S16_8832 : ∀ a, (![8832] : Fin 1 → Nat) a + S16.size a ≤ S13312.size a
  inb_S13312_S16_9344 : ∀ a, (![9344] : Fin 1 → Nat) a + S16.size a ≤ S13312.size a
  inb_S13312_S16_9856 : ∀ a, (![9856] : Fin 1 → Nat) a + S16.size a ≤ S13312.size a
  inb_S13312_S16_10368 : ∀ a, (![10368] : Fin 1 → Nat) a + S16.size a ≤ S13312.size a
  inb_S13312_S16_10880 : ∀ a, (![10880] : Fin 1 → Nat) a + S16.size a ≤ S13312.size a
  inb_S13312_S16_11392 : ∀ a, (![11392] : Fin 1 → Nat) a + S16.size a ≤ S13312.size a
  inb_S13312_S16_11904 : ∀ a, (![11904] : Fin 1 → Nat) a + S16.size a ≤ S13312.size a
  inb_S13312_S16_12416 : ∀ a, (![12416] : Fin 1 → Nat) a + S16.size a ≤ S13312.size a
  inb_S13312_S16_12928 : ∀ a, (![12928] : Fin 1 → Nat) a + S16.size a ≤ S13312.size a
  inb_S8192_S16_128 : ∀ a, (![128] : Fin 1 → Nat) a + S16.size a ≤ S8192.size a
  inb_S8192_S16_640 : ∀ a, (![640] : Fin 1 → Nat) a + S16.size a ≤ S8192.size a
  inb_S8192_S16_1152 : ∀ a, (![1152] : Fin 1 → Nat) a + S16.size a ≤ S8192.size a
  inb_S8192_S16_1664 : ∀ a, (![1664] : Fin 1 → Nat) a + S16.size a ≤ S8192.size a
  inb_S8192_S16_2176 : ∀ a, (![2176] : Fin 1 → Nat) a + S16.size a ≤ S8192.size a
  inb_S8192_S16_2688 : ∀ a, (![2688] : Fin 1 → Nat) a + S16.size a ≤ S8192.size a
  inb_S8192_S16_3200 : ∀ a, (![3200] : Fin 1 → Nat) a + S16.size a ≤ S8192.size a
  inb_S8192_S16_3712 : ∀ a, (![3712] : Fin 1 → Nat) a + S16.size a ≤ S8192.size a
  inb_S8192_S16_4224 : ∀ a, (![4224] : Fin 1 → Nat) a + S16.size a ≤ S8192.size a
  inb_S8192_S16_4736 : ∀ a, (![4736] : Fin 1 → Nat) a + S16.size a ≤ S8192.size a
  inb_S8192_S16_5248 : ∀ a, (![5248] : Fin 1 → Nat) a + S16.size a ≤ S8192.size a
  inb_S8192_S16_5760 : ∀ a, (![5760] : Fin 1 → Nat) a + S16.size a ≤ S8192.size a
  inb_S8192_S16_6272 : ∀ a, (![6272] : Fin 1 → Nat) a + S16.size a ≤ S8192.size a
  inb_S8192_S16_6784 : ∀ a, (![6784] : Fin 1 → Nat) a + S16.size a ≤ S8192.size a
  inb_S8192_S16_7296 : ∀ a, (![7296] : Fin 1 → Nat) a + S16.size a ≤ S8192.size a
  inb_S8192_S16_7808 : ∀ a, (![7808] : Fin 1 → Nat) a + S16.size a ≤ S8192.size a
  inb_S512_S16_128 : ∀ a, (![128] : Fin 1 → Nat) a + S16.size a ≤ S512.size a
  inb_S13312_S16_144 : ∀ a, (![144] : Fin 1 → Nat) a + S16.size a ≤ S13312.size a
  inb_S13312_S16_656 : ∀ a, (![656] : Fin 1 → Nat) a + S16.size a ≤ S13312.size a
  inb_S13312_S16_1168 : ∀ a, (![1168] : Fin 1 → Nat) a + S16.size a ≤ S13312.size a
  inb_S13312_S16_1680 : ∀ a, (![1680] : Fin 1 → Nat) a + S16.size a ≤ S13312.size a
  inb_S13312_S16_2192 : ∀ a, (![2192] : Fin 1 → Nat) a + S16.size a ≤ S13312.size a
  inb_S13312_S16_2704 : ∀ a, (![2704] : Fin 1 → Nat) a + S16.size a ≤ S13312.size a
  inb_S13312_S16_3216 : ∀ a, (![3216] : Fin 1 → Nat) a + S16.size a ≤ S13312.size a
  inb_S13312_S16_3728 : ∀ a, (![3728] : Fin 1 → Nat) a + S16.size a ≤ S13312.size a
  inb_S13312_S16_4240 : ∀ a, (![4240] : Fin 1 → Nat) a + S16.size a ≤ S13312.size a
  inb_S13312_S16_4752 : ∀ a, (![4752] : Fin 1 → Nat) a + S16.size a ≤ S13312.size a
  inb_S13312_S16_5264 : ∀ a, (![5264] : Fin 1 → Nat) a + S16.size a ≤ S13312.size a
  inb_S13312_S16_5776 : ∀ a, (![5776] : Fin 1 → Nat) a + S16.size a ≤ S13312.size a
  inb_S13312_S16_6288 : ∀ a, (![6288] : Fin 1 → Nat) a + S16.size a ≤ S13312.size a
  inb_S13312_S16_6800 : ∀ a, (![6800] : Fin 1 → Nat) a + S16.size a ≤ S13312.size a
  inb_S13312_S16_7312 : ∀ a, (![7312] : Fin 1 → Nat) a + S16.size a ≤ S13312.size a
  inb_S13312_S16_7824 : ∀ a, (![7824] : Fin 1 → Nat) a + S16.size a ≤ S13312.size a
  inb_S13312_S16_8336 : ∀ a, (![8336] : Fin 1 → Nat) a + S16.size a ≤ S13312.size a
  inb_S13312_S16_8848 : ∀ a, (![8848] : Fin 1 → Nat) a + S16.size a ≤ S13312.size a
  inb_S13312_S16_9360 : ∀ a, (![9360] : Fin 1 → Nat) a + S16.size a ≤ S13312.size a
  inb_S13312_S16_9872 : ∀ a, (![9872] : Fin 1 → Nat) a + S16.size a ≤ S13312.size a
  inb_S13312_S16_10384 : ∀ a, (![10384] : Fin 1 → Nat) a + S16.size a ≤ S13312.size a
  inb_S13312_S16_10896 : ∀ a, (![10896] : Fin 1 → Nat) a + S16.size a ≤ S13312.size a
  inb_S13312_S16_11408 : ∀ a, (![11408] : Fin 1 → Nat) a + S16.size a ≤ S13312.size a
  inb_S13312_S16_11920 : ∀ a, (![11920] : Fin 1 → Nat) a + S16.size a ≤ S13312.size a
  inb_S13312_S16_12432 : ∀ a, (![12432] : Fin 1 → Nat) a + S16.size a ≤ S13312.size a
  inb_S13312_S16_12944 : ∀ a, (![12944] : Fin 1 → Nat) a + S16.size a ≤ S13312.size a
  inb_S8192_S16_144 : ∀ a, (![144] : Fin 1 → Nat) a + S16.size a ≤ S8192.size a
  inb_S8192_S16_656 : ∀ a, (![656] : Fin 1 → Nat) a + S16.size a ≤ S8192.size a
  inb_S8192_S16_1168 : ∀ a, (![1168] : Fin 1 → Nat) a + S16.size a ≤ S8192.size a
  inb_S8192_S16_1680 : ∀ a, (![1680] : Fin 1 → Nat) a + S16.size a ≤ S8192.size a
  inb_S8192_S16_2192 : ∀ a, (![2192] : Fin 1 → Nat) a + S16.size a ≤ S8192.size a
  inb_S8192_S16_2704 : ∀ a, (![2704] : Fin 1 → Nat) a + S16.size a ≤ S8192.size a
  inb_S8192_S16_3216 : ∀ a, (![3216] : Fin 1 → Nat) a + S16.size a ≤ S8192.size a
  inb_S8192_S16_3728 : ∀ a, (![3728] : Fin 1 → Nat) a + S16.size a ≤ S8192.size a
  inb_S8192_S16_4240 : ∀ a, (![4240] : Fin 1 → Nat) a + S16.size a ≤ S8192.size a
  inb_S8192_S16_4752 : ∀ a, (![4752] : Fin 1 → Nat) a + S16.size a ≤ S8192.size a
  inb_S8192_S16_5264 : ∀ a, (![5264] : Fin 1 → Nat) a + S16.size a ≤ S8192.size a
  inb_S8192_S16_5776 : ∀ a, (![5776] : Fin 1 → Nat) a + S16.size a ≤ S8192.size a
  inb_S8192_S16_6288 : ∀ a, (![6288] : Fin 1 → Nat) a + S16.size a ≤ S8192.size a
  inb_S8192_S16_6800 : ∀ a, (![6800] : Fin 1 → Nat) a + S16.size a ≤ S8192.size a
  inb_S8192_S16_7312 : ∀ a, (![7312] : Fin 1 → Nat) a + S16.size a ≤ S8192.size a
  inb_S8192_S16_7824 : ∀ a, (![7824] : Fin 1 → Nat) a + S16.size a ≤ S8192.size a
  inb_S512_S16_144 : ∀ a, (![144] : Fin 1 → Nat) a + S16.size a ≤ S512.size a
  inb_S13312_S16_160 : ∀ a, (![160] : Fin 1 → Nat) a + S16.size a ≤ S13312.size a
  inb_S13312_S16_672 : ∀ a, (![672] : Fin 1 → Nat) a + S16.size a ≤ S13312.size a
  inb_S13312_S16_1184 : ∀ a, (![1184] : Fin 1 → Nat) a + S16.size a ≤ S13312.size a
  inb_S13312_S16_1696 : ∀ a, (![1696] : Fin 1 → Nat) a + S16.size a ≤ S13312.size a
  inb_S13312_S16_2208 : ∀ a, (![2208] : Fin 1 → Nat) a + S16.size a ≤ S13312.size a
  inb_S13312_S16_2720 : ∀ a, (![2720] : Fin 1 → Nat) a + S16.size a ≤ S13312.size a
  inb_S13312_S16_3232 : ∀ a, (![3232] : Fin 1 → Nat) a + S16.size a ≤ S13312.size a
  inb_S13312_S16_3744 : ∀ a, (![3744] : Fin 1 → Nat) a + S16.size a ≤ S13312.size a
  inb_S13312_S16_4256 : ∀ a, (![4256] : Fin 1 → Nat) a + S16.size a ≤ S13312.size a
  inb_S13312_S16_4768 : ∀ a, (![4768] : Fin 1 → Nat) a + S16.size a ≤ S13312.size a
  inb_S13312_S16_5280 : ∀ a, (![5280] : Fin 1 → Nat) a + S16.size a ≤ S13312.size a
  inb_S13312_S16_5792 : ∀ a, (![5792] : Fin 1 → Nat) a + S16.size a ≤ S13312.size a
  inb_S13312_S16_6304 : ∀ a, (![6304] : Fin 1 → Nat) a + S16.size a ≤ S13312.size a
  inb_S13312_S16_6816 : ∀ a, (![6816] : Fin 1 → Nat) a + S16.size a ≤ S13312.size a
  inb_S13312_S16_7328 : ∀ a, (![7328] : Fin 1 → Nat) a + S16.size a ≤ S13312.size a
  inb_S13312_S16_7840 : ∀ a, (![7840] : Fin 1 → Nat) a + S16.size a ≤ S13312.size a
  inb_S13312_S16_8352 : ∀ a, (![8352] : Fin 1 → Nat) a + S16.size a ≤ S13312.size a
  inb_S13312_S16_8864 : ∀ a, (![8864] : Fin 1 → Nat) a + S16.size a ≤ S13312.size a
  inb_S13312_S16_9376 : ∀ a, (![9376] : Fin 1 → Nat) a + S16.size a ≤ S13312.size a
  inb_S13312_S16_9888 : ∀ a, (![9888] : Fin 1 → Nat) a + S16.size a ≤ S13312.size a
  inb_S13312_S16_10400 : ∀ a, (![10400] : Fin 1 → Nat) a + S16.size a ≤ S13312.size a
  inb_S13312_S16_10912 : ∀ a, (![10912] : Fin 1 → Nat) a + S16.size a ≤ S13312.size a
  inb_S13312_S16_11424 : ∀ a, (![11424] : Fin 1 → Nat) a + S16.size a ≤ S13312.size a
  inb_S13312_S16_11936 : ∀ a, (![11936] : Fin 1 → Nat) a + S16.size a ≤ S13312.size a
  inb_S13312_S16_12448 : ∀ a, (![12448] : Fin 1 → Nat) a + S16.size a ≤ S13312.size a
  inb_S13312_S16_12960 : ∀ a, (![12960] : Fin 1 → Nat) a + S16.size a ≤ S13312.size a
  inb_S8192_S16_160 : ∀ a, (![160] : Fin 1 → Nat) a + S16.size a ≤ S8192.size a
  inb_S8192_S16_672 : ∀ a, (![672] : Fin 1 → Nat) a + S16.size a ≤ S8192.size a
  inb_S8192_S16_1184 : ∀ a, (![1184] : Fin 1 → Nat) a + S16.size a ≤ S8192.size a
  inb_S8192_S16_1696 : ∀ a, (![1696] : Fin 1 → Nat) a + S16.size a ≤ S8192.size a
  inb_S8192_S16_2208 : ∀ a, (![2208] : Fin 1 → Nat) a + S16.size a ≤ S8192.size a
  inb_S8192_S16_2720 : ∀ a, (![2720] : Fin 1 → Nat) a + S16.size a ≤ S8192.size a
  inb_S8192_S16_3232 : ∀ a, (![3232] : Fin 1 → Nat) a + S16.size a ≤ S8192.size a
  inb_S8192_S16_3744 : ∀ a, (![3744] : Fin 1 → Nat) a + S16.size a ≤ S8192.size a
  inb_S8192_S16_4256 : ∀ a, (![4256] : Fin 1 → Nat) a + S16.size a ≤ S8192.size a
  inb_S8192_S16_4768 : ∀ a, (![4768] : Fin 1 → Nat) a + S16.size a ≤ S8192.size a
  inb_S8192_S16_5280 : ∀ a, (![5280] : Fin 1 → Nat) a + S16.size a ≤ S8192.size a
  inb_S8192_S16_5792 : ∀ a, (![5792] : Fin 1 → Nat) a + S16.size a ≤ S8192.size a
  inb_S8192_S16_6304 : ∀ a, (![6304] : Fin 1 → Nat) a + S16.size a ≤ S8192.size a
  inb_S8192_S16_6816 : ∀ a, (![6816] : Fin 1 → Nat) a + S16.size a ≤ S8192.size a
  inb_S8192_S16_7328 : ∀ a, (![7328] : Fin 1 → Nat) a + S16.size a ≤ S8192.size a
  inb_S8192_S16_7840 : ∀ a, (![7840] : Fin 1 → Nat) a + S16.size a ≤ S8192.size a
  inb_S512_S16_160 : ∀ a, (![160] : Fin 1 → Nat) a + S16.size a ≤ S512.size a
  inb_S13312_S16_176 : ∀ a, (![176] : Fin 1 → Nat) a + S16.size a ≤ S13312.size a
  inb_S13312_S16_688 : ∀ a, (![688] : Fin 1 → Nat) a + S16.size a ≤ S13312.size a
  inb_S13312_S16_1200 : ∀ a, (![1200] : Fin 1 → Nat) a + S16.size a ≤ S13312.size a
  inb_S13312_S16_1712 : ∀ a, (![1712] : Fin 1 → Nat) a + S16.size a ≤ S13312.size a
  inb_S13312_S16_2224 : ∀ a, (![2224] : Fin 1 → Nat) a + S16.size a ≤ S13312.size a
  inb_S13312_S16_2736 : ∀ a, (![2736] : Fin 1 → Nat) a + S16.size a ≤ S13312.size a
  inb_S13312_S16_3248 : ∀ a, (![3248] : Fin 1 → Nat) a + S16.size a ≤ S13312.size a
  inb_S13312_S16_3760 : ∀ a, (![3760] : Fin 1 → Nat) a + S16.size a ≤ S13312.size a
  inb_S13312_S16_4272 : ∀ a, (![4272] : Fin 1 → Nat) a + S16.size a ≤ S13312.size a
  inb_S13312_S16_4784 : ∀ a, (![4784] : Fin 1 → Nat) a + S16.size a ≤ S13312.size a
  inb_S13312_S16_5296 : ∀ a, (![5296] : Fin 1 → Nat) a + S16.size a ≤ S13312.size a
  inb_S13312_S16_5808 : ∀ a, (![5808] : Fin 1 → Nat) a + S16.size a ≤ S13312.size a
  inb_S13312_S16_6320 : ∀ a, (![6320] : Fin 1 → Nat) a + S16.size a ≤ S13312.size a
  inb_S13312_S16_6832 : ∀ a, (![6832] : Fin 1 → Nat) a + S16.size a ≤ S13312.size a
  inb_S13312_S16_7344 : ∀ a, (![7344] : Fin 1 → Nat) a + S16.size a ≤ S13312.size a
  inb_S13312_S16_7856 : ∀ a, (![7856] : Fin 1 → Nat) a + S16.size a ≤ S13312.size a
  inb_S13312_S16_8368 : ∀ a, (![8368] : Fin 1 → Nat) a + S16.size a ≤ S13312.size a
  inb_S13312_S16_8880 : ∀ a, (![8880] : Fin 1 → Nat) a + S16.size a ≤ S13312.size a
  inb_S13312_S16_9392 : ∀ a, (![9392] : Fin 1 → Nat) a + S16.size a ≤ S13312.size a
  inb_S13312_S16_9904 : ∀ a, (![9904] : Fin 1 → Nat) a + S16.size a ≤ S13312.size a
  inb_S13312_S16_10416 : ∀ a, (![10416] : Fin 1 → Nat) a + S16.size a ≤ S13312.size a
  inb_S13312_S16_10928 : ∀ a, (![10928] : Fin 1 → Nat) a + S16.size a ≤ S13312.size a
  inb_S13312_S16_11440 : ∀ a, (![11440] : Fin 1 → Nat) a + S16.size a ≤ S13312.size a
  inb_S13312_S16_11952 : ∀ a, (![11952] : Fin 1 → Nat) a + S16.size a ≤ S13312.size a
  inb_S13312_S16_12464 : ∀ a, (![12464] : Fin 1 → Nat) a + S16.size a ≤ S13312.size a
  inb_S13312_S16_12976 : ∀ a, (![12976] : Fin 1 → Nat) a + S16.size a ≤ S13312.size a
  inb_S8192_S16_176 : ∀ a, (![176] : Fin 1 → Nat) a + S16.size a ≤ S8192.size a
  inb_S8192_S16_688 : ∀ a, (![688] : Fin 1 → Nat) a + S16.size a ≤ S8192.size a
  inb_S8192_S16_1200 : ∀ a, (![1200] : Fin 1 → Nat) a + S16.size a ≤ S8192.size a
  inb_S8192_S16_1712 : ∀ a, (![1712] : Fin 1 → Nat) a + S16.size a ≤ S8192.size a
  inb_S8192_S16_2224 : ∀ a, (![2224] : Fin 1 → Nat) a + S16.size a ≤ S8192.size a
  inb_S8192_S16_2736 : ∀ a, (![2736] : Fin 1 → Nat) a + S16.size a ≤ S8192.size a
  inb_S8192_S16_3248 : ∀ a, (![3248] : Fin 1 → Nat) a + S16.size a ≤ S8192.size a
  inb_S8192_S16_3760 : ∀ a, (![3760] : Fin 1 → Nat) a + S16.size a ≤ S8192.size a
  inb_S8192_S16_4272 : ∀ a, (![4272] : Fin 1 → Nat) a + S16.size a ≤ S8192.size a
  inb_S8192_S16_4784 : ∀ a, (![4784] : Fin 1 → Nat) a + S16.size a ≤ S8192.size a
  inb_S8192_S16_5296 : ∀ a, (![5296] : Fin 1 → Nat) a + S16.size a ≤ S8192.size a
  inb_S8192_S16_5808 : ∀ a, (![5808] : Fin 1 → Nat) a + S16.size a ≤ S8192.size a
  inb_S8192_S16_6320 : ∀ a, (![6320] : Fin 1 → Nat) a + S16.size a ≤ S8192.size a
  inb_S8192_S16_6832 : ∀ a, (![6832] : Fin 1 → Nat) a + S16.size a ≤ S8192.size a
  inb_S8192_S16_7344 : ∀ a, (![7344] : Fin 1 → Nat) a + S16.size a ≤ S8192.size a
  inb_S8192_S16_7856 : ∀ a, (![7856] : Fin 1 → Nat) a + S16.size a ≤ S8192.size a
  inb_S512_S16_176 : ∀ a, (![176] : Fin 1 → Nat) a + S16.size a ≤ S512.size a
  inb_S13312_S16_192 : ∀ a, (![192] : Fin 1 → Nat) a + S16.size a ≤ S13312.size a
  inb_S13312_S16_704 : ∀ a, (![704] : Fin 1 → Nat) a + S16.size a ≤ S13312.size a
  inb_S13312_S16_1216 : ∀ a, (![1216] : Fin 1 → Nat) a + S16.size a ≤ S13312.size a
  inb_S13312_S16_1728 : ∀ a, (![1728] : Fin 1 → Nat) a + S16.size a ≤ S13312.size a
  inb_S13312_S16_2240 : ∀ a, (![2240] : Fin 1 → Nat) a + S16.size a ≤ S13312.size a
  inb_S13312_S16_2752 : ∀ a, (![2752] : Fin 1 → Nat) a + S16.size a ≤ S13312.size a
  inb_S13312_S16_3264 : ∀ a, (![3264] : Fin 1 → Nat) a + S16.size a ≤ S13312.size a
  inb_S13312_S16_3776 : ∀ a, (![3776] : Fin 1 → Nat) a + S16.size a ≤ S13312.size a
  inb_S13312_S16_4288 : ∀ a, (![4288] : Fin 1 → Nat) a + S16.size a ≤ S13312.size a
  inb_S13312_S16_4800 : ∀ a, (![4800] : Fin 1 → Nat) a + S16.size a ≤ S13312.size a
  inb_S13312_S16_5312 : ∀ a, (![5312] : Fin 1 → Nat) a + S16.size a ≤ S13312.size a
  inb_S13312_S16_5824 : ∀ a, (![5824] : Fin 1 → Nat) a + S16.size a ≤ S13312.size a
  inb_S13312_S16_6336 : ∀ a, (![6336] : Fin 1 → Nat) a + S16.size a ≤ S13312.size a
  inb_S13312_S16_6848 : ∀ a, (![6848] : Fin 1 → Nat) a + S16.size a ≤ S13312.size a
  inb_S13312_S16_7360 : ∀ a, (![7360] : Fin 1 → Nat) a + S16.size a ≤ S13312.size a
  inb_S13312_S16_7872 : ∀ a, (![7872] : Fin 1 → Nat) a + S16.size a ≤ S13312.size a
  inb_S13312_S16_8384 : ∀ a, (![8384] : Fin 1 → Nat) a + S16.size a ≤ S13312.size a
  inb_S13312_S16_8896 : ∀ a, (![8896] : Fin 1 → Nat) a + S16.size a ≤ S13312.size a
  inb_S13312_S16_9408 : ∀ a, (![9408] : Fin 1 → Nat) a + S16.size a ≤ S13312.size a
  inb_S13312_S16_9920 : ∀ a, (![9920] : Fin 1 → Nat) a + S16.size a ≤ S13312.size a
  inb_S13312_S16_10432 : ∀ a, (![10432] : Fin 1 → Nat) a + S16.size a ≤ S13312.size a
  inb_S13312_S16_10944 : ∀ a, (![10944] : Fin 1 → Nat) a + S16.size a ≤ S13312.size a
  inb_S13312_S16_11456 : ∀ a, (![11456] : Fin 1 → Nat) a + S16.size a ≤ S13312.size a
  inb_S13312_S16_11968 : ∀ a, (![11968] : Fin 1 → Nat) a + S16.size a ≤ S13312.size a
  inb_S13312_S16_12480 : ∀ a, (![12480] : Fin 1 → Nat) a + S16.size a ≤ S13312.size a
  inb_S13312_S16_12992 : ∀ a, (![12992] : Fin 1 → Nat) a + S16.size a ≤ S13312.size a
  inb_S8192_S16_192 : ∀ a, (![192] : Fin 1 → Nat) a + S16.size a ≤ S8192.size a
  inb_S8192_S16_704 : ∀ a, (![704] : Fin 1 → Nat) a + S16.size a ≤ S8192.size a
  inb_S8192_S16_1216 : ∀ a, (![1216] : Fin 1 → Nat) a + S16.size a ≤ S8192.size a
  inb_S8192_S16_1728 : ∀ a, (![1728] : Fin 1 → Nat) a + S16.size a ≤ S8192.size a
  inb_S8192_S16_2240 : ∀ a, (![2240] : Fin 1 → Nat) a + S16.size a ≤ S8192.size a
  inb_S8192_S16_2752 : ∀ a, (![2752] : Fin 1 → Nat) a + S16.size a ≤ S8192.size a
  inb_S8192_S16_3264 : ∀ a, (![3264] : Fin 1 → Nat) a + S16.size a ≤ S8192.size a
  inb_S8192_S16_3776 : ∀ a, (![3776] : Fin 1 → Nat) a + S16.size a ≤ S8192.size a
  inb_S8192_S16_4288 : ∀ a, (![4288] : Fin 1 → Nat) a + S16.size a ≤ S8192.size a
  inb_S8192_S16_4800 : ∀ a, (![4800] : Fin 1 → Nat) a + S16.size a ≤ S8192.size a
  inb_S8192_S16_5312 : ∀ a, (![5312] : Fin 1 → Nat) a + S16.size a ≤ S8192.size a
  inb_S8192_S16_5824 : ∀ a, (![5824] : Fin 1 → Nat) a + S16.size a ≤ S8192.size a
  inb_S8192_S16_6336 : ∀ a, (![6336] : Fin 1 → Nat) a + S16.size a ≤ S8192.size a
  inb_S8192_S16_6848 : ∀ a, (![6848] : Fin 1 → Nat) a + S16.size a ≤ S8192.size a
  inb_S8192_S16_7360 : ∀ a, (![7360] : Fin 1 → Nat) a + S16.size a ≤ S8192.size a
  inb_S8192_S16_7872 : ∀ a, (![7872] : Fin 1 → Nat) a + S16.size a ≤ S8192.size a
  inb_S512_S16_192 : ∀ a, (![192] : Fin 1 → Nat) a + S16.size a ≤ S512.size a
  inb_S13312_S16_208 : ∀ a, (![208] : Fin 1 → Nat) a + S16.size a ≤ S13312.size a
  inb_S13312_S16_720 : ∀ a, (![720] : Fin 1 → Nat) a + S16.size a ≤ S13312.size a
  inb_S13312_S16_1232 : ∀ a, (![1232] : Fin 1 → Nat) a + S16.size a ≤ S13312.size a
  inb_S13312_S16_1744 : ∀ a, (![1744] : Fin 1 → Nat) a + S16.size a ≤ S13312.size a
  inb_S13312_S16_2256 : ∀ a, (![2256] : Fin 1 → Nat) a + S16.size a ≤ S13312.size a
  inb_S13312_S16_2768 : ∀ a, (![2768] : Fin 1 → Nat) a + S16.size a ≤ S13312.size a
  inb_S13312_S16_3280 : ∀ a, (![3280] : Fin 1 → Nat) a + S16.size a ≤ S13312.size a
  inb_S13312_S16_3792 : ∀ a, (![3792] : Fin 1 → Nat) a + S16.size a ≤ S13312.size a
  inb_S13312_S16_4304 : ∀ a, (![4304] : Fin 1 → Nat) a + S16.size a ≤ S13312.size a
  inb_S13312_S16_4816 : ∀ a, (![4816] : Fin 1 → Nat) a + S16.size a ≤ S13312.size a
  inb_S13312_S16_5328 : ∀ a, (![5328] : Fin 1 → Nat) a + S16.size a ≤ S13312.size a
  inb_S13312_S16_5840 : ∀ a, (![5840] : Fin 1 → Nat) a + S16.size a ≤ S13312.size a
  inb_S13312_S16_6352 : ∀ a, (![6352] : Fin 1 → Nat) a + S16.size a ≤ S13312.size a
  inb_S13312_S16_6864 : ∀ a, (![6864] : Fin 1 → Nat) a + S16.size a ≤ S13312.size a
  inb_S13312_S16_7376 : ∀ a, (![7376] : Fin 1 → Nat) a + S16.size a ≤ S13312.size a
  inb_S13312_S16_7888 : ∀ a, (![7888] : Fin 1 → Nat) a + S16.size a ≤ S13312.size a
  inb_S13312_S16_8400 : ∀ a, (![8400] : Fin 1 → Nat) a + S16.size a ≤ S13312.size a
  inb_S13312_S16_8912 : ∀ a, (![8912] : Fin 1 → Nat) a + S16.size a ≤ S13312.size a
  inb_S13312_S16_9424 : ∀ a, (![9424] : Fin 1 → Nat) a + S16.size a ≤ S13312.size a
  inb_S13312_S16_9936 : ∀ a, (![9936] : Fin 1 → Nat) a + S16.size a ≤ S13312.size a
  inb_S13312_S16_10448 : ∀ a, (![10448] : Fin 1 → Nat) a + S16.size a ≤ S13312.size a
  inb_S13312_S16_10960 : ∀ a, (![10960] : Fin 1 → Nat) a + S16.size a ≤ S13312.size a
  inb_S13312_S16_11472 : ∀ a, (![11472] : Fin 1 → Nat) a + S16.size a ≤ S13312.size a
  inb_S13312_S16_11984 : ∀ a, (![11984] : Fin 1 → Nat) a + S16.size a ≤ S13312.size a
  inb_S13312_S16_12496 : ∀ a, (![12496] : Fin 1 → Nat) a + S16.size a ≤ S13312.size a
  inb_S13312_S16_13008 : ∀ a, (![13008] : Fin 1 → Nat) a + S16.size a ≤ S13312.size a
  inb_S8192_S16_208 : ∀ a, (![208] : Fin 1 → Nat) a + S16.size a ≤ S8192.size a
  inb_S8192_S16_720 : ∀ a, (![720] : Fin 1 → Nat) a + S16.size a ≤ S8192.size a
  inb_S8192_S16_1232 : ∀ a, (![1232] : Fin 1 → Nat) a + S16.size a ≤ S8192.size a
  inb_S8192_S16_1744 : ∀ a, (![1744] : Fin 1 → Nat) a + S16.size a ≤ S8192.size a
  inb_S8192_S16_2256 : ∀ a, (![2256] : Fin 1 → Nat) a + S16.size a ≤ S8192.size a
  inb_S8192_S16_2768 : ∀ a, (![2768] : Fin 1 → Nat) a + S16.size a ≤ S8192.size a
  inb_S8192_S16_3280 : ∀ a, (![3280] : Fin 1 → Nat) a + S16.size a ≤ S8192.size a
  inb_S8192_S16_3792 : ∀ a, (![3792] : Fin 1 → Nat) a + S16.size a ≤ S8192.size a
  inb_S8192_S16_4304 : ∀ a, (![4304] : Fin 1 → Nat) a + S16.size a ≤ S8192.size a
  inb_S8192_S16_4816 : ∀ a, (![4816] : Fin 1 → Nat) a + S16.size a ≤ S8192.size a
  inb_S8192_S16_5328 : ∀ a, (![5328] : Fin 1 → Nat) a + S16.size a ≤ S8192.size a
  inb_S8192_S16_5840 : ∀ a, (![5840] : Fin 1 → Nat) a + S16.size a ≤ S8192.size a
  inb_S8192_S16_6352 : ∀ a, (![6352] : Fin 1 → Nat) a + S16.size a ≤ S8192.size a
  inb_S8192_S16_6864 : ∀ a, (![6864] : Fin 1 → Nat) a + S16.size a ≤ S8192.size a
  inb_S8192_S16_7376 : ∀ a, (![7376] : Fin 1 → Nat) a + S16.size a ≤ S8192.size a
  inb_S8192_S16_7888 : ∀ a, (![7888] : Fin 1 → Nat) a + S16.size a ≤ S8192.size a
  inb_S512_S16_208 : ∀ a, (![208] : Fin 1 → Nat) a + S16.size a ≤ S512.size a
  inb_S13312_S16_224 : ∀ a, (![224] : Fin 1 → Nat) a + S16.size a ≤ S13312.size a
  inb_S13312_S16_736 : ∀ a, (![736] : Fin 1 → Nat) a + S16.size a ≤ S13312.size a
  inb_S13312_S16_1248 : ∀ a, (![1248] : Fin 1 → Nat) a + S16.size a ≤ S13312.size a
  inb_S13312_S16_1760 : ∀ a, (![1760] : Fin 1 → Nat) a + S16.size a ≤ S13312.size a
  inb_S13312_S16_2272 : ∀ a, (![2272] : Fin 1 → Nat) a + S16.size a ≤ S13312.size a
  inb_S13312_S16_2784 : ∀ a, (![2784] : Fin 1 → Nat) a + S16.size a ≤ S13312.size a
  inb_S13312_S16_3296 : ∀ a, (![3296] : Fin 1 → Nat) a + S16.size a ≤ S13312.size a
  inb_S13312_S16_3808 : ∀ a, (![3808] : Fin 1 → Nat) a + S16.size a ≤ S13312.size a
  inb_S13312_S16_4320 : ∀ a, (![4320] : Fin 1 → Nat) a + S16.size a ≤ S13312.size a
  inb_S13312_S16_4832 : ∀ a, (![4832] : Fin 1 → Nat) a + S16.size a ≤ S13312.size a
  inb_S13312_S16_5344 : ∀ a, (![5344] : Fin 1 → Nat) a + S16.size a ≤ S13312.size a
  inb_S13312_S16_5856 : ∀ a, (![5856] : Fin 1 → Nat) a + S16.size a ≤ S13312.size a
  inb_S13312_S16_6368 : ∀ a, (![6368] : Fin 1 → Nat) a + S16.size a ≤ S13312.size a
  inb_S13312_S16_6880 : ∀ a, (![6880] : Fin 1 → Nat) a + S16.size a ≤ S13312.size a
  inb_S13312_S16_7392 : ∀ a, (![7392] : Fin 1 → Nat) a + S16.size a ≤ S13312.size a
  inb_S13312_S16_7904 : ∀ a, (![7904] : Fin 1 → Nat) a + S16.size a ≤ S13312.size a
  inb_S13312_S16_8416 : ∀ a, (![8416] : Fin 1 → Nat) a + S16.size a ≤ S13312.size a
  inb_S13312_S16_8928 : ∀ a, (![8928] : Fin 1 → Nat) a + S16.size a ≤ S13312.size a
  inb_S13312_S16_9440 : ∀ a, (![9440] : Fin 1 → Nat) a + S16.size a ≤ S13312.size a
  inb_S13312_S16_9952 : ∀ a, (![9952] : Fin 1 → Nat) a + S16.size a ≤ S13312.size a
  inb_S13312_S16_10464 : ∀ a, (![10464] : Fin 1 → Nat) a + S16.size a ≤ S13312.size a
  inb_S13312_S16_10976 : ∀ a, (![10976] : Fin 1 → Nat) a + S16.size a ≤ S13312.size a
  inb_S13312_S16_11488 : ∀ a, (![11488] : Fin 1 → Nat) a + S16.size a ≤ S13312.size a
  inb_S13312_S16_12000 : ∀ a, (![12000] : Fin 1 → Nat) a + S16.size a ≤ S13312.size a
  inb_S13312_S16_12512 : ∀ a, (![12512] : Fin 1 → Nat) a + S16.size a ≤ S13312.size a
  inb_S13312_S16_13024 : ∀ a, (![13024] : Fin 1 → Nat) a + S16.size a ≤ S13312.size a
  inb_S8192_S16_224 : ∀ a, (![224] : Fin 1 → Nat) a + S16.size a ≤ S8192.size a
  inb_S8192_S16_736 : ∀ a, (![736] : Fin 1 → Nat) a + S16.size a ≤ S8192.size a
  inb_S8192_S16_1248 : ∀ a, (![1248] : Fin 1 → Nat) a + S16.size a ≤ S8192.size a
  inb_S8192_S16_1760 : ∀ a, (![1760] : Fin 1 → Nat) a + S16.size a ≤ S8192.size a
  inb_S8192_S16_2272 : ∀ a, (![2272] : Fin 1 → Nat) a + S16.size a ≤ S8192.size a
  inb_S8192_S16_2784 : ∀ a, (![2784] : Fin 1 → Nat) a + S16.size a ≤ S8192.size a
  inb_S8192_S16_3296 : ∀ a, (![3296] : Fin 1 → Nat) a + S16.size a ≤ S8192.size a
  inb_S8192_S16_3808 : ∀ a, (![3808] : Fin 1 → Nat) a + S16.size a ≤ S8192.size a
  inb_S8192_S16_4320 : ∀ a, (![4320] : Fin 1 → Nat) a + S16.size a ≤ S8192.size a
  inb_S8192_S16_4832 : ∀ a, (![4832] : Fin 1 → Nat) a + S16.size a ≤ S8192.size a
  inb_S8192_S16_5344 : ∀ a, (![5344] : Fin 1 → Nat) a + S16.size a ≤ S8192.size a
  inb_S8192_S16_5856 : ∀ a, (![5856] : Fin 1 → Nat) a + S16.size a ≤ S8192.size a
  inb_S8192_S16_6368 : ∀ a, (![6368] : Fin 1 → Nat) a + S16.size a ≤ S8192.size a
  inb_S8192_S16_6880 : ∀ a, (![6880] : Fin 1 → Nat) a + S16.size a ≤ S8192.size a
  inb_S8192_S16_7392 : ∀ a, (![7392] : Fin 1 → Nat) a + S16.size a ≤ S8192.size a
  inb_S8192_S16_7904 : ∀ a, (![7904] : Fin 1 → Nat) a + S16.size a ≤ S8192.size a
  inb_S512_S16_224 : ∀ a, (![224] : Fin 1 → Nat) a + S16.size a ≤ S512.size a
  inb_S13312_S16_240 : ∀ a, (![240] : Fin 1 → Nat) a + S16.size a ≤ S13312.size a
  inb_S13312_S16_752 : ∀ a, (![752] : Fin 1 → Nat) a + S16.size a ≤ S13312.size a
  inb_S13312_S16_1264 : ∀ a, (![1264] : Fin 1 → Nat) a + S16.size a ≤ S13312.size a
  inb_S13312_S16_1776 : ∀ a, (![1776] : Fin 1 → Nat) a + S16.size a ≤ S13312.size a
  inb_S13312_S16_2288 : ∀ a, (![2288] : Fin 1 → Nat) a + S16.size a ≤ S13312.size a
  inb_S13312_S16_2800 : ∀ a, (![2800] : Fin 1 → Nat) a + S16.size a ≤ S13312.size a
  inb_S13312_S16_3312 : ∀ a, (![3312] : Fin 1 → Nat) a + S16.size a ≤ S13312.size a
  inb_S13312_S16_3824 : ∀ a, (![3824] : Fin 1 → Nat) a + S16.size a ≤ S13312.size a
  inb_S13312_S16_4336 : ∀ a, (![4336] : Fin 1 → Nat) a + S16.size a ≤ S13312.size a
  inb_S13312_S16_4848 : ∀ a, (![4848] : Fin 1 → Nat) a + S16.size a ≤ S13312.size a
  inb_S13312_S16_5360 : ∀ a, (![5360] : Fin 1 → Nat) a + S16.size a ≤ S13312.size a
  inb_S13312_S16_5872 : ∀ a, (![5872] : Fin 1 → Nat) a + S16.size a ≤ S13312.size a
  inb_S13312_S16_6384 : ∀ a, (![6384] : Fin 1 → Nat) a + S16.size a ≤ S13312.size a
  inb_S13312_S16_6896 : ∀ a, (![6896] : Fin 1 → Nat) a + S16.size a ≤ S13312.size a
  inb_S13312_S16_7408 : ∀ a, (![7408] : Fin 1 → Nat) a + S16.size a ≤ S13312.size a
  inb_S13312_S16_7920 : ∀ a, (![7920] : Fin 1 → Nat) a + S16.size a ≤ S13312.size a
  inb_S13312_S16_8432 : ∀ a, (![8432] : Fin 1 → Nat) a + S16.size a ≤ S13312.size a
  inb_S13312_S16_8944 : ∀ a, (![8944] : Fin 1 → Nat) a + S16.size a ≤ S13312.size a
  inb_S13312_S16_9456 : ∀ a, (![9456] : Fin 1 → Nat) a + S16.size a ≤ S13312.size a
  inb_S13312_S16_9968 : ∀ a, (![9968] : Fin 1 → Nat) a + S16.size a ≤ S13312.size a
  inb_S13312_S16_10480 : ∀ a, (![10480] : Fin 1 → Nat) a + S16.size a ≤ S13312.size a
  inb_S13312_S16_10992 : ∀ a, (![10992] : Fin 1 → Nat) a + S16.size a ≤ S13312.size a
  inb_S13312_S16_11504 : ∀ a, (![11504] : Fin 1 → Nat) a + S16.size a ≤ S13312.size a
  inb_S13312_S16_12016 : ∀ a, (![12016] : Fin 1 → Nat) a + S16.size a ≤ S13312.size a
  inb_S13312_S16_12528 : ∀ a, (![12528] : Fin 1 → Nat) a + S16.size a ≤ S13312.size a
  inb_S13312_S16_13040 : ∀ a, (![13040] : Fin 1 → Nat) a + S16.size a ≤ S13312.size a
  inb_S8192_S16_240 : ∀ a, (![240] : Fin 1 → Nat) a + S16.size a ≤ S8192.size a
  inb_S8192_S16_752 : ∀ a, (![752] : Fin 1 → Nat) a + S16.size a ≤ S8192.size a
  inb_S8192_S16_1264 : ∀ a, (![1264] : Fin 1 → Nat) a + S16.size a ≤ S8192.size a
  inb_S8192_S16_1776 : ∀ a, (![1776] : Fin 1 → Nat) a + S16.size a ≤ S8192.size a
  inb_S8192_S16_2288 : ∀ a, (![2288] : Fin 1 → Nat) a + S16.size a ≤ S8192.size a
  inb_S8192_S16_2800 : ∀ a, (![2800] : Fin 1 → Nat) a + S16.size a ≤ S8192.size a
  inb_S8192_S16_3312 : ∀ a, (![3312] : Fin 1 → Nat) a + S16.size a ≤ S8192.size a
  inb_S8192_S16_3824 : ∀ a, (![3824] : Fin 1 → Nat) a + S16.size a ≤ S8192.size a
  inb_S8192_S16_4336 : ∀ a, (![4336] : Fin 1 → Nat) a + S16.size a ≤ S8192.size a
  inb_S8192_S16_4848 : ∀ a, (![4848] : Fin 1 → Nat) a + S16.size a ≤ S8192.size a
  inb_S8192_S16_5360 : ∀ a, (![5360] : Fin 1 → Nat) a + S16.size a ≤ S8192.size a
  inb_S8192_S16_5872 : ∀ a, (![5872] : Fin 1 → Nat) a + S16.size a ≤ S8192.size a
  inb_S8192_S16_6384 : ∀ a, (![6384] : Fin 1 → Nat) a + S16.size a ≤ S8192.size a
  inb_S8192_S16_6896 : ∀ a, (![6896] : Fin 1 → Nat) a + S16.size a ≤ S8192.size a
  inb_S8192_S16_7408 : ∀ a, (![7408] : Fin 1 → Nat) a + S16.size a ≤ S8192.size a
  inb_S8192_S16_7920 : ∀ a, (![7920] : Fin 1 → Nat) a + S16.size a ≤ S8192.size a
  inb_S512_S16_240 : ∀ a, (![240] : Fin 1 → Nat) a + S16.size a ≤ S512.size a
  inb_S13312_S16_256 : ∀ a, (![256] : Fin 1 → Nat) a + S16.size a ≤ S13312.size a
  inb_S13312_S16_768 : ∀ a, (![768] : Fin 1 → Nat) a + S16.size a ≤ S13312.size a
  inb_S13312_S16_1280 : ∀ a, (![1280] : Fin 1 → Nat) a + S16.size a ≤ S13312.size a
  inb_S13312_S16_1792 : ∀ a, (![1792] : Fin 1 → Nat) a + S16.size a ≤ S13312.size a
  inb_S13312_S16_2304 : ∀ a, (![2304] : Fin 1 → Nat) a + S16.size a ≤ S13312.size a
  inb_S13312_S16_2816 : ∀ a, (![2816] : Fin 1 → Nat) a + S16.size a ≤ S13312.size a
  inb_S13312_S16_3328 : ∀ a, (![3328] : Fin 1 → Nat) a + S16.size a ≤ S13312.size a
  inb_S13312_S16_3840 : ∀ a, (![3840] : Fin 1 → Nat) a + S16.size a ≤ S13312.size a
  inb_S13312_S16_4352 : ∀ a, (![4352] : Fin 1 → Nat) a + S16.size a ≤ S13312.size a
  inb_S13312_S16_4864 : ∀ a, (![4864] : Fin 1 → Nat) a + S16.size a ≤ S13312.size a
  inb_S13312_S16_5376 : ∀ a, (![5376] : Fin 1 → Nat) a + S16.size a ≤ S13312.size a
  inb_S13312_S16_5888 : ∀ a, (![5888] : Fin 1 → Nat) a + S16.size a ≤ S13312.size a
  inb_S13312_S16_6400 : ∀ a, (![6400] : Fin 1 → Nat) a + S16.size a ≤ S13312.size a
  inb_S13312_S16_6912 : ∀ a, (![6912] : Fin 1 → Nat) a + S16.size a ≤ S13312.size a
  inb_S13312_S16_7424 : ∀ a, (![7424] : Fin 1 → Nat) a + S16.size a ≤ S13312.size a
  inb_S13312_S16_7936 : ∀ a, (![7936] : Fin 1 → Nat) a + S16.size a ≤ S13312.size a
  inb_S13312_S16_8448 : ∀ a, (![8448] : Fin 1 → Nat) a + S16.size a ≤ S13312.size a
  inb_S13312_S16_8960 : ∀ a, (![8960] : Fin 1 → Nat) a + S16.size a ≤ S13312.size a
  inb_S13312_S16_9472 : ∀ a, (![9472] : Fin 1 → Nat) a + S16.size a ≤ S13312.size a
  inb_S13312_S16_9984 : ∀ a, (![9984] : Fin 1 → Nat) a + S16.size a ≤ S13312.size a
  inb_S13312_S16_10496 : ∀ a, (![10496] : Fin 1 → Nat) a + S16.size a ≤ S13312.size a
  inb_S13312_S16_11008 : ∀ a, (![11008] : Fin 1 → Nat) a + S16.size a ≤ S13312.size a
  inb_S13312_S16_11520 : ∀ a, (![11520] : Fin 1 → Nat) a + S16.size a ≤ S13312.size a
  inb_S13312_S16_12032 : ∀ a, (![12032] : Fin 1 → Nat) a + S16.size a ≤ S13312.size a
  inb_S13312_S16_12544 : ∀ a, (![12544] : Fin 1 → Nat) a + S16.size a ≤ S13312.size a
  inb_S13312_S16_13056 : ∀ a, (![13056] : Fin 1 → Nat) a + S16.size a ≤ S13312.size a
  inb_S8192_S16_256 : ∀ a, (![256] : Fin 1 → Nat) a + S16.size a ≤ S8192.size a
  inb_S8192_S16_768 : ∀ a, (![768] : Fin 1 → Nat) a + S16.size a ≤ S8192.size a
  inb_S8192_S16_1280 : ∀ a, (![1280] : Fin 1 → Nat) a + S16.size a ≤ S8192.size a
  inb_S8192_S16_1792 : ∀ a, (![1792] : Fin 1 → Nat) a + S16.size a ≤ S8192.size a
  inb_S8192_S16_2304 : ∀ a, (![2304] : Fin 1 → Nat) a + S16.size a ≤ S8192.size a
  inb_S8192_S16_2816 : ∀ a, (![2816] : Fin 1 → Nat) a + S16.size a ≤ S8192.size a
  inb_S8192_S16_3328 : ∀ a, (![3328] : Fin 1 → Nat) a + S16.size a ≤ S8192.size a
  inb_S8192_S16_3840 : ∀ a, (![3840] : Fin 1 → Nat) a + S16.size a ≤ S8192.size a
  inb_S8192_S16_4352 : ∀ a, (![4352] : Fin 1 → Nat) a + S16.size a ≤ S8192.size a
  inb_S8192_S16_4864 : ∀ a, (![4864] : Fin 1 → Nat) a + S16.size a ≤ S8192.size a
  inb_S8192_S16_5376 : ∀ a, (![5376] : Fin 1 → Nat) a + S16.size a ≤ S8192.size a
  inb_S8192_S16_5888 : ∀ a, (![5888] : Fin 1 → Nat) a + S16.size a ≤ S8192.size a
  inb_S8192_S16_6400 : ∀ a, (![6400] : Fin 1 → Nat) a + S16.size a ≤ S8192.size a
  inb_S8192_S16_6912 : ∀ a, (![6912] : Fin 1 → Nat) a + S16.size a ≤ S8192.size a
  inb_S8192_S16_7424 : ∀ a, (![7424] : Fin 1 → Nat) a + S16.size a ≤ S8192.size a
  inb_S8192_S16_7936 : ∀ a, (![7936] : Fin 1 → Nat) a + S16.size a ≤ S8192.size a
  inb_S512_S16_256 : ∀ a, (![256] : Fin 1 → Nat) a + S16.size a ≤ S512.size a
  inb_S13312_S16_272 : ∀ a, (![272] : Fin 1 → Nat) a + S16.size a ≤ S13312.size a
  inb_S13312_S16_784 : ∀ a, (![784] : Fin 1 → Nat) a + S16.size a ≤ S13312.size a
  inb_S13312_S16_1296 : ∀ a, (![1296] : Fin 1 → Nat) a + S16.size a ≤ S13312.size a
  inb_S13312_S16_1808 : ∀ a, (![1808] : Fin 1 → Nat) a + S16.size a ≤ S13312.size a
  inb_S13312_S16_2320 : ∀ a, (![2320] : Fin 1 → Nat) a + S16.size a ≤ S13312.size a
  inb_S13312_S16_2832 : ∀ a, (![2832] : Fin 1 → Nat) a + S16.size a ≤ S13312.size a
  inb_S13312_S16_3344 : ∀ a, (![3344] : Fin 1 → Nat) a + S16.size a ≤ S13312.size a
  inb_S13312_S16_3856 : ∀ a, (![3856] : Fin 1 → Nat) a + S16.size a ≤ S13312.size a
  inb_S13312_S16_4368 : ∀ a, (![4368] : Fin 1 → Nat) a + S16.size a ≤ S13312.size a
  inb_S13312_S16_4880 : ∀ a, (![4880] : Fin 1 → Nat) a + S16.size a ≤ S13312.size a
  inb_S13312_S16_5392 : ∀ a, (![5392] : Fin 1 → Nat) a + S16.size a ≤ S13312.size a
  inb_S13312_S16_5904 : ∀ a, (![5904] : Fin 1 → Nat) a + S16.size a ≤ S13312.size a
  inb_S13312_S16_6416 : ∀ a, (![6416] : Fin 1 → Nat) a + S16.size a ≤ S13312.size a
  inb_S13312_S16_6928 : ∀ a, (![6928] : Fin 1 → Nat) a + S16.size a ≤ S13312.size a
  inb_S13312_S16_7440 : ∀ a, (![7440] : Fin 1 → Nat) a + S16.size a ≤ S13312.size a
  inb_S13312_S16_7952 : ∀ a, (![7952] : Fin 1 → Nat) a + S16.size a ≤ S13312.size a
  inb_S13312_S16_8464 : ∀ a, (![8464] : Fin 1 → Nat) a + S16.size a ≤ S13312.size a
  inb_S13312_S16_8976 : ∀ a, (![8976] : Fin 1 → Nat) a + S16.size a ≤ S13312.size a
  inb_S13312_S16_9488 : ∀ a, (![9488] : Fin 1 → Nat) a + S16.size a ≤ S13312.size a
  inb_S13312_S16_10000 : ∀ a, (![10000] : Fin 1 → Nat) a + S16.size a ≤ S13312.size a
  inb_S13312_S16_10512 : ∀ a, (![10512] : Fin 1 → Nat) a + S16.size a ≤ S13312.size a
  inb_S13312_S16_11024 : ∀ a, (![11024] : Fin 1 → Nat) a + S16.size a ≤ S13312.size a
  inb_S13312_S16_11536 : ∀ a, (![11536] : Fin 1 → Nat) a + S16.size a ≤ S13312.size a
  inb_S13312_S16_12048 : ∀ a, (![12048] : Fin 1 → Nat) a + S16.size a ≤ S13312.size a
  inb_S13312_S16_12560 : ∀ a, (![12560] : Fin 1 → Nat) a + S16.size a ≤ S13312.size a
  inb_S13312_S16_13072 : ∀ a, (![13072] : Fin 1 → Nat) a + S16.size a ≤ S13312.size a
  inb_S8192_S16_272 : ∀ a, (![272] : Fin 1 → Nat) a + S16.size a ≤ S8192.size a
  inb_S8192_S16_784 : ∀ a, (![784] : Fin 1 → Nat) a + S16.size a ≤ S8192.size a
  inb_S8192_S16_1296 : ∀ a, (![1296] : Fin 1 → Nat) a + S16.size a ≤ S8192.size a
  inb_S8192_S16_1808 : ∀ a, (![1808] : Fin 1 → Nat) a + S16.size a ≤ S8192.size a
  inb_S8192_S16_2320 : ∀ a, (![2320] : Fin 1 → Nat) a + S16.size a ≤ S8192.size a
  inb_S8192_S16_2832 : ∀ a, (![2832] : Fin 1 → Nat) a + S16.size a ≤ S8192.size a
  inb_S8192_S16_3344 : ∀ a, (![3344] : Fin 1 → Nat) a + S16.size a ≤ S8192.size a
  inb_S8192_S16_3856 : ∀ a, (![3856] : Fin 1 → Nat) a + S16.size a ≤ S8192.size a
  inb_S8192_S16_4368 : ∀ a, (![4368] : Fin 1 → Nat) a + S16.size a ≤ S8192.size a
  inb_S8192_S16_4880 : ∀ a, (![4880] : Fin 1 → Nat) a + S16.size a ≤ S8192.size a
  inb_S8192_S16_5392 : ∀ a, (![5392] : Fin 1 → Nat) a + S16.size a ≤ S8192.size a
  inb_S8192_S16_5904 : ∀ a, (![5904] : Fin 1 → Nat) a + S16.size a ≤ S8192.size a
  inb_S8192_S16_6416 : ∀ a, (![6416] : Fin 1 → Nat) a + S16.size a ≤ S8192.size a
  inb_S8192_S16_6928 : ∀ a, (![6928] : Fin 1 → Nat) a + S16.size a ≤ S8192.size a
  inb_S8192_S16_7440 : ∀ a, (![7440] : Fin 1 → Nat) a + S16.size a ≤ S8192.size a
  inb_S8192_S16_7952 : ∀ a, (![7952] : Fin 1 → Nat) a + S16.size a ≤ S8192.size a
  inb_S512_S16_272 : ∀ a, (![272] : Fin 1 → Nat) a + S16.size a ≤ S512.size a
  inb_S13312_S16_288 : ∀ a, (![288] : Fin 1 → Nat) a + S16.size a ≤ S13312.size a
  inb_S13312_S16_800 : ∀ a, (![800] : Fin 1 → Nat) a + S16.size a ≤ S13312.size a
  inb_S13312_S16_1312 : ∀ a, (![1312] : Fin 1 → Nat) a + S16.size a ≤ S13312.size a
  inb_S13312_S16_1824 : ∀ a, (![1824] : Fin 1 → Nat) a + S16.size a ≤ S13312.size a
  inb_S13312_S16_2336 : ∀ a, (![2336] : Fin 1 → Nat) a + S16.size a ≤ S13312.size a
  inb_S13312_S16_2848 : ∀ a, (![2848] : Fin 1 → Nat) a + S16.size a ≤ S13312.size a
  inb_S13312_S16_3360 : ∀ a, (![3360] : Fin 1 → Nat) a + S16.size a ≤ S13312.size a
  inb_S13312_S16_3872 : ∀ a, (![3872] : Fin 1 → Nat) a + S16.size a ≤ S13312.size a
  inb_S13312_S16_4384 : ∀ a, (![4384] : Fin 1 → Nat) a + S16.size a ≤ S13312.size a
  inb_S13312_S16_4896 : ∀ a, (![4896] : Fin 1 → Nat) a + S16.size a ≤ S13312.size a
  inb_S13312_S16_5408 : ∀ a, (![5408] : Fin 1 → Nat) a + S16.size a ≤ S13312.size a
  inb_S13312_S16_5920 : ∀ a, (![5920] : Fin 1 → Nat) a + S16.size a ≤ S13312.size a
  inb_S13312_S16_6432 : ∀ a, (![6432] : Fin 1 → Nat) a + S16.size a ≤ S13312.size a
  inb_S13312_S16_6944 : ∀ a, (![6944] : Fin 1 → Nat) a + S16.size a ≤ S13312.size a
  inb_S13312_S16_7456 : ∀ a, (![7456] : Fin 1 → Nat) a + S16.size a ≤ S13312.size a
  inb_S13312_S16_7968 : ∀ a, (![7968] : Fin 1 → Nat) a + S16.size a ≤ S13312.size a
  inb_S13312_S16_8480 : ∀ a, (![8480] : Fin 1 → Nat) a + S16.size a ≤ S13312.size a
  inb_S13312_S16_8992 : ∀ a, (![8992] : Fin 1 → Nat) a + S16.size a ≤ S13312.size a
  inb_S13312_S16_9504 : ∀ a, (![9504] : Fin 1 → Nat) a + S16.size a ≤ S13312.size a
  inb_S13312_S16_10016 : ∀ a, (![10016] : Fin 1 → Nat) a + S16.size a ≤ S13312.size a
  inb_S13312_S16_10528 : ∀ a, (![10528] : Fin 1 → Nat) a + S16.size a ≤ S13312.size a
  inb_S13312_S16_11040 : ∀ a, (![11040] : Fin 1 → Nat) a + S16.size a ≤ S13312.size a
  inb_S13312_S16_11552 : ∀ a, (![11552] : Fin 1 → Nat) a + S16.size a ≤ S13312.size a
  inb_S13312_S16_12064 : ∀ a, (![12064] : Fin 1 → Nat) a + S16.size a ≤ S13312.size a
  inb_S13312_S16_12576 : ∀ a, (![12576] : Fin 1 → Nat) a + S16.size a ≤ S13312.size a
  inb_S13312_S16_13088 : ∀ a, (![13088] : Fin 1 → Nat) a + S16.size a ≤ S13312.size a
  inb_S8192_S16_288 : ∀ a, (![288] : Fin 1 → Nat) a + S16.size a ≤ S8192.size a
  inb_S8192_S16_800 : ∀ a, (![800] : Fin 1 → Nat) a + S16.size a ≤ S8192.size a
  inb_S8192_S16_1312 : ∀ a, (![1312] : Fin 1 → Nat) a + S16.size a ≤ S8192.size a
  inb_S8192_S16_1824 : ∀ a, (![1824] : Fin 1 → Nat) a + S16.size a ≤ S8192.size a
  inb_S8192_S16_2336 : ∀ a, (![2336] : Fin 1 → Nat) a + S16.size a ≤ S8192.size a
  inb_S8192_S16_2848 : ∀ a, (![2848] : Fin 1 → Nat) a + S16.size a ≤ S8192.size a
  inb_S8192_S16_3360 : ∀ a, (![3360] : Fin 1 → Nat) a + S16.size a ≤ S8192.size a
  inb_S8192_S16_3872 : ∀ a, (![3872] : Fin 1 → Nat) a + S16.size a ≤ S8192.size a
  inb_S8192_S16_4384 : ∀ a, (![4384] : Fin 1 → Nat) a + S16.size a ≤ S8192.size a
  inb_S8192_S16_4896 : ∀ a, (![4896] : Fin 1 → Nat) a + S16.size a ≤ S8192.size a
  inb_S8192_S16_5408 : ∀ a, (![5408] : Fin 1 → Nat) a + S16.size a ≤ S8192.size a
  inb_S8192_S16_5920 : ∀ a, (![5920] : Fin 1 → Nat) a + S16.size a ≤ S8192.size a
  inb_S8192_S16_6432 : ∀ a, (![6432] : Fin 1 → Nat) a + S16.size a ≤ S8192.size a
  inb_S8192_S16_6944 : ∀ a, (![6944] : Fin 1 → Nat) a + S16.size a ≤ S8192.size a
  inb_S8192_S16_7456 : ∀ a, (![7456] : Fin 1 → Nat) a + S16.size a ≤ S8192.size a
  inb_S8192_S16_7968 : ∀ a, (![7968] : Fin 1 → Nat) a + S16.size a ≤ S8192.size a
  inb_S512_S16_288 : ∀ a, (![288] : Fin 1 → Nat) a + S16.size a ≤ S512.size a
  inb_S13312_S16_304 : ∀ a, (![304] : Fin 1 → Nat) a + S16.size a ≤ S13312.size a
  inb_S13312_S16_816 : ∀ a, (![816] : Fin 1 → Nat) a + S16.size a ≤ S13312.size a
  inb_S13312_S16_1328 : ∀ a, (![1328] : Fin 1 → Nat) a + S16.size a ≤ S13312.size a
  inb_S13312_S16_1840 : ∀ a, (![1840] : Fin 1 → Nat) a + S16.size a ≤ S13312.size a
  inb_S13312_S16_2352 : ∀ a, (![2352] : Fin 1 → Nat) a + S16.size a ≤ S13312.size a
  inb_S13312_S16_2864 : ∀ a, (![2864] : Fin 1 → Nat) a + S16.size a ≤ S13312.size a
  inb_S13312_S16_3376 : ∀ a, (![3376] : Fin 1 → Nat) a + S16.size a ≤ S13312.size a
  inb_S13312_S16_3888 : ∀ a, (![3888] : Fin 1 → Nat) a + S16.size a ≤ S13312.size a
  inb_S13312_S16_4400 : ∀ a, (![4400] : Fin 1 → Nat) a + S16.size a ≤ S13312.size a
  inb_S13312_S16_4912 : ∀ a, (![4912] : Fin 1 → Nat) a + S16.size a ≤ S13312.size a
  inb_S13312_S16_5424 : ∀ a, (![5424] : Fin 1 → Nat) a + S16.size a ≤ S13312.size a
  inb_S13312_S16_5936 : ∀ a, (![5936] : Fin 1 → Nat) a + S16.size a ≤ S13312.size a
  inb_S13312_S16_6448 : ∀ a, (![6448] : Fin 1 → Nat) a + S16.size a ≤ S13312.size a
  inb_S13312_S16_6960 : ∀ a, (![6960] : Fin 1 → Nat) a + S16.size a ≤ S13312.size a
  inb_S13312_S16_7472 : ∀ a, (![7472] : Fin 1 → Nat) a + S16.size a ≤ S13312.size a
  inb_S13312_S16_7984 : ∀ a, (![7984] : Fin 1 → Nat) a + S16.size a ≤ S13312.size a
  inb_S13312_S16_8496 : ∀ a, (![8496] : Fin 1 → Nat) a + S16.size a ≤ S13312.size a
  inb_S13312_S16_9008 : ∀ a, (![9008] : Fin 1 → Nat) a + S16.size a ≤ S13312.size a
  inb_S13312_S16_9520 : ∀ a, (![9520] : Fin 1 → Nat) a + S16.size a ≤ S13312.size a
  inb_S13312_S16_10032 : ∀ a, (![10032] : Fin 1 → Nat) a + S16.size a ≤ S13312.size a
  inb_S13312_S16_10544 : ∀ a, (![10544] : Fin 1 → Nat) a + S16.size a ≤ S13312.size a
  inb_S13312_S16_11056 : ∀ a, (![11056] : Fin 1 → Nat) a + S16.size a ≤ S13312.size a
  inb_S13312_S16_11568 : ∀ a, (![11568] : Fin 1 → Nat) a + S16.size a ≤ S13312.size a
  inb_S13312_S16_12080 : ∀ a, (![12080] : Fin 1 → Nat) a + S16.size a ≤ S13312.size a
  inb_S13312_S16_12592 : ∀ a, (![12592] : Fin 1 → Nat) a + S16.size a ≤ S13312.size a
  inb_S13312_S16_13104 : ∀ a, (![13104] : Fin 1 → Nat) a + S16.size a ≤ S13312.size a
  inb_S8192_S16_304 : ∀ a, (![304] : Fin 1 → Nat) a + S16.size a ≤ S8192.size a
  inb_S8192_S16_816 : ∀ a, (![816] : Fin 1 → Nat) a + S16.size a ≤ S8192.size a
  inb_S8192_S16_1328 : ∀ a, (![1328] : Fin 1 → Nat) a + S16.size a ≤ S8192.size a
  inb_S8192_S16_1840 : ∀ a, (![1840] : Fin 1 → Nat) a + S16.size a ≤ S8192.size a
  inb_S8192_S16_2352 : ∀ a, (![2352] : Fin 1 → Nat) a + S16.size a ≤ S8192.size a
  inb_S8192_S16_2864 : ∀ a, (![2864] : Fin 1 → Nat) a + S16.size a ≤ S8192.size a
  inb_S8192_S16_3376 : ∀ a, (![3376] : Fin 1 → Nat) a + S16.size a ≤ S8192.size a
  inb_S8192_S16_3888 : ∀ a, (![3888] : Fin 1 → Nat) a + S16.size a ≤ S8192.size a
  inb_S8192_S16_4400 : ∀ a, (![4400] : Fin 1 → Nat) a + S16.size a ≤ S8192.size a
  inb_S8192_S16_4912 : ∀ a, (![4912] : Fin 1 → Nat) a + S16.size a ≤ S8192.size a
  inb_S8192_S16_5424 : ∀ a, (![5424] : Fin 1 → Nat) a + S16.size a ≤ S8192.size a
  inb_S8192_S16_5936 : ∀ a, (![5936] : Fin 1 → Nat) a + S16.size a ≤ S8192.size a
  inb_S8192_S16_6448 : ∀ a, (![6448] : Fin 1 → Nat) a + S16.size a ≤ S8192.size a
  inb_S8192_S16_6960 : ∀ a, (![6960] : Fin 1 → Nat) a + S16.size a ≤ S8192.size a
  inb_S8192_S16_7472 : ∀ a, (![7472] : Fin 1 → Nat) a + S16.size a ≤ S8192.size a
  inb_S8192_S16_7984 : ∀ a, (![7984] : Fin 1 → Nat) a + S16.size a ≤ S8192.size a
  inb_S512_S16_304 : ∀ a, (![304] : Fin 1 → Nat) a + S16.size a ≤ S512.size a
  inb_S13312_S16_320 : ∀ a, (![320] : Fin 1 → Nat) a + S16.size a ≤ S13312.size a
  inb_S13312_S16_832 : ∀ a, (![832] : Fin 1 → Nat) a + S16.size a ≤ S13312.size a
  inb_S13312_S16_1344 : ∀ a, (![1344] : Fin 1 → Nat) a + S16.size a ≤ S13312.size a
  inb_S13312_S16_1856 : ∀ a, (![1856] : Fin 1 → Nat) a + S16.size a ≤ S13312.size a
  inb_S13312_S16_2368 : ∀ a, (![2368] : Fin 1 → Nat) a + S16.size a ≤ S13312.size a
  inb_S13312_S16_2880 : ∀ a, (![2880] : Fin 1 → Nat) a + S16.size a ≤ S13312.size a
  inb_S13312_S16_3392 : ∀ a, (![3392] : Fin 1 → Nat) a + S16.size a ≤ S13312.size a
  inb_S13312_S16_3904 : ∀ a, (![3904] : Fin 1 → Nat) a + S16.size a ≤ S13312.size a
  inb_S13312_S16_4416 : ∀ a, (![4416] : Fin 1 → Nat) a + S16.size a ≤ S13312.size a
  inb_S13312_S16_4928 : ∀ a, (![4928] : Fin 1 → Nat) a + S16.size a ≤ S13312.size a
  inb_S13312_S16_5440 : ∀ a, (![5440] : Fin 1 → Nat) a + S16.size a ≤ S13312.size a
  inb_S13312_S16_5952 : ∀ a, (![5952] : Fin 1 → Nat) a + S16.size a ≤ S13312.size a
  inb_S13312_S16_6464 : ∀ a, (![6464] : Fin 1 → Nat) a + S16.size a ≤ S13312.size a
  inb_S13312_S16_6976 : ∀ a, (![6976] : Fin 1 → Nat) a + S16.size a ≤ S13312.size a
  inb_S13312_S16_7488 : ∀ a, (![7488] : Fin 1 → Nat) a + S16.size a ≤ S13312.size a
  inb_S13312_S16_8000 : ∀ a, (![8000] : Fin 1 → Nat) a + S16.size a ≤ S13312.size a
  inb_S13312_S16_8512 : ∀ a, (![8512] : Fin 1 → Nat) a + S16.size a ≤ S13312.size a
  inb_S13312_S16_9024 : ∀ a, (![9024] : Fin 1 → Nat) a + S16.size a ≤ S13312.size a
  inb_S13312_S16_9536 : ∀ a, (![9536] : Fin 1 → Nat) a + S16.size a ≤ S13312.size a
  inb_S13312_S16_10048 : ∀ a, (![10048] : Fin 1 → Nat) a + S16.size a ≤ S13312.size a
  inb_S13312_S16_10560 : ∀ a, (![10560] : Fin 1 → Nat) a + S16.size a ≤ S13312.size a
  inb_S13312_S16_11072 : ∀ a, (![11072] : Fin 1 → Nat) a + S16.size a ≤ S13312.size a
  inb_S13312_S16_11584 : ∀ a, (![11584] : Fin 1 → Nat) a + S16.size a ≤ S13312.size a
  inb_S13312_S16_12096 : ∀ a, (![12096] : Fin 1 → Nat) a + S16.size a ≤ S13312.size a
  inb_S13312_S16_12608 : ∀ a, (![12608] : Fin 1 → Nat) a + S16.size a ≤ S13312.size a
  inb_S13312_S16_13120 : ∀ a, (![13120] : Fin 1 → Nat) a + S16.size a ≤ S13312.size a
  inb_S8192_S16_320 : ∀ a, (![320] : Fin 1 → Nat) a + S16.size a ≤ S8192.size a
  inb_S8192_S16_832 : ∀ a, (![832] : Fin 1 → Nat) a + S16.size a ≤ S8192.size a
  inb_S8192_S16_1344 : ∀ a, (![1344] : Fin 1 → Nat) a + S16.size a ≤ S8192.size a
  inb_S8192_S16_1856 : ∀ a, (![1856] : Fin 1 → Nat) a + S16.size a ≤ S8192.size a
  inb_S8192_S16_2368 : ∀ a, (![2368] : Fin 1 → Nat) a + S16.size a ≤ S8192.size a
  inb_S8192_S16_2880 : ∀ a, (![2880] : Fin 1 → Nat) a + S16.size a ≤ S8192.size a
  inb_S8192_S16_3392 : ∀ a, (![3392] : Fin 1 → Nat) a + S16.size a ≤ S8192.size a
  inb_S8192_S16_3904 : ∀ a, (![3904] : Fin 1 → Nat) a + S16.size a ≤ S8192.size a
  inb_S8192_S16_4416 : ∀ a, (![4416] : Fin 1 → Nat) a + S16.size a ≤ S8192.size a
  inb_S8192_S16_4928 : ∀ a, (![4928] : Fin 1 → Nat) a + S16.size a ≤ S8192.size a
  inb_S8192_S16_5440 : ∀ a, (![5440] : Fin 1 → Nat) a + S16.size a ≤ S8192.size a
  inb_S8192_S16_5952 : ∀ a, (![5952] : Fin 1 → Nat) a + S16.size a ≤ S8192.size a
  inb_S8192_S16_6464 : ∀ a, (![6464] : Fin 1 → Nat) a + S16.size a ≤ S8192.size a
  inb_S8192_S16_6976 : ∀ a, (![6976] : Fin 1 → Nat) a + S16.size a ≤ S8192.size a
  inb_S8192_S16_7488 : ∀ a, (![7488] : Fin 1 → Nat) a + S16.size a ≤ S8192.size a
  inb_S8192_S16_8000 : ∀ a, (![8000] : Fin 1 → Nat) a + S16.size a ≤ S8192.size a
  inb_S512_S16_320 : ∀ a, (![320] : Fin 1 → Nat) a + S16.size a ≤ S512.size a
  inb_S13312_S16_336 : ∀ a, (![336] : Fin 1 → Nat) a + S16.size a ≤ S13312.size a
  inb_S13312_S16_848 : ∀ a, (![848] : Fin 1 → Nat) a + S16.size a ≤ S13312.size a
  inb_S13312_S16_1360 : ∀ a, (![1360] : Fin 1 → Nat) a + S16.size a ≤ S13312.size a
  inb_S13312_S16_1872 : ∀ a, (![1872] : Fin 1 → Nat) a + S16.size a ≤ S13312.size a
  inb_S13312_S16_2384 : ∀ a, (![2384] : Fin 1 → Nat) a + S16.size a ≤ S13312.size a
  inb_S13312_S16_2896 : ∀ a, (![2896] : Fin 1 → Nat) a + S16.size a ≤ S13312.size a
  inb_S13312_S16_3408 : ∀ a, (![3408] : Fin 1 → Nat) a + S16.size a ≤ S13312.size a
  inb_S13312_S16_3920 : ∀ a, (![3920] : Fin 1 → Nat) a + S16.size a ≤ S13312.size a
  inb_S13312_S16_4432 : ∀ a, (![4432] : Fin 1 → Nat) a + S16.size a ≤ S13312.size a
  inb_S13312_S16_4944 : ∀ a, (![4944] : Fin 1 → Nat) a + S16.size a ≤ S13312.size a
  inb_S13312_S16_5456 : ∀ a, (![5456] : Fin 1 → Nat) a + S16.size a ≤ S13312.size a
  inb_S13312_S16_5968 : ∀ a, (![5968] : Fin 1 → Nat) a + S16.size a ≤ S13312.size a
  inb_S13312_S16_6480 : ∀ a, (![6480] : Fin 1 → Nat) a + S16.size a ≤ S13312.size a
  inb_S13312_S16_6992 : ∀ a, (![6992] : Fin 1 → Nat) a + S16.size a ≤ S13312.size a
  inb_S13312_S16_7504 : ∀ a, (![7504] : Fin 1 → Nat) a + S16.size a ≤ S13312.size a
  inb_S13312_S16_8016 : ∀ a, (![8016] : Fin 1 → Nat) a + S16.size a ≤ S13312.size a
  inb_S13312_S16_8528 : ∀ a, (![8528] : Fin 1 → Nat) a + S16.size a ≤ S13312.size a
  inb_S13312_S16_9040 : ∀ a, (![9040] : Fin 1 → Nat) a + S16.size a ≤ S13312.size a
  inb_S13312_S16_9552 : ∀ a, (![9552] : Fin 1 → Nat) a + S16.size a ≤ S13312.size a
  inb_S13312_S16_10064 : ∀ a, (![10064] : Fin 1 → Nat) a + S16.size a ≤ S13312.size a
  inb_S13312_S16_10576 : ∀ a, (![10576] : Fin 1 → Nat) a + S16.size a ≤ S13312.size a
  inb_S13312_S16_11088 : ∀ a, (![11088] : Fin 1 → Nat) a + S16.size a ≤ S13312.size a
  inb_S13312_S16_11600 : ∀ a, (![11600] : Fin 1 → Nat) a + S16.size a ≤ S13312.size a
  inb_S13312_S16_12112 : ∀ a, (![12112] : Fin 1 → Nat) a + S16.size a ≤ S13312.size a
  inb_S13312_S16_12624 : ∀ a, (![12624] : Fin 1 → Nat) a + S16.size a ≤ S13312.size a
  inb_S13312_S16_13136 : ∀ a, (![13136] : Fin 1 → Nat) a + S16.size a ≤ S13312.size a
  inb_S8192_S16_336 : ∀ a, (![336] : Fin 1 → Nat) a + S16.size a ≤ S8192.size a
  inb_S8192_S16_848 : ∀ a, (![848] : Fin 1 → Nat) a + S16.size a ≤ S8192.size a
  inb_S8192_S16_1360 : ∀ a, (![1360] : Fin 1 → Nat) a + S16.size a ≤ S8192.size a
  inb_S8192_S16_1872 : ∀ a, (![1872] : Fin 1 → Nat) a + S16.size a ≤ S8192.size a
  inb_S8192_S16_2384 : ∀ a, (![2384] : Fin 1 → Nat) a + S16.size a ≤ S8192.size a
  inb_S8192_S16_2896 : ∀ a, (![2896] : Fin 1 → Nat) a + S16.size a ≤ S8192.size a
  inb_S8192_S16_3408 : ∀ a, (![3408] : Fin 1 → Nat) a + S16.size a ≤ S8192.size a
  inb_S8192_S16_3920 : ∀ a, (![3920] : Fin 1 → Nat) a + S16.size a ≤ S8192.size a
  inb_S8192_S16_4432 : ∀ a, (![4432] : Fin 1 → Nat) a + S16.size a ≤ S8192.size a
  inb_S8192_S16_4944 : ∀ a, (![4944] : Fin 1 → Nat) a + S16.size a ≤ S8192.size a
  inb_S8192_S16_5456 : ∀ a, (![5456] : Fin 1 → Nat) a + S16.size a ≤ S8192.size a
  inb_S8192_S16_5968 : ∀ a, (![5968] : Fin 1 → Nat) a + S16.size a ≤ S8192.size a
  inb_S8192_S16_6480 : ∀ a, (![6480] : Fin 1 → Nat) a + S16.size a ≤ S8192.size a
  inb_S8192_S16_6992 : ∀ a, (![6992] : Fin 1 → Nat) a + S16.size a ≤ S8192.size a
  inb_S8192_S16_7504 : ∀ a, (![7504] : Fin 1 → Nat) a + S16.size a ≤ S8192.size a
  inb_S8192_S16_8016 : ∀ a, (![8016] : Fin 1 → Nat) a + S16.size a ≤ S8192.size a
  inb_S512_S16_336 : ∀ a, (![336] : Fin 1 → Nat) a + S16.size a ≤ S512.size a
  inb_S13312_S16_352 : ∀ a, (![352] : Fin 1 → Nat) a + S16.size a ≤ S13312.size a
  inb_S13312_S16_864 : ∀ a, (![864] : Fin 1 → Nat) a + S16.size a ≤ S13312.size a
  inb_S13312_S16_1376 : ∀ a, (![1376] : Fin 1 → Nat) a + S16.size a ≤ S13312.size a
  inb_S13312_S16_1888 : ∀ a, (![1888] : Fin 1 → Nat) a + S16.size a ≤ S13312.size a
  inb_S13312_S16_2400 : ∀ a, (![2400] : Fin 1 → Nat) a + S16.size a ≤ S13312.size a
  inb_S13312_S16_2912 : ∀ a, (![2912] : Fin 1 → Nat) a + S16.size a ≤ S13312.size a
  inb_S13312_S16_3424 : ∀ a, (![3424] : Fin 1 → Nat) a + S16.size a ≤ S13312.size a
  inb_S13312_S16_3936 : ∀ a, (![3936] : Fin 1 → Nat) a + S16.size a ≤ S13312.size a
  inb_S13312_S16_4448 : ∀ a, (![4448] : Fin 1 → Nat) a + S16.size a ≤ S13312.size a
  inb_S13312_S16_4960 : ∀ a, (![4960] : Fin 1 → Nat) a + S16.size a ≤ S13312.size a
  inb_S13312_S16_5472 : ∀ a, (![5472] : Fin 1 → Nat) a + S16.size a ≤ S13312.size a
  inb_S13312_S16_5984 : ∀ a, (![5984] : Fin 1 → Nat) a + S16.size a ≤ S13312.size a
  inb_S13312_S16_6496 : ∀ a, (![6496] : Fin 1 → Nat) a + S16.size a ≤ S13312.size a
  inb_S13312_S16_7008 : ∀ a, (![7008] : Fin 1 → Nat) a + S16.size a ≤ S13312.size a
  inb_S13312_S16_7520 : ∀ a, (![7520] : Fin 1 → Nat) a + S16.size a ≤ S13312.size a
  inb_S13312_S16_8032 : ∀ a, (![8032] : Fin 1 → Nat) a + S16.size a ≤ S13312.size a
  inb_S13312_S16_8544 : ∀ a, (![8544] : Fin 1 → Nat) a + S16.size a ≤ S13312.size a
  inb_S13312_S16_9056 : ∀ a, (![9056] : Fin 1 → Nat) a + S16.size a ≤ S13312.size a

class Shapes2.Facts₀ : Prop where
  inb_S13312_S16_9568 : ∀ a, (![9568] : Fin 1 → Nat) a + S16.size a ≤ S13312.size a
  inb_S13312_S16_10080 : ∀ a, (![10080] : Fin 1 → Nat) a + S16.size a ≤ S13312.size a
  inb_S13312_S16_10592 : ∀ a, (![10592] : Fin 1 → Nat) a + S16.size a ≤ S13312.size a
  inb_S13312_S16_11104 : ∀ a, (![11104] : Fin 1 → Nat) a + S16.size a ≤ S13312.size a
  inb_S13312_S16_11616 : ∀ a, (![11616] : Fin 1 → Nat) a + S16.size a ≤ S13312.size a
  inb_S13312_S16_12128 : ∀ a, (![12128] : Fin 1 → Nat) a + S16.size a ≤ S13312.size a
  inb_S13312_S16_12640 : ∀ a, (![12640] : Fin 1 → Nat) a + S16.size a ≤ S13312.size a
  inb_S13312_S16_13152 : ∀ a, (![13152] : Fin 1 → Nat) a + S16.size a ≤ S13312.size a
  inb_S8192_S16_352 : ∀ a, (![352] : Fin 1 → Nat) a + S16.size a ≤ S8192.size a
  inb_S8192_S16_864 : ∀ a, (![864] : Fin 1 → Nat) a + S16.size a ≤ S8192.size a
  inb_S8192_S16_1376 : ∀ a, (![1376] : Fin 1 → Nat) a + S16.size a ≤ S8192.size a
  inb_S8192_S16_1888 : ∀ a, (![1888] : Fin 1 → Nat) a + S16.size a ≤ S8192.size a
  inb_S8192_S16_2400 : ∀ a, (![2400] : Fin 1 → Nat) a + S16.size a ≤ S8192.size a
  inb_S8192_S16_2912 : ∀ a, (![2912] : Fin 1 → Nat) a + S16.size a ≤ S8192.size a
  inb_S8192_S16_3424 : ∀ a, (![3424] : Fin 1 → Nat) a + S16.size a ≤ S8192.size a
  inb_S8192_S16_3936 : ∀ a, (![3936] : Fin 1 → Nat) a + S16.size a ≤ S8192.size a
  inb_S8192_S16_4448 : ∀ a, (![4448] : Fin 1 → Nat) a + S16.size a ≤ S8192.size a
  inb_S8192_S16_4960 : ∀ a, (![4960] : Fin 1 → Nat) a + S16.size a ≤ S8192.size a
  inb_S8192_S16_5472 : ∀ a, (![5472] : Fin 1 → Nat) a + S16.size a ≤ S8192.size a
  inb_S8192_S16_5984 : ∀ a, (![5984] : Fin 1 → Nat) a + S16.size a ≤ S8192.size a
  inb_S8192_S16_6496 : ∀ a, (![6496] : Fin 1 → Nat) a + S16.size a ≤ S8192.size a
  inb_S8192_S16_7008 : ∀ a, (![7008] : Fin 1 → Nat) a + S16.size a ≤ S8192.size a
  inb_S8192_S16_7520 : ∀ a, (![7520] : Fin 1 → Nat) a + S16.size a ≤ S8192.size a
  inb_S8192_S16_8032 : ∀ a, (![8032] : Fin 1 → Nat) a + S16.size a ≤ S8192.size a
  inb_S512_S16_352 : ∀ a, (![352] : Fin 1 → Nat) a + S16.size a ≤ S512.size a
  inb_S13312_S16_368 : ∀ a, (![368] : Fin 1 → Nat) a + S16.size a ≤ S13312.size a
  inb_S13312_S16_880 : ∀ a, (![880] : Fin 1 → Nat) a + S16.size a ≤ S13312.size a
  inb_S13312_S16_1392 : ∀ a, (![1392] : Fin 1 → Nat) a + S16.size a ≤ S13312.size a
  inb_S13312_S16_1904 : ∀ a, (![1904] : Fin 1 → Nat) a + S16.size a ≤ S13312.size a
  inb_S13312_S16_2416 : ∀ a, (![2416] : Fin 1 → Nat) a + S16.size a ≤ S13312.size a
  inb_S13312_S16_2928 : ∀ a, (![2928] : Fin 1 → Nat) a + S16.size a ≤ S13312.size a
  inb_S13312_S16_3440 : ∀ a, (![3440] : Fin 1 → Nat) a + S16.size a ≤ S13312.size a
  inb_S13312_S16_3952 : ∀ a, (![3952] : Fin 1 → Nat) a + S16.size a ≤ S13312.size a
  inb_S13312_S16_4464 : ∀ a, (![4464] : Fin 1 → Nat) a + S16.size a ≤ S13312.size a
  inb_S13312_S16_4976 : ∀ a, (![4976] : Fin 1 → Nat) a + S16.size a ≤ S13312.size a
  inb_S13312_S16_5488 : ∀ a, (![5488] : Fin 1 → Nat) a + S16.size a ≤ S13312.size a
  inb_S13312_S16_6000 : ∀ a, (![6000] : Fin 1 → Nat) a + S16.size a ≤ S13312.size a
  inb_S13312_S16_6512 : ∀ a, (![6512] : Fin 1 → Nat) a + S16.size a ≤ S13312.size a
  inb_S13312_S16_7024 : ∀ a, (![7024] : Fin 1 → Nat) a + S16.size a ≤ S13312.size a
  inb_S13312_S16_7536 : ∀ a, (![7536] : Fin 1 → Nat) a + S16.size a ≤ S13312.size a
  inb_S13312_S16_8048 : ∀ a, (![8048] : Fin 1 → Nat) a + S16.size a ≤ S13312.size a
  inb_S13312_S16_8560 : ∀ a, (![8560] : Fin 1 → Nat) a + S16.size a ≤ S13312.size a
  inb_S13312_S16_9072 : ∀ a, (![9072] : Fin 1 → Nat) a + S16.size a ≤ S13312.size a
  inb_S13312_S16_9584 : ∀ a, (![9584] : Fin 1 → Nat) a + S16.size a ≤ S13312.size a
  inb_S13312_S16_10096 : ∀ a, (![10096] : Fin 1 → Nat) a + S16.size a ≤ S13312.size a
  inb_S13312_S16_10608 : ∀ a, (![10608] : Fin 1 → Nat) a + S16.size a ≤ S13312.size a
  inb_S13312_S16_11120 : ∀ a, (![11120] : Fin 1 → Nat) a + S16.size a ≤ S13312.size a
  inb_S13312_S16_11632 : ∀ a, (![11632] : Fin 1 → Nat) a + S16.size a ≤ S13312.size a
  inb_S13312_S16_12144 : ∀ a, (![12144] : Fin 1 → Nat) a + S16.size a ≤ S13312.size a
  inb_S13312_S16_12656 : ∀ a, (![12656] : Fin 1 → Nat) a + S16.size a ≤ S13312.size a
  inb_S13312_S16_13168 : ∀ a, (![13168] : Fin 1 → Nat) a + S16.size a ≤ S13312.size a
  inb_S8192_S16_368 : ∀ a, (![368] : Fin 1 → Nat) a + S16.size a ≤ S8192.size a
  inb_S8192_S16_880 : ∀ a, (![880] : Fin 1 → Nat) a + S16.size a ≤ S8192.size a
  inb_S8192_S16_1392 : ∀ a, (![1392] : Fin 1 → Nat) a + S16.size a ≤ S8192.size a
  inb_S8192_S16_1904 : ∀ a, (![1904] : Fin 1 → Nat) a + S16.size a ≤ S8192.size a
  inb_S8192_S16_2416 : ∀ a, (![2416] : Fin 1 → Nat) a + S16.size a ≤ S8192.size a
  inb_S8192_S16_2928 : ∀ a, (![2928] : Fin 1 → Nat) a + S16.size a ≤ S8192.size a
  inb_S8192_S16_3440 : ∀ a, (![3440] : Fin 1 → Nat) a + S16.size a ≤ S8192.size a
  inb_S8192_S16_3952 : ∀ a, (![3952] : Fin 1 → Nat) a + S16.size a ≤ S8192.size a
  inb_S8192_S16_4464 : ∀ a, (![4464] : Fin 1 → Nat) a + S16.size a ≤ S8192.size a
  inb_S8192_S16_4976 : ∀ a, (![4976] : Fin 1 → Nat) a + S16.size a ≤ S8192.size a
  inb_S8192_S16_5488 : ∀ a, (![5488] : Fin 1 → Nat) a + S16.size a ≤ S8192.size a
  inb_S8192_S16_6000 : ∀ a, (![6000] : Fin 1 → Nat) a + S16.size a ≤ S8192.size a
  inb_S8192_S16_6512 : ∀ a, (![6512] : Fin 1 → Nat) a + S16.size a ≤ S8192.size a
  inb_S8192_S16_7024 : ∀ a, (![7024] : Fin 1 → Nat) a + S16.size a ≤ S8192.size a
  inb_S8192_S16_7536 : ∀ a, (![7536] : Fin 1 → Nat) a + S16.size a ≤ S8192.size a
  inb_S8192_S16_8048 : ∀ a, (![8048] : Fin 1 → Nat) a + S16.size a ≤ S8192.size a
  inb_S512_S16_368 : ∀ a, (![368] : Fin 1 → Nat) a + S16.size a ≤ S512.size a
  inb_S13312_S16_384 : ∀ a, (![384] : Fin 1 → Nat) a + S16.size a ≤ S13312.size a
  inb_S13312_S16_896 : ∀ a, (![896] : Fin 1 → Nat) a + S16.size a ≤ S13312.size a
  inb_S13312_S16_1408 : ∀ a, (![1408] : Fin 1 → Nat) a + S16.size a ≤ S13312.size a
  inb_S13312_S16_1920 : ∀ a, (![1920] : Fin 1 → Nat) a + S16.size a ≤ S13312.size a
  inb_S13312_S16_2432 : ∀ a, (![2432] : Fin 1 → Nat) a + S16.size a ≤ S13312.size a
  inb_S13312_S16_2944 : ∀ a, (![2944] : Fin 1 → Nat) a + S16.size a ≤ S13312.size a
  inb_S13312_S16_3456 : ∀ a, (![3456] : Fin 1 → Nat) a + S16.size a ≤ S13312.size a
  inb_S13312_S16_3968 : ∀ a, (![3968] : Fin 1 → Nat) a + S16.size a ≤ S13312.size a
  inb_S13312_S16_4480 : ∀ a, (![4480] : Fin 1 → Nat) a + S16.size a ≤ S13312.size a
  inb_S13312_S16_4992 : ∀ a, (![4992] : Fin 1 → Nat) a + S16.size a ≤ S13312.size a
  inb_S13312_S16_5504 : ∀ a, (![5504] : Fin 1 → Nat) a + S16.size a ≤ S13312.size a
  inb_S13312_S16_6016 : ∀ a, (![6016] : Fin 1 → Nat) a + S16.size a ≤ S13312.size a
  inb_S13312_S16_6528 : ∀ a, (![6528] : Fin 1 → Nat) a + S16.size a ≤ S13312.size a
  inb_S13312_S16_7040 : ∀ a, (![7040] : Fin 1 → Nat) a + S16.size a ≤ S13312.size a
  inb_S13312_S16_7552 : ∀ a, (![7552] : Fin 1 → Nat) a + S16.size a ≤ S13312.size a
  inb_S13312_S16_8064 : ∀ a, (![8064] : Fin 1 → Nat) a + S16.size a ≤ S13312.size a
  inb_S13312_S16_8576 : ∀ a, (![8576] : Fin 1 → Nat) a + S16.size a ≤ S13312.size a
  inb_S13312_S16_9088 : ∀ a, (![9088] : Fin 1 → Nat) a + S16.size a ≤ S13312.size a
  inb_S13312_S16_9600 : ∀ a, (![9600] : Fin 1 → Nat) a + S16.size a ≤ S13312.size a
  inb_S13312_S16_10112 : ∀ a, (![10112] : Fin 1 → Nat) a + S16.size a ≤ S13312.size a
  inb_S13312_S16_10624 : ∀ a, (![10624] : Fin 1 → Nat) a + S16.size a ≤ S13312.size a
  inb_S13312_S16_11136 : ∀ a, (![11136] : Fin 1 → Nat) a + S16.size a ≤ S13312.size a
  inb_S13312_S16_11648 : ∀ a, (![11648] : Fin 1 → Nat) a + S16.size a ≤ S13312.size a
  inb_S13312_S16_12160 : ∀ a, (![12160] : Fin 1 → Nat) a + S16.size a ≤ S13312.size a
  inb_S13312_S16_12672 : ∀ a, (![12672] : Fin 1 → Nat) a + S16.size a ≤ S13312.size a
  inb_S13312_S16_13184 : ∀ a, (![13184] : Fin 1 → Nat) a + S16.size a ≤ S13312.size a
  inb_S8192_S16_384 : ∀ a, (![384] : Fin 1 → Nat) a + S16.size a ≤ S8192.size a
  inb_S8192_S16_896 : ∀ a, (![896] : Fin 1 → Nat) a + S16.size a ≤ S8192.size a
  inb_S8192_S16_1408 : ∀ a, (![1408] : Fin 1 → Nat) a + S16.size a ≤ S8192.size a
  inb_S8192_S16_1920 : ∀ a, (![1920] : Fin 1 → Nat) a + S16.size a ≤ S8192.size a
  inb_S8192_S16_2432 : ∀ a, (![2432] : Fin 1 → Nat) a + S16.size a ≤ S8192.size a
  inb_S8192_S16_2944 : ∀ a, (![2944] : Fin 1 → Nat) a + S16.size a ≤ S8192.size a
  inb_S8192_S16_3456 : ∀ a, (![3456] : Fin 1 → Nat) a + S16.size a ≤ S8192.size a
  inb_S8192_S16_3968 : ∀ a, (![3968] : Fin 1 → Nat) a + S16.size a ≤ S8192.size a
  inb_S8192_S16_4480 : ∀ a, (![4480] : Fin 1 → Nat) a + S16.size a ≤ S8192.size a
  inb_S8192_S16_4992 : ∀ a, (![4992] : Fin 1 → Nat) a + S16.size a ≤ S8192.size a
  inb_S8192_S16_5504 : ∀ a, (![5504] : Fin 1 → Nat) a + S16.size a ≤ S8192.size a
  inb_S8192_S16_6016 : ∀ a, (![6016] : Fin 1 → Nat) a + S16.size a ≤ S8192.size a
  inb_S8192_S16_6528 : ∀ a, (![6528] : Fin 1 → Nat) a + S16.size a ≤ S8192.size a
  inb_S8192_S16_7040 : ∀ a, (![7040] : Fin 1 → Nat) a + S16.size a ≤ S8192.size a
  inb_S8192_S16_7552 : ∀ a, (![7552] : Fin 1 → Nat) a + S16.size a ≤ S8192.size a
  inb_S8192_S16_8064 : ∀ a, (![8064] : Fin 1 → Nat) a + S16.size a ≤ S8192.size a
  inb_S512_S16_384 : ∀ a, (![384] : Fin 1 → Nat) a + S16.size a ≤ S512.size a
  inb_S13312_S16_400 : ∀ a, (![400] : Fin 1 → Nat) a + S16.size a ≤ S13312.size a
  inb_S13312_S16_912 : ∀ a, (![912] : Fin 1 → Nat) a + S16.size a ≤ S13312.size a
  inb_S13312_S16_1424 : ∀ a, (![1424] : Fin 1 → Nat) a + S16.size a ≤ S13312.size a
  inb_S13312_S16_1936 : ∀ a, (![1936] : Fin 1 → Nat) a + S16.size a ≤ S13312.size a
  inb_S13312_S16_2448 : ∀ a, (![2448] : Fin 1 → Nat) a + S16.size a ≤ S13312.size a
  inb_S13312_S16_2960 : ∀ a, (![2960] : Fin 1 → Nat) a + S16.size a ≤ S13312.size a
  inb_S13312_S16_3472 : ∀ a, (![3472] : Fin 1 → Nat) a + S16.size a ≤ S13312.size a
  inb_S13312_S16_3984 : ∀ a, (![3984] : Fin 1 → Nat) a + S16.size a ≤ S13312.size a
  inb_S13312_S16_4496 : ∀ a, (![4496] : Fin 1 → Nat) a + S16.size a ≤ S13312.size a
  inb_S13312_S16_5008 : ∀ a, (![5008] : Fin 1 → Nat) a + S16.size a ≤ S13312.size a
  inb_S13312_S16_5520 : ∀ a, (![5520] : Fin 1 → Nat) a + S16.size a ≤ S13312.size a
  inb_S13312_S16_6032 : ∀ a, (![6032] : Fin 1 → Nat) a + S16.size a ≤ S13312.size a
  inb_S13312_S16_6544 : ∀ a, (![6544] : Fin 1 → Nat) a + S16.size a ≤ S13312.size a
  inb_S13312_S16_7056 : ∀ a, (![7056] : Fin 1 → Nat) a + S16.size a ≤ S13312.size a
  inb_S13312_S16_7568 : ∀ a, (![7568] : Fin 1 → Nat) a + S16.size a ≤ S13312.size a
  inb_S13312_S16_8080 : ∀ a, (![8080] : Fin 1 → Nat) a + S16.size a ≤ S13312.size a
  inb_S13312_S16_8592 : ∀ a, (![8592] : Fin 1 → Nat) a + S16.size a ≤ S13312.size a
  inb_S13312_S16_9104 : ∀ a, (![9104] : Fin 1 → Nat) a + S16.size a ≤ S13312.size a
  inb_S13312_S16_9616 : ∀ a, (![9616] : Fin 1 → Nat) a + S16.size a ≤ S13312.size a
  inb_S13312_S16_10128 : ∀ a, (![10128] : Fin 1 → Nat) a + S16.size a ≤ S13312.size a
  inb_S13312_S16_10640 : ∀ a, (![10640] : Fin 1 → Nat) a + S16.size a ≤ S13312.size a
  inb_S13312_S16_11152 : ∀ a, (![11152] : Fin 1 → Nat) a + S16.size a ≤ S13312.size a
  inb_S13312_S16_11664 : ∀ a, (![11664] : Fin 1 → Nat) a + S16.size a ≤ S13312.size a
  inb_S13312_S16_12176 : ∀ a, (![12176] : Fin 1 → Nat) a + S16.size a ≤ S13312.size a
  inb_S13312_S16_12688 : ∀ a, (![12688] : Fin 1 → Nat) a + S16.size a ≤ S13312.size a
  inb_S13312_S16_13200 : ∀ a, (![13200] : Fin 1 → Nat) a + S16.size a ≤ S13312.size a
  inb_S8192_S16_400 : ∀ a, (![400] : Fin 1 → Nat) a + S16.size a ≤ S8192.size a
  inb_S8192_S16_912 : ∀ a, (![912] : Fin 1 → Nat) a + S16.size a ≤ S8192.size a
  inb_S8192_S16_1424 : ∀ a, (![1424] : Fin 1 → Nat) a + S16.size a ≤ S8192.size a
  inb_S8192_S16_1936 : ∀ a, (![1936] : Fin 1 → Nat) a + S16.size a ≤ S8192.size a
  inb_S8192_S16_2448 : ∀ a, (![2448] : Fin 1 → Nat) a + S16.size a ≤ S8192.size a
  inb_S8192_S16_2960 : ∀ a, (![2960] : Fin 1 → Nat) a + S16.size a ≤ S8192.size a
  inb_S8192_S16_3472 : ∀ a, (![3472] : Fin 1 → Nat) a + S16.size a ≤ S8192.size a
  inb_S8192_S16_3984 : ∀ a, (![3984] : Fin 1 → Nat) a + S16.size a ≤ S8192.size a
  inb_S8192_S16_4496 : ∀ a, (![4496] : Fin 1 → Nat) a + S16.size a ≤ S8192.size a
  inb_S8192_S16_5008 : ∀ a, (![5008] : Fin 1 → Nat) a + S16.size a ≤ S8192.size a
  inb_S8192_S16_5520 : ∀ a, (![5520] : Fin 1 → Nat) a + S16.size a ≤ S8192.size a
  inb_S8192_S16_6032 : ∀ a, (![6032] : Fin 1 → Nat) a + S16.size a ≤ S8192.size a
  inb_S8192_S16_6544 : ∀ a, (![6544] : Fin 1 → Nat) a + S16.size a ≤ S8192.size a
  inb_S8192_S16_7056 : ∀ a, (![7056] : Fin 1 → Nat) a + S16.size a ≤ S8192.size a
  inb_S8192_S16_7568 : ∀ a, (![7568] : Fin 1 → Nat) a + S16.size a ≤ S8192.size a
  inb_S8192_S16_8080 : ∀ a, (![8080] : Fin 1 → Nat) a + S16.size a ≤ S8192.size a
  inb_S512_S16_400 : ∀ a, (![400] : Fin 1 → Nat) a + S16.size a ≤ S512.size a
  inb_S13312_S16_416 : ∀ a, (![416] : Fin 1 → Nat) a + S16.size a ≤ S13312.size a
  inb_S13312_S16_928 : ∀ a, (![928] : Fin 1 → Nat) a + S16.size a ≤ S13312.size a
  inb_S13312_S16_1440 : ∀ a, (![1440] : Fin 1 → Nat) a + S16.size a ≤ S13312.size a
  inb_S13312_S16_1952 : ∀ a, (![1952] : Fin 1 → Nat) a + S16.size a ≤ S13312.size a
  inb_S13312_S16_2464 : ∀ a, (![2464] : Fin 1 → Nat) a + S16.size a ≤ S13312.size a
  inb_S13312_S16_2976 : ∀ a, (![2976] : Fin 1 → Nat) a + S16.size a ≤ S13312.size a
  inb_S13312_S16_3488 : ∀ a, (![3488] : Fin 1 → Nat) a + S16.size a ≤ S13312.size a
  inb_S13312_S16_4000 : ∀ a, (![4000] : Fin 1 → Nat) a + S16.size a ≤ S13312.size a
  inb_S13312_S16_4512 : ∀ a, (![4512] : Fin 1 → Nat) a + S16.size a ≤ S13312.size a
  inb_S13312_S16_5024 : ∀ a, (![5024] : Fin 1 → Nat) a + S16.size a ≤ S13312.size a
  inb_S13312_S16_5536 : ∀ a, (![5536] : Fin 1 → Nat) a + S16.size a ≤ S13312.size a
  inb_S13312_S16_6048 : ∀ a, (![6048] : Fin 1 → Nat) a + S16.size a ≤ S13312.size a
  inb_S13312_S16_6560 : ∀ a, (![6560] : Fin 1 → Nat) a + S16.size a ≤ S13312.size a
  inb_S13312_S16_7072 : ∀ a, (![7072] : Fin 1 → Nat) a + S16.size a ≤ S13312.size a
  inb_S13312_S16_7584 : ∀ a, (![7584] : Fin 1 → Nat) a + S16.size a ≤ S13312.size a
  inb_S13312_S16_8096 : ∀ a, (![8096] : Fin 1 → Nat) a + S16.size a ≤ S13312.size a
  inb_S13312_S16_8608 : ∀ a, (![8608] : Fin 1 → Nat) a + S16.size a ≤ S13312.size a
  inb_S13312_S16_9120 : ∀ a, (![9120] : Fin 1 → Nat) a + S16.size a ≤ S13312.size a
  inb_S13312_S16_9632 : ∀ a, (![9632] : Fin 1 → Nat) a + S16.size a ≤ S13312.size a
  inb_S13312_S16_10144 : ∀ a, (![10144] : Fin 1 → Nat) a + S16.size a ≤ S13312.size a
  inb_S13312_S16_10656 : ∀ a, (![10656] : Fin 1 → Nat) a + S16.size a ≤ S13312.size a
  inb_S13312_S16_11168 : ∀ a, (![11168] : Fin 1 → Nat) a + S16.size a ≤ S13312.size a
  inb_S13312_S16_11680 : ∀ a, (![11680] : Fin 1 → Nat) a + S16.size a ≤ S13312.size a
  inb_S13312_S16_12192 : ∀ a, (![12192] : Fin 1 → Nat) a + S16.size a ≤ S13312.size a
  inb_S13312_S16_12704 : ∀ a, (![12704] : Fin 1 → Nat) a + S16.size a ≤ S13312.size a
  inb_S13312_S16_13216 : ∀ a, (![13216] : Fin 1 → Nat) a + S16.size a ≤ S13312.size a
  inb_S8192_S16_416 : ∀ a, (![416] : Fin 1 → Nat) a + S16.size a ≤ S8192.size a
  inb_S8192_S16_928 : ∀ a, (![928] : Fin 1 → Nat) a + S16.size a ≤ S8192.size a
  inb_S8192_S16_1440 : ∀ a, (![1440] : Fin 1 → Nat) a + S16.size a ≤ S8192.size a
  inb_S8192_S16_1952 : ∀ a, (![1952] : Fin 1 → Nat) a + S16.size a ≤ S8192.size a
  inb_S8192_S16_2464 : ∀ a, (![2464] : Fin 1 → Nat) a + S16.size a ≤ S8192.size a
  inb_S8192_S16_2976 : ∀ a, (![2976] : Fin 1 → Nat) a + S16.size a ≤ S8192.size a
  inb_S8192_S16_3488 : ∀ a, (![3488] : Fin 1 → Nat) a + S16.size a ≤ S8192.size a
  inb_S8192_S16_4000 : ∀ a, (![4000] : Fin 1 → Nat) a + S16.size a ≤ S8192.size a
  inb_S8192_S16_4512 : ∀ a, (![4512] : Fin 1 → Nat) a + S16.size a ≤ S8192.size a
  inb_S8192_S16_5024 : ∀ a, (![5024] : Fin 1 → Nat) a + S16.size a ≤ S8192.size a
  inb_S8192_S16_5536 : ∀ a, (![5536] : Fin 1 → Nat) a + S16.size a ≤ S8192.size a
  inb_S8192_S16_6048 : ∀ a, (![6048] : Fin 1 → Nat) a + S16.size a ≤ S8192.size a
  inb_S8192_S16_6560 : ∀ a, (![6560] : Fin 1 → Nat) a + S16.size a ≤ S8192.size a
  inb_S8192_S16_7072 : ∀ a, (![7072] : Fin 1 → Nat) a + S16.size a ≤ S8192.size a
  inb_S8192_S16_7584 : ∀ a, (![7584] : Fin 1 → Nat) a + S16.size a ≤ S8192.size a
  inb_S8192_S16_8096 : ∀ a, (![8096] : Fin 1 → Nat) a + S16.size a ≤ S8192.size a
  inb_S512_S16_416 : ∀ a, (![416] : Fin 1 → Nat) a + S16.size a ≤ S512.size a
  inb_S13312_S16_432 : ∀ a, (![432] : Fin 1 → Nat) a + S16.size a ≤ S13312.size a
  inb_S13312_S16_944 : ∀ a, (![944] : Fin 1 → Nat) a + S16.size a ≤ S13312.size a
  inb_S13312_S16_1456 : ∀ a, (![1456] : Fin 1 → Nat) a + S16.size a ≤ S13312.size a
  inb_S13312_S16_1968 : ∀ a, (![1968] : Fin 1 → Nat) a + S16.size a ≤ S13312.size a
  inb_S13312_S16_2480 : ∀ a, (![2480] : Fin 1 → Nat) a + S16.size a ≤ S13312.size a
  inb_S13312_S16_2992 : ∀ a, (![2992] : Fin 1 → Nat) a + S16.size a ≤ S13312.size a
  inb_S13312_S16_3504 : ∀ a, (![3504] : Fin 1 → Nat) a + S16.size a ≤ S13312.size a
  inb_S13312_S16_4016 : ∀ a, (![4016] : Fin 1 → Nat) a + S16.size a ≤ S13312.size a
  inb_S13312_S16_4528 : ∀ a, (![4528] : Fin 1 → Nat) a + S16.size a ≤ S13312.size a
  inb_S13312_S16_5040 : ∀ a, (![5040] : Fin 1 → Nat) a + S16.size a ≤ S13312.size a
  inb_S13312_S16_5552 : ∀ a, (![5552] : Fin 1 → Nat) a + S16.size a ≤ S13312.size a
  inb_S13312_S16_6064 : ∀ a, (![6064] : Fin 1 → Nat) a + S16.size a ≤ S13312.size a
  inb_S13312_S16_6576 : ∀ a, (![6576] : Fin 1 → Nat) a + S16.size a ≤ S13312.size a
  inb_S13312_S16_7088 : ∀ a, (![7088] : Fin 1 → Nat) a + S16.size a ≤ S13312.size a
  inb_S13312_S16_7600 : ∀ a, (![7600] : Fin 1 → Nat) a + S16.size a ≤ S13312.size a
  inb_S13312_S16_8112 : ∀ a, (![8112] : Fin 1 → Nat) a + S16.size a ≤ S13312.size a
  inb_S13312_S16_8624 : ∀ a, (![8624] : Fin 1 → Nat) a + S16.size a ≤ S13312.size a
  inb_S13312_S16_9136 : ∀ a, (![9136] : Fin 1 → Nat) a + S16.size a ≤ S13312.size a
  inb_S13312_S16_9648 : ∀ a, (![9648] : Fin 1 → Nat) a + S16.size a ≤ S13312.size a
  inb_S13312_S16_10160 : ∀ a, (![10160] : Fin 1 → Nat) a + S16.size a ≤ S13312.size a
  inb_S13312_S16_10672 : ∀ a, (![10672] : Fin 1 → Nat) a + S16.size a ≤ S13312.size a
  inb_S13312_S16_11184 : ∀ a, (![11184] : Fin 1 → Nat) a + S16.size a ≤ S13312.size a
  inb_S13312_S16_11696 : ∀ a, (![11696] : Fin 1 → Nat) a + S16.size a ≤ S13312.size a
  inb_S13312_S16_12208 : ∀ a, (![12208] : Fin 1 → Nat) a + S16.size a ≤ S13312.size a
  inb_S13312_S16_12720 : ∀ a, (![12720] : Fin 1 → Nat) a + S16.size a ≤ S13312.size a
  inb_S13312_S16_13232 : ∀ a, (![13232] : Fin 1 → Nat) a + S16.size a ≤ S13312.size a
  inb_S8192_S16_432 : ∀ a, (![432] : Fin 1 → Nat) a + S16.size a ≤ S8192.size a
  inb_S8192_S16_944 : ∀ a, (![944] : Fin 1 → Nat) a + S16.size a ≤ S8192.size a
  inb_S8192_S16_1456 : ∀ a, (![1456] : Fin 1 → Nat) a + S16.size a ≤ S8192.size a
  inb_S8192_S16_1968 : ∀ a, (![1968] : Fin 1 → Nat) a + S16.size a ≤ S8192.size a
  inb_S8192_S16_2480 : ∀ a, (![2480] : Fin 1 → Nat) a + S16.size a ≤ S8192.size a
  inb_S8192_S16_2992 : ∀ a, (![2992] : Fin 1 → Nat) a + S16.size a ≤ S8192.size a
  inb_S8192_S16_3504 : ∀ a, (![3504] : Fin 1 → Nat) a + S16.size a ≤ S8192.size a
  inb_S8192_S16_4016 : ∀ a, (![4016] : Fin 1 → Nat) a + S16.size a ≤ S8192.size a
  inb_S8192_S16_4528 : ∀ a, (![4528] : Fin 1 → Nat) a + S16.size a ≤ S8192.size a
  inb_S8192_S16_5040 : ∀ a, (![5040] : Fin 1 → Nat) a + S16.size a ≤ S8192.size a
  inb_S8192_S16_5552 : ∀ a, (![5552] : Fin 1 → Nat) a + S16.size a ≤ S8192.size a
  inb_S8192_S16_6064 : ∀ a, (![6064] : Fin 1 → Nat) a + S16.size a ≤ S8192.size a
  inb_S8192_S16_6576 : ∀ a, (![6576] : Fin 1 → Nat) a + S16.size a ≤ S8192.size a
  inb_S8192_S16_7088 : ∀ a, (![7088] : Fin 1 → Nat) a + S16.size a ≤ S8192.size a
  inb_S8192_S16_7600 : ∀ a, (![7600] : Fin 1 → Nat) a + S16.size a ≤ S8192.size a
  inb_S8192_S16_8112 : ∀ a, (![8112] : Fin 1 → Nat) a + S16.size a ≤ S8192.size a
  inb_S512_S16_432 : ∀ a, (![432] : Fin 1 → Nat) a + S16.size a ≤ S512.size a
  inb_S13312_S16_448 : ∀ a, (![448] : Fin 1 → Nat) a + S16.size a ≤ S13312.size a
  inb_S13312_S16_960 : ∀ a, (![960] : Fin 1 → Nat) a + S16.size a ≤ S13312.size a
  inb_S13312_S16_1472 : ∀ a, (![1472] : Fin 1 → Nat) a + S16.size a ≤ S13312.size a
  inb_S13312_S16_1984 : ∀ a, (![1984] : Fin 1 → Nat) a + S16.size a ≤ S13312.size a
  inb_S13312_S16_2496 : ∀ a, (![2496] : Fin 1 → Nat) a + S16.size a ≤ S13312.size a
  inb_S13312_S16_3008 : ∀ a, (![3008] : Fin 1 → Nat) a + S16.size a ≤ S13312.size a
  inb_S13312_S16_3520 : ∀ a, (![3520] : Fin 1 → Nat) a + S16.size a ≤ S13312.size a
  inb_S13312_S16_4032 : ∀ a, (![4032] : Fin 1 → Nat) a + S16.size a ≤ S13312.size a
  inb_S13312_S16_4544 : ∀ a, (![4544] : Fin 1 → Nat) a + S16.size a ≤ S13312.size a
  inb_S13312_S16_5056 : ∀ a, (![5056] : Fin 1 → Nat) a + S16.size a ≤ S13312.size a
  inb_S13312_S16_5568 : ∀ a, (![5568] : Fin 1 → Nat) a + S16.size a ≤ S13312.size a
  inb_S13312_S16_6080 : ∀ a, (![6080] : Fin 1 → Nat) a + S16.size a ≤ S13312.size a
  inb_S13312_S16_6592 : ∀ a, (![6592] : Fin 1 → Nat) a + S16.size a ≤ S13312.size a
  inb_S13312_S16_7104 : ∀ a, (![7104] : Fin 1 → Nat) a + S16.size a ≤ S13312.size a
  inb_S13312_S16_7616 : ∀ a, (![7616] : Fin 1 → Nat) a + S16.size a ≤ S13312.size a
  inb_S13312_S16_8128 : ∀ a, (![8128] : Fin 1 → Nat) a + S16.size a ≤ S13312.size a
  inb_S13312_S16_8640 : ∀ a, (![8640] : Fin 1 → Nat) a + S16.size a ≤ S13312.size a
  inb_S13312_S16_9152 : ∀ a, (![9152] : Fin 1 → Nat) a + S16.size a ≤ S13312.size a
  inb_S13312_S16_9664 : ∀ a, (![9664] : Fin 1 → Nat) a + S16.size a ≤ S13312.size a
  inb_S13312_S16_10176 : ∀ a, (![10176] : Fin 1 → Nat) a + S16.size a ≤ S13312.size a
  inb_S13312_S16_10688 : ∀ a, (![10688] : Fin 1 → Nat) a + S16.size a ≤ S13312.size a
  inb_S13312_S16_11200 : ∀ a, (![11200] : Fin 1 → Nat) a + S16.size a ≤ S13312.size a
  inb_S13312_S16_11712 : ∀ a, (![11712] : Fin 1 → Nat) a + S16.size a ≤ S13312.size a
  inb_S13312_S16_12224 : ∀ a, (![12224] : Fin 1 → Nat) a + S16.size a ≤ S13312.size a
  inb_S13312_S16_12736 : ∀ a, (![12736] : Fin 1 → Nat) a + S16.size a ≤ S13312.size a
  inb_S13312_S16_13248 : ∀ a, (![13248] : Fin 1 → Nat) a + S16.size a ≤ S13312.size a
  inb_S8192_S16_448 : ∀ a, (![448] : Fin 1 → Nat) a + S16.size a ≤ S8192.size a
  inb_S8192_S16_960 : ∀ a, (![960] : Fin 1 → Nat) a + S16.size a ≤ S8192.size a
  inb_S8192_S16_1472 : ∀ a, (![1472] : Fin 1 → Nat) a + S16.size a ≤ S8192.size a
  inb_S8192_S16_1984 : ∀ a, (![1984] : Fin 1 → Nat) a + S16.size a ≤ S8192.size a
  inb_S8192_S16_2496 : ∀ a, (![2496] : Fin 1 → Nat) a + S16.size a ≤ S8192.size a
  inb_S8192_S16_3008 : ∀ a, (![3008] : Fin 1 → Nat) a + S16.size a ≤ S8192.size a
  inb_S8192_S16_3520 : ∀ a, (![3520] : Fin 1 → Nat) a + S16.size a ≤ S8192.size a
  inb_S8192_S16_4032 : ∀ a, (![4032] : Fin 1 → Nat) a + S16.size a ≤ S8192.size a
  inb_S8192_S16_4544 : ∀ a, (![4544] : Fin 1 → Nat) a + S16.size a ≤ S8192.size a
  inb_S8192_S16_5056 : ∀ a, (![5056] : Fin 1 → Nat) a + S16.size a ≤ S8192.size a
  inb_S8192_S16_5568 : ∀ a, (![5568] : Fin 1 → Nat) a + S16.size a ≤ S8192.size a
  inb_S8192_S16_6080 : ∀ a, (![6080] : Fin 1 → Nat) a + S16.size a ≤ S8192.size a
  inb_S8192_S16_6592 : ∀ a, (![6592] : Fin 1 → Nat) a + S16.size a ≤ S8192.size a
  inb_S8192_S16_7104 : ∀ a, (![7104] : Fin 1 → Nat) a + S16.size a ≤ S8192.size a
  inb_S8192_S16_7616 : ∀ a, (![7616] : Fin 1 → Nat) a + S16.size a ≤ S8192.size a
  inb_S8192_S16_8128 : ∀ a, (![8128] : Fin 1 → Nat) a + S16.size a ≤ S8192.size a
  inb_S512_S16_448 : ∀ a, (![448] : Fin 1 → Nat) a + S16.size a ≤ S512.size a
  inb_S13312_S16_464 : ∀ a, (![464] : Fin 1 → Nat) a + S16.size a ≤ S13312.size a
  inb_S13312_S16_976 : ∀ a, (![976] : Fin 1 → Nat) a + S16.size a ≤ S13312.size a
  inb_S13312_S16_1488 : ∀ a, (![1488] : Fin 1 → Nat) a + S16.size a ≤ S13312.size a
  inb_S13312_S16_2000 : ∀ a, (![2000] : Fin 1 → Nat) a + S16.size a ≤ S13312.size a
  inb_S13312_S16_2512 : ∀ a, (![2512] : Fin 1 → Nat) a + S16.size a ≤ S13312.size a
  inb_S13312_S16_3024 : ∀ a, (![3024] : Fin 1 → Nat) a + S16.size a ≤ S13312.size a
  inb_S13312_S16_3536 : ∀ a, (![3536] : Fin 1 → Nat) a + S16.size a ≤ S13312.size a
  inb_S13312_S16_4048 : ∀ a, (![4048] : Fin 1 → Nat) a + S16.size a ≤ S13312.size a
  inb_S13312_S16_4560 : ∀ a, (![4560] : Fin 1 → Nat) a + S16.size a ≤ S13312.size a
  inb_S13312_S16_5072 : ∀ a, (![5072] : Fin 1 → Nat) a + S16.size a ≤ S13312.size a
  inb_S13312_S16_5584 : ∀ a, (![5584] : Fin 1 → Nat) a + S16.size a ≤ S13312.size a
  inb_S13312_S16_6096 : ∀ a, (![6096] : Fin 1 → Nat) a + S16.size a ≤ S13312.size a
  inb_S13312_S16_6608 : ∀ a, (![6608] : Fin 1 → Nat) a + S16.size a ≤ S13312.size a
  inb_S13312_S16_7120 : ∀ a, (![7120] : Fin 1 → Nat) a + S16.size a ≤ S13312.size a
  inb_S13312_S16_7632 : ∀ a, (![7632] : Fin 1 → Nat) a + S16.size a ≤ S13312.size a
  inb_S13312_S16_8144 : ∀ a, (![8144] : Fin 1 → Nat) a + S16.size a ≤ S13312.size a
  inb_S13312_S16_8656 : ∀ a, (![8656] : Fin 1 → Nat) a + S16.size a ≤ S13312.size a
  inb_S13312_S16_9168 : ∀ a, (![9168] : Fin 1 → Nat) a + S16.size a ≤ S13312.size a
  inb_S13312_S16_9680 : ∀ a, (![9680] : Fin 1 → Nat) a + S16.size a ≤ S13312.size a
  inb_S13312_S16_10192 : ∀ a, (![10192] : Fin 1 → Nat) a + S16.size a ≤ S13312.size a
  inb_S13312_S16_10704 : ∀ a, (![10704] : Fin 1 → Nat) a + S16.size a ≤ S13312.size a
  inb_S13312_S16_11216 : ∀ a, (![11216] : Fin 1 → Nat) a + S16.size a ≤ S13312.size a
  inb_S13312_S16_11728 : ∀ a, (![11728] : Fin 1 → Nat) a + S16.size a ≤ S13312.size a
  inb_S13312_S16_12240 : ∀ a, (![12240] : Fin 1 → Nat) a + S16.size a ≤ S13312.size a
  inb_S13312_S16_12752 : ∀ a, (![12752] : Fin 1 → Nat) a + S16.size a ≤ S13312.size a
  inb_S13312_S16_13264 : ∀ a, (![13264] : Fin 1 → Nat) a + S16.size a ≤ S13312.size a
  inb_S8192_S16_464 : ∀ a, (![464] : Fin 1 → Nat) a + S16.size a ≤ S8192.size a
  inb_S8192_S16_976 : ∀ a, (![976] : Fin 1 → Nat) a + S16.size a ≤ S8192.size a
  inb_S8192_S16_1488 : ∀ a, (![1488] : Fin 1 → Nat) a + S16.size a ≤ S8192.size a
  inb_S8192_S16_2000 : ∀ a, (![2000] : Fin 1 → Nat) a + S16.size a ≤ S8192.size a
  inb_S8192_S16_2512 : ∀ a, (![2512] : Fin 1 → Nat) a + S16.size a ≤ S8192.size a
  inb_S8192_S16_3024 : ∀ a, (![3024] : Fin 1 → Nat) a + S16.size a ≤ S8192.size a
  inb_S8192_S16_3536 : ∀ a, (![3536] : Fin 1 → Nat) a + S16.size a ≤ S8192.size a
  inb_S8192_S16_4048 : ∀ a, (![4048] : Fin 1 → Nat) a + S16.size a ≤ S8192.size a
  inb_S8192_S16_4560 : ∀ a, (![4560] : Fin 1 → Nat) a + S16.size a ≤ S8192.size a
  inb_S8192_S16_5072 : ∀ a, (![5072] : Fin 1 → Nat) a + S16.size a ≤ S8192.size a
  inb_S8192_S16_5584 : ∀ a, (![5584] : Fin 1 → Nat) a + S16.size a ≤ S8192.size a
  inb_S8192_S16_6096 : ∀ a, (![6096] : Fin 1 → Nat) a + S16.size a ≤ S8192.size a
  inb_S8192_S16_6608 : ∀ a, (![6608] : Fin 1 → Nat) a + S16.size a ≤ S8192.size a
  inb_S8192_S16_7120 : ∀ a, (![7120] : Fin 1 → Nat) a + S16.size a ≤ S8192.size a
  inb_S8192_S16_7632 : ∀ a, (![7632] : Fin 1 → Nat) a + S16.size a ≤ S8192.size a
  inb_S8192_S16_8144 : ∀ a, (![8144] : Fin 1 → Nat) a + S16.size a ≤ S8192.size a
  inb_S512_S16_464 : ∀ a, (![464] : Fin 1 → Nat) a + S16.size a ≤ S512.size a
  inb_S13312_S16_480 : ∀ a, (![480] : Fin 1 → Nat) a + S16.size a ≤ S13312.size a
  inb_S13312_S16_992 : ∀ a, (![992] : Fin 1 → Nat) a + S16.size a ≤ S13312.size a
  inb_S13312_S16_1504 : ∀ a, (![1504] : Fin 1 → Nat) a + S16.size a ≤ S13312.size a
  inb_S13312_S16_2016 : ∀ a, (![2016] : Fin 1 → Nat) a + S16.size a ≤ S13312.size a
  inb_S13312_S16_2528 : ∀ a, (![2528] : Fin 1 → Nat) a + S16.size a ≤ S13312.size a
  inb_S13312_S16_3040 : ∀ a, (![3040] : Fin 1 → Nat) a + S16.size a ≤ S13312.size a
  inb_S13312_S16_3552 : ∀ a, (![3552] : Fin 1 → Nat) a + S16.size a ≤ S13312.size a
  inb_S13312_S16_4064 : ∀ a, (![4064] : Fin 1 → Nat) a + S16.size a ≤ S13312.size a
  inb_S13312_S16_4576 : ∀ a, (![4576] : Fin 1 → Nat) a + S16.size a ≤ S13312.size a
  inb_S13312_S16_5088 : ∀ a, (![5088] : Fin 1 → Nat) a + S16.size a ≤ S13312.size a
  inb_S13312_S16_5600 : ∀ a, (![5600] : Fin 1 → Nat) a + S16.size a ≤ S13312.size a
  inb_S13312_S16_6112 : ∀ a, (![6112] : Fin 1 → Nat) a + S16.size a ≤ S13312.size a
  inb_S13312_S16_6624 : ∀ a, (![6624] : Fin 1 → Nat) a + S16.size a ≤ S13312.size a
  inb_S13312_S16_7136 : ∀ a, (![7136] : Fin 1 → Nat) a + S16.size a ≤ S13312.size a
  inb_S13312_S16_7648 : ∀ a, (![7648] : Fin 1 → Nat) a + S16.size a ≤ S13312.size a
  inb_S13312_S16_8160 : ∀ a, (![8160] : Fin 1 → Nat) a + S16.size a ≤ S13312.size a
  inb_S13312_S16_8672 : ∀ a, (![8672] : Fin 1 → Nat) a + S16.size a ≤ S13312.size a
  inb_S13312_S16_9184 : ∀ a, (![9184] : Fin 1 → Nat) a + S16.size a ≤ S13312.size a
  inb_S13312_S16_9696 : ∀ a, (![9696] : Fin 1 → Nat) a + S16.size a ≤ S13312.size a
  inb_S13312_S16_10208 : ∀ a, (![10208] : Fin 1 → Nat) a + S16.size a ≤ S13312.size a
  inb_S13312_S16_10720 : ∀ a, (![10720] : Fin 1 → Nat) a + S16.size a ≤ S13312.size a
  inb_S13312_S16_11232 : ∀ a, (![11232] : Fin 1 → Nat) a + S16.size a ≤ S13312.size a
  inb_S13312_S16_11744 : ∀ a, (![11744] : Fin 1 → Nat) a + S16.size a ≤ S13312.size a
  inb_S13312_S16_12256 : ∀ a, (![12256] : Fin 1 → Nat) a + S16.size a ≤ S13312.size a
  inb_S13312_S16_12768 : ∀ a, (![12768] : Fin 1 → Nat) a + S16.size a ≤ S13312.size a
  inb_S13312_S16_13280 : ∀ a, (![13280] : Fin 1 → Nat) a + S16.size a ≤ S13312.size a
  inb_S8192_S16_480 : ∀ a, (![480] : Fin 1 → Nat) a + S16.size a ≤ S8192.size a
  inb_S8192_S16_992 : ∀ a, (![992] : Fin 1 → Nat) a + S16.size a ≤ S8192.size a
  inb_S8192_S16_1504 : ∀ a, (![1504] : Fin 1 → Nat) a + S16.size a ≤ S8192.size a
  inb_S8192_S16_2016 : ∀ a, (![2016] : Fin 1 → Nat) a + S16.size a ≤ S8192.size a
  inb_S8192_S16_2528 : ∀ a, (![2528] : Fin 1 → Nat) a + S16.size a ≤ S8192.size a
  inb_S8192_S16_3040 : ∀ a, (![3040] : Fin 1 → Nat) a + S16.size a ≤ S8192.size a
  inb_S8192_S16_3552 : ∀ a, (![3552] : Fin 1 → Nat) a + S16.size a ≤ S8192.size a
  inb_S8192_S16_4064 : ∀ a, (![4064] : Fin 1 → Nat) a + S16.size a ≤ S8192.size a
  inb_S8192_S16_4576 : ∀ a, (![4576] : Fin 1 → Nat) a + S16.size a ≤ S8192.size a
  inb_S8192_S16_5088 : ∀ a, (![5088] : Fin 1 → Nat) a + S16.size a ≤ S8192.size a
  inb_S8192_S16_5600 : ∀ a, (![5600] : Fin 1 → Nat) a + S16.size a ≤ S8192.size a
  inb_S8192_S16_6112 : ∀ a, (![6112] : Fin 1 → Nat) a + S16.size a ≤ S8192.size a
  inb_S8192_S16_6624 : ∀ a, (![6624] : Fin 1 → Nat) a + S16.size a ≤ S8192.size a
  inb_S8192_S16_7136 : ∀ a, (![7136] : Fin 1 → Nat) a + S16.size a ≤ S8192.size a
  inb_S8192_S16_7648 : ∀ a, (![7648] : Fin 1 → Nat) a + S16.size a ≤ S8192.size a
  inb_S8192_S16_8160 : ∀ a, (![8160] : Fin 1 → Nat) a + S16.size a ≤ S8192.size a
  inb_S512_S16_480 : ∀ a, (![480] : Fin 1 → Nat) a + S16.size a ≤ S512.size a
  inb_S13312_S16_496 : ∀ a, (![496] : Fin 1 → Nat) a + S16.size a ≤ S13312.size a
  inb_S13312_S16_1008 : ∀ a, (![1008] : Fin 1 → Nat) a + S16.size a ≤ S13312.size a
  inb_S13312_S16_1520 : ∀ a, (![1520] : Fin 1 → Nat) a + S16.size a ≤ S13312.size a
  inb_S13312_S16_2032 : ∀ a, (![2032] : Fin 1 → Nat) a + S16.size a ≤ S13312.size a
  inb_S13312_S16_2544 : ∀ a, (![2544] : Fin 1 → Nat) a + S16.size a ≤ S13312.size a
  inb_S13312_S16_3056 : ∀ a, (![3056] : Fin 1 → Nat) a + S16.size a ≤ S13312.size a
  inb_S13312_S16_3568 : ∀ a, (![3568] : Fin 1 → Nat) a + S16.size a ≤ S13312.size a
  inb_S13312_S16_4080 : ∀ a, (![4080] : Fin 1 → Nat) a + S16.size a ≤ S13312.size a
  inb_S13312_S16_4592 : ∀ a, (![4592] : Fin 1 → Nat) a + S16.size a ≤ S13312.size a
  inb_S13312_S16_5104 : ∀ a, (![5104] : Fin 1 → Nat) a + S16.size a ≤ S13312.size a
  inb_S13312_S16_5616 : ∀ a, (![5616] : Fin 1 → Nat) a + S16.size a ≤ S13312.size a
  inb_S13312_S16_6128 : ∀ a, (![6128] : Fin 1 → Nat) a + S16.size a ≤ S13312.size a
  inb_S13312_S16_6640 : ∀ a, (![6640] : Fin 1 → Nat) a + S16.size a ≤ S13312.size a
  inb_S13312_S16_7152 : ∀ a, (![7152] : Fin 1 → Nat) a + S16.size a ≤ S13312.size a
  inb_S13312_S16_7664 : ∀ a, (![7664] : Fin 1 → Nat) a + S16.size a ≤ S13312.size a
  inb_S13312_S16_8176 : ∀ a, (![8176] : Fin 1 → Nat) a + S16.size a ≤ S13312.size a
  inb_S13312_S16_8688 : ∀ a, (![8688] : Fin 1 → Nat) a + S16.size a ≤ S13312.size a
  inb_S13312_S16_9200 : ∀ a, (![9200] : Fin 1 → Nat) a + S16.size a ≤ S13312.size a
  inb_S13312_S16_9712 : ∀ a, (![9712] : Fin 1 → Nat) a + S16.size a ≤ S13312.size a
  inb_S13312_S16_10224 : ∀ a, (![10224] : Fin 1 → Nat) a + S16.size a ≤ S13312.size a
  inb_S13312_S16_10736 : ∀ a, (![10736] : Fin 1 → Nat) a + S16.size a ≤ S13312.size a
  inb_S13312_S16_11248 : ∀ a, (![11248] : Fin 1 → Nat) a + S16.size a ≤ S13312.size a
  inb_S13312_S16_11760 : ∀ a, (![11760] : Fin 1 → Nat) a + S16.size a ≤ S13312.size a
  inb_S13312_S16_12272 : ∀ a, (![12272] : Fin 1 → Nat) a + S16.size a ≤ S13312.size a
  inb_S13312_S16_12784 : ∀ a, (![12784] : Fin 1 → Nat) a + S16.size a ≤ S13312.size a
  inb_S13312_S16_13296 : ∀ a, (![13296] : Fin 1 → Nat) a + S16.size a ≤ S13312.size a
  inb_S8192_S16_496 : ∀ a, (![496] : Fin 1 → Nat) a + S16.size a ≤ S8192.size a
  inb_S8192_S16_1008 : ∀ a, (![1008] : Fin 1 → Nat) a + S16.size a ≤ S8192.size a
  inb_S8192_S16_1520 : ∀ a, (![1520] : Fin 1 → Nat) a + S16.size a ≤ S8192.size a
  inb_S8192_S16_2032 : ∀ a, (![2032] : Fin 1 → Nat) a + S16.size a ≤ S8192.size a
  inb_S8192_S16_2544 : ∀ a, (![2544] : Fin 1 → Nat) a + S16.size a ≤ S8192.size a
  inb_S8192_S16_3056 : ∀ a, (![3056] : Fin 1 → Nat) a + S16.size a ≤ S8192.size a
  inb_S8192_S16_3568 : ∀ a, (![3568] : Fin 1 → Nat) a + S16.size a ≤ S8192.size a
  inb_S8192_S16_4080 : ∀ a, (![4080] : Fin 1 → Nat) a + S16.size a ≤ S8192.size a
  inb_S8192_S16_4592 : ∀ a, (![4592] : Fin 1 → Nat) a + S16.size a ≤ S8192.size a
  inb_S8192_S16_5104 : ∀ a, (![5104] : Fin 1 → Nat) a + S16.size a ≤ S8192.size a
  inb_S8192_S16_5616 : ∀ a, (![5616] : Fin 1 → Nat) a + S16.size a ≤ S8192.size a
  inb_S8192_S16_6128 : ∀ a, (![6128] : Fin 1 → Nat) a + S16.size a ≤ S8192.size a
  inb_S8192_S16_6640 : ∀ a, (![6640] : Fin 1 → Nat) a + S16.size a ≤ S8192.size a
  inb_S8192_S16_7152 : ∀ a, (![7152] : Fin 1 → Nat) a + S16.size a ≤ S8192.size a
  inb_S8192_S16_7664 : ∀ a, (![7664] : Fin 1 → Nat) a + S16.size a ≤ S8192.size a
  inb_S8192_S16_8176 : ∀ a, (![8176] : Fin 1 → Nat) a + S16.size a ≤ S8192.size a
  inb_S512_S16_496 : ∀ a, (![496] : Fin 1 → Nat) a + S16.size a ≤ S512.size a
  shapeCasts_S16384_S16384x1 : S16384.ShapeCasts S16384x1
  hcc0_scratch6 : 0 + S_.numel ≤ 6
  hcc0_scoped0 : 1 + S_.numel ≤ 6
  hcc0_scoped1 : 2 + S_.numel ≤ 6
  hcc0_scoped2 : 3 + S_.numel ≤ 6
  hcc0_scoped3 : 4 + S_.numel ≤ 6
  hcc0_scoped4 : 5 + S_.numel ≤ 6
  hscKind : ∀ q, scKind q ≠ .tc
  hscCore : ∀ q, scNCore q ≤ τ.nSC
  hscSub : ∀ q, scNSub q ≤ τ.nSub

class Facts₀ : Prop where
  k0 : K0.Facts₀
  shapes1 : Shapes1.Facts₀
  shapes2 : Shapes2.Facts₀
attribute [instance] Facts₀.k0 Facts₀.shapes1 Facts₀.shapes2

variable [Facts₀]

abbrev cc0_scratch6 : DmaSems sig S_ := SemArray.consecutive 0 S_ hcc0_scratch6
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4

class Facts : Prop extends Facts₀ where

variable [Facts]
-- ==== ReferenceIdeal.lean ====
abbrev S16384x26 : Shape := ⟨2, ![16384, 26]⟩
abbrev S16384x16 : Shape := ⟨2, ![16384, 16]⟩
abbrev S1040000x1 : Shape := ⟨2, ![1040000, 1]⟩
abbrev S16x1 : Shape := ⟨2, ![16, 1]⟩
abbrev S1 : Shape := ⟨1, ![1]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩
abbrev S16384x1x1 : Shape := ⟨3, ![16384, 1, 1]⟩
abbrev S16384x27x1 : Shape := ⟨3, ![16384, 27, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x16, .f32⟩
  | .hbm, ⟨2, _⟩ => ⟨S1040000x1, .f32⟩
  | .hbm, ⟨3, _⟩ => ⟨S16x1, .f32⟩
  | .hbm, ⟨4, _⟩ => ⟨S1, .f32⟩
  | .hbm, ⟨5, _⟩ => ⟨S1, .f32⟩
  | .hbm, ⟨6, _⟩ => ⟨S26, .i32⟩
  | .hbm, ⟨7, _⟩ => ⟨S_, .i32⟩
  | .hbm, ⟨8, _⟩ => ⟨S26, .i32⟩
  | .hbm, ⟨9, _⟩ => ⟨S26, .i32⟩
  | .hbm, ⟨10, _⟩ => ⟨S1x26, .i32⟩
  | .hbm, ⟨11, _⟩ => ⟨S16384x26, .i32⟩
  | .hbm, ⟨12, _⟩ => ⟨S16384x26, .i32⟩
  | .hbm, ⟨13, _⟩ => ⟨S_, .i32⟩
  | .hbm, ⟨14, _⟩ => ⟨S16384x26, .i32⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S16384x26x1, .i32⟩
  | .hbm, ⟨21, _⟩ => ⟨S1, .i32⟩
  | .hbm, ⟨22, _⟩ => ⟨S_, .i32⟩
  | .hbm, ⟨23, _⟩ => ⟨S16384x26x1, .i32⟩
  | .hbm, ⟨24, _⟩ => ⟨S16384x26x1, .i1⟩
  | .hbm, ⟨25, _⟩ => ⟨S1x1x1, .i32⟩
  | .hbm, ⟨26, _⟩ => ⟨S16384x26x1, .i32⟩
  | .hbm, ⟨27, _⟩ => ⟨S16384x26x1, .i1⟩
  | .hbm, ⟨28, _⟩ => ⟨S16384x26x1, .i1⟩
  | .hbm, ⟨29, _⟩ => ⟨S_, .i1⟩
  | .hbm, ⟨30, _⟩ => ⟨S16384x26, .i1⟩
  | .hbm, ⟨31, _⟩ => ⟨S16384x26x1, .f32⟩
  | .hbm, ⟨32, _⟩ => ⟨S16384x26x1, .i1⟩
  | .hbm, ⟨33, _⟩ => ⟨S_, .f32⟩
  | .hbm, ⟨34, _⟩ => ⟨S16384x26x1, .f32⟩
  | .hbm, ⟨35, _⟩ => ⟨S16384x26x1, .f32⟩
  | .hbm, ⟨36, _⟩ => ⟨S16384x1, .f32⟩
  | .hbm, ⟨37, _⟩ => ⟨S1x1, .f32⟩
  | .hbm, ⟨38, _⟩ => ⟨S16384x1, .f32⟩
  | .hbm, ⟨39, _⟩ => ⟨S16384x1, .f32⟩
  | .hbm, ⟨40, _⟩ => ⟨S16384x1x1, .f32⟩
  | .hbm, ⟨41, _⟩ => ⟨S16384x27x1, .f32⟩
  | .hbm, ⟨42, _⟩ => ⟨S_, .f32⟩
  | .hbm, ⟨43, _⟩ => ⟨S16384x1, .f32⟩
  | .hbm, ⟨44, _⟩ => ⟨S1x1, .f32⟩
  | .hbm, ⟨45, _⟩ => ⟨S16384x1, .f32⟩
  | .hbm, ⟨46, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384x1x1 : S16384x1.ShapeCasts S16384x1x1
  concatenates_S16384x26x1_S16384x1x1_S16384x27x1_d1 : Shape.Concatenates [S16384x26x1, S16384x1x1] S16384x27x1 1
  reducesTo_S16384x27x1_S16384x1_d1 : S16384x27x1.ReducesTo [1] S16384x1
  gather_S1040000x1_S16384x26x1_S16384x26x1_2_0_n_n_0_2_11_wf : GatherDims.WF S1040000x1 S16384x26x1 S16384x26x1 [2] [0] [] [0] [] 2 ![1, 1]
  dot_S16384x16_S16x1_S16384x1_1_0_0_1_n_n_wf : DotDims.WF S16384x16 S16x1 S16384x1 [1] [0] [0] [1] [] []

variable [Facts₀]

def gather_S1040000x1_S16384x26x1_S16384x26x1_2_0_n_n_0_2_11 : GatherDims S1040000x1 S16384x26x1 S16384x26x1 where
  offsetDims := [2]
  collapsedSliceDims := [0]
  operandBatchingDims := []
  startIndicesBatchingDims := []
  startIndexMap := [0]
  indexVectorDim := 2
  sliceSizes := ![1, 1]
  wf := gather_S1040000x1_S16384x26x1_S16384x26x1_2_0_n_n_0_2_11_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.KISetup.lean ====
/-
  The lane-parallel program as the launch theorem sees it, and the ghost state its proof runs over:
  the launch handshakes' rounds, the barrier semaphores' rounds (one round per tile's barrier semaphore, one unit
  from every tile of its SparseCore), and the counters of the local copies.
-/
import proofs.«207416_g64579128263113_cont_9to1_m_974_55_alg».proof.KernelIdeal
import proofs.«207416_g64579128263113_cont_9to1_m_974_55_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

abbrev EH : Emb UH (MT nD τ sig (HIx 1) (Elt F) ℕ UU ℕ) := embL
/-- The barrier semaphores' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MT nD τ sig (HIx 1) (Elt F) ℕ UU ℕ)).LandsIn (upEmb : UEmb _ (MT nD τ sig (HIx 1) (Elt F) ℕ UU ℕ)) := by
  unfold EB; infer_instance

end Cert.Proof.KI

end
-- ==== Proof.Spec.lean ====
/-
  The function both programs compute, stated once, with no program in sight.

  For a batch row `b` the result is one number: the two bias terms, plus the 26 table entries the row's
  fields select (field `f` owns rows `40000 * f … 40000 * f + 39999` of the table, and selects the one at its own
  index inside that block), plus the inner product of the row's 16 dense features with the weight column.
  `acc` writes that number in the order the lane-parallel program adds it up, over any float instance; `out`
  writes it over the extended reals as bias + (sum over fields) + (sum over features). The two agree at the ideal
  instance because addition of extended reals is associative: a left-to-right running sum from a start value is
  the start value plus the sum.
-/
import Idealize.ShloMosaic.PureOps.Ideal
import Idealize.ShloMosaic.Lib.ValueIdx

noncomputable section

open scoped BigOperators

namespace Cert.Proof.Spec

open Idealize.ShloMosaic Idealize.ShloMosaic.ValueIdx

/-- The row of the flattened table that field `f` of batch row `b` selects: the field's own index, shifted past the
    `f` blocks of 40000 rows before its own. (Reduced modulo the table's length only so that the definition is total;
    for indices in `[0, 40000)` nothing is reduced.) -/
def row (x : IVec ⟨2, ![16384, 26]⟩ 32) (b : Fin 16384) (f : Fin 26) : Fin 1040000 :=
  ⟨((x (ix2 b f)).toNat + 40000 * f.val) % 1040000, Nat.mod_lt _ (by norm_num)⟩

/-- Nothing is reduced when the field's index is below 40000. -/
theorem row_val (x : IVec ⟨2, ![16384, 26]⟩ 32) (b : Fin 16384) (f : Fin 26) (h : (x (ix2 b f)).toNat ≤ 39999) :
    (row x b f).val = (x (ix2 b f)).toNat + 40000 * f.val := by
  have hf := f.isLt
  show ((x (ix2 b f)).toNat + 40000 * f.val) % 1040000 = _
  exact Nat.mod_eq_of_lt (by omega)

variable {F : FTy → Type} [FloatOps F]

/-- Batch row `b`'s number in the order it is accumulated lane by lane: start from the sum of the two biases, add the 26
    selected table entries field by field, then the 16 products weight × feature one by one. -/
def acc (x : IVec ⟨2, ![16384, 26]⟩ 32) (t : FVec F ⟨2, ![16384, 16]⟩ .f32) (tab : FVec F ⟨2, ![1040000, 1]⟩ .f32)
    (W : FVec F ⟨2, ![16, 1]⟩ .f32) (lb bias : FVec F ⟨1, ![1]⟩ .f32) (b : Fin 16384) : F .f32 :=
  (List.finRange 16).foldl (fun a k => FloatOps.addf a (FloatOps.mulf (W (ix2 k 0)) (t (ix2 b k))))
    ((List.finRange 26).foldl (fun a f => FloatOps.addf a (tab (ix2 (row x b f) 0)))
      (FloatOps.addf (lb (ix1 0)) (bias (ix1 0))))

/-- The whole result array in accumulation order: entry `(b, 0)` is row `b`'s number. -/
def kval (x : IVec ⟨2, ![16384, 26]⟩ 32) (t : FVec F ⟨2, ![16384, 16]⟩ .f32) (tab : FVec F ⟨2, ![1040000, 1]⟩ .f32)
    (W : FVec F ⟨2, ![16, 1]⟩ .f32) (lb bias : FVec F ⟨1, ![1]⟩ .f32) : FVec F ⟨2, ![16384, 1]⟩ .f32 :=
  fun i => acc x t tab W lb bias (i 0)

/-- The result array over the extended reals: biases + selected table entries + inner product with the weights. -/
def out (x : IVec ⟨2, ![16384, 26]⟩ 32) (t : FVec Ideal ⟨2, ![16384, 16]⟩ .f32) (tab : FVec Ideal ⟨2, ![1040000, 1]⟩ .f32)
    (W : FVec Ideal ⟨2, ![16, 1]⟩ .f32) (lb bias : FVec Ideal ⟨1, ![1]⟩ .f32) : FVec Ideal ⟨2, ![16384, 1]⟩ .f32 :=
  fun i => ((lb (ix1 0) + bias (ix1 0) : EReal) + ∑ f : Fin 26, (tab (ix2 (row x (i 0) f) 0) : EReal))
    + ∑ k : Fin 16, ((W (ix2 k 0) : EReal) * (t (ix2 (i 0) k) : EReal))

/-- A running sum from a start value is the start value plus the list's sum (any additive monoid). -/
theorem foldl_add_eq {α ι : Type} [AddMonoid α] (g : ι → α) (l : List ι) (c : α) :
    l.foldl (fun a k => a + g k) c = c + (l.map g).sum := by
  induction l generalizing c with
  | nil => simp
  | cons k l ih => simp [ih, add_assoc]

/-- At the ideal instance the accumulation order does not matter: the running sums are the sums. -/
theorem kval_ideal (x : IVec ⟨2, ![16384, 26]⟩ 32) (t : FVec Ideal ⟨2, ![16384, 16]⟩ .f32) (tab : FVec Ideal ⟨2, ![1040000, 1]⟩ .f32)
    (W : FVec Ideal ⟨2, ![16, 1]⟩ .f32) (lb bias : FVec Ideal ⟨1, ![1]⟩ .f32) :
    kval (F := Ideal) x t tab W lb bias = out x t tab W lb bias := by
  funext i
  show (List.finRange 16).foldl (fun (a : EReal) k => a + ((W (ix2 k 0) : EReal) * (t (ix2 (i 0) k) : EReal)))
      ((List.finRange 26).foldl (fun (a : EReal) f => a + (tab (ix2 (row x (i 0) f) 0) : EReal))
        ((lb (ix1 0) : EReal) + (bias (ix1 0) : EReal))) = _
  rw [foldl_add_eq, foldl_add_eq, ← Fin.sum_univ_def, ← Fin.sum_univ_def]
  rfl

end Cert.Proof.Spec

end
-- ==== Proof.Layout.lean ====
/-
  The flat arrays the lane-parallel program works on, as functions of the argument arrays.

  The 16384 batch rows are dealt to 32 workers, 512 consecutive rows each. For worker `w`:
  * the index list has 26 runs of 512 entries: entry `512 * f + r` is field `f` of batch row `512 * w + r`, already
    shifted by the field's block of 40000 table rows — so it is a row number of the flattened table;
  * the dense features have 16 runs of 512 entries: entry `512 * k + r` is feature `k` of batch row `512 * w + r`;
  the table is flattened as it stands; the parameter vector is the 16 weights, each repeated over 16 lanes, followed by
  16 lanes of the sum of the two biases; and the flat result of 16384 numbers is read back as a column.
-/
import Idealize.ShloMosaic.PureOps.Ideal
import Idealize.ShloMosaic.Lib.ValueIdx

noncomputable section

namespace Cert.Proof.Layout

open Idealize.ShloMosaic Idealize.ShloMosaic.ValueIdx

variable {F : FTy → Type} [FloatOps F]

/-- The batch row that entry `n` of a worker-major array of runs of 512 belongs to, `per` entries per worker. -/
def brow (per : Nat) (n : Nat) (h : n < 32 * per) (hper : 0 < per) : Fin 16384 :=
  ⟨512 * (n / per) + n % 512, by
    have h1 : n / per < 32 := (Nat.div_lt_iff_lt_mul hper).mpr h
    have h2 : n % 512 < 512 := Nat.mod_lt _ (by norm_num)
    omega⟩

/-- Which run (field, or feature) entry `n` lies in, `per = 512 * runs` entries per worker. -/
def run (per runs : Nat) (n : Nat) (hper : per = 512 * runs) (hruns : 0 < runs) : Fin runs :=
  ⟨(n % per) / 512, by
    have : n % per < per := Nat.mod_lt _ (by omega)
    exact (Nat.div_lt_iff_lt_mul (by norm_num)).mpr (by omega)⟩

/-- The index lists: 32 workers × 26 fields × 512 rows, each index shifted by its field's block of 40000. -/
def xw (x : IVec ⟨2, ![16384, 26]⟩ 32) : IVec ⟨1, ![425984]⟩ 32 := fun p =>
  x (ix2 (brow 13312 (p 0).val (p 0).isLt (by norm_num)) (run 13312 26 (p 0).val rfl (by norm_num)))
    + BitVec.ofNat 32 (40000 * ((p 0).val % 13312 / 512))

/-- The dense features: 32 workers × 16 features × 512 rows. -/
def tbw (t : FVec F ⟨2, ![16384, 16]⟩ .f32) : FVec F ⟨1, ![262144]⟩ .f32 := fun p =>
  t (ix2 (brow 8192 (p 0).val (p 0).isLt (by norm_num)) (run 8192 16 (p 0).val rfl (by norm_num)))

/-- The table, flattened. -/
def tabw (tab : FVec F ⟨2, ![1040000, 1]⟩ .f32) : FVec F ⟨1, ![1040000]⟩ .f32 := fun p => tab (ix2 (p 0) 0)

/-- The parameter vector: weight `k` on lanes `16 * k … 16 * k + 15`, then 16 lanes of the two biases' sum. -/
def pvw (W : FVec F ⟨2, ![16, 1]⟩ .f32) (lb bias : FVec F ⟨1, ![1]⟩ .f32) : FVec F ⟨1, ![272]⟩ .f32 := fun p =>
  if h : (p 0).val < 256 then W (ix2 ⟨(p 0).val / 16, (Nat.div_lt_iff_lt_mul (by norm_num)).mpr (by omega)⟩ 0)
  else FloatOps.addf (lb (ix1 0)) (bias (ix1 0))

/-- The flat result read back as a column. -/
def colw (o : FVec F ⟨1, ![16384]⟩ .f32) : FVec F ⟨2, ![16384, 1]⟩ .f32 := fun i => o (ix1 (i 0))

end Cert.Proof.Layout

end
-- ==== Proof.KIProto.lean ====
/-
  What each thread is handed and hands back, and what the barrier carries.

  The four arrays the workers read (index lists, dense features, flattened table, parameter vector) are never written
  after the host has made them, so every worker holds a read share of each, whole. The flat result is cut into the 32
  workers' runs of 512. The SparseCore's shared copy of the table is cut into 13 slabs of 80000 rows: tile `s < 13` of a
  SparseCore fills slab `s` from the table, and at the barrier hands every tile of its SparseCore a read share of that slab,
  filled; so after the barrier a tile holds a read share of each of the 13 slabs at the table's contents — of the whole
  shared copy.
-/
import proofs.«207416_g64579128263113_cont_9to1_m_974_55_alg».proof.Proof.KISetup
import proofs.«207416_g64579128263113_cont_9to1_m_974_55_alg».proof.Proof.Spec
import proofs.«207416_g64579128263113_cont_9to1_m_974_55_alg».proof.Proof.Layout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Locations -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5
/-- The index lists, the dense features, the flattened table, the parameter vector, the flat result, the result. -/
abbrev xwLoc (d : Dev nD) : Loc nD τ sig := (SparseCore.T d).loc main_v8
abbrev tbLoc (d : Dev nD) : Loc nD τ sig := (SparseCore.T d).loc main_v11
abbrev tabLoc (d : Dev nD) : Loc nD τ sig := (SparseCore.T d).loc main_v12
abbrev pvLoc (d : Dev nD) : Loc nD τ sig := (SparseCore.T d).loc main_v18
abbrev oLoc (d : Dev nD) : Loc nD τ sig := (SparseCore.T d).loc main_v19
abbrev rLoc (d : Dev nD) : Loc nD τ sig := (SparseCore.T d).loc main_v20

/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

variable [FloatOps F]

/-! ## Contents, as functions of the launch memory's arguments -/

def xwC (d : Dev nD) : Buf (Elt F) (xwLoc d) := Layout.xw (m (a0Loc d))
def tbC (d : Dev nD) : Buf (Elt F) (tbLoc d) := Layout.tbw (F := F) (m (a1Loc d))
def tabC (d : Dev nD) : Buf (Elt F) (tabLoc d) := Layout.tabw (F := F) (m (a2Loc d))
def pvC (d : Dev nD) : Buf (Elt F) (pvLoc d) := Layout.pvw (F := F) (m (a3Loc d)) (m (a4Loc d)) (m (a5Loc d))
def shC (d : Dev nD) (c : Fin τ.nSC) : Buf (Elt F) (shLoc d c) := Layout.tabw (F := F) (m (a2Loc d))
/-- The flat result: entry `b` is batch row `b`'s number, in accumulation order. -/
def oC (d : Dev nD) : Buf (Elt F) (oLoc d) := fun p =>
  Spec.acc (F := F) (m (a0Loc d)) (m (a1Loc d)) (m (a2Loc d)) (m (a3Loc d)) (m (a4Loc d)) (m (a5Loc d)) (p 0)

/-! ## Slabs of the shared table, runs of the flat result -/

local notation "shV" => (Memref.whole Cert.KernelIdeal.cc0_scratch5 : Memref Cert.KernelIdeal.sig Kind.scVector Space.shared Cert.KernelIdeal.S1040000 EltTy.f32)
local notation "oV" => (Memref.whole Cert.KernelIdeal.main_v19_scv : Memref Cert.KernelIdeal.sig Kind.scVector Space.hbm Cert.KernelIdeal.S16384 EltTy.f32)

omit [FloatOps F] in
theorem hdiv13 : 13 ∣ S1040000.size 0 := ⟨80000, rfl⟩
omit [FloatOps F] in
theorem hdiv32 : 32 ∣ S16384.size 0 := ⟨512, rfl⟩
abbrev slab (n : Fin 13) : Rect S1040000 := Rect.part (s := S1040000) (a₀ := 0) hdiv13 n
abbrev slabSet (n : Fin 13) : Finset S1040000.Idx := ((shV).view.slice (slab n)).set
abbrev orun (w : Fin 32) : Rect S16384 := Rect.part (s := S16384) (a₀ := 0) hdiv32 w
abbrev orunSet (w : Fin 32) : Finset S16384.Idx := ((oV).view.slice (orun w)).set

/-- Worker number of tile `i` of SparseCore `c`: tiles are dealt worker numbers SparseCore-minor. -/
def wid (c i : ℕ) (hc : c < 2) (hi : i < 16) : Fin 32 := ⟨2 * i + c, by omega⟩

/-- Worker `w`'s read share of an array every worker reads: the `w`-th token of the full share. -/
abbrev rs (w : ℕ) : PosShare TreeShare := Transfers.shareTokN fullShare w

/-! ## The barrier semaphores' schedule -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Slab `n` of SparseCore `c`'s shared copy, filled with the table's rows, at tile `j`'s read share. -/
abbrev slabRd (d : Dev nD) (c : Fin τ.nSC) (n : Fin 13) (j : ℕ) : sProp 𝕄 := shLoc d c ↦[slabSet n]{rs j} shC m d c

/-- What tile number `n`'s unit in tile `j`'s round hands over: a filling tile, `j`'s read share of its slab, filled;
    the other three tiles, nothing. -/
def bPay (g : GSem nD τ sig) (n : ℕ) : sProp 𝕄 :=
  match g with
  | ((d, .scVector c j), _) => if h : n < 13 then slabRd m d c ⟨n, h⟩ j.val else iprop(emp)
  | _ => iprop(emp)

/-- One round on each barrier semaphore: a unit from every tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

end Cert.Proof.KI

end
-- ==== Proof.KIPay.lean ====
/-
  The handshakes' payloads.

  A tile is handed, with its go: its read shares of the four arrays every worker reads, its own run of the flat
  result, and — a filling tile — its slab of the shared copy at whatever it holds. It hands back, with its done: its
  run of the flat result at the numbers it computed, what it kept of its slab, and the read shares of the 13 slabs it
  received at the barrier. A SparseCore's start carries its sixteen tiles' shares and runs, its done their runs.
  For the barrier each tile owes, from the launch, a unit on every tile's barrier semaphore of its SparseCore, and is
  dealt the ghost state of those semaphores' rounds it needs to arrive and to wait.
-/
import proofs.«207416_g64579128263113_cont_9to1_m_974_55_alg».proof.Proof.KIProto

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's barrier semaphore of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's kit for the barrier: every barrier semaphore's round invariant of its SparseCore and that each has reached
    round 0, its own position at the start of round 0, its unit's token in every tile's round, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev coreOf (c : Fin ((K (F := F)).nCore 0)) : Fin τ.nSC := (K (F := F)).core 0 c
/-- The worker number of task `i` of the call's SparseCore `c`. -/
abbrev widK (c : Fin ((K (F := F)).nCore 0)) (i : Fin ((K (F := F)).nSub 0)) : Fin 32 :=
  wid c.val i.val (lt_of_lt_of_eq c.isLt nCore_zero) (lt_of_lt_of_eq i.isLt nSub_zero)

local notation "shV" => (Memref.whole Cert.KernelIdeal.cc0_scratch5 : Memref Cert.KernelIdeal.sig Kind.scVector Space.shared Cert.KernelIdeal.S1040000 EltTy.f32)

/-- Worker `w`'s read shares of the four arrays every worker reads, and its run of the flat result at `fo`. -/
abbrev hbmPart (d : Dev nD) (w : Fin 32) (fo : Buf (Elt F) (oLoc d)) : sProp 𝕄 :=
  iprop((xwLoc d ↦{rs w.val} xwC m d) ∗ (tbLoc d ↦{rs w.val} tbC m d) ∗ (tabLoc d ↦{rs w.val} tabC m d) ∗ (pvLoc d ↦{rs w.val} pvC m d)
    ∗ oLoc d ↦[orunSet w]{fullShare} fo)
/-- A filling tile's slab at any contents; nothing for the other three. -/
def slabOwn (d : Dev nD) (c : Fin τ.nSC) (i : ℕ) : sProp 𝕄 :=
  if h : i < 13 then iprop(∃ f, shLoc d c ↦[slabSet ⟨i, h⟩]{fullShare} f) else iprop(emp)
/-- What a filling tile keeps of its slab once the sixteen read shares are split off. -/
def slabKept (d : Dev nD) (c : Fin τ.nSC) (i : ℕ) : sProp 𝕄 :=
  if h : i < 13 then shLoc d c ↦[slabSet ⟨i, h⟩]{Transfers.shareDrop fullShare 16} shC m d c else iprop(emp)
/-- The thirteen slabs, filled, at tile `j`'s read share. -/
abbrev slabsRd (d : Dev nD) (c : Fin τ.nSC) (j : ℕ) : sProp 𝕄 := bigSep Finset.univ fun n : Fin 13 => slabRd m d c n j

instance slabOwn_storable (d : Dev nD) (c : Fin τ.nSC) (i : ℕ) : BI.Storable (upEmb : UEmb _ 𝕄) (slabOwn (F := F) d c i) := by
  unfold slabOwn; split <;> infer_instance
instance slabKept_storable (d : Dev nD) (c : Fin τ.nSC) (i : ℕ) : BI.Storable (upEmb : UEmb _ 𝕄) (slabKept m d c i) := by
  unfold slabKept; split <;> infer_instance

def P : (K (F := F)).Pay (nD := nD) (Val := Elt F) (Name := ℕ) (U := UU) where
  st := fun q d c => match q with
    | 0 => bigSep Finset.univ fun i : Fin ((K (F := F)).nSub 0) => hbmPart m d (widK c i) (m (oLoc d))
  dn := fun q d c => match q with
    | 0 => bigSep Finset.univ fun i : Fin ((K (F := F)).nSub 0) => oLoc d ↦[orunSet (widK c i)]{fullShare} oC m d
  go := fun q d c i => match q with
    | 0 => iprop(hbmPart m d (widK c i) (m (oLoc d)) ∗ slabOwn d (coreOf c) i.val)
  td := fun q d c i => match q with
    | 0 => iprop((oLoc d ↦[orunSet (widK c i)]{fullShare} oC m d) ∗ slabKept m d (coreOf c) i.val ∗ slabsRd m d (coreOf c) i.val)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin ((K (F := F)).nSub 0) => hbmPart m d (widK c i) (m (oLoc d))))
  dn q d c := match q with
    | 0 => (inferInstance : BI.Storable (upEmb : UEmb _ 𝕄) (bigSep Finset.univ fun i : Fin ((K (F := F)).nSub 0) => oLoc d ↦[orunSet (widK c i)]{fullShare} oC m d))
  go q d c i := match q with
    | 0 => (inferInstance : BI.Storable (upEmb : UEmb _ 𝕄) iprop(hbmPart m d (widK c i) (m (oLoc d)) ∗ slabOwn d (coreOf c) i.val))
  td q d c i := match q with
    | 0 => (inferInstance : BI.Storable (upEmb : UEmb _ 𝕄)
      iprop((oLoc d ↦[orunSet (widK c i)]{fullShare} oC m d) ∗ slabKept m d (coreOf c) i.val ∗ slabsRd m d (coreOf c) i.val))

end Cert.Proof.KI

end
-- ==== Proof.KIBarrier.lean ====
/-
  Slabs, runs and the barrier's payloads.

  The 13 slabs are pairwise disjoint and cover the shared copy; the 32 runs are pairwise disjoint and cover the flat
  result: a points-to of the whole is the separating conjunction of the points-to's of the pieces. A filling tile's slab,
  filled, at the full share, is what it keeps beside sixteen read shares, one per barrier round; the other tiles' units
  carry nothing. What a tile's own round has collected once it is full is a read share of each of the 13 slabs, filled:
  a read share of the whole shared copy at the table's contents.
-/
import proofs.«207416_g64579128263113_cont_9to1_m_974_55_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "shV" => (Memref.whole Cert.KernelIdeal.cc0_scratch5 : Memref Cert.KernelIdeal.sig Kind.scVector Space.shared Cert.KernelIdeal.S1040000 EltTy.f32)
local notation "oV" => (Memref.whole Cert.KernelIdeal.main_v19_scv : Memref Cert.KernelIdeal.sig Kind.scVector Space.hbm Cert.KernelIdeal.S16384 EltTy.f32)

omit [FloatOps F] in
theorem slabSet_eq (n : Fin 13) : slabSet n = (slab n).set := by
  show ((View.whole (cc0_scratch5 : Ref sig .scVector)).slice (slab n)).set = _
  rw [View.set_slice]; exact Finset.map_refl
omit [FloatOps F] in
theorem slabs_disjoint : ∀ i ∈ (Finset.univ : Finset (Fin 13)), ∀ j ∈ (Finset.univ : Finset (Fin 13)), i ≠ j → Disjoint (slabSet i) (slabSet j) :=
  fun i _ j _ h => by rw [slabSet_eq, slabSet_eq]; exact Rect.part_disjoint hdiv13 h
omit [FloatOps F] in
theorem slabs_cover : (Finset.univ : Finset (Fin 13)).biUnion slabSet = Finset.univ :=
  (Finset.biUnion_congr rfl fun i _ => slabSet_eq i).trans (Rect.biUnion_part hdiv13)

omit [FloatOps F] in
theorem orunSet_eq (w : Fin 32) : orunSet w = (orun w).set := by
  show ((View.whole (main_v19_scv : Ref sig .scVector)).slice (orun w)).set = _
  rw [View.set_slice]; exact Finset.map_refl
omit [FloatOps F] in
theorem oruns_disjoint : ∀ i ∈ (Finset.univ : Finset (Fin 32)), ∀ j ∈ (Finset.univ : Finset (Fin 32)), i ≠ j → Disjoint (orunSet i) (orunSet j) :=
  fun i _ j _ h => by rw [orunSet_eq, orunSet_eq]; exact Rect.part_disjoint hdiv32 h
omit [FloatOps F] in
theorem oruns_cover : (Finset.univ : Finset (Fin 32)).biUnion orunSet = Finset.univ :=
  (Finset.biUnion_congr rfl fun i _ => orunSet_eq i).trans (Rect.biUnion_part hdiv32)

omit [FloatOps F] in
/-- The shared copy whole, at any share, is its 13 slabs. -/
theorem shPts_slabs (d : Dev nD) (c : Fin τ.nSC) (q : PosShare TreeShare) (f : Buf (Elt F) (shLoc d c)) :
    (shLoc d c ↦{q} f : sProp 𝕄) = bigSep Finset.univ fun n : Fin 13 => shLoc d c ↦[slabSet n]{q} f := by
  rw [← pointsTo_biUnion Finset.univ (ℓ := shLoc d c) slabSet slabs_disjoint, slabs_cover]
omit [FloatOps F] in
/-- The flat result whole is its 32 runs. -/
theorem oPts_runs (d : Dev nD) (f : Buf (Elt F) (oLoc d)) :
    (oLoc d ↦{fullShare} f : sProp 𝕄) = bigSep Finset.univ fun w : Fin 32 => oLoc d ↦[orunSet w]{fullShare} f := by
  rw [← pointsTo_biUnion Finset.univ (ℓ := oLoc d) orunSet oruns_disjoint, oruns_cover]

/-- The thirteen filled slabs at a tile's read share are the whole shared copy at that share, at the table's contents. -/
theorem slabsRd_eq (d : Dev nD) (c : Fin τ.nSC) (j : ℕ) : (slabsRd m d c j : sProp 𝕄) = shLoc d c ↦{rs j} shC m d c :=
  (shPts_slabs d c (rs j) (shC m d c)).symm

omit [FloatOps F] in
theorem bigSep_emp' {I : Type} (s : Finset I) : (bigSep s fun _ => iprop(emp)) = (iprop(emp) : sProp 𝕄) := bigSep_emp_const s

section Tile

variable (d : Dev nD) (c : Fin τ.nSC) (i : Fin τ.nSub)

/-- A filling tile: its slab, filled, at the full share, is what it keeps and one read share per barrier round. -/
theorem pays_fill (h : i.val < 13) :
    (shLoc d c ↦[slabSet ⟨i.val, h⟩]{fullShare} shC m d c : sProp 𝕄)
      ⊢ iprop(slabKept m d c i.val ∗ bigSep Finset.univ fun j : Fin (grid0.bound 1) => (bRd (F := F) m).payload (bcell d c (j.castLE hsub0)) 0 i.val) := by
  refine (Transfers.pointsTo_toks_split fullShare 16).trans (sep_mono (Entails.of_eq ?_) (Entails.of_eq ?_))
  · unfold slabKept; rw [dif_pos h]
  · refine bigSep_congr fun j _ => ?_
    show _ = bPay m (bcell d c (j.castLE hsub0)) i.val
    unfold bPay; dsimp only
    rw [dif_pos h]; rfl

/-- Another tile: nothing kept, nothing handed over. -/
theorem pays_idle (h : ¬ i.val < 13) :
    (iprop(emp) : sProp 𝕄)
      ⊢ iprop(slabKept m d c i.val ∗ bigSep Finset.univ fun j : Fin (grid0.bound 1) => (bRd (F := F) m).payload (bcell d c (j.castLE hsub0)) 0 i.val) := by
  have e : (bigSep Finset.univ fun j : Fin (grid0.bound 1) => (bRd (F := F) m).payload (bcell d c (j.castLE hsub0)) 0 i.val) = (iprop(emp) : sProp 𝕄) := by
    rw [← bigSep_emp' (F := F) (Finset.univ : Finset (Fin (grid0.bound 1)))]
    refine bigSep_congr fun j _ => ?_
    show bPay m (bcell d c (j.castLE hsub0)) i.val = _
    unfold bPay; dsimp only
    rw [dif_neg h]
  rw [e]; unfold slabKept; rw [dif_neg h]
  iintro -; isplitl <;> iempintro

/-- What a tile's own round has collected: the thirteen filled slabs at its read share. -/
theorem pays_elim : (bigSep ((bRd (F := F) m).duties (bcell d c i) 0 \ ∅) fun n => (bRd (F := F) m).payload (bcell d c i) 0 n)
    ⊢ (slabsRd m d c i.val : sProp 𝕄) := by
  rw [Finset.sdiff_empty, bRd_duties₀]
  have hsub : (Finset.univ : Finset (Fin 13)).image (fun n : Fin 13 => n.val) ⊆ (Finset.univ : Finset (Fin τ.nSub)).image Fin.val := by
    intro x hx
    obtain ⟨n, -, rfl⟩ := Finset.mem_image.mp hx
    exact Finset.mem_image.mpr ⟨⟨n.val, by have := n.isLt; show n.val < 16; omega⟩, Finset.mem_univ _, rfl⟩
  refine (bigSep_subset hsub).trans ?_
  rw [SparseCore.bigSep_image_of_injOn (fun a _ b _ e => Fin.ext e)]
  refine bigSep_mono fun n _ => ?_
  show bPay m (bcell d c i) n.val ⊢ _
  unfold bPay; dsimp only
  rw [dif_pos n.isLt]

end Tile

end Cert.Proof.KI

end
-- ==== Proof.KITile.lean ====
/-
  One tile: its place, its worker number, its semaphores, and the pieces of the arrays as its program slices them.

  The tile at grid coordinates `L` is worker `2 * L 1 + L 0`. Its run of the flat result is the rectangle the program's
  own offset computation names, which is the worker's part of the 32; a filling tile's slab of the shared copy likewise
  is its part of the 13. A points-to stated by location is the same assertion stated through the program's view of
  the buffer, which is the form the rules for its copies, loads and stores are stated in.
-/
import proofs.«207416_g64579128263113_cont_9to1_m_974_55_alg».proof.Proof.KIBarrier
import proofs.«207416_g64579128263113_cont_9to1_m_974_55_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The worker number of the tile at grid coordinates `L`. -/
abbrev wL (L : grid0.Coords) : Fin 32 := wid (L 0).val (L 1).val (lt_of_lt_of_eq (L 0).isLt bound_zero) (lt_of_lt_of_eq (L 1).isLt bound_one)

local notation "xwV" => (Memref.whole Cert.KernelIdeal.main_v8_scv : Memref Cert.KernelIdeal.sig Kind.scVector Space.hbm Cert.KernelIdeal.S425984 EltTy.i32)
local notation "tbV" => (Memref.whole Cert.KernelIdeal.main_v11_scv : Memref Cert.KernelIdeal.sig Kind.scVector Space.hbm Cert.KernelIdeal.S262144 EltTy.f32)
local notation "tabV" => (Memref.whole Cert.KernelIdeal.main_v12_scv : Memref Cert.KernelIdeal.sig Kind.scVector Space.hbm Cert.KernelIdeal.S1040000 EltTy.f32)
local notation "pvV" => (Memref.whole Cert.KernelIdeal.main_v18_scv : Memref Cert.KernelIdeal.sig Kind.scVector Space.hbm Cert.KernelIdeal.S272 EltTy.f32)
local notation "oV" => (Memref.whole Cert.KernelIdeal.main_v19_scv : Memref Cert.KernelIdeal.sig Kind.scVector Space.hbm Cert.KernelIdeal.S16384 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13312 EltTy.f32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S272 EltTy.f32)
local notation "s4V" => (Memref.whole Cert.KernelIdeal.cc0_scratch4 : Memref Cert.KernelIdeal.sig Kind.scVector Space.vmem Cert.KernelIdeal.S512 EltTy.f32)
local notation "shV" => (Memref.whole Cert.KernelIdeal.cc0_scratch5 : Memref Cert.KernelIdeal.sig Kind.scVector Space.shared Cert.KernelIdeal.S1040000 EltTy.f32)

/-- The tile's semaphores: the gather's, and the five copies' own. -/
abbrev cGcell (d : Dev nD) (c : Fin τ.nSC) (i : Fin τ.nSub) : GSem nD τ sig := (V d c i, .dma cc0_scratch6.sem)
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)
abbrev c3cell (d : Dev nD) (c : Fin τ.nSC) (i : Fin τ.nSub) : GSem nD τ sig := (V d c i, .dma cc0_scoped3.sem)
abbrev c4cell (d : Dev nD) (c : Fin τ.nSC) (i : Fin τ.nSub) : GSem nD τ sig := (V d c i, .dma cc0_scoped4.sem)

/-- The tile's run of the flat result, and (a filling tile's) slab of the shared copy, as the program slices them. -/
abbrev orunK (L : grid0.Coords) : Memref sig .scVector .hbm S512 .f32 :=
  (oV).slice (Rect.unit (s := S16384) (k0_off4 L) S512.size (k0_off4_inb L)) (fun _ => rfl)
abbrev slabK (L : grid0.Coords) (h : k0_cond1 L = 1#1) : Memref sig .scVector .shared S80000 .f32 :=
  (shV).slice (Rect.unit (s := S1040000) (k0_off1 L) S80000.size (k0_off1_inb L h)) (fun _ => rfl)

omit [FloatOps F] in
theorem cond1_iff : ∀ L : grid0.Coords, k0_cond1 L = 1#1 ↔ (L 1).val < 13 := by decide +kernel

omit [FloatOps F] in
theorem orunK_rect : Rect.unit (s := S16384) (k0_off4 L) S512.size (k0_off4_inb L) = orun (wL L) := by
  unfold orun Rect.part Rect.block
  congr 1 <;> funext a
  · rw [k0_off4_eq]
    match a with
    | 0 => simp [Shape.partIx, Shape.partSize, wid]; omega
  · match a with
    | 0 => simp [Shape.partSize]

omit [FloatOps F] in
theorem slabK_rect (h : k0_cond1 L = 1#1) : Rect.unit (s := S1040000) (k0_off1 L) S80000.size (k0_off1_inb L h) = slab ⟨(L 1).val, (cond1_iff L).mp h⟩ := by
  unfold slab Rect.part Rect.block
  congr 1 <;> funext a
  · rw [k0_off1_eq]
    match a with
    | 0 => simp [Shape.partIx, Shape.partSize]; omega
  · match a with
    | 0 => simp [Shape.partSize]

omit [FloatOps F] in
theorem set_orunK : (orunK L).view.set = orunSet (wL L) := by
  show ((oV).view.slice (Rect.unit (s := S16384) (k0_off4 L) S512.size (k0_off4_inb L))).set = ((oV).view.slice (orun (wL L))).set
  rw [orunK_rect]
omit [FloatOps F] in
theorem set_slabK (h : k0_cond1 L = 1#1) : (slabK L h).view.set = slabSet ⟨(L 1).val, (cond1_iff L).mp h⟩ := by
  show ((shV).view.slice (Rect.unit (s := S1040000) (k0_off1 L) S80000.size (k0_off1_inb L h))).set = ((shV).view.slice (slab ⟨(L 1).val, (cond1_iff L).mp h⟩)).set
  rw [slabK_rect L h]

omit [FloatOps F] in
theorem pts_orun (f : Buf (Elt F) (oLoc d)) :
    ((orunK L).view.loc (V d (cV L) (jV L)) ↦[(orunK L).view.set]{fullShare} f : sProp 𝕄) = oLoc d ↦[orunSet (wL L)]{fullShare} f := by
  rw [set_orunK]
omit [FloatOps F] in
theorem pts_slab (h : k0_cond1 L = 1#1) (q : PosShare TreeShare) (f : Buf (Elt F) (shLoc d (cV L))) :
    ((slabK L h).view.loc (V d (cV L) (jV L)) ↦[(slabK L h).view.set]{q} f : sProp 𝕄) = shLoc d (cV L) ↦[slabSet ⟨(L 1).val, (cond1_iff L).mp h⟩]{q} f := by
  rw [set_slabK]; rfl
omit [FloatOps F] in
theorem pts_xw (q : PosShare TreeShare) (f : Buf (Elt F) (xwLoc d)) : ((xwV).view.loc (V d (cV L) (jV L)) ↦{q} f : sProp 𝕄) = xwLoc d ↦{q} f := rfl
omit [FloatOps F] in
theorem pts_tb (q : PosShare TreeShare) (f : Buf (Elt F) (tbLoc d)) : ((tbV).view.loc (V d (cV L) (jV L)) ↦{q} f : sProp 𝕄) = tbLoc d ↦{q} f := rfl
omit [FloatOps F] in
theorem pts_tab (q : PosShare TreeShare) (f : Buf (Elt F) (tabLoc d)) : ((tabV).view.loc (V d (cV L) (jV L)) ↦{q} f : sProp 𝕄) = tabLoc d ↦{q} f := rfl
omit [FloatOps F] in
theorem pts_pv (q : PosShare TreeShare) (f : Buf (Elt F) (pvLoc d)) : ((pvV).view.loc (V d (cV L) (jV L)) ↦{q} f : sProp 𝕄) = pvLoc d ↦{q} f := rfl
omit [FloatOps F] in
theorem pts_sh (q : PosShare TreeShare) (f : Buf (Elt F) (shLoc d (cV L))) : ((shV).view.loc (V d (cV L) (jV L)) ↦{q} f : sProp 𝕄) = shLoc d (cV L) ↦{q} f := rfl
omit [FloatOps F] in
theorem pts_s0 (f : Buf (Elt F) ((V d (cV L) (jV L)).loc cc0_scratch0)) : ((s0V).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) : ((s1V).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) : ((s2V).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) : ((s3V).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) : ((s4V).view.loc (V d (cV L) (jV L)) ↦{fullShare} f : sProp 𝕄) = (V d (cV L) (jV L)).loc cc0_scratch4 ↦{fullShare} f := rfl

omit [FloatOps F] in
/-- A view's own elements at two contents the view reads alike are one points-to. -/
theorem own_congr {c : Thread nD τ} {sp : Space} {s : Shape} {e : EltTy} (v : View sig c.2.kind sp s e) (q : PosShare TreeShare)
    (g g' : Buf (Elt F) (v.loc c)) (h : ∀ y, v.read (Elt F) g y = v.read (Elt F) g' y) :
    (v.loc c ↦[v.set]{q} g : sProp 𝕄) = v.loc c ↦[v.set]{q} g' :=
  pointsTo_congr fun i hi => by
    obtain ⟨x, -, rfl⟩ := Finset.mem_map.mp hi
    have hx := h x
    rw [View.read_apply, View.read_apply] at hx
    exact (cast_inj _).mp hx

end Tile

end Cert.Proof.KI

end
-- ==== Proof.LayoutFacts.lean ====
/-
  Facts about the flat arrays that the run needs of the index lists: when every field index is at most 39999, an entry
  of the shifted list is the field's index plus 40000 times the field's number, as natural numbers (the 32-bit sum
  does not wrap: it stays below 1040000), so every entry names a row of the table.
-/
import proofs.«207416_g64579128263113_cont_9to1_m_974_55_alg».proof.Proof.Layout
import proofs.«207416_g64579128263113_cont_9to1_m_974_55_alg».proof.Proof.Spec

noncomputable section

namespace Cert.Proof.Layout

open Idealize.ShloMosaic Idealize.ShloMosaic.ValueIdx

/-- The field an entry of the shifted index list belongs to is below 26. -/
theorem field_lt (n : Nat) : n % 13312 / 512 < 26 := by
  have := Nat.mod_lt n (show 0 < 13312 by norm_num); omega

/-- An entry of the shifted index list as a natural number. -/
theorem xw_toNat (x : IVec ⟨2, ![16384, 26]⟩ 32) (hx : ∀ j, (x j).toNat ≤ 39999) (p : (⟨1, ![425984]⟩ : Shape).Idx) :
    (xw x p).toNat = (x (ix2 (brow 13312 (p 0).val (p 0).isLt (by norm_num)) (run 13312 26 (p 0).val rfl (by norm_num)))).toNat
      + 40000 * ((p 0).val % 13312 / 512) := by
  have hf := field_lt (p 0).val
  have h1 := hx (ix2 (brow 13312 (p 0).val (p 0).isLt (by norm_num)) (run 13312 26 (p 0).val rfl (by norm_num)))
  show ((x _ + BitVec.ofNat 32 _).toNat) = _
  rw [BitVec.toNat_add, BitVec.toNat_ofNat]
  omega

/-- Every entry of the shifted index list names a row of the table. -/
theorem xw_lt (x : IVec ⟨2, ![16384, 26]⟩ 32) (hx : ∀ j, (x j).toNat ≤ 39999) (p : (⟨1, ![425984]⟩ : Shape).Idx) :
    (xw x p).toNat < 1040000 := by
  have hf := field_lt (p 0).val
  have h1 := hx (ix2 (brow 13312 (p 0).val (p 0).isLt (by norm_num)) (run 13312 26 (p 0).val rfl (by norm_num)))
  rw [xw_toNat x hx p]; omega

end Cert.Proof.Layout

end
-- ==== Proof.LocalValue.lean ====
/-
  What one worker computes from its scratch arrays is the specification at its batch rows.

  Worker `w` owns batch rows `512 * w … 512 * w + 511`. Of its three scratch arrays, `A` holds for each field `f` and each
  of its rows `r` the table entry that entry `13312 * w + 512 * f + r` of the shifted index list names; that entry of the
  list is field `f` of batch row `512 * w + r` shifted by `40000 * f` (13312 = 26 * 512, so dividing the position by
  13312 gives the worker, its remainder divided by 512 the field, and its remainder modulo 512 the row), hence the
  table entry is the one the specification's `row` selects. `B` holds feature `k` of batch row `512 * w + r` at
  `512 * k + r` (8192 = 16 * 512, the same arithmetic). `C` holds weight `k` on lanes `16 * k … 16 * k + 15` and the sum
  of the two biases on lanes 256 … 271. The worker's running sum for row `r` — start from lane `256 + r % 16`, add the
  26 table entries, then the 16 products weight × feature — is therefore, step by step, the specification's running sum
  for batch row `512 * w + r`. Nothing here depends on the float instance.
-/
import proofs.«207416_g64579128263113_cont_9to1_m_974_55_alg».proof.Proof.Spec
import proofs.«207416_g64579128263113_cont_9to1_m_974_55_alg».proof.Proof.Layout
import proofs.«207416_g64579128263113_cont_9to1_m_974_55_alg».proof.Proof.LayoutFacts

noncomputable section

namespace Cert.Proof.Local

open Idealize.ShloMosaic Idealize.ShloMosaic.ValueIdx

variable {F : FTy → Type} [FloatOps F]

/-- the worker's 512 numbers from its three scratch arrays -/
def loc (A : FVec F ⟨1, ![13312]⟩ .f32) (B : FVec F ⟨1, ![8192]⟩ .f32) (C : FVec F ⟨1, ![272]⟩ .f32) : FVec F ⟨1, ![512]⟩ .f32 := fun y =>
  (List.finRange 16).foldl (fun a k => FloatOps.addf a (FloatOps.mulf
      (C (ix1 ⟨16 * k.val + (y 0).val % 16, by have := k.isLt; have := Nat.mod_lt (y 0).val (show 0 < 16 by norm_num); omega⟩))
      (B (ix1 ⟨512 * k.val + (y 0).val, by have := k.isLt; have h : (y 0).val < 512 := (y 0).isLt; omega⟩))))
    ((List.finRange 26).foldl (fun a f => FloatOps.addf a
        (A (ix1 ⟨512 * f.val + (y 0).val, by have := f.isLt; have h : (y 0).val < 512 := (y 0).isLt; omega⟩)))
      (C (ix1 ⟨256 + (y 0).val % 16, by have := Nat.mod_lt (y 0).val (show 0 < 16 by norm_num); omega⟩)))

/-- Two left folds over one list agree when their steps agree everywhere and their start values agree. -/
theorem foldl_congr {α β : Type} {g g' : α → β → α} {a a' : α} (l : List β) (hg : ∀ a b, g a b = g' a b) (ha : a = a') :
    l.foldl g a = l.foldl g' a' := by
  subst ha
  induction l generalizing a with
  | nil => rfl
  | cons b l ih => rw [List.foldl_cons, List.foldl_cons, hg a b]; exact ih

/-! ## The parameter vector -/

/-- Lanes 256 … 271 hold the sum of the two biases. -/
theorem pvw_bias (W : FVec F ⟨2, ![16, 1]⟩ .f32) (lb bias : FVec F ⟨1, ![1]⟩ .f32) (l : Nat) (hl : 256 + l < 272) :
    Layout.pvw W lb bias (ix1 ⟨256 + l, hl⟩) = FloatOps.addf (lb (ix1 0)) (bias (ix1 0)) := by
  unfold Layout.pvw
  rw [dif_neg (show ¬ (256 + l < 256) by omega)]

/-- Lanes `16 * k … 16 * k + 15` hold weight `k`. -/
theorem pvw_weight (W : FVec F ⟨2, ![16, 1]⟩ .f32) (lb bias : FVec F ⟨1, ![1]⟩ .f32) (k : Fin 16) (l : Nat) (hl : l < 16)
    (h : 16 * k.val + l < 272) : Layout.pvw W lb bias (ix1 ⟨16 * k.val + l, h⟩) = W (ix2 k 0) := by
  have hk := k.isLt
  unfold Layout.pvw
  rw [dif_pos (show 16 * k.val + l < 256 by omega)]
  exact congrArg (fun q : Fin 16 => W (ix2 q 0)) (Fin.ext (by show (16 * k.val + l) / 16 = k.val; omega))

/-! ## The index list and the table entries -/

/-- Entry `13312 * w + 512 * f + r` of the shifted index list names the table row the specification selects for field `f`
    of batch row `512 * w + r`. -/
theorem xw_row (x : IVec ⟨2, ![16384, 26]⟩ 32) (hx : ∀ j, (x j).toNat ≤ 39999) (w : Fin 32) (f : Fin 26) (r : Nat) (hr : r < 512)
    (p : (⟨1, ![425984]⟩ : Shape).Idx) (hp : (p 0).val = 13312 * w.val + (512 * f.val + r)) :
    (Layout.xw x p).toNat = (Spec.row x ⟨512 * w.val + r, by have := w.isLt; omega⟩ f).val := by
  have hf := f.isLt
  have hw := w.isLt
  have hb : Layout.brow 13312 (p 0).val (p 0).isLt (by norm_num) = ⟨512 * w.val + r, by omega⟩ :=
    Fin.ext (by show 512 * ((p 0).val / 13312) + (p 0).val % 512 = 512 * w.val + r; omega)
  have hrun : Layout.run 13312 26 (p 0).val rfl (by norm_num) = f :=
    Fin.ext (by show (p 0).val % 13312 / 512 = f.val; omega)
  have hfield : (p 0).val % 13312 / 512 = f.val := by omega
  rw [Layout.xw_toNat x hx p, Spec.row_val x _ f (hx _), hb, hrun, hfield]

/-- So the worker's gathered entry for field `f` and row `r` is the specification's table entry. -/
theorem A_eq (x : IVec ⟨2, ![16384, 26]⟩ 32) (tab : FVec F ⟨2, ![1040000, 1]⟩ .f32) (hx : ∀ j, (x j).toNat ≤ 39999) (w : Fin 32)
    (A : FVec F ⟨1, ![13312]⟩ .f32)
    (hA : ∀ n : (⟨1, ![13312]⟩ : Shape).Idx, A n = Layout.tabw tab (ix1 ⟨(Layout.xw x (ix1 ⟨13312 * w.val + (n 0).val, by
      have := w.isLt; have h : (n 0).val < 13312 := (n 0).isLt; omega⟩)).toNat, Layout.xw_lt x hx _⟩))
    (f : Fin 26) (r : Nat) (hr : r < 512) (h : 512 * f.val + r < 13312) :
    A (ix1 ⟨512 * f.val + r, h⟩) = tab (ix2 (Spec.row x ⟨512 * w.val + r, by have := w.isLt; omega⟩ f) 0) := by
  rw [hA]
  unfold Layout.tabw
  exact congrArg (fun q : Fin 1040000 => tab (ix2 q 0)) (Fin.ext (xw_row x hx w f r hr _ rfl))

/-! ## The dense features -/

/-- The worker's feature `k` of row `r` is feature `k` of batch row `512 * w + r`. -/
theorem B_eq (t : FVec F ⟨2, ![16384, 16]⟩ .f32) (w : Fin 32) (B : FVec F ⟨1, ![8192]⟩ .f32)
    (hB : ∀ n : (⟨1, ![8192]⟩ : Shape).Idx, B n = Layout.tbw t (ix1 ⟨8192 * w.val + (n 0).val, by
      have := w.isLt; have h : (n 0).val < 8192 := (n 0).isLt; omega⟩))
    (k : Fin 16) (r : Nat) (hr : r < 512) (h : 512 * k.val + r < 8192) :
    B (ix1 ⟨512 * k.val + r, h⟩) = t (ix2 ⟨512 * w.val + r, by have := w.isLt; omega⟩ k) := by
  have hk := k.isLt
  have hw := w.isLt
  rw [hB]
  unfold Layout.tbw
  have hb : ∀ (n : Nat) (hn : n < 32 * 8192), n = 8192 * w.val + (512 * k.val + r) →
      Layout.brow 8192 n hn (by norm_num) = ⟨512 * w.val + r, by omega⟩ := fun n hn e =>
    Fin.ext (by show 512 * (n / 8192) + n % 512 = 512 * w.val + r; omega)
  have hrun : ∀ (n : Nat), n = 8192 * w.val + (512 * k.val + r) → Layout.run 8192 16 n rfl (by norm_num) = k := fun n e =>
    Fin.ext (by show n % 8192 / 512 = k.val; omega)
  exact congrArg₂ (fun (a : Fin 16384) (c : Fin 16) => t (ix2 a c)) (hb _ _ rfl) (hrun _ rfl)

/-! ## The worker's running sum -/

theorem loc_eq_acc (x : IVec ⟨2, ![16384, 26]⟩ 32) (t : FVec F ⟨2, ![16384, 16]⟩ .f32) (tab : FVec F ⟨2, ![1040000, 1]⟩ .f32)
    (W : FVec F ⟨2, ![16, 1]⟩ .f32) (lb bias : FVec F ⟨1, ![1]⟩ .f32)
    (hx : ∀ j, (x j).toNat ≤ 39999) (w : Fin 32)
    (A : FVec F ⟨1, ![13312]⟩ .f32) (B : FVec F ⟨1, ![8192]⟩ .f32) (C : FVec F ⟨1, ![272]⟩ .f32)
    (hA : ∀ n : (⟨1, ![13312]⟩ : Shape).Idx, A n = Layout.tabw tab (ix1 ⟨(Layout.xw x (ix1 ⟨13312 * w.val + (n 0).val, by
      have := w.isLt; have h : (n 0).val < 13312 := (n 0).isLt; omega⟩)).toNat, Layout.xw_lt x hx _⟩))
    (hB : ∀ n : (⟨1, ![8192]⟩ : Shape).Idx, B n = Layout.tbw t (ix1 ⟨8192 * w.val + (n 0).val, by
      have := w.isLt; have h : (n 0).val < 8192 := (n 0).isLt; omega⟩))
    (hC : C = Layout.pvw W lb bias) :
    ∀ y : (⟨1, ![512]⟩ : Shape).Idx, loc A B C y = Spec.acc x t tab W lb bias ⟨512 * w.val + (y 0).val, by
      have := w.isLt; have h : (y 0).val < 512 := (y 0).isLt; omega⟩ := by
  intro y
  have hr : (y 0).val < 512 := (y 0).isLt
  have hl : (y 0).val % 16 < 16 := Nat.mod_lt _ (by norm_num)
  subst hC
  unfold loc Spec.acc
  exact foldl_congr _
    (fun a k => congrArg (FloatOps.addf a) (congrArg₂ FloatOps.mulf
      (pvw_weight W lb bias k _ hl _) (B_eq t w B hB k _ hr _)))
    (foldl_congr _ (fun a f => congrArg (FloatOps.addf a) (A_eq x tab hx w A hA f _ hr _)) (pvw_bias W lb bias _ _))

/-! ## The flat result read back as a column -/

/-- The flat result: entry `p` is batch row `p`'s number in accumulation order. -/
def oflat (x : IVec ⟨2, ![16384, 26]⟩ 32) (t : FVec F ⟨2, ![16384, 16]⟩ .f32) (tab : FVec F ⟨2, ![1040000, 1]⟩ .f32)
    (W : FVec F ⟨2, ![16, 1]⟩ .f32) (lb bias : FVec F ⟨1, ![1]⟩ .f32) : FVec F ⟨1, ![16384]⟩ .f32 :=
  fun p => Spec.acc x t tab W lb bias (p 0)

/-- Read back as a column it is the specification's result array. -/
theorem colw_oflat (x : IVec ⟨2, ![16384, 26]⟩ 32) (t : FVec F ⟨2, ![16384, 16]⟩ .f32) (tab : FVec F ⟨2, ![1040000, 1]⟩ .f32)
    (W : FVec F ⟨2, ![16, 1]⟩ .f32) (lb bias : FVec F ⟨1, ![1]⟩ .f32) :
    Layout.colw (oflat x t tab W lb bias) = Spec.kval x t tab W lb bias := rfl

end Cert.Proof.Local

end
-- ==== Proof.KIValue.lean ====
/-
  The output scratch, lane group by lane group.

  The body stores 32 groups of 16 lanes. Group `j` (lanes `16 * j … 16 * j + 15`) is a chain of vector operations:
  start from lanes 256 … 271 of the parameter scratch, add the 26 runs of 16 gathered entries at `512 * f + 16 * j`, then
  for each of the 16 features add the product of lanes `16 * k …` of the parameter scratch and the 16 features at
  `512 * k + 16 * j`. Read at lane `x` that is the worker's running sum for its row `16 * j + x`: each vector operation
  acts lane by lane, a change of shape to the same shape changes nothing, and a load of 16 lanes at an offset reads the
  array at offset + lane.
-/
import proofs.«207416_g64579128263113_cont_9to1_m_974_55_alg».proof.Proof.KITile
import proofs.«207416_g64579128263113_cont_9to1_m_974_55_alg».proof.Proof.LocalValue
import proofs.«207416_g64579128263113_cont_9to1_m_974_55_alg».proof.Proof.Gen.KernelIdeal.Skeleton
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-! ## Vector operations, lane by lane -/

theorem addf_ap {s : Shape} {φ : FTy} (a b : FVec F s φ) (x : s.Idx) : addf a b x = FloatOps.addf (a x) (b x) := rfl
theorem mulf_ap {s : Shape} {φ : FTy} (a b : FVec F s φ) (x : s.Idx) : mulf a b x = FloatOps.mulf (a x) (b x) := rfl

omit [FloatOps F] in
/-- A load after one whole-buffer write reads the written function at the load's indices. -/
theorem readCov_whole_apply {sg : RefSig} {κ : Kind} {sp : Space} {s : Shape} {e : EltTy} {Val : EltTy → Type} [∀ e, Nonempty (Val e)]
    (v : View sg κ sp s e) (w : s.Idx → Val e) (B : LoadRect s) (x : B.shape.Idx) :
    v.readCov [⟨Rect.whole s, w⟩] B x = w (B.idx x) := by
  unfold View.readCov
  rw [View.readAt_apply, View.read_writes_whole]

omit [FloatOps F] in
/-- Sixteen lanes at offset `off` of a flat array: lane `x` is position `off + x`. -/
theorem unit_idx {n : ℕ} (off : ℕ) (h : ∀ a, (![off] : Fin 1 → ℕ) a + S16.size a ≤ (⟨1, ![n]⟩ : Shape).size a) (x : S16.Idx) :
    (Rect.unit (s := ⟨1, ![n]⟩) ![off] S16.size h).toLoadRect.idx x
      = ix1 ⟨off + (x 0).val, by have h0 : off + 16 ≤ n := h 0; have hx : (x 0).val < 16 := (x 0).isLt; omega⟩ := by
  funext a
  match a with
  | ⟨0, _⟩ => exact Fin.ext (by show off + 1 * (x 0).val = off + (x 0).val; omega)

omit [FloatOps F] in
theorem unit_emb {n : ℕ} (off : ℕ) (h : ∀ a, (![off] : Fin 1 → ℕ) a + S16.size a ≤ (⟨1, ![n]⟩ : Shape).size a) (x : S16.Idx) :
    (Rect.unit (s := ⟨1, ![n]⟩) ![off] S16.size h).emb x
      = ix1 ⟨off + (x 0).val, by have h0 : off + 16 ≤ n := h 0; have hx : (x 0).val < 16 := (x 0).isLt; omega⟩ := by
  funext a
  match a with
  | ⟨0, _⟩ => exact Fin.ext (by show off + 1 * (x 0).val = off + (x 0).val; omega)

/-! ## One lane group of the worker's numbers -/

omit [FloatOps F] in
/-- Sixteen lanes at `off` fit in a flat array of `n` when `off + 16 ≤ n`. -/
theorem inb1 (n off : ℕ) (h : off + 16 ≤ n) : ∀ a, (![off] : Fin 1 → ℕ) a + S16.size a ≤ (⟨1, ![n]⟩ : Shape).size a := fun a => by
  match a with
  | ⟨0, _⟩ => exact h

/-- Lane `x` of the group at offset `off`: the worker's running sum for row `off + x`, each entry read as the body's
    loads read it — sixteen lanes at an offset, the lane last. -/
def grp (A : FVec F S13312 .f32) (B : FVec F S8192 .f32) (C : FVec F S272 .f32) (off : ℕ) (hlt : off + 16 ≤ 512) (x : S16.Idx) : F .f32 :=
  (List.finRange 16).foldl (fun a k => FloatOps.addf a (FloatOps.mulf
      (C ((Rect.unit (s := S272) ![16 * k.val] S16.size (inb1 272 _ (by have := k.isLt; omega))).toLoadRect.idx x))
      (B ((Rect.unit (s := S8192) ![512 * k.val + off] S16.size (inb1 8192 _ (by have := k.isLt; omega))).toLoadRect.idx x))))
    ((List.finRange 26).foldl (fun a f => FloatOps.addf a
        (A ((Rect.unit (s := S13312) ![512 * f.val + off] S16.size (inb1 13312 _ (by have := f.isLt; omega))).toLoadRect.idx x)))
      (C ((Rect.unit (s := S272) ![256] S16.size (inb1 272 _ (by norm_num))).toLoadRect.idx x)))

/-- It is the worker's number at position `off + x`, when `off` is a multiple of 16. -/
theorem grp_eq (A : FVec F S13312 .f32) (B : FVec F S8192 .f32) (C : FVec F S272 .f32) (off : ℕ) (hoff : off % 16 = 0) (hlt : off + 16 ≤ 512)
    (h : ∀ a, (![off] : Fin 1 → ℕ) a + S16.size a ≤ S512.size a) (x : S16.Idx) :
    Local.loc A B C ((Rect.unit (s := S512) ![off] S16.size h).emb x) = grp A B C off hlt x := by
  have hx : (x 0).val < 16 := (x 0).isLt
  rw [unit_emb]
  unfold Local.loc grp
  refine Local.foldl_congr _ (fun a k => congrArg (FloatOps.addf a) (congrArg₂ FloatOps.mulf ?_ ?_))
    (Local.foldl_congr _ (fun a f => congrArg (FloatOps.addf a) ?_) ?_)
  · rw [unit_idx]
    exact congrArg C (congrArg ix1 (Fin.ext (by show 16 * k.val + (off + (x 0).val) % 16 = 16 * k.val + (x 0).val; omega)))
  · rw [unit_idx]
    exact congrArg B (congrArg ix1 (Fin.ext (by show 512 * k.val + (off + (x 0).val) = 512 * k.val + off + (x 0).val; omega)))
  · rw [unit_idx]
    exact congrArg A (congrArg ix1 (Fin.ext (by show 512 * f.val + (off + (x 0).val) = 512 * f.val + off + (x 0).val; omega)))
  · rw [unit_idx]
    exact congrArg C (congrArg ix1 (Fin.ext (by show 256 + (off + (x 0).val) % 16 = 256 + (x 0).val; omega)))

/-! ## The 32 stores, one tactic

Each store's payload, read at a lane, unfolds to the chain of scalar operations over the loads' entries; the chain is
the group's running sum with the offsets computed. -/

/-- One store: its payload at lane `x` is the worker's number at the store's position. -/
macro "ki_piece" : tactic => `(tactic|
  (intro (x : S16.Idx)
   refine Eq.trans ?_ (Cert.Proof.KI.grp_eq _ _ _ _ (by rfl) (by decide) (Cert.Proof.KI.inb1 512 _ (by decide)) x).symm
   first
   | (set_option maxRecDepth 8192 in
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, shapeCast_self, Cert.Proof.KI.addf_ap, Cert.Proof.KI.mulf_ap, View.readAt_apply, Cert.Proof.KI.readCov_whole_apply])
   | fail "ki_piece: the payload did not unfold"
   first
   | rfl
   | fail "ki_piece: the chain is not the group's"))

/-- All the stores of a literal list. -/
macro "ki_pieces" : tactic => `(tactic|
  (repeat' (first | exact List.forall_mem_nil _ | refine List.forall_mem_cons.2 ⟨?_, ?_⟩)
   all_goals ki_piece))

end Cert.Proof.KI

end
-- ==== Proof.KIScratch.lean ====
/-
  What a tile's scratch arrays hold once its copies and its gather have landed, and what its run of the flat result
  is to hold, each as the flat arrays' entries at the tile's worker number.

  The tile at grid coordinates `L` is worker `w = 2 * L 1 + L 0`. The program slices the index lists at offset
  `26624 * L 1 + 13312 * L 0 = 13312 * w`, the dense features at `16384 * L 1 + 8192 * L 0 = 8192 * w`, and the flat
  result at `1024 * L 1 + 512 * L 0 = 512 * w`; a unit-stride slice read at index `n` reads the array at offset plus
  `n`, and a whole buffer written everywhere reads back what was written. So the copied parameter vector is the
  parameter vector, the copied features are entries `8192 * w + n` of the feature array, the copied indices are
  entries `13312 * w + n` of the index list, and the gathered values — at each position the shared table's row that
  the index at that position names (for a list of rank one, position `n` of the list in row-major order is `n`) — are
  the table's entries at those rows. With the worker's running sums equal to the specification's at its batch rows,
  what the tile computes from its scratch arrays is what its run of the flat result is to hold.
-/
import proofs.«207416_g64579128263113_cont_9to1_m_974_55_alg».proof.Proof.KITile
import proofs.«207416_g64579128263113_cont_9to1_m_974_55_alg».proof.Proof.LayoutFacts
import proofs.«207416_g64579128263113_cont_9to1_m_974_55_alg».proof.Proof.LocalValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid0.Coords)

local notation "xwV" => (Memref.whole Cert.KernelIdeal.main_v8_scv : Memref Cert.KernelIdeal.sig Kind.scVector Space.hbm Cert.KernelIdeal.S425984 EltTy.i32)
local notation "tbV" => (Memref.whole Cert.KernelIdeal.main_v11_scv : Memref Cert.KernelIdeal.sig Kind.scVector Space.hbm Cert.KernelIdeal.S262144 EltTy.f32)
local notation "tabV" => (Memref.whole Cert.KernelIdeal.main_v12_scv : Memref Cert.KernelIdeal.sig Kind.scVector Space.hbm Cert.KernelIdeal.S1040000 EltTy.f32)
local notation "pvV" => (Memref.whole Cert.KernelIdeal.main_v18_scv : Memref Cert.KernelIdeal.sig Kind.scVector Space.hbm Cert.KernelIdeal.S272 EltTy.f32)
local notation "oV" => (Memref.whole Cert.KernelIdeal.main_v19_scv : Memref Cert.KernelIdeal.sig Kind.scVector Space.hbm Cert.KernelIdeal.S16384 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13312 EltTy.f32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S272 EltTy.f32)
local notation "s4V" => (Memref.whole Cert.KernelIdeal.cc0_scratch4 : Memref Cert.KernelIdeal.sig Kind.scVector Space.vmem Cert.KernelIdeal.S512 EltTy.f32)
local notation "shV" => (Memref.whole Cert.KernelIdeal.cc0_scratch5 : Memref Cert.KernelIdeal.sig Kind.scVector Space.shared Cert.KernelIdeal.S1040000 EltTy.f32)

/-! ## Reading through the program's views -/

/-- The copied parameter vector is the parameter vector. -/
theorem pv_holds (f3 : Buf (Elt F) ((V d (cV L) (jV L)).loc cc0_scratch3)) :
    (s3V).view.read (Elt F) (View.write (Elt F) (s3V).view f3 (ReadAs.same.apply (View.read (Elt F) (pvV).view (pvC m d))) Finset.univ)
      = Layout.pvw (m (a3Loc d)) (m (a4Loc d)) (m (a5Loc d)) :=
  (View.read_write_univ _ _).trans rfl

/-- The tile's slice of the dense features at `n` is entry `8192 * w + n`. -/
theorem tb_holds (f2 : Buf (Elt F) ((V d (cV L) (jV L)).loc cc0_scratch2)) (n : S8192.Idx) :
    (s2V).view.read (Elt F) (View.write (Elt F) (s2V).view f2 (ReadAs.same.apply (View.read (Elt F) ((tbV).slice (Rect.unit (s := S262144) (k0_off3 L) S8192.size (k0_off3_inb L)) (fun _ => rfl)).view (tbC m d))) Finset.univ) n
      = Layout.tbw (m (a1Loc d)) (ValueIdx.ix1 ⟨8192 * (wL L).val + (n 0).val, by
          have := (wL L).isLt; have h : (n 0).val < 8192 := (n 0).isLt; omega⟩) := by
  rw [View.read_write_univ]
  show Layout.tbw (F := F) (m (a1Loc d)) ((Rect.unit (s := S262144) (k0_off3 L) S8192.size (k0_off3_inb L)).emb n) = _
  refine congrArg (Layout.tbw (F := F) (m (a1Loc d))) (funext fun a => Fin.ext ?_)
  match a with
  | ⟨0, _⟩ =>
    have e : (k0_off3 L) 0 = 16384 * (L 1).val + 8192 * (L 0).val := congrFun (k0_off3_eq L) 0
    show (k0_off3 L) 0 + 1 * (n 0).val = 8192 * (2 * (L 1).val + (L 0).val) + (n 0).val
    omega

/-- The tile's slice of the index lists at `j` is entry `13312 * w + j`. -/
theorem xw_holds (f0 : Buf (Elt F) ((V d (cV L) (jV L)).loc cc0_scratch0)) (j : S13312.Idx) :
    (s0V).view.read (Elt F) (View.write (Elt F) (s0V).view f0 (ReadAs.same.apply (View.read (Elt F) ((xwV).slice (Rect.unit (s := S425984) (k0_off2 L) S13312.size (k0_off2_inb L)) (fun _ => rfl)).view (xwC m d))) Finset.univ) j
      = Layout.xw (m (a0Loc d)) (ValueIdx.ix1 ⟨13312 * (wL L).val + (j 0).val, by
          have := (wL L).isLt; have h : (j 0).val < 13312 := (j 0).isLt; omega⟩) := by
  rw [View.read_write_univ]
  show Layout.xw (m (a0Loc d)) ((Rect.unit (s := S425984) (k0_off2 L) S13312.size (k0_off2_inb L)).emb j) = _
  refine congrArg (Layout.xw (m (a0Loc d))) (funext fun a => Fin.ext ?_)
  match a with
  | ⟨0, _⟩ =>
    have e : (k0_off2 L) 0 = 26624 * (L 1).val + 13312 * (L 0).val := congrFun (k0_off2_eq L) 0
    show (k0_off2 L) 0 + 1 * (j 0).val = 13312 * (2 * (L 1).val + (L 0).val) + (j 0).val
    omega

/-- The shared copy of the table read through the program's whole-extent slice at offset 0 is the flattened table. -/
theorem sh_read (hsl : ∀ a, (![0] : Fin 1 → Nat) a + S1040000.size a ≤ S1040000.size a) (q : S1040000.Idx) :
    View.read (Elt F) ((shV).slice (Rect.unit (s := S1040000) ![0] S1040000.size hsl) (fun _ => rfl)).view (shC m d (cV L)) q
      = Layout.tabw (F := F) (m (a2Loc d)) q := by
  show Layout.tabw (F := F) (m (a2Loc d)) ((Rect.unit (s := S1040000) ![0] S1040000.size hsl).emb q) = _
  refine congrArg (Layout.tabw (F := F) (m (a2Loc d))) (funext fun a => Fin.ext ?_)
  match a with
  | ⟨0, _⟩ =>
    show 0 + 1 * (q 0).val = (q 0).val
    omega

/-- A gather from a list of rank one: position `n` of the target holds the source at the row the list's entry `n` names. -/
theorem gather1_apply {e : EltTy} (hg : S1040000.Gathers 0 S13312) (g : S1040000.Idx → Elt F e) (idx : S13312.Idx → Elt F .i32)
    (hn : S13312.numel = S13312.size hg.axis') (hin : ∀ x, (idx x).toNat < S1040000.size hg.axis) (n : S13312.Idx) :
    SparseCore.gatherPayload hg g (SparseCore.rows idx hn hin) n = g (ValueIdx.ix1 ⟨(idx n).toNat, hin n⟩) := by
  unfold SparseCore.gatherPayload
  refine congrArg g (funext fun a => Fin.ext ?_)
  match a with
  | ⟨0, _⟩ =>
    have h1 := congrArg Fin.val (Shape.Gathers.idx_axis hg (SparseCore.rows idx hn hin) n)
    have h2 : S13312.rowMajor.symm ((n hg.axis').cast hn.symm) = n := by
      rw [Equiv.symm_apply_eq]
      exact Fin.ext (by rw [Shape.rowMajor_val_one]; rfl)
    show (hg.idx (SparseCore.rows idx hn hin) n hg.axis).val = (idx n).toNat
    rw [h1]
    show (idx (S13312.rowMajor.symm ((n hg.axis').cast hn.symm))).toNat = _
    rw [h2]

/-- The gathered values at `n` are the table's entry at the row that entry `13312 * w + n` of the index list names. -/
theorem vals_hold (hpre : ∀ j, (m (a0Loc d) j).toNat ≤ 39999) (f0 : Buf (Elt F) ((V d (cV L) (jV L)).loc cc0_scratch0)) (f1 : Buf (Elt F) ((V d (cV L) (jV L)).loc cc0_scratch1))
    (hin : ∀ j, ((s0V).view.read (Elt F) (View.write (Elt F) (s0V).view f0 (ReadAs.same.apply (View.read (Elt F) ((xwV).slice (Rect.unit (s := S425984) (k0_off2 L) S13312.size (k0_off2_inb L)) (fun _ => rfl)).view (xwC m d))) Finset.univ) j).toNat < S1040000.size gathers_S1040000_S13312.axis)
    (hsl : ∀ a, (![0] : Fin 1 → Nat) a + S1040000.size a ≤ S1040000.size a) (hn : S13312.numel = S13312.size gathers_S1040000_S13312.axis') (n : S13312.Idx) :
    (s1V).view.read (Elt F) ((s1V).view.writes (Elt F) f1 [⟨Rect.whole _, SparseCore.gatherPayload gathers_S1040000_S13312 (View.read (Elt F) ((shV).slice (Rect.unit (s := S1040000) ![0] S1040000.size hsl) (fun _ => rfl)).view (shC m d (cV L))) (SparseCore.rows (View.read (Elt F) (s0V).view (View.write (Elt F) (s0V).view f0 (ReadAs.same.apply (View.read (Elt F) ((xwV).slice (Rect.unit (s := S425984) (k0_off2 L) S13312.size (k0_off2_inb L)) (fun _ => rfl)).view (xwC m d))) Finset.univ)) hn hin)⟩]) n
      = Layout.tabw (m (a2Loc d)) (ValueIdx.ix1 ⟨(Layout.xw (m (a0Loc d)) (ValueIdx.ix1 ⟨13312 * (wL L).val + (n 0).val, by
          have := (wL L).isLt; have h : (n 0).val < 13312 := (n 0).isLt; omega⟩)).toNat, Layout.xw_lt (m (a0Loc d)) hpre _⟩) := by
  rw [View.read_writes_whole, gather1_apply, sh_read]
  exact congrArg (fun q : Fin 1040000 => Layout.tabw (F := F) (m (a2Loc d)) (ValueIdx.ix1 q))
    (Fin.ext (congrArg BitVec.toNat (xw_holds m d L f0 n)))

/-- The tile's run of the flat result, holding the specification's numbers, reads at `y` batch row `512 * w + y`'s. -/
theorem run_reads (y : S512.Idx) :
    (orunK L).view.read (Elt F) (oC m d) y
      = Spec.acc (m (a0Loc d)) (m (a1Loc d)) (m (a2Loc d)) (m (a3Loc d)) (m (a4Loc d)) (m (a5Loc d)) ⟨512 * (wL L).val + (y 0).val, by
          have := (wL L).isLt; have h : (y 0).val < 512 := (y 0).isLt; omega⟩ := by
  show Spec.acc (F := F) (m (a0Loc d)) (m (a1Loc d)) (m (a2Loc d)) (m (a3Loc d)) (m (a4Loc d)) (m (a5Loc d))
    ((Rect.unit (s := S16384) (k0_off4 L) S512.size (k0_off4_inb L)).emb y 0) = _
  refine congrArg (Spec.acc (F := F) (m (a0Loc d)) (m (a1Loc d)) (m (a2Loc d)) (m (a3Loc d)) (m (a4Loc d)) (m (a5Loc d))) (Fin.ext ?_)
  have e : (k0_off4 L) 0 = 1024 * (L 1).val + 512 * (L 0).val := congrFun (k0_off4_eq L) 0
  show (k0_off4 L) 0 + 1 * (y 0).val = 512 * (2 * (L 1).val + (L 0).val) + (y 0).val
  omega

/-- What the tile computes from its scratch arrays is what its run of the flat result is to hold. -/
theorem loc_is_run (hpre : ∀ j, (m (a0Loc d) j).toNat ≤ 39999) (f0 : Buf (Elt F) ((V d (cV L) (jV L)).loc cc0_scratch0)) (f1 : Buf (Elt F) ((V d (cV L) (jV L)).loc cc0_scratch1)) (f2 : Buf (Elt F) ((V d (cV L) (jV L)).loc cc0_scratch2)) (f3 : Buf (Elt F) ((V d (cV L) (jV L)).loc cc0_scratch3))
    (hin : ∀ j, ((s0V).view.read (Elt F) (View.write (Elt F) (s0V).view f0 (ReadAs.same.apply (View.read (Elt F) ((xwV).slice (Rect.unit (s := S425984) (k0_off2 L) S13312.size (k0_off2_inb L)) (fun _ => rfl)).view (xwC m d))) Finset.univ) j).toNat < S1040000.size gathers_S1040000_S13312.axis)
    (hsl : ∀ a, (![0] : Fin 1 → Nat) a + S1040000.size a ≤ S1040000.size a) (hn : S13312.numel = S13312.size gathers_S1040000_S13312.axis') (y : S512.Idx) :
    Local.loc
        ((s1V).view.read (Elt F) ((s1V).view.writes (Elt F) f1 [⟨Rect.whole _, SparseCore.gatherPayload gathers_S1040000_S13312 (View.read (Elt F) ((shV).slice (Rect.unit (s := S1040000) ![0] S1040000.size hsl) (fun _ => rfl)).view (shC m d (cV L))) (SparseCore.rows (View.read (Elt F) (s0V).view (View.write (Elt F) (s0V).view f0 (ReadAs.same.apply (View.read (Elt F) ((xwV).slice (Rect.unit (s := S425984) (k0_off2 L) S13312.size (k0_off2_inb L)) (fun _ => rfl)).view (xwC m d))) Finset.univ)) hn hin)⟩]))
        ((s2V).view.read (Elt F) (View.write (Elt F) (s2V).view f2 (ReadAs.same.apply (View.read (Elt F) ((tbV).slice (Rect.unit (s := S262144) (k0_off3 L) S8192.size (k0_off3_inb L)) (fun _ => rfl)).view (tbC m d))) Finset.univ))
        ((s3V).view.read (Elt F) (View.write (Elt F) (s3V).view f3 (ReadAs.same.apply (View.read (Elt F) (pvV).view (pvC m d))) Finset.univ)) y
      = (orunK L).view.read (Elt F) (oC m d) y := by
  rw [run_reads]
  exact Local.loc_eq_acc (m (a0Loc d)) (m (a1Loc d)) (m (a2Loc d)) (m (a3Loc d)) (m (a4Loc d)) (m (a5Loc d)) hpre (wL L) _ _ _
    (fun n => vals_hold m d L hpre f0 f1 hin hsl hn n) (fun n => tb_holds m d L f2 n) (pv_holds m d L f3) y

end Tile

end Cert.Proof.KI

end
-- ==== Proof.KIBody.lean ====
/-
  One tile's run.

  A filling tile copies its slab of the table into the shared copy; every tile copies its index list, its dense features
  and the parameter vector into its scratch; at the barrier a filling tile hands every tile of its SparseCore a read share
  of the filled slab, and every tile receives the thirteen slabs' read shares, which are a read share of the whole shared
  copy; the tile gathers the rows its index list names; adds up, for each of its 512 batch rows, the biases, the 26
  gathered entries and the 16 products; and copies the 512 numbers to its run of the flat result.
-/
import proofs.«207416_g64579128263113_cont_9to1_m_974_55_alg».proof.Proof.KITile
import proofs.«207416_g64579128263113_cont_9to1_m_974_55_alg».proof.Proof.LayoutFacts
import proofs.«207416_g64579128263113_cont_9to1_m_974_55_alg».proof.Proof.KIValue
import proofs.«207416_g64579128263113_cont_9to1_m_974_55_alg».proof.Proof.KIScratch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]
section Tile
variable (d : Dev nD) (L : grid0.Coords)
local notation "xwV" => (Memref.whole Cert.KernelIdeal.main_v8_scv : Memref Cert.KernelIdeal.sig Kind.scVector Space.hbm Cert.KernelIdeal.S425984 EltTy.i32)
local notation "tbV" => (Memref.whole Cert.KernelIdeal.main_v11_scv : Memref Cert.KernelIdeal.sig Kind.scVector Space.hbm Cert.KernelIdeal.S262144 EltTy.f32)
local notation "tabV" => (Memref.whole Cert.KernelIdeal.main_v12_scv : Memref Cert.KernelIdeal.sig Kind.scVector Space.hbm Cert.KernelIdeal.S1040000 EltTy.f32)
local notation "pvV" => (Memref.whole Cert.KernelIdeal.main_v18_scv : Memref Cert.KernelIdeal.sig Kind.scVector Space.hbm Cert.KernelIdeal.S272 EltTy.f32)
local notation "oV" => (Memref.whole Cert.KernelIdeal.main_v19_scv : Memref Cert.KernelIdeal.sig Kind.scVector Space.hbm Cert.KernelIdeal.S16384 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13312 EltTy.f32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S272 EltTy.f32)
local notation "s4V" => (Memref.whole Cert.KernelIdeal.cc0_scratch4 : Memref Cert.KernelIdeal.sig Kind.scVector Space.vmem Cert.KernelIdeal.S512 EltTy.f32)
local notation "shV" => (Memref.whole Cert.KernelIdeal.cc0_scratch5 : Memref Cert.KernelIdeal.sig Kind.scVector Space.shared Cert.KernelIdeal.S1040000 EltTy.f32)

set_option maxHeartbeats 4000000 in
theorem tile_run_fill (hF : (K (F := F)).Facts) (hpre : ∀ j, (m (a0Loc d) j).toNat ≤ 39999) (h13 : k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (R : sProp 𝕄)
    (fo : Buf (Elt F) (oLoc d)) (fsh : Buf (Elt F) (shLoc d (cV L)))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) :
    iprop(levAts (K (F := F)).L (K (F := F)).lev ∗ bkit m d (cV L) (jV L)
        ∗ (xwLoc d ↦{rs (wL L).val} xwC m d) ∗ (tbLoc d ↦{rs (wL L).val} tbC m d) ∗ (tabLoc d ↦{rs (wL L).val} tabC m d) ∗ (pvLoc d ↦{rs (wL L).val} pvC m d)
        ∗ (oLoc d ↦[orunSet (wL L)]{fullShare} fo)
        ∗ (shLoc d (cV L) ↦[slabSet ⟨(L 1).val, (cond1_iff L).mp h13⟩]{fullShare} fsh)
        ∗ ((V d (cV L) (jV L)).loc cc0_scratch0 ↦{fullShare} f0) ∗ ((V d (cV L) (jV L)).loc cc0_scratch1 ↦{fullShare} f1)
        ∗ ((V d (cV L) (jV L)).loc cc0_scratch2 ↦{fullShare} f2) ∗ ((V d (cV L) (jV L)).loc cc0_scratch3 ↦{fullShare} f3)
        ∗ ((V d (cV L) (jV L)).loc cc0_scratch4 ↦{fullShare} f4)
        ∗ semVal (cGcell d (cV L) (jV L)) 0 ∗ semVal (c0cell d (cV L) (jV L)) 0 ∗ semVal (c1cell d (cV L) (jV L)) 0 ∗ semVal (c2cell d (cV L) (jV L)) 0
        ∗ semVal (c3cell d (cV L) (jV L)) 0 ∗ semVal (c4cell d (cV L) (jV L)) 0
        ∗ owes (V d (cV L) (jV L)) (O + oxV d (cV L)) W ∗ R)
      ⊢ wp frame (wpE (defs₀ (F := F)) 𝒱₀ (V d (cV L) (jV L)) none) Set.univ
          (cc0__fl_kernel L xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4)
          fun _ => iprop((oLoc d ↦[orunSet (wL L)]{fullShare} oC m d) ∗ slabKept m d (cV L) (jV L).val ∗ slabsRd m d (cV L) (jV L).val
            ∗ ((∃ f, (V d (cV L) (jV L)).loc cc0_scratch0 ↦{fullShare} f) ∗ (∃ f, (V d (cV L) (jV L)).loc cc0_scratch1 ↦{fullShare} f)
              ∗ (∃ f, (V d (cV L) (jV L)).loc cc0_scratch2 ↦{fullShare} f) ∗ (∃ f, (V d (cV L) (jV L)).loc cc0_scratch3 ↦{fullShare} f)
              ∗ (∃ f, (V d (cV L) (jV L)).loc cc0_scratch4 ↦{fullShare} f))
            ∗ (semVal (cGcell d (cV L) (jV L)) 0 ∗ semVal (c0cell d (cV L) (jV L)) 0 ∗ semVal (c1cell d (cV L) (jV L)) 0 ∗ semVal (c2cell d (cV L) (jV L)) 0
              ∗ semVal (c3cell d (cV L) (jV L)) 0 ∗ semVal (c4cell d (cV L) (jV L)) 0)
            ∗ R
            ∗ ∃ W', ⌜∀ p ∈ W', p ∈ W ∨ p.2 = none ∨ p.2 = some (0 : Fin 1)⌝ ∗ owes (V d (cV L) (jV L)) O W') := by
  simp only [cc0__fl_kernel_eq_skeleton]; unfold cc0__fl_kernel_skel
  unfold bkit
  iintro ⟨#Hlv, ⟨⟨%κ, #Hinv⟩, Htoks, #Hrch, Hat, Hcred⟩, Hxw, Htb, Htab, Hpv, Ho, Hsh, Hs0, Hs1, Hs2, Hs3, Hs4, HsG, Hc0, Hc1, Hc2, Hc3, Hc4, HO, HR⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hxw := (Entails.of_eq (pts_xw (F := F) d L _ _).symm) $$ Hxw
  ihave Htb := (Entails.of_eq (pts_tb (F := F) d L _ _).symm) $$ Htb
  ihave Htab := (Entails.of_eq (pts_tab (F := F) d L _ _).symm) $$ Htab
  ihave Hpv := (Entails.of_eq (pts_pv (F := F) d L _ _).symm) $$ Hpv
  ihave Ho := (Entails.of_eq (pts_orun (F := F) d L _).symm) $$ Ho
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hsh := (Entails.of_eq (pts_slab (F := F) d L h13 _ _).symm) $$ Hsh
  sl_exec_parts
  sl_unfold_run_names
  -- the slab now holds the table's rows
  ihave Hsh := (Entails.of_eq (own_congr (F := F) (c := V d (cV L) (jV L)) (slabK L h13).view fullShare _ (shC m d (cV L)) (fun y => by rw [View.read_writes_whole]; rfl))) $$ Hsh
  ihave Hsh := (Entails.of_eq (pts_slab (F := F) d L h13 _ _)) $$ Hsh
  ihave Hp := (show (shLoc d (cV L) ↦[slabSet ⟨(L 1).val, (cond1_iff L).mp h13⟩]{fullShare} shC m d (cV L) : sProp 𝕄)
      ⊢ iprop(slabKept m d (cV L) (jV L).val ∗ bigSep Finset.univ fun j : Fin (grid0.bound 1) => (bRd (F := F) m).payload (bcell d (cV L) (j.castLE hsub0)) 0 (jV L).val)
      from pays_fill m d (cV L) (jV L) ((cond1_iff L).mp h13)) $$ Hsh
  icases Hp with ⟨Hkept, Hpays⟩
  -- the barrier: a unit to every tile's semaphore, each carrying this tile's payload for that round; then the wait
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- what the tile's own round collected: a read share of the whole shared copy, at the table's rows
  ihave Hrd := (pays_elim m d (cV L) (jV L)) $$ Hgot
  ihave Hrd := (Entails.of_eq (slabsRd_eq m d (cV L) (jV L).val)) $$ Hrd
  ihave Hrd := (Entails.of_eq (pts_sh (F := F) d L _ _).symm) $$ Hrd
  -- the index list holds rows of the table
  have hin : ∀ j, ((s0V).view.read (Elt F) (View.write (Elt F) (s0V).view f0
      (ReadAs.same.apply (View.read (Elt F) ((xwV).slice (Rect.unit (s := S425984) (k0_off2 L) S13312.size (k0_off2_inb L)) (fun _ => rfl)).view (xwC m d))) Finset.univ) j).toNat
      < S1040000.size gathers_S1040000_S13312.axis := fun j => by
    rw [View.read_write_univ]
    exact Layout.xw_lt (m (a0Loc d)) hpre _
  sl_exec_parts
  sl_step
  isplitl [Ho]
  · ihave Ho := (Entails.of_eq (own_congr (F := F) (c := V d (cV L) (jV L)) (orunK L).view fullShare _ (oC m d) (fun y => by
        rw [View.read_writes_whole]
        sl_unfold_run_names
        generalize hc2 : View.write (Elt F) (s2V).view f2
            (ReadAs.same.apply (View.read (Elt F) ((tbV).slice (Rect.unit (s := S262144) (k0_off3 L) S8192.size (k0_off3_inb L)) (fun _ => rfl)).view (tbC m d)))
            Finset.univ = c2
        generalize hc3 : View.write (Elt F) (s3V).view f3 (ReadAs.same.apply (View.read (Elt F) (pvV).view (pvC m d))) Finset.univ = c3
        refine (View.read_writes_apply_of_pieces _ _ (Local.loc
          (SparseCore.gatherPayload gathers_S1040000_S13312
            (View.read (Elt F) ((shV).slice (Rect.unit (s := S1040000) ![0] S1040000.size inb_S1040000_S1040000_0) (fun _ => rfl)).view (shC m d (cV L)))
            (SparseCore.rows (View.read (Elt F) (s0V).view (View.write (Elt F) (s0V).view f0
              (ReadAs.same.apply (View.read (Elt F) ((xwV).slice (Rect.unit (s := S425984) (k0_off2 L) S13312.size (k0_off2_inb L)) (fun _ => rfl)).view (xwC m d)))
              Finset.univ)) rfl hin))
          ((s2V).view.read (Elt F) c2) ((s3V).view.read (Elt F) c3)) _ ?_ y
          (View.cover_of_tiled _ ![16] (by sl_kernel_rfl) y)).trans ?_
        · ki_pieces
        · subst hc2 hc3
          exact (congrArg (fun a => Local.loc a _ _ y) (View.read_writes_whole (s1V).view f1 _).symm).trans
            (loc_is_run m d L hpre f0 f1 f2 f3 hin inb_S1040000_S1040000_0 rfl y)))) $$ Ho
    iapply (Entails.of_eq (pts_orun (F := F) d L _)); iexact Ho
  isplitl [Hkept]; · iexact Hkept
  isplitl [Hrd]
  · ihave Hrd := (Entails.of_eq (pts_sh (F := F) d L _ _)) $$ Hrd
    iapply (Entails.of_eq (slabsRd_eq m d (cV L) (jV L).val).symm); iexact Hrd
  isplitl [Hs0 Hs1 Hs2 Hs3 Hs4]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    isplitl [Hs3]; · iexists _; iapply (Entails.of_eq (pts_s3 (F := F) d L _)); iexact Hs3
    iexists _; iapply (Entails.of_eq (pts_s4 (F := F) d L _)); iexact Hs4
  isplitl [HsG Hc0 Hc1 Hc2 Hc3 Hc4]
  · isplitl [HsG]; · iexact HsG
    isplitl [Hc0]; · iexact Hc0
    isplitl [Hc1]; · iexact Hc1
    isplitl [Hc2]; · iexact Hc2
    isplitl [Hc3]; · iexact Hc3
    iexact Hc4
  isplitl [HR]; · iexact HR
  iexists _; isplitr
  swap; · iexact HO
  ipureintro; intro p hp
  simp only [Finset.mem_insert] at hp
  rcases hp with hp | hp | hp | hp | hp | hp | hp | hp
  all_goals first | exact .inl hp | (subst hp; first | exact .inr (.inl rfl) | exact .inr (.inr rfl))

set_option maxHeartbeats 4000000 in
theorem tile_run_idle (hF : (K (F := F)).Facts) (hpre : ∀ j, (m (a0Loc d) j).toNat ≤ 39999) (h13 : ¬ k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (R : sProp 𝕄)
    (fo : Buf (Elt F) (oLoc d))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) :
    iprop(levAts (K (F := F)).L (K (F := F)).lev ∗ bkit m d (cV L) (jV L)
        ∗ (xwLoc d ↦{rs (wL L).val} xwC m d) ∗ (tbLoc d ↦{rs (wL L).val} tbC m d) ∗ (tabLoc d ↦{rs (wL L).val} tabC m d) ∗ (pvLoc d ↦{rs (wL L).val} pvC m d)
        ∗ (oLoc d ↦[orunSet (wL L)]{fullShare} fo)

        ∗ ((V d (cV L) (jV L)).loc cc0_scratch0 ↦{fullShare} f0) ∗ ((V d (cV L) (jV L)).loc cc0_scratch1 ↦{fullShare} f1)
        ∗ ((V d (cV L) (jV L)).loc cc0_scratch2 ↦{fullShare} f2) ∗ ((V d (cV L) (jV L)).loc cc0_scratch3 ↦{fullShare} f3)
        ∗ ((V d (cV L) (jV L)).loc cc0_scratch4 ↦{fullShare} f4)
        ∗ semVal (cGcell d (cV L) (jV L)) 0 ∗ semVal (c0cell d (cV L) (jV L)) 0 ∗ semVal (c1cell d (cV L) (jV L)) 0 ∗ semVal (c2cell d (cV L) (jV L)) 0
        ∗ semVal (c3cell d (cV L) (jV L)) 0 ∗ semVal (c4cell d (cV L) (jV L)) 0
        ∗ owes (V d (cV L) (jV L)) (O + oxV d (cV L)) W ∗ R)
      ⊢ wp frame (wpE (defs₀ (F := F)) 𝒱₀ (V d (cV L) (jV L)) none) Set.univ
          (cc0__fl_kernel L xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4)
          fun _ => iprop((oLoc d ↦[orunSet (wL L)]{fullShare} oC m d) ∗ slabKept m d (cV L) (jV L).val ∗ slabsRd m d (cV L) (jV L).val
            ∗ ((∃ f, (V d (cV L) (jV L)).loc cc0_scratch0 ↦{fullShare} f) ∗ (∃ f, (V d (cV L) (jV L)).loc cc0_scratch1 ↦{fullShare} f)
              ∗ (∃ f, (V d (cV L) (jV L)).loc cc0_scratch2 ↦{fullShare} f) ∗ (∃ f, (V d (cV L) (jV L)).loc cc0_scratch3 ↦{fullShare} f)
              ∗ (∃ f, (V d (cV L) (jV L)).loc cc0_scratch4 ↦{fullShare} f))
            ∗ (semVal (cGcell d (cV L) (jV L)) 0 ∗ semVal (c0cell d (cV L) (jV L)) 0 ∗ semVal (c1cell d (cV L) (jV L)) 0 ∗ semVal (c2cell d (cV L) (jV L)) 0
              ∗ semVal (c3cell d (cV L) (jV L)) 0 ∗ semVal (c4cell d (cV L) (jV L)) 0)
            ∗ R
            ∗ ∃ W', ⌜∀ p ∈ W', p ∈ W ∨ p.2 = none ∨ p.2 = some (0 : Fin 1)⌝ ∗ owes (V d (cV L) (jV L)) O W') := by
  simp only [cc0__fl_kernel_eq_skeleton]; unfold cc0__fl_kernel_skel
  unfold bkit
  iintro ⟨#Hlv, ⟨⟨%κ, #Hinv⟩, Htoks, #Hrch, Hat, Hcred⟩, Hxw, Htb, Htab, Hpv, Ho, Hs0, Hs1, Hs2, Hs3, Hs4, HsG, Hc0, Hc1, Hc2, Hc3, Hc4, HO, HR⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hxw := (Entails.of_eq (pts_xw (F := F) d L _ _).symm) $$ Hxw
  ihave Htb := (Entails.of_eq (pts_tb (F := F) d L _ _).symm) $$ Htb
  ihave Htab := (Entails.of_eq (pts_tab (F := F) d L _ _).symm) $$ Htab
  ihave Hpv := (Entails.of_eq (pts_pv (F := F) d L _ _).symm) $$ Hpv
  ihave Ho := (Entails.of_eq (pts_orun (F := F) d L _).symm) $$ Ho
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  sl_exec_parts
  sl_unfold_run_names
  -- nothing to hand over
  ihave Hp := (show (iprop(emp) : sProp 𝕄)
      ⊢ iprop(slabKept m d (cV L) (jV L).val ∗ bigSep Finset.univ fun j : Fin (grid0.bound 1) => (bRd (F := F) m).payload (bcell d (cV L) (j.castLE hsub0)) 0 (jV L).val)
      from pays_idle m d (cV L) (jV L) (fun h => h13 ((cond1_iff L).mpr h))) $$ []
  · iempintro
  icases Hp with ⟨Hkept, Hpays⟩
  -- the barrier: a unit to every tile's semaphore, each carrying this tile's payload for that round; then the wait
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- what the tile's own round collected: a read share of the whole shared copy, at the table's rows
  ihave Hrd := (pays_elim m d (cV L) (jV L)) $$ Hgot
  ihave Hrd := (Entails.of_eq (slabsRd_eq m d (cV L) (jV L).val)) $$ Hrd
  ihave Hrd := (Entails.of_eq (pts_sh (F := F) d L _ _).symm) $$ Hrd
  -- the index list holds rows of the table
  have hin : ∀ j, ((s0V).view.read (Elt F) (View.write (Elt F) (s0V).view f0
      (ReadAs.same.apply (View.read (Elt F) ((xwV).slice (Rect.unit (s := S425984) (k0_off2 L) S13312.size (k0_off2_inb L)) (fun _ => rfl)).view (xwC m d))) Finset.univ) j).toNat
      < S1040000.size gathers_S1040000_S13312.axis := fun j => by
    rw [View.read_write_univ]
    exact Layout.xw_lt (m (a0Loc d)) hpre _
  sl_exec_parts
  sl_step
  isplitl [Ho]
  · ihave Ho := (Entails.of_eq (own_congr (F := F) (c := V d (cV L) (jV L)) (orunK L).view fullShare _ (oC m d) (fun y => by
        rw [View.read_writes_whole]
        sl_unfold_run_names
        generalize hc2 : View.write (Elt F) (s2V).view f2
            (ReadAs.same.apply (View.read (Elt F) ((tbV).slice (Rect.unit (s := S262144) (k0_off3 L) S8192.size (k0_off3_inb L)) (fun _ => rfl)).view (tbC m d)))
            Finset.univ = c2
        generalize hc3 : View.write (Elt F) (s3V).view f3 (ReadAs.same.apply (View.read (Elt F) (pvV).view (pvC m d))) Finset.univ = c3
        refine (View.read_writes_apply_of_pieces _ _ (Local.loc
          (SparseCore.gatherPayload gathers_S1040000_S13312
            (View.read (Elt F) ((shV).slice (Rect.unit (s := S1040000) ![0] S1040000.size inb_S1040000_S1040000_0) (fun _ => rfl)).view (shC m d (cV L)))
            (SparseCore.rows (View.read (Elt F) (s0V).view (View.write (Elt F) (s0V).view f0
              (ReadAs.same.apply (View.read (Elt F) ((xwV).slice (Rect.unit (s := S425984) (k0_off2 L) S13312.size (k0_off2_inb L)) (fun _ => rfl)).view (xwC m d)))
              Finset.univ)) rfl hin))
          ((s2V).view.read (Elt F) c2) ((s3V).view.read (Elt F) c3)) _ ?_ y
          (View.cover_of_tiled _ ![16] (by sl_kernel_rfl) y)).trans ?_
        · ki_pieces
        · subst hc2 hc3
          exact (congrArg (fun a => Local.loc a _ _ y) (View.read_writes_whole (s1V).view f1 _).symm).trans
            (loc_is_run m d L hpre f0 f1 f2 f3 hin inb_S1040000_S1040000_0 rfl y)))) $$ Ho
    iapply (Entails.of_eq (pts_orun (F := F) d L _)); iexact Ho
  isplitl [Hkept]; · iexact Hkept
  isplitl [Hrd]
  · ihave Hrd := (Entails.of_eq (pts_sh (F := F) d L _ _)) $$ Hrd
    iapply (Entails.of_eq (slabsRd_eq m d (cV L) (jV L).val).symm); iexact Hrd
  isplitl [Hs0 Hs1 Hs2 Hs3 Hs4]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    isplitl [Hs3]; · iexists _; iapply (Entails.of_eq (pts_s3 (F := F) d L _)); iexact Hs3
    iexists _; iapply (Entails.of_eq (pts_s4 (F := F) d L _)); iexact Hs4
  isplitl [HsG Hc0 Hc1 Hc2 Hc3 Hc4]
  · isplitl [HsG]; · iexact HsG
    isplitl [Hc0]; · iexact Hc0
    isplitl [Hc1]; · iexact Hc1
    isplitl [Hc2]; · iexact Hc2
    isplitl [Hc3]; · iexact Hc3
    iexact Hc4
  isplitl [HR]; · iexact HR
  iexists _; isplitr
  swap; · iexact HO
  ipureintro; intro p hp
  simp only [Finset.mem_insert] at hp
  rcases hp with hp | hp | hp | hp | hp | hp | hp
  all_goals first | exact .inl hp | (subst hp; first | exact .inr (.inl rfl) | exact .inr (.inr rfl))

end Tile
end Cert.Proof.KI
end
-- ==== Proof.KITileRes.lean ====
/-
  A tile's own storage, item by item.

  What a tile owns for the length of its task is its six copy semaphores, each at zero, and its five scratch buffers,
  each whole at some contents. The assertions "all of its own semaphores at zero" and "all of its own buffers at some
  contents" range over the sets of the tile's scoped cells and of the buffers it is home to; taking the named items out
  of those sets one at a time leaves the named items and a remainder over the set with them erased.
-/
import proofs.«207416_g64579128263113_cont_9to1_m_974_55_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (c : Fin τ.nSC) (i : Fin τ.nSub)

/-- Two cells of one thread on different semaphores are different cells. -/
theorem cell_ne {thr : Thread nD τ} {s s' : SemLoc sig} (h : s ≠ s') : ((thr, s) : GSem nD τ sig) ≠ (thr, s') :=
  fun e => h (Prod.mk.inj e).2

/-- A scoped semaphore of a tile is one of the tile's own cells. -/
theorem mem_own {s : SemLoc sig} (h : s.isScoped .scVector = true) : ((V d c i, s) : GSem nD τ sig) ∈ ownCells (V d c i) :=
  mem_ownCells.mpr ⟨rfl, h⟩

/-- The tile's own semaphores at zero: the gather's, the five copies', and the rest — the remainder is over the tile's
    own cells with the six erased in the order gather, copy 0, …, copy 4. -/
theorem ownSems0_V :
    (ownSems0 (V d c i) : sProp 𝕄)
      = iprop(semVal (cGcell d c i) 0 ∗ semVal (c0cell d c i) 0 ∗ semVal (c1cell d c i) 0 ∗ semVal (c2cell d c i) 0
          ∗ semVal (c3cell d c i) 0 ∗ semVal (c4cell d c i) 0
          ∗ bigSep (((((((ownCells (V d c i)).erase (cGcell d c i)).erase (c0cell d c i)).erase (c1cell d c i)).erase (c2cell d c i)).erase
              (c3cell d c i)).erase (c4cell d c i)) fun g => semVal g 0) := by
  unfold SparseCore.Cfg.ownSems0
  have mG : cGcell d c i ∈ ownCells (V d c i) := mem_own d c i (by decide)
  have m0 : c0cell d c i ∈ ownCells (V d c i) := mem_own d c i (by decide)
  have m1 : c1cell d c i ∈ ownCells (V d c i) := mem_own d c i (by decide)
  have m2 : c2cell d c i ∈ ownCells (V d c i) := mem_own d c i (by decide)
  have m3 : c3cell d c i ∈ ownCells (V d c i) := mem_own d c i (by decide)
  have m4 : c4cell d c i ∈ ownCells (V d c i) := mem_own d c i (by decide)
  rw [SparseCore.bigSep_erase' mG,
    SparseCore.bigSep_erase' (Finset.mem_erase.mpr ⟨cell_ne (by decide), m0⟩),
    SparseCore.bigSep_erase' (Finset.mem_erase.mpr ⟨cell_ne (by decide), Finset.mem_erase.mpr ⟨cell_ne (by decide), m1⟩⟩),
    SparseCore.bigSep_erase' (Finset.mem_erase.mpr ⟨cell_ne (by decide), Finset.mem_erase.mpr ⟨cell_ne (by decide),
      Finset.mem_erase.mpr ⟨cell_ne (by decide), m2⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), m3⟩⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), Finset.mem_erase.mpr ⟨cell_ne (by decide), m4⟩⟩⟩⟩⟩)]

/-- A tile is home to each of its scratch buffers. -/
theorem mem_refs (b : Ref sig .scVector) (h : ((Proc.scVector c i).devRef b : DevRef τ sig).owner = .proc (.scVector c i)) :
    (Proc.scVector c i).devRef b ∈ ownRefs (τ := τ) (.scVector c i) :=
  SparseCore.Cfg.mem_ownRefs_of_owner (p := Proc.scVector c i) (b := (Proc.scVector c i).devRef b) h

/-- Different scratch references of one tile are different buffers. -/
theorem ref_ne {b b' : Ref sig .scVector} (h : b ≠ b') : ((Proc.scVector c i).devRef b : DevRef τ sig) ≠ (Proc.scVector c i).devRef b' :=
  fun e => h (Proc.devRef_injective _ e)

/-- The tile's own buffers at some contents: the five scratch buffers and the rest — the remainder is over the buffers
    the tile is home to with the five erased in the order 0, …, 4. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (.scVector c i)).erase ((Proc.scVector c i).devRef cc0_scratch0)).erase
              ((Proc.scVector c i).devRef cc0_scratch1)).erase ((Proc.scVector c i).devRef cc0_scratch2)).erase
              ((Proc.scVector c i).devRef cc0_scratch3)).erase ((Proc.scVector c i).devRef cc0_scratch4))
              fun b => iprop(∃ f, ((d, b) : Loc nD τ sig) ↦{fullShare} f)) := by
  unfold SparseCore.Cfg.ownBufs
  have m0 := mem_refs c i cc0_scratch0 rfl
  have m1 := mem_refs c i cc0_scratch1 rfl
  have m2 := mem_refs c i cc0_scratch2 rfl
  have m3 := mem_refs c i cc0_scratch3 rfl
  have m4 := mem_refs c i cc0_scratch4 rfl
  refine (SparseCore.bigSep_erase' m0).trans ?_
  rw [SparseCore.bigSep_erase' (Finset.mem_erase.mpr ⟨ref_ne c i (by decide), m1⟩),
    SparseCore.bigSep_erase' (Finset.mem_erase.mpr ⟨ref_ne c i (by decide), Finset.mem_erase.mpr ⟨ref_ne c i (by decide), m2⟩⟩),
    SparseCore.bigSep_erase' (Finset.mem_erase.mpr ⟨ref_ne c i (by decide), Finset.mem_erase.mpr ⟨ref_ne c i (by decide),
      Finset.mem_erase.mpr ⟨ref_ne c i (by decide), m3⟩⟩⟩),
    SparseCore.bigSep_erase' (Finset.mem_erase.mpr ⟨ref_ne c i (by decide), Finset.mem_erase.mpr ⟨ref_ne c i (by decide),
      Finset.mem_erase.mpr ⟨ref_ne c i (by decide), Finset.mem_erase.mpr ⟨ref_ne c i (by decide), m4⟩⟩⟩⟩)]

end Tile

end Cert.Proof.KI

end
-- ==== Proof.KIObl.lean ====
/-
  A tile's task, as the launch theorem asks for it.

  Handed its go payload (its read shares, its run of the flat result, a filling tile's slab), its scoped storage and its
  barrier kit, owing the barrier's units beside what it owed, the tile's task ends with its done payload (its run at the
  numbers of its 512 batch rows, what it kept of its slab, the thirteen read shares), its scoped storage back and the
  barrier's units paid. The task is the tile's run with the rest of its scoped storage carried along untouched; which of
  the two runs it is depends only on whether the tile's number is below 13.
-/
import proofs.«207416_g64579128263113_cont_9to1_m_974_55_alg».proof.Proof.KIBody
import proofs.«207416_g64579128263113_cont_9to1_m_974_55_alg».proof.Proof.KITileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]
section Tile
variable (d : Dev nD) (L : grid0.Coords)
local notation "xwV" => (Memref.whole Cert.KernelIdeal.main_v8_scv : Memref Cert.KernelIdeal.sig Kind.scVector Space.hbm Cert.KernelIdeal.S425984 EltTy.i32)
local notation "tbV" => (Memref.whole Cert.KernelIdeal.main_v11_scv : Memref Cert.KernelIdeal.sig Kind.scVector Space.hbm Cert.KernelIdeal.S262144 EltTy.f32)
local notation "tabV" => (Memref.whole Cert.KernelIdeal.main_v12_scv : Memref Cert.KernelIdeal.sig Kind.scVector Space.hbm Cert.KernelIdeal.S1040000 EltTy.f32)
local notation "pvV" => (Memref.whole Cert.KernelIdeal.main_v18_scv : Memref Cert.KernelIdeal.sig Kind.scVector Space.hbm Cert.KernelIdeal.S272 EltTy.f32)
local notation "oV" => (Memref.whole Cert.KernelIdeal.main_v19_scv : Memref Cert.KernelIdeal.sig Kind.scVector Space.hbm Cert.KernelIdeal.S16384 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13312 EltTy.f32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S272 EltTy.f32)
local notation "s4V" => (Memref.whole Cert.KernelIdeal.cc0_scratch4 : Memref Cert.KernelIdeal.sig Kind.scVector Space.vmem Cert.KernelIdeal.S512 EltTy.f32)
local notation "shV" => (Memref.whole Cert.KernelIdeal.cc0_scratch5 : Memref Cert.KernelIdeal.sig Kind.scVector Space.shared Cert.KernelIdeal.S1040000 EltTy.f32)

/-- The rest of a tile's own buffers and semaphores, beside the five scratch buffers and the six copy semaphores. -/
abbrev restBufs (d : Dev nD) (c : Fin τ.nSC) (i : Fin τ.nSub) : sProp 𝕄 :=
  bigSep ((((((ownRefs (τ := τ) (.scVector c i)).erase ((Proc.scVector c i).devRef cc0_scratch0)).erase
      ((Proc.scVector c i).devRef cc0_scratch1)).erase ((Proc.scVector c i).devRef cc0_scratch2)).erase
      ((Proc.scVector c i).devRef cc0_scratch3)).erase ((Proc.scVector c i).devRef cc0_scratch4))
    fun b => iprop(∃ f, ((d, b) : Loc nD τ sig) ↦{fullShare} f)
abbrev restSems (d : Dev nD) (c : Fin τ.nSC) (i : Fin τ.nSub) : sProp 𝕄 :=
  bigSep (((((((ownCells (V d c i)).erase (cGcell d c i)).erase (c0cell d c i)).erase (c1cell d c i)).erase (c2cell d c i)).erase
      (c3cell d c i)).erase (c4cell d c i)) fun g => semVal g 0

/-- The run's result, regrouped as the task's. -/
theorem post_regroup (O : CellTallies nD τ sig (HIx 1)) (W : Waits sig (HIx 1)) :
    iprop((oLoc d ↦[orunSet (wL L)]{fullShare} oC m d) ∗ slabKept m d (cV L) (jV L).val ∗ slabsRd m d (cV L) (jV L).val
        ∗ ((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f))
        ∗ (semVal (cGcell d (cV L) (jV L)) 0 ∗ semVal (c0cell d (cV L) (jV L)) 0 ∗ semVal (c1cell d (cV L) (jV L)) 0 ∗ semVal (c2cell d (cV L) (jV L)) 0
          ∗ semVal (c3cell d (cV L) (jV L)) 0 ∗ semVal (c4cell d (cV L) (jV L)) 0)
        ∗ iprop(restBufs d (cV L) (jV L) ∗ restSems d (cV L) (jV L))
        ∗ ∃ W', ⌜∀ p ∈ W', p ∈ W ∨ p.2 = none ∨ p.2 = some (0 : Fin 1)⌝ ∗ owes (V d (cV L) (jV L)) O W')
      ⊢ iprop(((oLoc d ↦[orunSet (wL L)]{fullShare} oC m d) ∗ slabKept m d (cV L) (jV L).val ∗ slabsRd m d (cV L) (jV L).val)
          ∗ ((∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f) ∗ (∃ f, (V d (cV L) (jV L)).loc cc0_scratch3 ↦{fullShare} f)
            ∗ (∃ f, (V d (cV L) (jV L)).loc cc0_scratch4 ↦{fullShare} f) ∗ restBufs d (cV L) (jV L))
          ∗ (semVal (cGcell d (cV L) (jV L)) 0 ∗ semVal (c0cell d (cV L) (jV L)) 0 ∗ semVal (c1cell d (cV L) (jV L)) 0 ∗ semVal (c2cell d (cV L) (jV L)) 0
            ∗ semVal (c3cell d (cV L) (jV L)) 0 ∗ semVal (c4cell d (cV L) (jV L)) 0 ∗ restSems d (cV L) (jV L))
          ∗ ∃ W', ⌜∀ p ∈ W', p ∈ W ∨ p.2 = none ∨ p.2 = some (0 : Fin 1)⌝ ∗ owes (V d (cV L) (jV L)) O W') := by
  iintro ⟨Ho, Hk, Hrd, ⟨B0, B1, B2, B3, B4⟩, ⟨S0, S1, S2, S3, S4, S5⟩, ⟨RB, RS⟩, HW⟩
  isplitl [Ho Hk Hrd]
  · isplitl [Ho]; · iexact Ho
    isplitl [Hk]; · iexact Hk
    iexact Hrd
  isplitl [B0 B1 B2 B3 B4 RB]
  · isplitl [B0]; · iexact B0
    isplitl [B1]; · iexact B1
    isplitl [B2]; · iexact B2
    isplitl [B3]; · iexact B3
    isplitl [B4]; · iexact B4
    iexact RB
  isplitl [S0 S1 S2 S3 S4 S5 RS]
  · isplitl [S0]; · iexact S0
    isplitl [S1]; · iexact S1
    isplitl [S2]; · iexact S2
    isplitl [S3]; · iexact S3
    isplitl [S4]; · iexact S4
    isplitl [S5]; · iexact S5
    iexact RS
  iexact HW

set_option maxHeartbeats 1000000 in
theorem tile_body (hF : (K (F := F)).Facts) (hpre : ∀ j, (m (a0Loc d) j).toNat ≤ 39999)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (hbmPart m d (wL L) (m (oLoc d)) ∗ slabOwn d (cV L) (jV L).val)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__fl_kernel L xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4)
          fun _ => iprop(((oLoc d ↦[orunSet (wL L)]{fullShare} oC m d) ∗ slabKept m d (cV L) (jV L).val ∗ slabsRd m d (cV L) (jV L).val)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L),
    ownSems0_V d (cV L) (jV L), ownBufs_V d (cV L) (jV L)]
  by_cases h13 : k0_cond1 L = 1#1
  · have hlt : (jV L).val < 13 := (cond1_iff L).mp h13
    unfold slabOwn; rw [dif_pos hlt]
    iintro ⟨Hlv, Hkit, ⟨⟨Hxw, Htb, Htab, Hpv, Ho⟩, ⟨%fsh, Hsh⟩⟩, ⟨⟨%f0, Hs0⟩, ⟨%f1, Hs1⟩, ⟨%f2, Hs2⟩, ⟨%f3, Hs3⟩, ⟨%f4, Hs4⟩, Hbufs⟩, ⟨HsG, Hc0, Hc1, Hc2, Hc3, Hc4, Hsems⟩, HO⟩
    iapply (wp_mono frame _ _ (fun _ => post_regroup m d L O W))
    iapply (tile_run_fill m d L hF hpre h13 O W hO hOlev (iprop(restBufs d (cV L) (jV L) ∗ restSems d (cV L) (jV L))) (m (oLoc d)) fsh f0 f1 f2 f3 f4)
    isplitl [Hlv]; · iexact Hlv
    isplitl [Hkit]; · iexact Hkit
    isplitl [Hxw]; · iexact Hxw
    isplitl [Htb]; · iexact Htb
    isplitl [Htab]; · iexact Htab
    isplitl [Hpv]; · iexact Hpv
    isplitl [Ho]; · iexact Ho
    isplitl [Hsh]; · iexact Hsh
    isplitl [Hs0]; · iexact Hs0
    isplitl [Hs1]; · iexact Hs1
    isplitl [Hs2]; · iexact Hs2
    isplitl [Hs3]; · iexact Hs3
    isplitl [Hs4]; · iexact Hs4
    isplitl [HsG]; · iexact HsG
    isplitl [Hc0]; · iexact Hc0
    isplitl [Hc1]; · iexact Hc1
    isplitl [Hc2]; · iexact Hc2
    isplitl [Hc3]; · iexact Hc3
    isplitl [Hc4]; · iexact Hc4
    isplitl [HO]; · iexact HO
    isplitl [Hbufs]; · iexact Hbufs
    iexact Hsems
  · have hge : ¬ (jV L).val < 13 := fun h => h13 ((cond1_iff L).mpr h)
    unfold slabOwn; rw [dif_neg hge]
    iintro ⟨Hlv, Hkit, ⟨⟨Hxw, Htb, Htab, Hpv, Ho⟩, -⟩, ⟨⟨%f0, Hs0⟩, ⟨%f1, Hs1⟩, ⟨%f2, Hs2⟩, ⟨%f3, Hs3⟩, ⟨%f4, Hs4⟩, Hbufs⟩, ⟨HsG, Hc0, Hc1, Hc2, Hc3, Hc4, Hsems⟩, HO⟩
    iapply (wp_mono frame _ _ (fun _ => post_regroup m d L O W))
    iapply (tile_run_idle m d L hF hpre h13 O W hO hOlev (iprop(restBufs d (cV L) (jV L) ∗ restSems d (cV L) (jV L))) (m (oLoc d)) f0 f1 f2 f3 f4)
    isplitl [Hlv]; · iexact Hlv
    isplitl [Hkit]; · iexact Hkit
    isplitl [Hxw]; · iexact Hxw
    isplitl [Htb]; · iexact Htb
    isplitl [Htab]; · iexact Htab
    isplitl [Hpv]; · iexact Hpv
    isplitl [Ho]; · iexact Ho
    isplitl [Hs0]; · iexact Hs0
    isplitl [Hs1]; · iexact Hs1
    isplitl [Hs2]; · iexact Hs2
    isplitl [Hs3]; · iexact Hs3
    isplitl [Hs4]; · iexact Hs4
    isplitl [HsG]; · iexact HsG
    isplitl [Hc0]; · iexact Hc0
    isplitl [Hc1]; · iexact Hc1
    isplitl [Hc2]; · iexact Hc2
    isplitl [Hc3]; · iexact Hc3
    isplitl [Hc4]; · iexact Hc4
    isplitl [HO]; · iexact HO
    isplitl [Hbufs]; · iexact Hbufs
    iexact Hsems

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

local notation "xwV" => (Memref.whole Cert.KernelIdeal.main_v8_scv : Memref Cert.KernelIdeal.sig Kind.scVector Space.hbm Cert.KernelIdeal.S425984 EltTy.i32)
local notation "tbV" => (Memref.whole Cert.KernelIdeal.main_v11_scv : Memref Cert.KernelIdeal.sig Kind.scVector Space.hbm Cert.KernelIdeal.S262144 EltTy.f32)
local notation "tabV" => (Memref.whole Cert.KernelIdeal.main_v12_scv : Memref Cert.KernelIdeal.sig Kind.scVector Space.hbm Cert.KernelIdeal.S1040000 EltTy.f32)
local notation "pvV" => (Memref.whole Cert.KernelIdeal.main_v18_scv : Memref Cert.KernelIdeal.sig Kind.scVector Space.hbm Cert.KernelIdeal.S272 EltTy.f32)
local notation "oV" => (Memref.whole Cert.KernelIdeal.main_v19_scv : Memref Cert.KernelIdeal.sig Kind.scVector Space.hbm Cert.KernelIdeal.S16384 EltTy.f32)
local notation "s0V" => (Memref.whole Cert.KernelIdeal.cc0_scratch0 : Memref Cert.KernelIdeal.sig Kind.scVector Space.vmem Cert.KernelIdeal.S13312 EltTy.i32)
local notation "s1V" => (Memref.whole Cert.KernelIdeal.cc0_scratch1 : Memref Cert.KernelIdeal.sig Kind.scVector Space.vmem Cert.KernelIdeal.S13312 EltTy.f32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S272 EltTy.f32)
local notation "s4V" => (Memref.whole Cert.KernelIdeal.cc0_scratch4 : Memref Cert.KernelIdeal.sig Kind.scVector Space.vmem Cert.KernelIdeal.S512 EltTy.f32)
local notation "shV" => (Memref.whole Cert.KernelIdeal.cc0_scratch5 : Memref Cert.KernelIdeal.sig Kind.scVector Space.shared Cert.KernelIdeal.S1040000 EltTy.f32)

theorem defs₀_vector (c : Fin τ.nSC) (s : Fin τ.nSub) :
    defs₀ (F := F) (.scVector c s) 0 ()
      = SparseCore.onTile hcore0 hsub0 (fun c s => cc0__fl_kernel (coordsV c s) xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4) ⟨⟩ c s := rfl

set_option maxRecDepth 16384 in
theorem tileObl (hF : (K (F := F)).Facts) (hpre : ∀ (d : Dev nD) j, (m (a0Loc d) j).toNat ≤ 39999) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hpre d) O W hO hOlev

end Cert.Proof.KI

end
-- ==== Proof.KIHostOps.lean ====
/-
  The host side of the program as data: the operations that prepare the four flat arrays the lane-parallel
  call reads, in the order the program runs them, and the one operation that reads its flat result back as a column.

  The program is: these twenty operations, the call, the last operation, return. Every operation touches only
  tensor values of the program — the twenty-eight device buffers — and none of them leaves a buffer undetermined.
-/
import proofs.«207416_g64579128263113_cont_9to1_m_974_55_alg».proof.Proof.Gen.KernelIdeal
import Idealize.ShloMosaic.Lib.StableHlo.Run

noncomputable section

namespace Cert.Proof.KIHost

open Cert.KernelIdeal Cert.KernelIdeal.Gen Idealize.ShloMosaic Idealize.ShloMosaic.TcCoe Idealize.SL.Sem Idealize.ShloMosaic.StableHlo

variable {F : FTy → Type} [FloatOps F]

/-- The twenty operations before the call, in order: the field offsets `iota(26) * 40000` added to the indices and the
    sum dealt to the 32 workers field-major; the dense features dealt likewise; the table flattened; the parameter
    vector assembled from the weights and the two biases. -/
abbrev opsPre : List (HloOp τ sig (Elt F)) :=
  [ nullary main_v0 (iotaInDim S26 32 0),
    nullary main_c (constantI S_ 32 40000#32),
    unary main_c main_v1 (broadcastInDim S26 ![] bcast_S_S26 : (⟨S_, .i32⟩ : BufTy).Contents (Elt F) → (⟨S26, .i32⟩ : BufTy).Contents (Elt F)),
    binary main_v0 main_v1 main_v2 (muli : (⟨S26, .i32⟩ : BufTy).Contents (Elt F) → (⟨S26, .i32⟩ : BufTy).Contents (Elt F) → (⟨S26, .i32⟩ : BufTy).Contents (Elt F)),
    unary main_v2 main_v3 (broadcastInDim S1x26 ![1] bcast_S26_S1x26_1 : (⟨S26, .i32⟩ : BufTy).Contents (Elt F) → (⟨S1x26, .i32⟩ : BufTy).Contents (Elt F)),
    unary main_v3 main_v4 (broadcastInDim S16384x26 ![0, 1] bcast_S1x26_S16384x26_0_1 : (⟨S1x26, .i32⟩ : BufTy).Contents (Elt F) → (⟨S16384x26, .i32⟩ : BufTy).Contents (Elt F)),
    binary main_arg0 main_v4 main_v5 (addi : (⟨S16384x26, .i32⟩ : BufTy).Contents (Elt F) → (⟨S16384x26, .i32⟩ : BufTy).Contents (Elt F) → (⟨S16384x26, .i32⟩ : BufTy).Contents (Elt F)),
    reshape main_v5 main_v6 rfl shapeCasts_S16384x26_S32x512x26,
    unary main_v6 main_v7 ((transpose S32x26x512 [0, 2, 1] · transposes_S32x512x26_S32x26x512_0_2_1) : (⟨S32x512x26, .i32⟩ : BufTy).Contents (Elt F) → (⟨S32x26x512, .i32⟩ : BufTy).Contents (Elt F)),
    reshape main_v7 main_v8 rfl shapeCasts_S32x26x512_S425984,
    reshape main_arg1 main_v9 rfl shapeCasts_S16384x16_S32x512x16,
    unary main_v9 main_v10 ((transpose S32x16x512 [0, 2, 1] · transposes_S32x512x16_S32x16x512_0_2_1) : (⟨S32x512x16, .f32⟩ : BufTy).Contents (Elt F) → (⟨S32x16x512, .f32⟩ : BufTy).Contents (Elt F)),
    reshape main_v10 main_v11 rfl shapeCasts_S32x16x512_S262144,
    reshape main_arg2 main_v12 rfl shapeCasts_S1040000x1_S1040000,
    reshape main_arg3 main_v13 rfl shapeCasts_S16x1_S16,
    unary main_v13 main_v14 (broadcastInDim S16x16 ![0] bcast_S16_S16x16_0 : (⟨S16, .f32⟩ : BufTy).Contents (Elt F) → (⟨S16x16, .f32⟩ : BufTy).Contents (Elt F)),
    reshape main_v14 main_v15 rfl shapeCasts_S16x16_S256,
    binary main_arg4 main_arg5 main_v16 (addf : (⟨S1, .f32⟩ : BufTy).Contents (Elt F) → (⟨S1, .f32⟩ : BufTy).Contents (Elt F) → (⟨S1, .f32⟩ : BufTy).Contents (Elt F)),
    unary main_v16 main_v17 (broadcastInDim S16 ![0] bcast_S1_S16_0 : (⟨S1, .f32⟩ : BufTy).Contents (Elt F) → (⟨S16, .f32⟩ : BufTy).Contents (Elt F)),
    binary main_v15 main_v17 main_v18 ((fun a b => concatenate S272 0 [⟨S256, a⟩, ⟨S16, b⟩] concatenates_S256_S16_S272_d0) : (⟨S256, .f32⟩ : BufTy).Contents (Elt F) → (⟨S16, .f32⟩ : BufTy).Contents (Elt F) → (⟨S272, .f32⟩ : BufTy).Contents (Elt F)) ]

/-- The one operation after the call: the flat result of 16384 numbers read back as a column. -/
abbrev opPost : HloOp τ sig (Elt F) :=
  reshape main_v19 main_v20 rfl shapeCasts_S16384_S16384x1

/-- The program is the twenty operations, the call, the last operation, return. -/
theorem main_eq (d : Dev nD) :
    main (F := F) d = (seq opsPre >>= fun _ => (sc (F := F)).run d 0 >>= fun _ => seq [opPost] >>= fun _ => pure ⟨⟩) := rfl

/-- The twenty-eight tensor values of the program — its six arguments and twenty-two intermediate values — as buffers
    of the device. -/
abbrev SAll : Finset (DevRef τ sig) :=
  {(main_arg0 : DevRef τ sig), (main_arg1 : DevRef τ sig), (main_arg2 : DevRef τ sig), (main_arg3 : DevRef τ sig),
   (main_arg4 : DevRef τ sig), (main_arg5 : DevRef τ sig), (main_v0 : DevRef τ sig), (main_c : DevRef τ sig),
   (main_v1 : DevRef τ sig), (main_v2 : DevRef τ sig), (main_v3 : DevRef τ sig), (main_v4 : DevRef τ sig),
   (main_v5 : DevRef τ sig), (main_v6 : DevRef τ sig), (main_v7 : DevRef τ sig), (main_v8 : DevRef τ sig),
   (main_v9 : DevRef τ sig), (main_v10 : DevRef τ sig), (main_v11 : DevRef τ sig), (main_v12 : DevRef τ sig),
   (main_v13 : DevRef τ sig), (main_v14 : DevRef τ sig), (main_v15 : DevRef τ sig), (main_v16 : DevRef τ sig),
   (main_v17 : DevRef τ sig), (main_v18 : DevRef τ sig), (main_v19 : DevRef τ sig), (main_v20 : DevRef τ sig)}

/-- They are all the buffers the program's own processor names: it names no other, and none of them is scoped. -/
theorem SAll_eq_tcRefs : SAll = tcRefs τ sig := by decide

/-- The same set as the unscoped references, each read as a device buffer. -/
theorem SAll_eq_map : SAll = (Finset.univ.filter fun b : Ref sig .tc => ¬ b.isScoped).map
    ⟨Proc.devRef (sig := sig) (.tc : Proc τ), Proc.devRef_injective _⟩ := by decide

theorem SAll_eq : SAll = (Finset.univ.filter fun b : Ref sig .tc => ¬ b.isScoped).image (Proc.devRef (τ := τ) .tc) := by
  rw [SAll_eq_map, Finset.map_eq_image]; rfl

/-- Every reference of the program's processor is one of the twenty-eight. -/
theorem mem_SAll (b : Ref sig .tc) : Proc.devRef (τ := τ) .tc b ∈ SAll := by
  rw [SAll_eq_tcRefs]; exact devRef_mem_tcRefs b

/-- Each operation before the call touches only those buffers … -/
theorem opsPre_sub : ∀ op ∈ (opsPre (F := F)), op.bufs ⊆ SAll := by
  rw [SAll_eq_tcRefs]
  exact List.forall_iff_forall_mem.mp (show (opsPre (F := F)).Forall fun op => op.bufs ⊆ tcRefs τ sig from
    ⟨nullary_bufs_sub .., nullary_bufs_sub .., unary_bufs_sub .., binary_bufs_sub .., unary_bufs_sub .., unary_bufs_sub ..,
     binary_bufs_sub .., reshape_bufs_sub .., unary_bufs_sub .., reshape_bufs_sub .., reshape_bufs_sub .., unary_bufs_sub ..,
     reshape_bufs_sub .., reshape_bufs_sub .., reshape_bufs_sub .., unary_bufs_sub .., reshape_bufs_sub .., binary_bufs_sub ..,
     unary_bufs_sub .., binary_bufs_sub ..⟩)

/-- … and determines everything it writes. -/
theorem opsPre_fresh : ∀ op ∈ (opsPre (F := F)), op.fresh = ∅ :=
  List.forall_iff_forall_mem.mp (show (opsPre (F := F)).Forall fun op => op.fresh = ∅ from
    ⟨rfl, rfl, rfl, rfl, rfl, rfl, rfl, rfl, rfl, rfl, rfl, rfl, rfl, rfl, rfl, rfl, rfl, rfl, rfl, rfl⟩)

/-- So does the operation after the call. -/
theorem opPost_sub : (opPost (F := F)).bufs ⊆ SAll := by
  rw [SAll_eq_tcRefs]; exact reshape_bufs_sub ..

theorem opPost_fresh : (opPost (F := F)).fresh = ∅ := rfl

/-- The one-operation list after the call, in the form a run of a list asks. -/
theorem opPost_sub' : ∀ op ∈ [opPost (F := F)], op.bufs ⊆ SAll := by
  intro op hop; rw [List.mem_singleton.mp hop]; exact opPost_sub

theorem opPost_fresh' : ∀ op ∈ [opPost (F := F)], op.fresh = ∅ := by
  intro op hop; rw [List.mem_singleton.mp hop]; exact opPost_fresh

end Cert.Proof.KIHost

end
-- ==== Proof.KIHostValue.lean ====
/-
  What the host operations compute, buffer by buffer.

  Each of the four arrays the lane-parallel call reads is a chain of layout operations — a change of shape keeps the
  row-major position, an exchange of axes exchanges coordinates, a broadcast forgets the new axis, a concatenation
  reads one piece or the other — applied to an argument (for the indices, after the field offsets are added). Read at
  one flat position, each chain lands on one element of the argument: the element the functions of `Layout` name.
-/
import proofs.«207416_g64579128263113_cont_9to1_m_974_55_alg».proof.Proof.KIHostOps
import proofs.«207416_g64579128263113_cont_9to1_m_974_55_alg».proof.Proof.Layout
import Idealize.ShloMosaic.Lib.ValueIdx
import Idealize.ShloMosaic.Lib.ValueLayout
import Idealize.ShloMosaic.Lib.Pipeline.Value

noncomputable section

namespace Cert.Proof.KIHost

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The index lists

Flat position `n` of the index list belongs to worker `n / 13312`, field `(n % 13312) / 512`, and row `n % 512` of
that worker's 512 rows: the cast to a flat array, the exchange of the last two axes and the cast of the batch axis
to (worker, row) each keep the row-major position, so the entry is the shifted index of batch row
`512 * (n / 13312) + n % 512` at that field. -/

/-- The field offsets, broadcast over the batch: at field `f` the word `40000 * f`. The product of the two words
    `f` and `40000` is the word of the product of the numbers. -/
theorem offs_apply (b : Fin 16384) (f : Fin 26) :
    broadcastInDim S16384x26 ![0, 1] bcast_S1x26_S16384x26_0_1
        (broadcastInDim S1x26 ![1] bcast_S26_S1x26_1
          (muli (iotaInDim S26 32 0) (broadcastInDim S26 ![] bcast_S_S26 (constantI S_ 32 40000#32)))) (ix2 b f)
      = BitVec.ofNat 32 (40000 * f.val) := by
  refine (broadcastInDim_apply _ _ _ (ix2 b f) (ix2 (0 : Fin 1) f) fun a => ?_).trans ?_
  · match a with
    | ⟨0, _⟩ => rfl
    | ⟨1, _⟩ => rfl
  refine (broadcastInDim_apply _ _ _ (ix2 (0 : Fin 1) f) (ix1 f) fun a => ?_).trans ?_
  · match a with
    | ⟨0, _⟩ => rfl
  show BitVec.ofNat 32 f.val * BitVec.ofNat 32 40000 = _
  rw [Nat.mul_comm 40000 f.val, BitVec.ofNat_mul]

theorem xw_eq (x : IVec S16384x26 32) :
    shapeCast S425984
      (transpose S32x26x512 [0, 2, 1]
        (shapeCast S32x512x26
          (addi x (broadcastInDim S16384x26 ![0, 1] bcast_S1x26_S16384x26_0_1
            (broadcastInDim S1x26 ![1] bcast_S26_S1x26_1
              (muli (iotaInDim S26 32 0) (broadcastInDim S26 ![] bcast_S_S26 (constantI S_ 32 40000#32))))))
          shapeCasts_S16384x26_S32x512x26)
        transposes_S32x512x26_S32x26x512_0_2_1)
      shapeCasts_S32x26x512_S425984 = Layout.xw x := by
  funext p
  obtain ⟨n, rfl⟩ : ∃ n : Fin 425984, p = ix1 n := ⟨p 0, eq_ix1 p⟩
  have hn := n.isLt
  have hw : n.val / 13312 < 32 := by omega
  have hf : n.val % 13312 / 512 < 26 := by omega
  have hr : n.val % 512 < 512 := by omega
  have hb : 512 * (n.val / 13312) + n.val % 512 < 16384 := by omega
  refine (shapeCast_apply _ _ (ix1 n)
    (ix3 (⟨n.val / 13312, hw⟩ : Fin 32) (⟨n.val % 13312 / 512, hf⟩ : Fin 26) (⟨n.val % 512, hr⟩ : Fin 512)) ?_).trans ?_
  · rw [Shape.rowMajor_val_three, Shape.rowMajor_val_one]
    show (n.val / 13312 * 26 + n.val % 13312 / 512) * 512 + n.val % 512 = n.val
    omega
  refine (transpose_ix3_021_apply _ _ _ _ _).trans ?_
  refine (shapeCast_apply _ _ _
    (ix2 (⟨512 * (n.val / 13312) + n.val % 512, hb⟩ : Fin 16384) (⟨n.val % 13312 / 512, hf⟩ : Fin 26)) ?_).trans ?_
  · rw [Shape.rowMajor_val_three, Shape.rowMajor_val_two]
    show (512 * (n.val / 13312) + n.val % 512) * 26 + n.val % 13312 / 512
      = (n.val / 13312 * 512 + n.val % 512) * 26 + n.val % 13312 / 512
    omega
  show x _ + _ = _
  rw [offs_apply]
  rfl

/-! ## The dense features: the same dealing, 16 features and 8192 entries per worker, nothing added. -/

theorem tbw_eq (t : FVec F S16384x16 .f32) :
    shapeCast S262144
      (transpose S32x16x512 [0, 2, 1] (shapeCast S32x512x16 t shapeCasts_S16384x16_S32x512x16)
        transposes_S32x512x16_S32x16x512_0_2_1)
      shapeCasts_S32x16x512_S262144 = Layout.tbw t := by
  funext p
  obtain ⟨n, rfl⟩ : ∃ n : Fin 262144, p = ix1 n := ⟨p 0, eq_ix1 p⟩
  have hn := n.isLt
  have hw : n.val / 8192 < 32 := by omega
  have hf : n.val % 8192 / 512 < 16 := by omega
  have hr : n.val % 512 < 512 := by omega
  have hb : 512 * (n.val / 8192) + n.val % 512 < 16384 := by omega
  refine (shapeCast_apply _ _ (ix1 n)
    (ix3 (⟨n.val / 8192, hw⟩ : Fin 32) (⟨n.val % 8192 / 512, hf⟩ : Fin 16) (⟨n.val % 512, hr⟩ : Fin 512)) ?_).trans ?_
  · rw [Shape.rowMajor_val_three, Shape.rowMajor_val_one]
    show (n.val / 8192 * 16 + n.val % 8192 / 512) * 512 + n.val % 512 = n.val
    omega
  refine (transpose_ix3_021_apply _ _ _ _ _).trans ?_
  refine (shapeCast_apply _ _ _
    (ix2 (⟨512 * (n.val / 8192) + n.val % 512, hb⟩ : Fin 16384) (⟨n.val % 8192 / 512, hf⟩ : Fin 16)) ?_).trans ?_
  · rw [Shape.rowMajor_val_three, Shape.rowMajor_val_two]
    show (512 * (n.val / 8192) + n.val % 512) * 16 + n.val % 8192 / 512
      = (n.val / 8192 * 512 + n.val % 512) * 16 + n.val % 8192 / 512
    omega
  rfl

/-! ## The table: the unit axis dropped. -/

theorem tabw_eq (tab : FVec F S1040000x1 .f32) :
    shapeCast S1040000 tab shapeCasts_S1040000x1_S1040000 = Layout.tabw tab := by
  funext p
  obtain ⟨n, rfl⟩ : ∃ n : Fin 1040000, p = ix1 n := ⟨p 0, eq_ix1 p⟩
  refine (shapeCast_apply _ _ (ix1 n) (ix2 n (0 : Fin 1)) ?_).trans ?_
  · rw [Shape.rowMajor_val_two, Shape.rowMajor_val_one]
    show n.val * 1 + 0 = n.val
    omega
  rfl

/-! ## The parameter vector

Positions below 256 read the 16 × 16 array whose row `k` is 16 copies of weight `k`, flattened: position `n` is in
row `n / 16`. The last 16 positions read the one-element sum of the two biases, broadcast. -/

theorem pvw_lt (W : FVec F S16x1 .f32) (lb bias : FVec F S1 .f32) (n : Fin 272) (h : n.val < 256) :
    Layout.pvw W lb bias (ix1 n) = W (ix2 (⟨n.val / 16, by omega⟩ : Fin 16) (0 : Fin 1)) := dif_pos h

theorem pvw_ge (W : FVec F S16x1 .f32) (lb bias : FVec F S1 .f32) (n : Fin 272) (h : ¬ n.val < 256) :
    Layout.pvw W lb bias (ix1 n) = FloatOps.addf (lb (ix1 0)) (bias (ix1 0)) := dif_neg h

theorem pvw_eq (W : FVec F S16x1 .f32) (lb bias : FVec F S1 .f32) :
    concatenate S272 0
      [⟨S256, shapeCast S256 (broadcastInDim S16x16 ![0] bcast_S16_S16x16_0 (shapeCast S16 W shapeCasts_S16x1_S16))
          shapeCasts_S16x16_S256⟩,
       ⟨S16, broadcastInDim S16 ![0] bcast_S1_S16_0 (addf lb bias)⟩]
      concatenates_S256_S16_S272_d0 = Layout.pvw W lb bias := by
  funext p
  obtain ⟨n, rfl⟩ : ∃ n : Fin 272, p = ix1 n := ⟨p 0, eq_ix1 p⟩
  have hn := n.isLt
  by_cases h : n.val < 256
  · rw [pvw_lt W lb bias n h]
    refine (concatenate_pair_apply_left (t := S272) (s₁ := S256) (s₂ := S16) _ _ _ _ (ix1 n) rfl (ix1 (⟨n.val, h⟩ : Fin 256)) fun b => ?_).trans ?_
    · match b with
      | ⟨0, _⟩ => rfl
    have h16 : n.val / 16 < 16 := by omega
    have hm : n.val % 16 < 16 := by omega
    refine (shapeCast_apply _ _ _ (ix2 (⟨n.val / 16, h16⟩ : Fin 16) (⟨n.val % 16, hm⟩ : Fin 16)) ?_).trans ?_
    · rw [Shape.rowMajor_val_two, Shape.rowMajor_val_one]
      show n.val / 16 * 16 + n.val % 16 = n.val
      omega
    refine (broadcastInDim_apply _ _ _ _ (ix1 (⟨n.val / 16, h16⟩ : Fin 16)) fun a => ?_).trans ?_
    · match a with
      | ⟨0, _⟩ => rfl
    refine (shapeCast_apply _ _ _ (ix2 (⟨n.val / 16, h16⟩ : Fin 16) (0 : Fin 1)) ?_).trans ?_
    · rw [Shape.rowMajor_val_two, Shape.rowMajor_val_one]
      show n.val / 16 * 1 + 0 = n.val / 16
      omega
    rfl
  · rw [pvw_ge W lb bias n h]
    have h16 : n.val - 256 < 16 := by omega
    refine (concatenate_pair_apply_right (t := S272) (s₁ := S256) (s₂ := S16) _ _ _ _ (ix1 n) rfl rfl (ix1 (⟨n.val - 256, h16⟩ : Fin 16))
      (fun b hb => ?_) ?_).trans ?_
    · match b with
      | ⟨0, _⟩ => exact absurd rfl hb
    · show n.val - 256 + 256 = n.val
      omega
    refine (broadcastInDim_apply _ _ _ _ (ix1 (0 : Fin 1)) fun a => ?_).trans ?_
    · match a with
      | ⟨0, _⟩ => rfl
    rfl

/-! ## The result read back: a unit axis added. -/

theorem colw_eq (o : FVec F S16384 .f32) :
    shapeCast S16384x1 o shapeCasts_S16384_S16384x1 = Layout.colw o := by
  funext i
  obtain ⟨a, b, rfl⟩ : ∃ (a : Fin 16384) (b : Fin 1), i = ix2 a b := ⟨i 0, i 1, eq_ix2 i⟩
  have hb := b.isLt
  refine (shapeCast_apply _ _ (ix2 a b) (ix1 a) ?_).trans ?_
  · rw [Shape.rowMajor_val_two, Shape.rowMajor_val_one]
    show a.val = a.val * 1 + b.val
    omega
  rfl

/-! ## What the operations leave in the buffers

From any contents `V` of the device's buffers: after the twenty operations the four buffers the call reads hold the
flat arrays of `Layout` of the arguments' contents, and the arguments, the call's result buffer and the program's
result buffer hold what they held; after the last operation the program's result is the column of the call's
result, and the arguments hold what they held. -/

variable (V : Valuation τ sig (Elt F))

theorem pre_v8 : after opsPre V (main_v8 : DevRef τ sig) = Layout.xw (V (main_arg0 : DevRef τ sig)) := by
  after_results
  exact xw_eq _

theorem pre_v11 : after opsPre V (main_v11 : DevRef τ sig) = Layout.tbw (V (main_arg1 : DevRef τ sig)) := by
  after_results
  exact tbw_eq _

theorem pre_v12 : after opsPre V (main_v12 : DevRef τ sig) = Layout.tabw (V (main_arg2 : DevRef τ sig)) := by
  after_results
  exact tabw_eq _

theorem pre_v18 : after opsPre V (main_v18 : DevRef τ sig)
    = Layout.pvw (V (main_arg3 : DevRef τ sig)) (V (main_arg4 : DevRef τ sig)) (V (main_arg5 : DevRef τ sig)) := by
  after_results
  exact pvw_eq _ _ _

theorem pre_arg0 : after opsPre V (main_arg0 : DevRef τ sig) = V (main_arg0 : DevRef τ sig) := by after_results
theorem pre_arg1 : after opsPre V (main_arg1 : DevRef τ sig) = V (main_arg1 : DevRef τ sig) := by after_results
theorem pre_arg2 : after opsPre V (main_arg2 : DevRef τ sig) = V (main_arg2 : DevRef τ sig) := by after_results
theorem pre_arg3 : after opsPre V (main_arg3 : DevRef τ sig) = V (main_arg3 : DevRef τ sig) := by after_results
theorem pre_arg4 : after opsPre V (main_arg4 : DevRef τ sig) = V (main_arg4 : DevRef τ sig) := by after_results
theorem pre_arg5 : after opsPre V (main_arg5 : DevRef τ sig) = V (main_arg5 : DevRef τ sig) := by after_results
theorem pre_v19 : after opsPre V (main_v19 : DevRef τ sig) = V (main_v19 : DevRef τ sig) := by after_results
theorem pre_v20 : after opsPre V (main_v20 : DevRef τ sig) = V (main_v20 : DevRef τ sig) := by after_results

theorem post_v20 : after [opPost] V (main_v20 : DevRef τ sig) = Layout.colw (V (main_v19 : DevRef τ sig)) := by
  after_results
  exact colw_eq _

theorem post_arg0 : after [opPost] V (main_arg0 : DevRef τ sig) = V (main_arg0 : DevRef τ sig) := by after_results
theorem post_arg1 : after [opPost] V (main_arg1 : DevRef τ sig) = V (main_arg1 : DevRef τ sig) := by after_results
theorem post_arg2 : after [opPost] V (main_arg2 : DevRef τ sig) = V (main_arg2 : DevRef τ sig) := by after_results
theorem post_arg3 : after [opPost] V (main_arg3 : DevRef τ sig) = V (main_arg3 : DevRef τ sig) := by after_results
theorem post_arg4 : after [opPost] V (main_arg4 : DevRef τ sig) = V (main_arg4 : DevRef τ sig) := by after_results
theorem post_arg5 : after [opPost] V (main_arg5 : DevRef τ sig) = V (main_arg5 : DevRef τ sig) := by after_results

end Cert.Proof.KIHost

end
-- ==== Proof.KIMain.lean ====
/-
  The program's own thread: the host operations, the call, the operation after it.

  From the launch the thread holds every tensor value's buffer whole at its launch contents. The twenty operations
  leave the four arrays the workers read at the flat arrays of the arguments, and everything else as it was. The four
  are dealt out as 32 read shares each and the flat result as its 32 runs of 512; worker `2 * i + c` is tile `i` of
  SparseCore `c`, so the 32 pieces are the two SparseCores' sixteen each. The call takes them and hands back the 32 runs
  at the numbers the workers computed: the flat result whole. The last operation reads it as a column. What is left
  is the six arguments at their launch contents and the result at that column.
-/
import proofs.«207416_g64579128263113_cont_9to1_m_974_55_alg».proof.Proof.KITile
import proofs.«207416_g64579128263113_cont_9to1_m_974_55_alg».proof.Proof.KIHostOps
import proofs.«207416_g64579128263113_cont_9to1_m_974_55_alg».proof.Proof.KIHostValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr wp_seq after)

variable (m : (ℓ : Loc nD τ sig) → Buf (Elt F) ℓ) (ρ : Dev nD → PrngReg)

variable [FloatOps F]

/-! ## The buffers by name, and the valuations the thread passes through -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev b4 : DevRef τ sig := Proc.devRef .tc (main_arg4 : Ref sig .tc)
abbrev b5 : DevRef τ sig := Proc.devRef .tc (main_arg5 : Ref sig .tc)
abbrev bxw : DevRef τ sig := Proc.devRef .tc (main_v8 : Ref sig .tc)
abbrev btb : DevRef τ sig := Proc.devRef .tc (main_v11 : Ref sig .tc)
abbrev btab : DevRef τ sig := Proc.devRef .tc (main_v12 : Ref sig .tc)
abbrev bpv : DevRef τ sig := Proc.devRef .tc (main_v18 : Ref sig .tc)
abbrev bo : DevRef τ sig := Proc.devRef .tc (main_v19 : Ref sig .tc)
abbrev br : DevRef τ sig := Proc.devRef .tc (main_v20 : Ref sig .tc)

/-- The five buffers the call uses; the four it only reads; the seven the program's claim speaks of. -/
abbrev T5 : Finset (DevRef τ sig) := {bxw, btb, btab, bpv, bo}
abbrev T4 : Finset (DevRef τ sig) := {bxw, btb, btab, bpv}
abbrev T7 : Finset (DevRef τ sig) := {b0, b1, b2, b3, b4, b5, br}

/-- The launch contents; after the twenty operations; with the flat result at what the call left; after the last operation. -/
def V0 (d : Dev nD) : Valuation τ sig (Elt F) := fun b => m (d, b)
abbrev V1 (d : Dev nD) : Valuation τ sig (Elt F) := after KIHost.opsPre (V0 m d)
def V2 (d : Dev nD) : Valuation τ sig (Elt F) := Function.update (V1 m d) bo (oC m d)
abbrev V3 (d : Dev nD) : Valuation τ sig (Elt F) := after [KIHost.opPost] (V2 m d)

omit [FloatOps F] in
/-- The launch's unscoped buffers are the twenty-eight, held at the launch contents. -/
theorem unscoped_held (d : Dev nD) :
    (unscopedBufs d (fun b => m ((SparseCore.T d).loc b)) : sProp 𝕄) = held (SparseCore.T d) KIHost.SAll (V0 m d) := by
  unfold unscopedBufs held
  rw [KIHost.SAll_eq_map, bigSep_map]
  rfl

/-! ## Contents -/

theorem V1_xw (d : Dev nD) : V1 m d bxw = xwC m d := KIHost.pre_v8 (V0 m d)
theorem V1_tb (d : Dev nD) : V1 m d btb = tbC m d := KIHost.pre_v11 (V0 m d)
theorem V1_tab (d : Dev nD) : V1 m d btab = tabC m d := KIHost.pre_v12 (V0 m d)
theorem V1_pv (d : Dev nD) : V1 m d bpv = pvC m d := KIHost.pre_v18 (V0 m d)
theorem V1_o (d : Dev nD) : V1 m d bo = m (oLoc d) := KIHost.pre_v19 (V0 m d)

theorem V3_0 (d : Dev nD) : V3 m d b0 = m (a0Loc d) :=
  (KIHost.post_arg0 (V2 m d)).trans ((Function.update_of_ne (show b0 ≠ bo by decide) _ _).trans (KIHost.pre_arg0 (V0 m d)))
theorem V3_1 (d : Dev nD) : V3 m d b1 = m (a1Loc d) :=
  (KIHost.post_arg1 (V2 m d)).trans ((Function.update_of_ne (show b1 ≠ bo by decide) _ _).trans (KIHost.pre_arg1 (V0 m d)))
theorem V3_2 (d : Dev nD) : V3 m d b2 = m (a2Loc d) :=
  (KIHost.post_arg2 (V2 m d)).trans ((Function.update_of_ne (show b2 ≠ bo by decide) _ _).trans (KIHost.pre_arg2 (V0 m d)))
theorem V3_3 (d : Dev nD) : V3 m d b3 = m (a3Loc d) :=
  (KIHost.post_arg3 (V2 m d)).trans ((Function.update_of_ne (show b3 ≠ bo by decide) _ _).trans (KIHost.pre_arg3 (V0 m d)))
theorem V3_4 (d : Dev nD) : V3 m d b4 = m (a4Loc d) :=
  (KIHost.post_arg4 (V2 m d)).trans ((Function.update_of_ne (show b4 ≠ bo by decide) _ _).trans (KIHost.pre_arg4 (V0 m d)))
theorem V3_5 (d : Dev nD) : V3 m d b5 = m (a5Loc d) :=
  (KIHost.post_arg5 (V2 m d)).trans ((Function.update_of_ne (show b5 ≠ bo by decide) _ _).trans (KIHost.pre_arg5 (V0 m d)))
theorem V3_r (d : Dev nD) : V3 m d br = Layout.colw (oC m d) :=
  (KIHost.post_v20 (V2 m d)).trans (congrArg Layout.colw (Function.update_self _ _ _))

/-! ## The held sets, buffer by buffer -/

omit [FloatOps F] in
theorem held_T5 (d : Dev nD) (W : Valuation τ sig (Elt F)) :
    (held (SparseCore.T d) T5 W : sProp 𝕄)
      = iprop((xwLoc d ↦{fullShare} W bxw) ∗ (tbLoc d ↦{fullShare} W btb) ∗ (tabLoc d ↦{fullShare} W btab) ∗ (pvLoc d ↦{fullShare} W bpv)
          ∗ oLoc d ↦{fullShare} W bo) := by
  unfold held T5
  rw [SparseCore.bigSep_insert' (by decide), SparseCore.bigSep_insert' (by decide), SparseCore.bigSep_insert' (by decide),
    SparseCore.bigSep_insert' (by decide), bigSep_singleton]

omit [FloatOps F] in
theorem held_T7 (d : Dev nD) (W : Valuation τ sig (Elt F)) :
    (held (SparseCore.T d) T7 W : sProp 𝕄)
      = iprop((a0Loc d ↦{fullShare} W b0) ∗ (a1Loc d ↦{fullShare} W b1) ∗ (a2Loc d ↦{fullShare} W b2) ∗ (a3Loc d ↦{fullShare} W b3)
          ∗ (a4Loc d ↦{fullShare} W b4) ∗ (a5Loc d ↦{fullShare} W b5) ∗ rLoc d ↦{fullShare} W br) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem T5_sub : T5 ⊆ (KIHost.SAll : Finset (DevRef τ sig)) := by decide
omit [FloatOps F] in
theorem T7_sub : T7 ⊆ (KIHost.SAll \ T4 : Finset (DevRef τ sig)) := by decide
omit [FloatOps F] in
theorem rest_eq : (KIHost.SAll \ T4 : Finset (DevRef τ sig)) = insert bo (KIHost.SAll \ T5) := by decide
omit [FloatOps F] in
theorem bo_notMem : bo ∉ (KIHost.SAll \ T5 : Finset (DevRef τ sig)) := by decide

/-- After the twenty operations the call's five buffers hold the flat arrays of the arguments and the flat result's
    launch contents. -/
theorem held_T5_V1 (d : Dev nD) :
    (held (SparseCore.T d) T5 (V1 m d) : sProp 𝕄)
      = iprop((xwLoc d ↦{fullShare} xwC m d) ∗ (tbLoc d ↦{fullShare} tbC m d) ∗ (tabLoc d ↦{fullShare} tabC m d) ∗ (pvLoc d ↦{fullShare} pvC m d)
          ∗ oLoc d ↦{fullShare} m (oLoc d)) := by
  rw [held_T5, V1_xw, V1_tb, V1_tab, V1_pv, V1_o]

/-- With the flat result back whole, what is held besides the four arrays the workers read. -/
theorem held_V2 (d : Dev nD) :
    (held (SparseCore.T d) (KIHost.SAll \ T4) (V2 m d) : sProp 𝕄)
      = iprop((oLoc d ↦{fullShare} oC m d) ∗ held (SparseCore.T d) (KIHost.SAll \ T5) (V1 m d)) := by
  have e1 : V2 m d bo = oC m d := Function.update_self _ _ _
  have e2 : (held (SparseCore.T d) (KIHost.SAll \ T5) (V2 m d) : sProp 𝕄) = held (SparseCore.T d) (KIHost.SAll \ T5) (V1 m d) :=
    held_congr (SparseCore.T d) fun b hb => Function.update_of_ne (show b ≠ bo from fun e => bo_notMem (e ▸ hb)) _ _
  rw [rest_eq, ← e2, ← e1]
  unfold held
  exact SparseCore.bigSep_insert' bo_notMem

/-- What @main leaves: the six arguments at their launch contents, the result at the column of the flat result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{fullShare} m (a4Loc d)) ∗ (a5Loc d ↦{fullShare} m (a5Loc d))
    ∗ rLoc d ↦{fullShare} Layout.colw (oC m d))

theorem held_fin (d : Dev nD) : (held (SparseCore.T d) (KIHost.SAll \ T4) (V3 m d) : sProp 𝕄) ⊢ FIN m d := by
  rw [held_sub_split (SparseCore.T d) T7_sub (V3 m d), held_T7, V3_0, V3_1, V3_2, V3_3, V3_4, V3_5, V3_r]
  exact sep_elim_left

/-! ## The 32 workers as the two SparseCores' sixteen tiles -/

/-- Tile `i` of SparseCore `c` is worker `2 * i + c`: every worker is exactly one of them. -/
def widEquiv : Fin ((K (F := F)).nCore 0) × Fin ((K (F := F)).nSub 0) ≃ Fin 32 where
  toFun p := widK p.1 p.2
  invFun w := (⟨w.val % 2, lt_of_lt_of_eq (Nat.mod_lt _ (by norm_num)) nCore_zero.symm⟩,
    ⟨w.val / 2, lt_of_lt_of_eq (by have := w.isLt; omega) nSub_zero.symm⟩)
  left_inv p := by
    rcases p with ⟨c, i⟩
    have hc : c.val < 2 := lt_of_lt_of_eq c.isLt nCore_zero
    have hi : i.val < 16 := lt_of_lt_of_eq i.isLt nSub_zero
    refine Prod.ext (Fin.ext ?_) (Fin.ext ?_)
    · show (2 * i.val + c.val) % 2 = c.val
      omega
    · show (2 * i.val + c.val) / 2 = i.val
      omega
  right_inv w := Fin.ext (by
    show 2 * (w.val / 2) + w.val % 2 = w.val
    omega)

omit [FloatOps F] in
theorem bigSep_wid (Φ : Fin 32 → sProp 𝕄) :
    bigSep Finset.univ Φ
      = bigSep Finset.univ fun c : Fin ((K (F := F)).nCore 0) => bigSep Finset.univ fun i : Fin ((K (F := F)).nSub 0) => Φ (widK c i) := by
  rw [bigSep_univ_equiv (widEquiv (F := F)) Φ, bigSep_univ_prod]
  rfl

/-- What the call takes is every worker's part. -/
theorem st0_eq (d : Dev nD) :
    (bigSep Finset.univ fun c : Fin ((K (F := F)).nCore 0) => (P m).st 0 d c) = bigSep Finset.univ fun w : Fin 32 => hbmPart m d w (m (oLoc d)) :=
  (bigSep_wid (fun w : Fin 32 => hbmPart m d w (m (oLoc d)))).symm

/-- What it hands back is the flat result whole, at the workers' numbers. -/
theorem dn0_eq (d : Dev nD) :
    (bigSep Finset.univ fun c : Fin ((K (F := F)).nCore 0) => (P m).dn 0 d c) = (oLoc d ↦{fullShare} oC m d : sProp 𝕄) := by
  rw [oPts_runs, bigSep_wid]
  rfl

/-- The four arrays the workers read, each whole, and the flat result whole, are every worker's part: a read share of
    each of the four (what is left of each after 32 read shares is let go) and the worker's run of the flat result. -/
theorem deal (d : Dev nD) (fo : Buf (Elt F) (oLoc d)) :
    iprop((xwLoc d ↦{fullShare} xwC m d) ∗ (tbLoc d ↦{fullShare} tbC m d) ∗ (tabLoc d ↦{fullShare} tabC m d) ∗ (pvLoc d ↦{fullShare} pvC m d)
        ∗ oLoc d ↦{fullShare} fo)
      ⊢ (bigSep Finset.univ fun w : Fin 32 => hbmPart m d w fo : sProp 𝕄) := by
  have toks : ∀ {ℓ : Loc nD τ sig} (f : Buf (Elt F) ℓ),
      (ℓ ↦{fullShare} f : sProp 𝕄) ⊢ bigSep Finset.univ fun w : Fin 32 => ℓ ↦{rs w.val} f := fun f =>
    (Transfers.pointsTo_toks_split fullShare 32).trans (sep_comm.1.trans sep_elim_left)
  show _ ⊢ bigSep Finset.univ fun w : Fin 32 => iprop((xwLoc d ↦{rs w.val} xwC m d) ∗ (tbLoc d ↦{rs w.val} tbC m d)
    ∗ (tabLoc d ↦{rs w.val} tabC m d) ∗ (pvLoc d ↦{rs w.val} pvC m d) ∗ oLoc d ↦[orunSet w]{fullShare} fo)
  rw [bigSep_sep', bigSep_sep', bigSep_sep', bigSep_sep', ← oPts_runs]
  exact BIClass.sep_mono (toks _) (BIClass.sep_mono (toks _) (BIClass.sep_mono (toks _) (BIClass.sep_mono (toks _) .rfl)))

theorem to_st0 (d : Dev nD) :
    (held (SparseCore.T d) T5 (V1 m d) : sProp 𝕄) ⊢ bigSep Finset.univ fun c : Fin ((K (F := F)).nCore 0) => (P m).st 0 d c := by
  rw [held_T5_V1, st0_eq]
  exact deal m d (m (oLoc d))

omit [FloatOps F] in
theorem opPost_sub : ∀ op ∈ [KIHost.opPost (F := F)], op.bufs ⊆ (KIHost.SAll \ T4 : Finset (DevRef τ sig)) := by
  intro op hop
  rw [List.mem_singleton.mp hop]
  show ({bo, br} : Finset (DevRef τ sig)) ⊆ KIHost.SAll \ T4
  decide

/-! ## The thread's run -/

/-- @main on device `d`'s own thread: the twenty operations over all its buffers; the call, from the five buffers it
    uses; the last operation over what is still held whole; the arguments and the result kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, KIHost.main_eq]
  iintro ⟨#Hctx, Hst, ⟨Hb, Hheld, -, -⟩, -⟩
  iapply (wp_seq 𝒱 none Set.univ d KIHost.SAll _ KIHost.opsPre KIHost.opsPre_sub KIHost.opsPre_fresh (V0 m d)) $$ [Hb Hheld]
  · isplitl [Hb]; · iexact Hb
    iexact Hheld
  iintro ⟨Hb, Hheld⟩
  ihave Hh := (Entails.of_eq (held_sub_split (SparseCore.T d) T5_sub (V1 m d))) $$ Hheld
  icases Hh with ⟨H5, Hrest⟩
  ihave Hst0 := (to_st0 m d) $$ H5
  rw [wp_bind]
  iapply ((K (F := F)).wp_run (D (F := F)) 𝒱 (EH := EH) (P := P m) κ d 0) $$ [Hst Hst0 Hb Hrest]
  isplitr; · iexact Hctx
  isplitl [Hst]; · iexact Hst
  isplitl [Hst0]; · iexact Hst0
  iintro ⟨Hst, Hdn⟩
  ihave Ho := (Entails.of_eq (dn0_eq m d)) $$ Hdn
  ihave Hheld := (Entails.of_eq (held_V2 m d).symm) $$ [Ho Hrest]
  · isplitl [Ho]; · iexact Ho
    iexact Hrest
  iapply (wp_seq 𝒱 none Set.univ d (KIHost.SAll \ T4) _ [KIHost.opPost] opPost_sub KIHost.opPost_fresh' (V2 m d)) $$ [Hb Hheld]
  · isplitl [Hb]; · iexact Hb
    iexact Hheld
  iintro ⟨Hb, Hheld⟩
  ihave Hfin := (held_fin m d) $$ Hheld
  rw [wp_pure]
  imodintro
  isplitl [Hst]; · iexact Hst
  iexact Hfin

def fq (d : Dev nD) (s' : Phys nD τ sig (Elt F)) : Prop :=
  s'.mem.mem (rLoc d) = Layout.colw (oC m d) ∧ s'.mem.mem (a0Loc d) = m (a0Loc d) ∧ s'.mem.mem (a1Loc d) = m (a1Loc d)
    ∧ s'.mem.mem (a2Loc d) = m (a2Loc d) ∧ s'.mem.mem (a3Loc d) = m (a3Loc d) ∧ s'.mem.mem (a4Loc d) = m (a4Loc d)
    ∧ s'.mem.mem (a5Loc d) = m (a5Loc d)

/-- A buffer held whole, under the state interpretation, is the physical buffer. -/
theorem agree (s' : Phys nD τ sig (Elt F)) (ℓ : Loc nD τ sig) (f : Buf (Elt F) ℓ) :
    iprop(SI s' ∗ ℓ ↦{fullShare} f) ⊢ iprop(⌜s'.mem.mem ℓ = f⌝ ∗ (SI s' : sProp 𝕄)) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, Hr⟩, HSI⟩
  ihave H := (agree s' (a0Loc d) (m (a0Loc d))) $$ [HSI H0]
  · isplitl [HSI] <;> iassumption
  icases H with ⟨%h0, HSI⟩
  ihave H := (agree s' (a1Loc d) (m (a1Loc d))) $$ [HSI H1]
  · isplitl [HSI] <;> iassumption
  icases H with ⟨%h1, HSI⟩
  ihave H := (agree s' (a2Loc d) (m (a2Loc d))) $$ [HSI H2]
  · isplitl [HSI] <;> iassumption
  icases H with ⟨%h2, HSI⟩
  ihave H := (agree s' (a3Loc d) (m (a3Loc d))) $$ [HSI H3]
  · isplitl [HSI] <;> iassumption
  icases H with ⟨%h3, HSI⟩
  ihave H := (agree s' (a4Loc d) (m (a4Loc d))) $$ [HSI H4]
  · isplitl [HSI] <;> iassumption
  icases H with ⟨%h4, HSI⟩
  ihave H := (agree s' (a5Loc d) (m (a5Loc d))) $$ [HSI H5]
  · isplitl [HSI] <;> iassumption
  icases H with ⟨%h5, HSI⟩
  ihave H := (agree s' (rLoc d) (Layout.colw (oC m d))) $$ [HSI Hr]
  · isplitl [HSI] <;> iassumption
  icases H with ⟨%hr, -⟩
  ipureintro; exact ⟨hr, h0, h1, h2, h3, h4, h5⟩

end Cert.Proof.KI

end
-- ==== Proof.KISplit.lean ====
/-
  How a SparseCore's share of the call is dealt to its sixteen tasks, and gathered back.

  What the SparseCore is handed for the call is already its sixteen tasks' parts of the arrays in device memory. Its
  shared copy of the table is among its sequencer's own buffers: whole, at whatever it holds. It is cut into the 13
  slabs, and slab `n` goes to task `n`; tasks 13, 14 and 15 get nothing of it. Coming back, every task hands in its
  run of the flat result, what it kept of its slab, and its read share of each of the 13 slabs, all filled with the
  table's rows. Slab by slab, the kept remainder and the sixteen read shares make the slab whole again; the 13 slabs
  make the shared copy whole, now at the table's contents; and that is again one of the sequencer's own buffers at
  some contents.
-/
import proofs.«207416_g64579128263113_cont_9to1_m_974_55_alg».proof.Proof.KIBarrier

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A family over the first `N` of `M` indices -/

omit [FloatOps F] in
/-- Over `M` indices, a family that is `Ψ` on the first `N` and empty on the others is `Ψ` over its `N`. -/
theorem bigSep_dite_lt {N M : ℕ} (hNM : N ≤ M) (Ψ : Fin N → sProp 𝕄) :
    (bigSep (Finset.univ : Finset (Fin M)) fun i => if h : i.val < N then Ψ ⟨i.val, h⟩ else iprop(emp)) = bigSep Finset.univ Ψ := by
  rw [SparseCore.bigSep_filter_split' Finset.univ (fun i : Fin M => i.val < N)]
  have e2 : (bigSep ((Finset.univ : Finset (Fin M)).filter fun i => ¬ i.val < N) fun i => if h : i.val < N then Ψ ⟨i.val, h⟩ else iprop(emp))
      = (iprop(emp) : sProp 𝕄) := by
    refine (bigSep_congr (Ψ := fun _ => iprop(emp)) fun i hi => dif_neg (Finset.mem_filter.mp hi).2).trans ?_
    exact bigSep_emp_const _
  have hset : ((Finset.univ : Finset (Fin M)).filter fun i => i.val < N) = (Finset.univ : Finset (Fin N)).map (Fin.castLEEmb hNM) := by
    ext i
    simp only [Finset.mem_filter, Finset.mem_univ, _root_.true_and, Finset.mem_map]
    constructor
    · intro h; exact ⟨⟨i.val, h⟩, Fin.ext rfl⟩
    · rintro ⟨n, rfl⟩; exact n.isLt
  have e1 : (bigSep ((Finset.univ : Finset (Fin M)).filter fun i => i.val < N) fun i => if h : i.val < N then Ψ ⟨i.val, h⟩ else iprop(emp))
      = bigSep Finset.univ Ψ := by
    rw [hset, bigSep_map]
    exact bigSep_congr fun n _ => dif_pos n.isLt
  rw [e1, e2]
  exact equiv_iff.mp sep_emp

/-! ## The sequencer's own buffers -/

omit [FloatOps F] in
/-- The shared copy of the table is one of the sequencer's own buffers: it, at some contents, and the others. -/
theorem ownBufs_S (d : Dev nD) (c : Fin τ.nSC) :
    (ownBufs (SparseCore.S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-! ## Dealing the slabs out, and gathering them -/

omit [FloatOps F] in
theorem le_nSub : 13 ≤ (K (F := F)).nSub 0 := by rw [nSub_zero]; norm_num

omit [FloatOps F] in
/-- The shared copy whole, at any contents, is a slab for each of the first 13 tasks and nothing for the last three. -/
theorem slabs_deal (d : Dev nD) (c : Fin τ.nSC) (f : Buf (Elt F) (shLoc d c)) :
    (shLoc d c ↦{fullShare} f : sProp 𝕄) ⊢ bigSep Finset.univ fun i : Fin ((K (F := F)).nSub 0) => slabOwn (F := F) d c i.val := by
  have e : (bigSep Finset.univ fun i : Fin ((K (F := F)).nSub 0) => slabOwn (F := F) d c i.val)
      = bigSep Finset.univ fun n : Fin 13 => (iprop(∃ g, shLoc d c ↦[slabSet n]{fullShare} g) : sProp 𝕄) :=
    bigSep_dite_lt (F := F) le_nSub (fun n : Fin 13 => (iprop(∃ g, shLoc d c ↦[slabSet n]{fullShare} g) : sProp 𝕄))
  rw [e, shPts_slabs]
  exact bigSep_mono fun n _ => BI.BIClass.exists_intro (Φ := fun g => (shLoc d c ↦[slabSet n]{fullShare} g : sProp 𝕄)) f

/-- A slab's kept remainder and the sixteen tasks' read shares of it, all filled, are the slab whole, filled. -/
theorem slab_join (d : Dev nD) (c : Fin τ.nSC) (n : Fin 13) :
    iprop((shLoc d c ↦[slabSet n]{Transfers.shareDrop fullShare 16} shC m d c)
        ∗ bigSep Finset.univ fun i : Fin ((K (F := F)).nSub 0) => slabRd m d c n i.val)
      ⊢ (shLoc d c ↦[slabSet n]{fullShare} shC m d c : sProp 𝕄) :=
  Transfers.pointsTo_toks_join fullShare 16

/-- What the sixteen tasks hand in of the shared copy — each what it kept of its slab and its read share of every slab —
    is the shared copy whole, at the table's contents. -/
theorem slabs_join (d : Dev nD) (c : Fin τ.nSC) :
    (bigSep Finset.univ fun i : Fin ((K (F := F)).nSub 0) => iprop(slabKept m d c i.val ∗ slabsRd m d c i.val))
      ⊢ (shLoc d c ↦{fullShare} shC m d c : sProp 𝕄) := by
  have eK : (bigSep Finset.univ fun i : Fin ((K (F := F)).nSub 0) => slabKept m d c i.val)
      = bigSep Finset.univ fun n : Fin 13 => (shLoc d c ↦[slabSet n]{Transfers.shareDrop fullShare 16} shC m d c : sProp 𝕄) :=
    bigSep_dite_lt (F := F) le_nSub (fun n : Fin 13 => (shLoc d c ↦[slabSet n]{Transfers.shareDrop fullShare 16} shC m d c : sProp 𝕄))
  have eR : (bigSep Finset.univ fun i : Fin ((K (F := F)).nSub 0) => slabsRd m d c i.val)
      = bigSep Finset.univ fun n : Fin 13 => bigSep Finset.univ fun i : Fin ((K (F := F)).nSub 0) => slabRd m d c n i.val :=
    bigSep_univ_comm (fun (i : Fin ((K (F := F)).nSub 0)) (n : Fin 13) => slabRd m d c n i.val)
  rw [bigSep_sep' Finset.univ (fun i : Fin ((K (F := F)).nSub 0) => slabKept m d c i.val) (fun i => slabsRd m d c i.val), eK, eR,
    ← bigSep_sep', shPts_slabs]
  exact bigSep_mono fun n _ => slab_join m d c n

/-! ## The split -/

theorem vecSplit : (K (F := F)).VecSplit (P m) 0 := by
  intro d c
  show iprop((bigSep Finset.univ fun i : Fin ((K (F := F)).nSub 0) => hbmPart m d (widK c i) (m (oLoc d))) ∗ ownBufs (SparseCore.S d (coreOf c)))
    ⊢ |={Set.univ}=> iprop(
      (bigSep Finset.univ fun i : Fin ((K (F := F)).nSub 0) => iprop(hbmPart m d (widK c i) (m (oLoc d)) ∗ slabOwn d (coreOf c) i.val))
      ∗ ((bigSep Finset.univ fun i : Fin ((K (F := F)).nSub 0) =>
            iprop((oLoc d ↦[orunSet (widK c i)]{fullShare} oC m d) ∗ slabKept m d (coreOf c) i.val ∗ slabsRd m d (coreOf c) i.val))
          -∗ iprop((bigSep Finset.univ fun i : Fin ((K (F := F)).nSub 0) => oLoc d ↦[orunSet (widK c i)]{fullShare} oC m d)
            ∗ ownBufs (SparseCore.S d (coreOf c)))))
  rw [bigSep_sep' Finset.univ (fun i : Fin ((K (F := F)).nSub 0) => hbmPart m d (widK c i) (m (oLoc d))) (fun i => slabOwn (F := F) d (coreOf c) i.val),
    bigSep_sep' Finset.univ (fun i : Fin ((K (F := F)).nSub 0) => (oLoc d ↦[orunSet (widK c i)]{fullShare} oC m d : sProp 𝕄))
      (fun i => iprop(slabKept m d (coreOf c) i.val ∗ slabsRd m d (coreOf c) i.val)),
    ownBufs_S]
  iintro ⟨Hst, ⟨%fsh, Hsh⟩, Hrest⟩; imodintro
  isplitl [Hst Hsh]
  · isplitl [Hst]; · iexact Hst
    iapply (slabs_deal d (coreOf c) fsh); iexact Hsh
  iintro ⟨Ho, Hkr⟩
  isplitl [Ho]; · iexact Ho
  isplitl [Hkr]
  · iexists (shC m d (coreOf c)); iapply (slabs_join m d (coreOf c)); iexact Hkr
  iexact Hrest

end Cert.Proof.KI

end
-- ==== Proof.KILaunchElem.lean ====
/-
  The launch element: the ghost state the run starts from, and what it buys.

  Beside the handshakes' rounds the run needs one round per barrier semaphore — every tile's — with sixteen duties,
  one per tile of its SparseCore. The launch element funds each of those cells at counter zero: its round state, the
  fact that round 0 is reached, its owner's position, and a token per duty. The semaphores themselves, at zero, come
  with the free semaphores the launch hands over, and with the round states they open the cells' invariants, all at
  once. The launch's credit for what the tiles owe — a unit on every barrier semaphore of the SparseCore, from each
  tile — is, counted by semaphore, sixteen units on each: its owner's credit for a full round. Every tile is then
  handed the invariants and reached-facts of its SparseCore's sixteen cells (they are persistent: everyone gets
  them), its own position, its sixteen tokens, and its credit.
-/
import proofs.«207416_g64579128263113_cont_9to1_m_974_55_alg».proof.Proof.KIBarrier

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The barrier cells and their tokens -/

abbrev DCI : Type := Dev nD × Fin τ.nSC × Fin τ.nSub
/-- The barrier cell of the tile at `x`. -/
abbrev tileCell (x : DCI) : GSem nD τ sig := bcell x.1 x.2.1 x.2.2

/-- Every tile's barrier cell. -/
def bCells : Finset (GSem nD τ sig) := Finset.univ.image tileCell
/-- Tile `i`'s unit in round 0 of tile `j`'s cell, for every two tiles `i`, `j` of one SparseCore. -/
def bToks : Finset (GSem nD τ sig × ℕ × ℕ) :=
  Finset.univ.image fun x : DCI × Fin (grid0.bound 1) => (bcell x.1.1 x.1.2.1 (x.2.castLE hsub0), 0, x.1.2.2.val)

def u₀ : UU := (initOf (K (F := F)).hsCells (K (F := F)).hsToks, (initOf bCells bToks, 1))

omit [FloatOps F] in
theorem tileCell_injective : Function.Injective (tileCell : DCI → GSem nD τ sig) := by
  rintro ⟨d, c, i⟩ ⟨d', c', i'⟩ e
  have h1 := (Prod.mk.inj (Prod.mk.inj e).1)
  obtain ⟨hc, hi⟩ := Proc.scVector.inj h1.2
  exact Prod.ext h1.1 (Prod.ext hc hi)

omit [FloatOps F] in
/-- A family over the barrier cells is a family over the tiles. -/
theorem bCells_tiles (Φ : GSem nD τ sig → sProp 𝕄) : bigSep bCells Φ = bigSep Finset.univ fun x : DCI => Φ (tileCell x) := by
  unfold bCells
  exact SparseCore.bigSep_image_of_injOn (fun a _ b _ e => tileCell_injective e) Φ

omit [FloatOps F] in
/-- The tokens, tile by tile: each tile's unit in every cell of its SparseCore. -/
theorem bToks_tiles : (bigSep bToks fun x => (dutyTok EB x.1 x.2.1 x.2.2 : sProp 𝕄))
    = bigSep Finset.univ fun x : DCI => bigSep Finset.univ fun j : Fin (grid0.bound 1) =>
        dutyTok EB (bcell x.1 x.2.1 (j.castLE hsub0)) 0 x.2.2.val := by
  unfold bToks
  rw [SparseCore.bigSep_image_of_injOn, bigSep_univ_prod]
  rintro ⟨⟨d, c, i⟩, j⟩ - ⟨⟨d', c', i'⟩, j'⟩ - e
  have e1 := Prod.mk.inj e
  have e2 := Prod.mk.inj (Prod.mk.inj e1.1).1
  obtain ⟨hc, hj⟩ := Proc.scVector.inj e2.2
  have hi : i = i' := Fin.ext (Prod.mk.inj e1.2).2
  have hj' : j = j' := Fin.ext (congrArg Fin.val hj)
  obtain rfl := e2.1
  subst hc hi hj'
  rfl

/-! ## The element's two halves -/

omit [FloatOps F] in
theorem own_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The semaphores and the invariants -/

omit [FloatOps F] in
/-- Every barrier semaphore at zero is among the free semaphores. -/
theorem barrier_sems : ((K (F := F)).freeSems0 : sProp 𝕄) ⊢ bigSep bCells fun g => semVal g 0 := by
  rw [bCells_tiles]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

/-- The cells' invariants, opened all at once from the semaphores and the round states at zero. -/
theorem barrier_invs :
    iprop((bigSep bCells fun g => (semVal g 0 : sProp 𝕄)) ∗ bigSep bCells fun g => roundState EB (bRd (F := F) m) g 0)
      ⊢ |={Set.univ}=> iprop(∃ κ : GSem nD τ sig → ℕ, bigSep bCells fun g => cellInv EB (bRd (F := F) m) (κ g) g) := by
  refine (Rounds.bodies_intro EB (bRd (F := F) m) bCells).trans
    ((inv_alloc_family bCells (Rounds.body EB (bRd (F := F) m)) ∅ (E := Set.univ)).trans ?_)
  iintro H
  imod H with ⟨%κ, -, Hinv⟩
  imodintro; iexists κ; iexact Hinv

/-! ## The credit, counted by semaphore -/

omit [FloatOps F] in
/-- `n` unit tallies on one cell are the tally of `n`. -/
theorem tally_units (g : GSem nD τ sig) (ι : HIx 1) : ∀ n : ℕ, (∑ _k : Fin n, tallyAt g ι 1) = (tallyAt g ι n : CellTallies nD τ sig (HIx 1))
  | 0 => by rw [Finset.univ_eq_empty, Finset.sum_empty, tallyAt_zero]
  | n + 1 => by rw [Fin.sum_univ_castSucc, tally_units g ι n, tallyAt_add]

omit [FloatOps F] in
theorem nSub_eq : grid0.bound 1 = τ.nSub := rfl

/-- What a tile owes over the whole run is what it owes at the one call: a unit on every barrier semaphore of its
    SparseCore. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]
  rfl

omit [FloatOps F] in
/-- On one SparseCore: a unit from each of the sixteen tiles on each of the sixteen barrier semaphores is, semaphore by
    semaphore, sixteen units. -/
theorem creds_core (d : Dev nD) (c : Fin τ.nSC) :
    (bigSep Finset.univ fun _i : Fin τ.nSub => (cred (oxV d c) : sProp 𝕄))
      = bigSep Finset.univ fun i : Fin τ.nSub => cred (tallyAt (bcell d c i) (some 0) (grid0.bound 1)) := by
  unfold oxV
  have e1 : (bigSep Finset.univ fun _i : Fin τ.nSub =>
        (cred (∑ j : Fin (grid0.bound 1), tallyAt (bcell d c (j.castLE hsub0)) (some 0) 1) : sProp 𝕄))
      = bigSep Finset.univ fun j : Fin (grid0.bound 1) => cred (tallyAt (bcell d c (j.castLE hsub0)) (some 0) τ.nSub) := by
    rw [show (fun _i : Fin τ.nSub => (cred (∑ j : Fin (grid0.bound 1), tallyAt (bcell d c (j.castLE hsub0)) (some 0) 1) : sProp 𝕄))
        = fun _i : Fin τ.nSub => bigSep Finset.univ fun j : Fin (grid0.bound 1) => (cred (tallyAt (bcell d c (j.castLE hsub0)) (some 0) 1) : sProp 𝕄)
      from funext fun _ => SparseCore.Cfg.cred_finsum _ _,
      bigSep_univ_comm]
    refine bigSep_congr fun j _ => ?_
    rw [← SparseCore.Cfg.cred_finsum, tally_units]
  rw [e1, bigSep_univ_equiv (finCongr nSub_eq)
    (fun i : Fin τ.nSub => (cred (tallyAt (bcell d c i) (some 0) (grid0.bound 1)) : sProp 𝕄))]
  rfl

/-- The launch's credit for the tiles' debts is, tile by tile, the credit for a full round of the tile's own cell. -/
theorem barrier_creds : ((P (F := F) m).oxCred : sProp 𝕄)
    ⊢ bigSep Finset.univ fun x : DCI => cred (tallyAt (tileCell x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans (Entails.of_eq ?_))
  rw [bigSep_univ_prod, bigSep_univ_prod (fun x : DCI => (cred (tallyAt (tileCell x) (some 0) (grid0.bound 1)) : sProp 𝕄))]
  refine bigSep_congr fun d _ => ?_
  rw [bigSep_univ_prod, bigSep_univ_prod (fun ci : Fin τ.nSC × Fin τ.nSub => (cred (tallyAt (tileCell (d, ci)) (some 0) (grid0.bound 1)) : sProp 𝕄))]
  refine bigSep_congr fun c _ => ?_
  simp only [oxFrom_V]
  exact creds_core d c

/-! ## Persistent facts go to everyone -/

omit [FloatOps F] in
/-- A persistent fact beside a family goes to each member. -/
theorem pers_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a (Finset.mem_insert_self _ _))
      isplitr; · iexact HR
      iexact Ha
    · iapply (ih fun i hi => h i (Finset.mem_insert_of_mem hi))
      isplitr; · iexact HR
      iexact Hs

omit [FloatOps F] in
/-- From a family of persistent facts, any selection of its members, with repetition. -/
theorem pers_pick {I J : Type} [Fintype I] [DecidableEq I] [DecidableEq J] (Φ : I → sProp 𝕄) [∀ i, BI.Persistent (Φ i)] (s : Finset J) (f : J → I) :
    (bigSep Finset.univ Φ : sProp 𝕄) ⊢ bigSep s fun j => Φ (f j) := by
  induction s using Finset.induction_on with
  | empty => rw [bigSep_empty]; iintro -; iempintro
  | insert a s ha ih =>
    rw [SparseCore.bigSep_insert' ha]
    iintro #H
    isplitl
    · iapply (SparseCore.ent (bigSep_elim (Φ := Φ) (Finset.mem_univ (f a)))); iexact H
    · iapply ih; iexact H

/-! ## Every tile's kit -/

/-- What every tile is handed alike. -/
abbrev everyone : sProp 𝕄 :=
  iprop((∃ κ : GSem nD τ sig → ℕ, bigSep Finset.univ fun x : DCI => cellInv EB (bRd (F := F) m) (κ (tileCell x)) (tileCell x))
    ∗ bigSep Finset.univ fun x : DCI => reached EB (tileCell x) 0)
/-- What a tile is handed of its own. -/
abbrev itsOwn (x : DCI) : sProp 𝕄 :=
  iprop(atPos EB (tileCell x) 0 ∅ 0
    ∗ (bigSep Finset.univ fun j : Fin (grid0.bound 1) => dutyTok EB (bcell x.1 x.2.1 (j.castLE hsub0)) 0 x.2.2.val)
    ∗ cred (tallyAt (tileCell x) (some 0) (grid0.bound 1)))

theorem kit_of (x : DCI) : iprop(everyone (F := F) m ∗ itsOwn (F := F) x) ⊢ (bkit (F := F) m x.1 x.2.1 x.2.2 : sProp 𝕄) := by
  obtain ⟨d, c, i⟩ := x
  unfold bkit
  iintro ⟨⟨⟨%κ, #Hinv⟩, #Hr⟩, Hat, Htok, Hcred⟩
  isplitr
  · iexists κ
    iapply (pers_pick (F := F) (fun x : DCI => cellInv EB (bRd (F := F) m) (κ (tileCell x)) (tileCell x)) Finset.univ
      (fun j : Fin (grid0.bound 1) => ((d, c, j.castLE hsub0) : DCI)))
    iexact Hinv
  isplitl [Htok]; · iexact Htok
  isplitr
  · iapply (pers_pick (F := F) (fun x : DCI => (reached EB (tileCell x) 0 : sProp 𝕄)) Finset.univ
      (fun j : Fin (grid0.bound 1) => ((d, c, j.castLE hsub0) : DCI)))
    iexact Hr
  isplitl [Hat]; · iexact Hat
  iexact Hcred

omit [FloatOps F] in
theorem emp_family {I : Type} (s : Finset I) : (bigSep s fun _ => iprop(emp)) = (iprop(emp) : sProp 𝕄) := bigSep_emp_const s

/-- Each thread what the payloads promise it from the launch: a tile its kit, the others nothing. -/
theorem kits :
    iprop(everyone (F := F) m ∗ bigSep Finset.univ fun x : DCI => itsOwn (F := F) x)
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  have eT : ∀ d : Dev nD, (bigSep Finset.univ fun q : Fin 1 => (P (F := F) m).x q (SparseCore.T d)) = iprop(emp) :=
    fun d => bigSep_univ_of_subsingleton (0 : Fin 1)
  have eS : ∀ dc : Dev nD × Fin τ.nSC, (bigSep Finset.univ fun q : Fin 1 => (P (F := F) m).x q (SparseCore.S dc.1 dc.2)) = iprop(emp) :=
    fun dc => bigSep_univ_of_subsingleton (0 : Fin 1)
  have eV : ∀ x : DCI, (bigSep Finset.univ fun q : Fin 1 => (P (F := F) m).x q (V x.1 x.2.1 x.2.2)) = bkit m x.1 x.2.1 x.2.2 :=
    fun x => bigSep_univ_of_subsingleton (0 : Fin 1)
  simp only [eT, eS, eV, emp_family]
  iintro ⟨#Hall, Hown⟩
  isplitr; · iempintro
  isplitr; · iempintro
  iapply (pers_frame (F := F) (R := everyone (F := F) m) (Φ := itsOwn (F := F)) fun x _ => kit_of (F := F) m x)
  isplitr; · iexact Hall
  iexact Hown

/-! ## The launch element -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (own_split _ _) $$ Hu
  icases H with ⟨HH, HB⟩
  imod (Rounds.fund EB (bRd (F := F) m) bCells bToks) $$ HB with ⟨Hst, #Hr, Hat, Htok⟩
  ihave Hsems := (barrier_sems (F := F)) $$ Hfree
  imod (barrier_invs (F := F) m) $$ [Hsems Hst] with ⟨%κ, #Hinv⟩
  · isplitl [Hsems] <;> iassumption
  ihave Hcred' := (barrier_creds m) $$ Hcred
  ihave Hinv' := (Entails.of_eq (bCells_tiles (F := F) fun g => cellInv EB (bRd (F := F) m) (κ g) g)) $$ Hinv
  ihave Hr' := (Entails.of_eq (bCells_tiles (F := F) fun g => reached EB g 0)) $$ Hr
  ihave Hat' := (Entails.of_eq (bCells_tiles (F := F) fun g => atPos EB g 0 ∅ 0)) $$ Hat
  ihave Htok' := (Entails.of_eq (bToks_tiles (F := F))) $$ Htok
  imodintro
  isplitl [HH]; · iexact HH
  isplitr; · rw [emp_family]; iempintro
  iapply (kits m)
  isplitr
  · isplitl; · iexists κ; iexact Hinv'
    iexact Hr'
  unfold itsOwn
  rw [bigSep_sep', bigSep_sep']
  isplitl [Hat']; · iexact Hat'
  isplitl [Htok']; · iexact Htok'
  iexact Hcred'

end Cert.Proof.KI

end
-- ==== Proof.KILaunch.lean ====
/-
  The program's run.

  Every weakly fair execution of the TensorCore's @main and the two SparseCores' thirty-four threads, from a memory
  whose index argument holds field indices in [0, 40000), terminates without a fault, with the six arguments unchanged
  and the result the column of the flat result: entry b is batch row b's number in accumulation order.
-/
import proofs.«207416_g64579128263113_cont_9to1_m_974_55_alg».proof.Proof.KIObl
import proofs.«207416_g64579128263113_cont_9to1_m_974_55_alg».proof.Proof.KIMain
import proofs.«207416_g64579128263113_cont_9to1_m_974_55_alg».proof.Proof.KISplit
import proofs.«207416_g64579128263113_cont_9to1_m_974_55_alg».proof.Proof.KILaunchElem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the claim reads off the final memory. -/
def QC : PUnit × MemSt nD τ sig (Elt F) → Prop := fun r => ∀ c : Dev nD,
  r.2.mem (rLoc c) = Layout.colw (oC m c) ∧ r.2.mem (a0Loc c) = m (a0Loc c) ∧ r.2.mem (a1Loc c) = m (a1Loc c) ∧ r.2.mem (a2Loc c) = m (a2Loc c)
    ∧ r.2.mem (a3Loc c) = m (a3Loc c) ∧ r.2.mem (a4Loc c) = m (a4Loc c) ∧ r.2.mem (a5Loc c) = m (a5Loc c)

theorem run_main [∀ e, Nonempty (Elt F e)] (hpre : ∀ (d : Dev nD) j, (m (a0Loc d) j).toNat ≤ 39999) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

end Cert.Proof.KI

end
-- ==== Proof.PreRange.lean ====
/-
  The precondition's integer conjunct, read back element by element.

  The precondition is a conjunction of reductions by `and` to a single bit; the last conjunct reduces, over every
  entry of the index array, the bit "0 ≤ x ∧ x ≤ 39999" (both comparisons signed). When the whole conjunction is 1
  that reduction is 1, so the bit is 1 at every entry, and a 32-bit word that lies in [0, 39999] as a signed integer
  has that same value as a natural number. Nothing here depends on the float instance: the float conjuncts are
  simply dropped.
-/
import proofs.«207416_g64579128263113_cont_9to1_m_974_55_alg».proof.Pre_input_domain
import proofs.«207416_g64579128263113_cont_9to1_m_974_55_alg».proof.Proof.Gen.Pre_input_domain
import Idealize.ShloMosaic.Lib.ReduceAll
import Idealize.ShloMosaic.Lib.ValueIdx

noncomputable section

namespace Cert.Proof.PreRange

open Idealize.ShloMosaic

/-- The scalar shape has one index. -/
instance : Subsingleton Cert.Pre_input_domain.S_.Idx := ⟨fun a b => funext fun d => d.elim0⟩

/-- A 32-bit word that is at least 0 and at most 39999 as a signed integer is at most 39999 as a natural number:
    a nonnegative signed reading is the unsigned one. -/
theorem toNat_le_of_signed (w : BitVec 32) (h0 : IntOp.cmpi .sge w 0#32 = 1#1) (h1 : IntOp.cmpi .sle w 39999#32 = 1#1) :
    w.toNat ≤ 39999 := by
  rw [IntOp.cmpi_sge] at h0
  rw [IntOp.cmpi_sle] at h1
  have e0 : (0#32 : BitVec 32).toInt = 0 := by decide
  have e1 : (39999#32 : BitVec 32).toInt = 39999 := by decide
  rw [e0] at h0
  rw [e1] at h1
  have hlt := w.isLt
  unfold BitVec.toInt at h0 h1
  split at h0 <;> omega

/-- generic in the float instance: the precondition's integer conjunct, element by element -/
theorem x_le {F : FTy → Type} [FloatOps F] (x : IVec ⟨2, ![16384, 26]⟩ 32) (t : FVec F ⟨2, ![16384, 16]⟩ .f32)
    (tab : FVec F ⟨2, ![1040000, 1]⟩ .f32) (W : FVec F ⟨2, ![16, 1]⟩ .f32) (lb bias : FVec F ⟨1, ![1]⟩ .f32)
    (h : Cert.Pre_input_domain.fn (F := F) x t tab W lb bias = fun _ => 1#1) : ∀ j, (x j).toNat ≤ 39999 := by
  intro j
  have e := congrFun h ValueIdx.ix0
  dsimp only [Cert.Pre_input_domain.fn, Cert.Pre_input_domain.fn_part1] at e
  -- the outermost `and`: its second operand is the reduction over the index array
  have e2 : IntOp.andi _ _ = 1#1 := e
  have hred := (IntOp.andi_eq_one.1 e2).2
  -- every entry of the reduced array is 1
  have hj := Host.reduce_andi_all _ _ _ _ _ hred j
  have hj2 : IntOp.andi (IntOp.cmpi .sge (x j) 0#32) (IntOp.cmpi .sle (x j) 39999#32) = 1#1 := hj
  obtain ⟨h0, h1⟩ := IntOp.andi_eq_one.1 hj2
  exact toNat_le_of_signed (x j) h0 h1

end Cert.Proof.PreRange

end
-- ==== Proof.RefOps.lean ====
/-
  The reference program as a straight line, and what its run leaves.

  The reference adds to every field index the start of that field's block of the table (field `f` owns rows
  `40000 * f …`), looks the shifted indices up in the flattened table (the lookup first wraps a negative index around the
  table's length, then reads the row, and keeps the value only where the index was inside the table — a quiet NaN
  otherwise), adds up the 26 values of each batch row together with that row's inner product with the weight column and
  its bias, and adds a second bias. Its two helper functions hold only plain operations, so written out at their call
  sites the whole program is one list of 41 operations; run from any memory, each buffer ends at the operations' composed
  term of the arguments. That term is named here piece by piece (`shifted`, `wrapped`, `start`, `inRange`, `emb`, `tl`,
  `val`) so that later modules can read one piece at a time.
-/
import proofs.«207416_g64579128263113_cont_9to1_m_974_55_alg».proof.Proof.Gen.ReferenceIdeal
import Idealize.ShloMosaic.Lib.StableHlo.Run

noncomputable section

namespace Cert.Proof.RefOps

open Cert.ReferenceIdeal Cert.ReferenceIdeal.Gen
open Idealize.ShloMosaic Idealize.ShloMosaic.TcCoe Idealize.SL.Sem Idealize.ShloMosaic.StableHlo

variable {F : FTy → Type} [FloatOps F]

/-! ## The result as a function of the arguments, piece by piece -/

/-- Each field index moved to its field's block of the table: `x[b, f] + 40000 * f` (32-bit words). -/
def shifted (x : IVec S16384x26 32) : IVec S16384x26 32 :=
  addi x (broadcastInDim S16384x26 ![0, 1] bcast_S1x26_S16384x26_0_1 (broadcastInDim S1x26 ![1] bcast_S26_S1x26_1
    (muli (iotaInDim S26 32 0) (broadcastInDim S26 ![] bcast_S_S26 (constantI S_ 32 40000#32)))))

/-- The lookup's first step: a negative index counts from the table's end. -/
def wrapped (x : IVec S16384x26 32) : IVec S16384x26 32 :=
  select (cmpi .slt (shifted x) (broadcastInDim S16384x26 ![] bcast_S_S16384x26 (constantI S_ 32 0#32)))
    (addi (shifted x) (broadcastInDim S16384x26 ![] bcast_S_S16384x26 (constantI S_ 32 1040000#32))) (shifted x)

/-- The start indices the lookup reads at: the wrapped indices with a trailing unit axis. -/
def start (x : IVec S16384x26 32) : IVec S16384x26x1 32 :=
  broadcastInDim S16384x26x1 ![0, 1] bcast_S16384x26_S16384x26x1_0_1 (wrapped x)

/-- Where the start index lies inside the table: `0 ≤ start ≤ 1039999`, both signed. -/
def inRange (x : IVec S16384x26 32) : IVec S16384x26 1 :=
  Host.reduce IntOp.andi
    (andi (cmpi .sge (start x) (broadcastInDim S16384x26x1 ![] bcast_S_S16384x26x1 (constantI S_ 32 0#32)))
      (cmpi .sle (start x) (broadcastInDim S16384x26x1 ![0, 1, 2] bcast_S1x1x1_S16384x26x1_0_1_2
        (broadcastInDim S1x1x1 ![2] bcast_S1_S1x1x1_2 (constantI S1 32 1039999#32)))))
    (constantI S_ 1 1#1) reducesTo_S16384x26x1_S16384x26_d2 h_S_

/-- The looked-up table entries: the row read where the start index is inside the table, a quiet NaN's pattern elsewhere. -/
def emb (x : IVec S16384x26 32) (tab : FVec F S1040000x1 .f32) : FVec F S16384x26x1 .f32 :=
  select (broadcastInDim S16384x26x1 ![0, 1] bcast_S16384x26_S16384x26x1_0_1 (inRange x))
    (Host.gather gather_S1040000x1_S16384x26x1_S16384x26x1_2_0_n_n_0_2_11 tab (start x))
    (broadcastInDim S16384x26x1 ![] bcast_S_S16384x26x1 (constant S_ .f32 0x7FC00000#32))

/-- The dense term: each row's inner product with the weight column plus its bias, as a 27th entry beside the 26 fields. -/
def tl (t : FVec F S16384x16 .f32) (W : FVec F S16x1 .f32) (lb : FVec F S1 .f32) : FVec F S16384x1x1 .f32 :=
  shapeCast S16384x1x1
    (addf (Host.dotGeneral dot_S16384x16_S16x1_S16384x1_1_0_0_1_n_n none t W)
      (broadcastInDim S16384x1 ![0, 1] bcast_S1x1_S16384x1_0_1 (broadcastInDim S1x1 ![1] bcast_S1_S1x1_1 lb)))
    shapeCasts_S16384x1_S16384x1x1

/-- The reference's result: the 27 entries of each row added up from zero, plus the second bias. -/
def val (x : IVec S16384x26 32) (t : FVec F S16384x16 .f32) (tab : FVec F S1040000x1 .f32) (W : FVec F S16x1 .f32)
    (lb bias : FVec F S1 .f32) : FVec F S16384x1 .f32 :=
  addf
    (Host.reduceAdd
      (concatenate S16384x27x1 1 [⟨S16384x26x1, emb x tab⟩, ⟨S16384x1x1, tl t W lb⟩] concatenates_S16384x26x1_S16384x1x1_S16384x27x1_d1)
      (constant S_ .f32 0x00000000#32) reducesTo_S16384x27x1_S16384x1_d1 h_S_)
    (broadcastInDim S16384x1 ![0, 1] bcast_S1x1_S16384x1_0_1 (broadcastInDim S1x1 ![1] bcast_S1_S1x1_1 bias))

/-! ## The program as a list of operations -/

/-- The reference's 41 operations in order: the seven that shift the indices, the lookup's twenty-three (its own and, inside
    it, the one select of the negative-index wrap) over the buffers of that call, and the eleven that follow. -/
abbrev ops : List (HloOp τ sig (Elt F)) :=
  [ nullary main_v0 (iotaInDim S26 32 0),
    nullary main_c (constantI S_ 32 40000#32),
    unary main_c main_v1 (broadcastInDim S26 ![] bcast_S_S26 : (⟨S_, .i32⟩ : BufTy).Contents (Elt F) → (⟨S26, .i32⟩ : BufTy).Contents (Elt F)),
    binary main_v0 main_v1 main_v2 (muli : (⟨S26, .i32⟩ : BufTy).Contents (Elt F) → (⟨S26, .i32⟩ : BufTy).Contents (Elt F) → (⟨S26, .i32⟩ : BufTy).Contents (Elt F)),
    unary main_v2 main_v3 (broadcastInDim S1x26 ![1] bcast_S26_S1x26_1 : (⟨S26, .i32⟩ : BufTy).Contents (Elt F) → (⟨S1x26, .i32⟩ : BufTy).Contents (Elt F)),
    unary main_v3 main_v4 (broadcastInDim S16384x26 ![0, 1] bcast_S1x26_S16384x26_0_1 : (⟨S1x26, .i32⟩ : BufTy).Contents (Elt F) → (⟨S16384x26, .i32⟩ : BufTy).Contents (Elt F)),
    binary main_arg0 main_v4 main_v5 (addi : (⟨S16384x26, .i32⟩ : BufTy).Contents (Elt F) → (⟨S16384x26, .i32⟩ : BufTy).Contents (Elt F) → (⟨S16384x26, .i32⟩ : BufTy).Contents (Elt F)),
    TRef.nullary main_call0.c (constantI S_ 32 0#32),
    TRef.unary main_call0.c main_call0.v0 (broadcastInDim S16384x26 ![] bcast_S_S16384x26),
    TRef.binary (.of main_v5) main_call0.v0 main_call0.v1 (cmpi .slt),
    TRef.nullary main_call0.c_0 (constantI S_ 32 1040000#32),
    TRef.unary main_call0.c_0 main_call0.v2 (broadcastInDim S16384x26 ![] bcast_S_S16384x26),
    TRef.binary (.of main_v5) main_call0.v2 main_call0.v3 addi,
    TRef.ternary main_call0.v1 main_call0.v3 (.of main_v5) main_call0.call0.v0 select,
    TRef.unary main_call0.call0.v0 main_call0.v5 (broadcastInDim S16384x26x1 ![0, 1] bcast_S16384x26_S16384x26x1_0_1),
    TRef.nullary main_call0.c_1 (constantI S1 32 1039999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg2) main_call0.v5 main_call0.v13 (fun x i => Host.gather gather_S1040000x1_S16384x26x1_S16384x26x1_2_0_n_n_0_2_11 x i),
    TRef.unary main_call0.v12 main_call0.v14 (broadcastInDim S16384x26x1 ![0, 1] bcast_S16384x26_S16384x26x1_0_1),
    TRef.nullary main_call0.cst (constant S_ .f32 0x7FC00000#32),
    TRef.unary main_call0.cst main_call0.v15 (broadcastInDim S16384x26x1 ![] bcast_S_S16384x26x1),
    TRef.ternary main_call0.v14 main_call0.v13 main_call0.v15 main_call0.v16 select,
    binary main_arg1 main_arg3 main_v7 ((fun l r => Host.dotGeneral dot_S16384x16_S16x1_S16384x1_1_0_0_1_n_n none l r) : (⟨S16384x16, .f32⟩ : BufTy).Contents (Elt F) → (⟨S16x1, .f32⟩ : BufTy).Contents (Elt F) → (⟨S16384x1, .f32⟩ : BufTy).Contents (Elt F)),
    unary main_arg4 main_v8 (broadcastInDim S1x1 ![1] bcast_S1_S1x1_1 : (⟨S1, .f32⟩ : BufTy).Contents (Elt F) → (⟨S1x1, .f32⟩ : BufTy).Contents (Elt F)),
    unary main_v8 main_v9 (broadcastInDim S16384x1 ![0, 1] bcast_S1x1_S16384x1_0_1 : (⟨S1x1, .f32⟩ : BufTy).Contents (Elt F) → (⟨S16384x1, .f32⟩ : BufTy).Contents (Elt F)),
    binary main_v7 main_v9 main_v10 (addf : (⟨S16384x1, .f32⟩ : BufTy).Contents (Elt F) → (⟨S16384x1, .f32⟩ : BufTy).Contents (Elt F) → (⟨S16384x1, .f32⟩ : BufTy).Contents (Elt F)),
    reshape main_v10 main_v11 rfl shapeCasts_S16384x1_S16384x1x1,
    binary main_v6 main_v11 main_v12 ((fun a b => concatenate S16384x27x1 1 [⟨S16384x26x1, a⟩, ⟨S16384x1x1, b⟩] concatenates_S16384x26x1_S16384x1x1_S16384x27x1_d1) : (⟨S16384x26x1, .f32⟩ : BufTy).Contents (Elt F) → (⟨S16384x1x1, .f32⟩ : BufTy).Contents (Elt F) → (⟨S16384x27x1, .f32⟩ : BufTy).Contents (Elt F)),
    nullary main_cst (constant S_ .f32 0x00000000#32),
    binary main_v12 main_cst main_v13 ((fun x v => Host.reduceAdd x v reducesTo_S16384x27x1_S16384x1_d1 h_S_) : (⟨S16384x27x1, .f32⟩ : BufTy).Contents (Elt F) → (⟨S_, .f32⟩ : BufTy).Contents (Elt F) → (⟨S16384x1, .f32⟩ : BufTy).Contents (Elt F)),
    unary main_arg5 main_v14 (broadcastInDim S1x1 ![1] bcast_S1_S1x1_1 : (⟨S1, .f32⟩ : BufTy).Contents (Elt F) → (⟨S1x1, .f32⟩ : BufTy).Contents (Elt F)),
    unary main_v14 main_v15 (broadcastInDim S16384x1 ![0, 1] bcast_S1x1_S16384x1_0_1 : (⟨S1x1, .f32⟩ : BufTy).Contents (Elt F) → (⟨S16384x1, .f32⟩ : BufTy).Contents (Elt F)),
    binary main_v13 main_v15 main_v16 (addf : (⟨S16384x1, .f32⟩ : BufTy).Contents (Elt F) → (⟨S16384x1, .f32⟩ : BufTy).Contents (Elt F) → (⟨S16384x1, .f32⟩ : BufTy).Contents (Elt F)) ]

-- forty-one binds re-associated: the rewrite under the chain recurses once per statement
set_option maxRecDepth 65536 in
/-- The program is that straight line: the two helper functions unfolded at their calls, and sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., reshape_bufs_sub .., binary_bufs_sub ..,
    nullary_bufs_sub .., binary_bufs_sub .., unary_bufs_sub .., unary_bufs_sub .., binary_bufs_sub ..⟩

/-! ## The run -/

/-- The result's term with its three operands replaced by equal ones. -/
theorem val_congr {a a' : FVec F S16384x26x1 .f32} {b b' : FVec F S16384x1x1 .f32} {d d' : FVec F S16384x1 .f32}
    (ha : a = a') (hb : b = b') (hd : d = d') :
    addf (Host.reduceAdd
        (concatenate S16384x27x1 1 [⟨S16384x26x1, a⟩, ⟨S16384x1x1, b⟩] concatenates_S16384x26x1_S16384x1x1_S16384x27x1_d1)
        (constant S_ .f32 0x00000000#32) reducesTo_S16384x27x1_S16384x1_d1 h_S_) d
      = addf (Host.reduceAdd
        (concatenate S16384x27x1 1 [⟨S16384x26x1, a'⟩, ⟨S16384x1x1, b'⟩] concatenates_S16384x26x1_S16384x1x1_S16384x27x1_d1)
        (constant S_ .f32 0x00000000#32) reducesTo_S16384x27x1_S16384x1_d1 h_S_) d' := by
  subst ha hb hd; rfl

attribute [local irreducible] Host.reduce Host.gather Host.reduceAdd concatenate in
/-- What the operations leave in the result buffer is `val` of what the argument buffers held: each operation's result
    read off at its own buffer, the typed references' transports the identity at these literal references. The
    concatenation's two operands are read separately (its shape condition mentions them, so they are not rewritten in
    place); the reductions, the lookup and the concatenation are kept folded meanwhile. -/
theorem out_eq (V : Valuation τ sig (Elt F)) :
    after ops V (main_v16 : DevRef τ sig)
      = val (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  unfold val
  refine val_congr ?_ ?_ rfl
  · after_results_simp
    simp only [cast_eq]
    unfold emb inRange start wrapped shifted
    rfl
  · after_results_simp
    unfold tl
    rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of the
    reference terminates with the result buffer at `val` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = val (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v16).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.Proof.RefOps

end
-- ==== Proof.RefValue.lean ====
/-
  The reference's composed term read at one index, for index arrays whose entries lie in [0, 39999].

  With every entry of the index array at most 39999, a field's shifted index `x[b, f] + 40000 * f` is at most 1039999,
  inside the table and far below 2^31, so as 32-bit words nothing wraps: the shifted index is not negative, the
  negative-index wrap leaves it alone, both range tests pass, and the clamp inside the lookup changes nothing. The
  looked-up entry of field `f` of row `b` is therefore the table's row `x[b, f] + 40000 * f`. The dense term is the
  inner product of row `b` of the dense features with the weight column plus the first bias; the 27 entries of row
  `b` (26 fields and the dense term) are added up from zero, and the second bias is added. Addition and multiplication
  of extended reals are commutative and associative, so this is the specification's arrangement
  (bias + bias) + (sum over fields) + (sum over features of weight times feature).
-/
import proofs.«207416_g64579128263113_cont_9to1_m_974_55_alg».proof.Proof.RefOps
import proofs.«207416_g64579128263113_cont_9to1_m_974_55_alg».proof.Proof.Spec
import Idealize.ShloMosaic.Lib.IdealHost
import Idealize.ShloMosaic.Lib.Pipeline.Value
import Idealize.ShloMosaic.Lib.ReduceAll
import Idealize.ShloMosaic.PureOps.Ideal.Laws

noncomputable section

open scoped BigOperators

namespace Cert.Proof.RefValue

open Cert.ReferenceIdeal Cert.ReferenceIdeal.Gen Cert.Proof.RefOps
open Idealize.ShloMosaic Idealize.ShloMosaic.ValueIdx

/-! ## The shifted index -/

/-- The shifted index at `(b, f)`: the entry plus the word `f` times the word 40000. -/
theorem shifted_apply (x : IVec S16384x26 32) (b : Fin 16384) (f : Fin 26) :
    shifted x (ix2 b f) = x (ix2 b f) + BitVec.ofNat 32 f.val * 40000#32 := rfl

/-- Nothing wraps: as a natural number the shifted index is the entry plus 40000 times the field. -/
theorem shifted_toNat (x : IVec S16384x26 32) (b : Fin 16384) (f : Fin 26) (h : (x (ix2 b f)).toNat ≤ 39999) :
    (shifted x (ix2 b f)).toNat = (x (ix2 b f)).toNat + 40000 * f.val := by
  have hf := f.isLt
  rw [shifted_apply, BitVec.toNat_add, BitVec.toNat_mul, BitVec.toNat_ofNat, BitVec.toNat_ofNat]
  omega

/-- So it is a row of the table. -/
theorem shifted_le (x : IVec S16384x26 32) (b : Fin 16384) (f : Fin 26) (h : (x (ix2 b f)).toNat ≤ 39999) :
    (shifted x (ix2 b f)).toNat ≤ 1039999 := by
  have hf := f.isLt
  rw [shifted_toNat x b f h]
  omega

/-- Its signed reading is its unsigned one. -/
theorem shifted_toInt (x : IVec S16384x26 32) (b : Fin 16384) (f : Fin 26) (h : (x (ix2 b f)).toNat ≤ 39999) :
    (shifted x (ix2 b f)).toInt = ((shifted x (ix2 b f)).toNat : Int) := by
  have hs := shifted_le x b f h
  exact BitVec.toInt_eq_toNat_of_lt (by omega)

/-- The shifted index is not negative, so the negative-index wrap keeps it. -/
theorem wrapped_apply (x : IVec S16384x26 32) (b : Fin 16384) (f : Fin 26) (h : (x (ix2 b f)).toNat ≤ 39999) :
    wrapped x (ix2 b f) = shifted x (ix2 b f) := by
  have hc : IntOp.cmpi .slt (shifted x (ix2 b f)) 0#32 = 0#1 := by
    refine eq_zero_of_ne_one fun h1 => ?_
    rw [IntOp.cmpi_slt, shifted_toInt x b f h] at h1
    have e0 : (0#32 : BitVec 32).toInt = 0 := by decide
    rw [e0] at h1
    omega
  show Scalar.select (IntOp.cmpi .slt (shifted x (ix2 b f)) 0#32) _ _ = _
  rw [hc, select_zero]

/-- The start index at `(b, f, 0)` is the wrapped index at `(b, f)`. -/
theorem start_apply (x : IVec S16384x26 32) (b : Fin 16384) (f : Fin 26) (z : Fin 1) :
    start x (ix3 b f z) = wrapped x (ix2 b f) := by
  unfold start
  exact broadcastInDim_apply _ _ _ _ (ix2 b f) (fun a => by match a with | ⟨0, _⟩ => rfl | ⟨1, _⟩ => rfl)

/-! ## The range test -/

/-- A left fold by `and` from 1 over bits that are all 1 is 1. -/
theorem foldl_andi_ones {ι : Type} (g : ι → BitVec 1) (l : List ι) (h : ∀ n ∈ l, g n = 1#1) :
    l.foldl (fun r n => IntOp.andi r (g n)) 1#1 = 1#1 := by
  induction l with
  | nil => rfl
  | cons a l ih =>
    have e : IntOp.andi (1#1) (1#1) = 1#1 := by decide
    rw [List.foldl_cons, h a List.mem_cons_self, e]
    exact ih fun n hn => h n (List.mem_cons_of_mem _ hn)

/-- Every start index passes both range tests. -/
theorem inRange_eq_one (x : IVec S16384x26 32) (hx : ∀ j, (x j).toNat ≤ 39999) (j : S16384x26.Idx) :
    inRange x j = 1#1 := by
  unfold inRange
  rw [Host.reduce_eq_foldl]
  refine foldl_andi_ones _ _ fun y _ => ?_
  obtain ⟨b, f, z, rfl⟩ : ∃ (b : Fin 16384) (f : Fin 26) (z : Fin 1), y = ix3 b f z := ⟨y 0, y 1, y 2, eq_ix3 y⟩
  show IntOp.andi (IntOp.cmpi .sge (start x (ix3 b f z)) 0#32) (IntOp.cmpi .sle (start x (ix3 b f z)) 1039999#32) = 1#1
  rw [start_apply, wrapped_apply x b f (hx _)]
  have hs := shifted_le x b f (hx _)
  have et := shifted_toInt x b f (hx _)
  have e0 : (0#32 : BitVec 32).toInt = 0 := by decide
  have e1 : (1039999#32 : BitVec 32).toInt = 1039999 := by decide
  refine IntOp.andi_eq_one.2 ⟨IntOp.cmpi_sge.2 ?_, IntOp.cmpi_sle.2 ?_⟩
  · rw [e0, et]; omega
  · rw [e1, et]; omega

/-! ## The lookup -/

/-- The lookup at `(b, f, 0)` reads the table's row at the start index there, read signed and clamped into the table
    (`r` names that row). -/
theorem gather_apply {α : Type} (tab : S1040000x1.Idx → α) (idx : IVec S16384x26x1 32) (b : Fin 16384) (f : Fin 26) (z : Fin 1)
    (r : Fin 1040000) (hr : r.val = min (idx (ix3 b f z)).toInt.toNat 1039999) :
    Host.gather gather_S1040000x1_S16384x26x1_S16384x26x1_2_0_n_n_0_2_11 tab idx (ix3 b f z) = tab (ix2 r (0 : Fin 1)) := by
  obtain rfl : z = 0 := Subsingleton.elim _ _
  unfold Host.gather
  congr 1
  funext a
  refine Fin.ext ?_
  match a with
  | ⟨1, _⟩ =>
    have h1 := (gather_S1040000x1_S16384x26x1_S16384x26x1_2_0_n_n_0_2_11.operandIdx (ix3 b f 0) idx ⟨1, by decide⟩).isLt
    have e1 : S1040000x1.size ⟨1, by decide⟩ = 1 := rfl
    show (gather_S1040000x1_S16384x26x1_S16384x26x1_2_0_n_n_0_2_11.operandIdx (ix3 b f 0) idx ⟨1, by decide⟩).val = 0
    omega
  | ⟨0, _⟩ =>
    show gather_S1040000x1_S16384x26x1_S16384x26x1_2_0_n_n_0_2_11.start (ix3 b f 0) idx 0 + gather_S1040000x1_S16384x26x1_S16384x26x1_2_0_n_n_0_2_11.batchCoord (ix3 b f 0) 0 + gather_S1040000x1_S16384x26x1_S16384x26x1_2_0_n_n_0_2_11.offCoord (ix3 b f 0) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1040000x1_S16384x26x1_S16384x26x1_2_0_n_n_0_2_11.startIndexMap from List.mem_singleton.mpr rfl)]
    have hsi : gather_S1040000x1_S16384x26x1_S16384x26x1_2_0_n_n_0_2_11.siIdx (ix3 b f 0) ⟨List.idxOf (0 : Fin 2) gather_S1040000x1_S16384x26x1_S16384x26x1_2_0_n_n_0_2_11.startIndexMap,
        List.idxOf_lt_length_iff.2 (List.mem_singleton.mpr rfl)⟩ = ix3 b f 0 := by
      funext c; refine Fin.ext ?_
      match c with
      | ⟨0, _⟩ => rfl
      | ⟨1, _⟩ => rfl
      | ⟨2, _⟩ => rfl
    rw [hsi]
    exact hr.symm

/-- The looked-up entry of field `f` of row `b` is the table's row `x[b, f] + 40000 * f`. -/
theorem emb_apply (x : IVec S16384x26 32) (tab : FVec Ideal S1040000x1 .f32) (hx : ∀ j, (x j).toNat ≤ 39999)
    (b : Fin 16384) (f : Fin 26) (z : Fin 1) : emb x tab (ix3 b f z) = tab (ix2 (Spec.row x b f) 0) := by
  have hm : broadcastInDim S16384x26x1 ![0, 1] bcast_S16384x26_S16384x26x1_0_1 (inRange x) (ix3 b f z) = 1#1 :=
    inRange_eq_one x hx _
  unfold emb
  rw [select_apply, hm, select_one]
  refine gather_apply tab (start x) b f z (Spec.row x b f) ?_
  have hs := shifted_le x b f (hx _)
  rw [start_apply, wrapped_apply x b f (hx _), Spec.row_val x b f (hx _), shifted_toInt x b f (hx _), Int.toNat_natCast,
    ← shifted_toNat x b f (hx _)]
  omega

/-! ## The dense term -/

theorem lhs_0 (i : S16384x1.Idx) (q : dot_S16384x16_S16x1_S16384x1_1_0_0_1_n_n.contr.Idx) : (dot_S16384x16_S16x1_S16384x1_1_0_0_1_n_n.lhsIdx i q 0).val = (i 0).val := by
  unfold DotDims.lhsIdx
  rw [dif_neg (show ¬(0 : Fin S16384x16.rank) ∈ dot_S16384x16_S16x1_S16384x1_1_0_0_1_n_n.lhsBatch by decide), dif_pos (show (0 : Fin S16384x16.rank) ∈ dot_S16384x16_S16x1_S16384x1_1_0_0_1_n_n.lhsNonContracting by decide)]
  rfl
theorem lhs_1 (i : S16384x1.Idx) (q : dot_S16384x16_S16x1_S16384x1_1_0_0_1_n_n.contr.Idx) : (dot_S16384x16_S16x1_S16384x1_1_0_0_1_n_n.lhsIdx i q 1).val = (q ⟨0, by decide⟩).val :=
  dot_S16384x16_S16x1_S16384x1_1_0_0_1_n_n.lhsIdx_val_of_single rfl i q
theorem rhs_0 (i : S16384x1.Idx) (q : dot_S16384x16_S16x1_S16384x1_1_0_0_1_n_n.contr.Idx) : (dot_S16384x16_S16x1_S16384x1_1_0_0_1_n_n.rhsIdx i q 0).val = (q ⟨0, by decide⟩).val :=
  dot_S16384x16_S16x1_S16384x1_1_0_0_1_n_n.rhsIdx_val_of_single rfl i q
theorem rhs_1 (i : S16384x1.Idx) (q : dot_S16384x16_S16x1_S16384x1_1_0_0_1_n_n.contr.Idx) : (dot_S16384x16_S16x1_S16384x1_1_0_0_1_n_n.rhsIdx i q 1).val = (i 1).val := by
  unfold DotDims.rhsIdx
  rw [dif_neg (show ¬(1 : Fin S16x1.rank) ∈ dot_S16384x16_S16x1_S16384x1_1_0_0_1_n_n.rhsBatch by decide), dif_pos (show (1 : Fin S16x1.rank) ∈ dot_S16384x16_S16x1_S16384x1_1_0_0_1_n_n.rhsNonContracting by decide)]
  rfl

/-- The product of the dense features with the weight column at row `b`: the sum over the 16 features. -/
theorem dot_apply (t : FVec Ideal S16384x16 .f32) (W : FVec Ideal S16x1 .f32) (b : Fin 16384) (z : Fin 1) :
    Host.dotGeneral dot_S16384x16_S16x1_S16384x1_1_0_0_1_n_n none t W (ix2 b z) = ∑ k : Fin 16, t (ix2 b k) * W (ix2 k 0) := by
  simp only [Host.dotGeneral]
  rw [Ideal.dotGeneral_apply, ← Equiv.sum_comp (contrEquiv1 dot_S16384x16_S16x1_S16384x1_1_0_0_1_n_n 16 rfl rfl).symm]
  refine Finset.sum_congr rfl fun k _ => ?_
  have hk := contrEquiv1_symm_val dot_S16384x16_S16x1_S16384x1_1_0_0_1_n_n 16 rfl rfl k
  have hz : z.val = 0 := by have := z.isLt; omega
  have el : dot_S16384x16_S16x1_S16384x1_1_0_0_1_n_n.lhsIdx (ix2 b z) ((contrEquiv1 dot_S16384x16_S16x1_S16384x1_1_0_0_1_n_n 16 rfl rfl).symm k) = ix2 b k := funext fun a => Fin.ext (by
    match a with
    | ⟨0, _⟩ => exact lhs_0 _ _
    | ⟨1, _⟩ => exact (lhs_1 _ _).trans hk)
  have er : dot_S16384x16_S16x1_S16384x1_1_0_0_1_n_n.rhsIdx (ix2 b z) ((contrEquiv1 dot_S16384x16_S16x1_S16384x1_1_0_0_1_n_n 16 rfl rfl).symm k) = ix2 k 0 := funext fun a => Fin.ext (by
    match a with
    | ⟨0, _⟩ => exact (rhs_0 _ _).trans hk
    | ⟨1, _⟩ => exact (rhs_1 _ _).trans hz)
  rw [el, er]

/-- A one-element array broadcast to a column reads its one element everywhere. -/
theorem bias_apply {α : Type} (v : S1.Idx → α) (i : S16384x1.Idx) :
    broadcastInDim S16384x1 ![0, 1] bcast_S1x1_S16384x1_0_1 (broadcastInDim S1x1 ![1] bcast_S1_S1x1_1 v) i = v (ix1 0) := by
  rw [broadcastInDim_apply _ _ _ i (ix2 (0 : Fin 1) (0 : Fin 1)) (fun a => by match a with | ⟨0, _⟩ => rfl | ⟨1, _⟩ => rfl),
    broadcastInDim_apply _ _ _ (ix2 (0 : Fin 1) (0 : Fin 1)) (ix1 (0 : Fin 1)) (fun a => by match a with | ⟨0, _⟩ => rfl)]

/-- The dense term of row `b`: the inner product with the weight column plus the first bias. -/
theorem tl_apply (t : FVec Ideal S16384x16 .f32) (W : FVec Ideal S16x1 .f32) (lb : FVec Ideal S1 .f32) (b : Fin 16384) (z z' : Fin 1) :
    tl t W lb (ix3 b z z') = (∑ k : Fin 16, t (ix2 b k) * W (ix2 k 0)) + lb (ix1 0) := by
  obtain rfl : z = 0 := Subsingleton.elim _ _
  obtain rfl : z' = 0 := Subsingleton.elim _ _
  unfold tl
  rw [shapeCast_apply _ _ (ix3 b 0 0) (ix2 b (0 : Fin 1)) (by
    rw [Shape.rowMajor_val_two, Shape.rowMajor_val_three]
    show b.val * 1 + 0 = (b.val * 1 + 0) * 1 + 0
    omega)]
  rw [addf_apply, dot_apply, bias_apply]

/-! ## The 27 entries of a row, added up -/

/-- The 27 entries of each row: the 26 looked-up entries, then the dense term. -/
def cat (x : IVec S16384x26 32) (tab : FVec Ideal S1040000x1 .f32) (t : FVec Ideal S16384x16 .f32) (W : FVec Ideal S16x1 .f32)
    (lb : FVec Ideal S1 .f32) : FVec Ideal S16384x27x1 .f32 :=
  concatenate S16384x27x1 1 [⟨S16384x26x1, emb x tab⟩, ⟨S16384x1x1, tl t W lb⟩] concatenates_S16384x26x1_S16384x1x1_S16384x27x1_d1

/-- Entry `f < 26` of row `b` is field `f`'s looked-up entry. -/
theorem cat_field (x : IVec S16384x26 32) (tab : FVec Ideal S1040000x1 .f32) (t : FVec Ideal S16384x16 .f32) (W : FVec Ideal S16x1 .f32)
    (lb : FVec Ideal S1 .f32) (hx : ∀ j, (x j).toNat ≤ 39999) (b : Fin 16384) (f : Fin 26) (z : Fin 1) :
    cat x tab t W lb (ix3 b (Fin.castSucc f) z) = tab (ix2 (Spec.row x b f) 0) := by
  unfold cat
  rw [concatenate_pair_apply_left 1 (emb x tab) (tl t W lb) concatenates_S16384x26x1_S16384x1x1_S16384x27x1_d1 (ix3 b (Fin.castSucc f) z) rfl (ix3 b f z)
    (fun c => by match c with | ⟨0, _⟩ => rfl | ⟨1, _⟩ => rfl | ⟨2, _⟩ => rfl)]
  exact emb_apply x tab hx b f z

/-- Entry 26 of row `b` is the dense term. -/
theorem cat_dense (x : IVec S16384x26 32) (tab : FVec Ideal S1040000x1 .f32) (t : FVec Ideal S16384x16 .f32) (W : FVec Ideal S16x1 .f32)
    (lb : FVec Ideal S1 .f32) (b : Fin 16384) (z : Fin 1) :
    cat x tab t W lb (ix3 b (Fin.last 26) z) = (∑ k : Fin 16, t (ix2 b k) * W (ix2 k 0)) + lb (ix1 0) := by
  unfold cat
  rw [concatenate_pair_apply_right 1 (emb x tab) (tl t W lb) concatenates_S16384x26x1_S16384x1x1_S16384x27x1_d1 (ix3 b (Fin.last 26) z) rfl rfl (ix3 b (0 : Fin 1) z)
    (fun c hc => by
      match c, hc with
      | ⟨0, _⟩, _ => rfl
      | ⟨1, _⟩, hc => exact absurd rfl hc
      | ⟨2, _⟩, _ => rfl)
    rfl]
  exact tl_apply t W lb b 0 z

/-- A sum over 27 entries is the sum over the first 26 plus the last. -/
theorem sum27 (g : Fin 27 → EReal) : ∑ k : Fin 27, g k = (∑ f : Fin 26, g (Fin.castSucc f)) + g (Fin.last 26) :=
  Fin.sum_univ_castSucc g

/-- Row `b`'s 27 entries added up. -/
theorem row_sum (x : IVec S16384x26 32) (tab : FVec Ideal S1040000x1 .f32) (t : FVec Ideal S16384x16 .f32) (W : FVec Ideal S16x1 .f32)
    (lb : FVec Ideal S1 .f32) (hx : ∀ j, (x j).toNat ≤ 39999) (b : Fin 16384) (z : Fin 1) :
    ∑ k : Fin 27, cat x tab t W lb (ix3 b k z)
      = (∑ f : Fin 26, tab (ix2 (Spec.row x b f) 0)) + ((∑ k : Fin 16, t (ix2 b k) * W (ix2 k 0)) + lb (ix1 0)) := by
  have hs : (∑ f : Fin 26, cat x tab t W lb (ix3 b (Fin.castSucc f) z)) = ∑ f : Fin 26, tab (ix2 (Spec.row x b f) 0) :=
    Finset.sum_congr rfl fun f _ => cat_field x tab t W lb hx b f z
  rw [sum27 fun k => cat x tab t W lb (ix3 b k z), cat_dense, hs]

theorem reduces27 : S16384x27x1.Reduces [1] S16384x1 := by decide

/-- Row `b` of the result with entry `k` put back on the summed axis is entry `(b, k, 0)`. -/
theorem lift_eq (b : Fin 16384) (z : Fin 1) (k : Fin 27) : reduces27.lift (ix2 b z) k = ix3 b k z := by
  funext c; refine Fin.ext ?_
  match c with
  | ⟨0, _⟩ => rfl
  | ⟨1, _⟩ => rfl
  | ⟨2, _⟩ => rfl

/-- The sum over axis 1 from the literal zero, at row `b`: the 27 entries added up. -/
theorem rowsum_apply (c : FVec Ideal S16384x27x1 .f32) (b : Fin 16384) (z : Fin 1) :
    Host.reduceAdd c (constant S_ .f32 0x00000000#32) reducesTo_S16384x27x1_S16384x1_d1 h_S_ (ix2 b z)
      = ∑ k : Fin 27, c (ix3 b k z) := by
  rw [hostReduceAdd_apply, Ideal.hostReduceAdd_single reducesTo_S16384x27x1_S16384x1_d1 reduces27]
  have h0 : constant (F := Ideal) S_ .f32 0x00000000#32 (Shape.Idx.first h_S_) = (0 : EReal) := Ideal.ofBits_zero_f32
  rw [h0, zero_add]
  exact Finset.sum_congr rfl fun k _ => congrArg c (lift_eq b z k)

/-! ## The reference's value is the specification's -/

/-- The specification at row `b`. -/
theorem out_apply (x : IVec S16384x26 32) (t : FVec Ideal S16384x16 .f32) (tab : FVec Ideal S1040000x1 .f32)
    (W : FVec Ideal S16x1 .f32) (lb bias : FVec Ideal S1 .f32) (b : Fin 16384) (z : Fin 1) :
    Spec.out x t tab W lb bias (ix2 b z)
      = ((lb (ix1 0) + bias (ix1 0)) + ∑ f : Fin 26, tab (ix2 (Spec.row x b f) 0)) + ∑ k : Fin 16, W (ix2 k 0) * t (ix2 b k) := rfl

/-- With every index entry in [0, 39999] the reference's composed term is the specification's function of the arguments. -/
theorem val_eq_out (x : IVec S16384x26 32) (t : FVec Ideal S16384x16 .f32) (tab : FVec Ideal S1040000x1 .f32)
    (W : FVec Ideal S16x1 .f32) (lb bias : FVec Ideal S1 .f32) (hx : ∀ j, (x j).toNat ≤ 39999) :
    val (F := Ideal) x t tab W lb bias = Spec.out x t tab W lb bias := by
  funext i
  obtain ⟨b, z, rfl⟩ : ∃ (b : Fin 16384) (z : Fin 1), i = ix2 b z := ⟨i 0, i 1, eq_ix2 i⟩
  have hrow := row_sum x tab t W lb hx b z
  unfold cat at hrow
  rw [out_apply]
  unfold val
  rw [addf_apply, bias_apply, rowsum_apply, hrow]
  have e2 : (∑ k : Fin 16, t (ix2 b k) * W (ix2 k 0)) = ∑ k : Fin 16, W (ix2 k 0) * t (ix2 b k) :=
    Finset.sum_congr rfl fun k _ => mul_comm _ _
  rw [e2]
  abel

end Cert.Proof.RefValue

end
-- ==== Proof.RefRun.lean ====
/-
  The reference's run, stated at the specification.

  From any memory whose arguments satisfy the precondition, every execution of the reference ends with the result buffer
  holding the specification's function of the arguments, and the arguments unchanged: the run leaves the operations'
  composed term there, the precondition puts every index entry in [0, 39999], and for such index arrays the composed
  term is the specification's function.
-/
import proofs.«207416_g64579128263113_cont_9to1_m_974_55_alg».proof.Defs
import proofs.«207416_g64579128263113_cont_9to1_m_974_55_alg».proof.Proof.PreRange
import proofs.«207416_g64579128263113_cont_9to1_m_974_55_alg».proof.Proof.RefOps
import proofs.«207416_g64579128263113_cont_9to1_m_974_55_alg».proof.Proof.RefValue

noncomputable section

namespace Cert.Proof.RefRun

open Idealize.ShloMosaic Idealize.SL.Sem Cert.ReferenceIdeal

theorem run (m : (ℓ : Loc nD τ sig) → Buf (Elt Ideal) ℓ) (g : Dev nD → PrngReg) (hpre : Cert.Pre_ReferenceIdeal m) :
    θ_run (defs (F := Ideal)) (onTc (τ := τ) (main (F := Ideal))) ⟨m, fun _ => 0, g⟩ (fun r => ∀ c : Dev nD,
      r.2.mem ((c.tc : Thread nD τ).loc main_v16) = Cert.Proof.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun _ h c => ⟨(h c).1.trans (Cert.Proof.RefValue.val_eq_out _ _ _ _ _ _
        (Cert.Proof.PreRange.x_le _ _ _ _ _ _ (hpre c))), (h c).2⟩)
    (Cert.Proof.RefOps.run (F := Ideal) m g)

end Cert.Proof.RefRun

end
-- ==== Proof.KIClaims.lean ====
/-
  The idealized kernel's claims.

  Its frame is its run with the value dropped. For the equivalence: at the ideal instance the kernel's result is the
  column whose entry b is batch row b's running sum, which is the sum (addition of extended reals is associative), and
  the reference's run, from a memory that agrees on the arguments, ends at that same sum.
-/
import proofs.«207416_g64579128263113_cont_9to1_m_974_55_alg».proof.Defs
import proofs.«207416_g64579128263113_cont_9to1_m_974_55_alg».proof.Proof.KILaunch
import proofs.«207416_g64579128263113_cont_9to1_m_974_55_alg».proof.Proof.LocalValue
import proofs.«207416_g64579128263113_cont_9to1_m_974_55_alg».proof.Proof.RefRun
import proofs.«207416_g64579128263113_cont_9to1_m_974_55_alg».proof.Proof.PreRange

noncomputable section

namespace Cert.Proof.KIClaims

open Idealize.ShloMosaic Idealize.SL.Sem Cert.Proof.KI

/-- The precondition's integer conjunct on every device. -/
theorem pre_range (m : (ℓ : Loc Cert.KernelIdeal.nD Cert.KernelIdeal.τ Cert.KernelIdeal.sig) → Buf (Elt Ideal) ℓ) (h : Cert.Pre_KernelIdeal m) :
    ∀ (d : Dev Cert.KernelIdeal.nD) j, (m (a0Loc d) j).toNat ≤ 39999 :=
  fun d => Cert.Proof.PreRange.x_le (F := Ideal) _ _ _ _ _ _ (h d)

theorem frame_KI : Cert.frame_KernelIdeal := fun m ρ hpre =>
  (θ_run Cert.KernelIdeal.defs _ _).mono (fun _ h c => (h c).2) (run_main (F := Ideal) m ρ (pre_range m hpre))

theorem algebraic : Cert.algebraic_KernelIdeal_ReferenceIdeal := by
  intro m g m' g' hpre hagree
  refine ⟨fun c => by exact Layout.colw (F := Ideal) (oC m c), ?_, ?_⟩
  · exact (θ_run Cert.KernelIdeal.defs _ _).mono (fun _ h c => h c) (run_main (F := Ideal) m g (pre_range m hpre))
  have hpre' : Cert.Pre_ReferenceIdeal m' := fun c => by
    have h := hpre c
    rw [← (hagree c).1, ← (hagree c).2.1, ← (hagree c).2.2.1, ← (hagree c).2.2.2.1, ← (hagree c).2.2.2.2.1, ← (hagree c).2.2.2.2.2] at h
    exact h
  refine (θ_run Cert.ReferenceIdeal.defs _ _).mono (fun _ h c => ⟨(h c).1.trans ?_, (h c).2⟩) (Cert.Proof.RefRun.run m' g' hpre')
  rw [(hagree c).1, (hagree c).2.1, (hagree c).2.2.1, (hagree c).2.2.2.1, (hagree c).2.2.2.2.1, (hagree c).2.2.2.2.2]
  exact (Cert.Proof.Spec.kval_ideal _ _ _ _ _ _).symm

end Cert.Proof.KIClaims

end
-- ==== Proof.KWSetup.lean ====
/-
  The lane-parallel program as the launch theorem sees it, and the ghost state its proof runs over:
  the launch handshakes' rounds, the barrier semaphores' rounds (one round per tile's barrier semaphore, one unit
  from every tile of its SparseCore), and the counters of the local copies.
-/
import proofs.«207416_g64579128263113_cont_9to1_m_974_55_alg».proof.Kernel
import proofs.«207416_g64579128263113_cont_9to1_m_974_55_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

abbrev EH : Emb UH (MT nD τ sig (HIx 1) (Elt F) ℕ UU ℕ) := embL
/-- The barrier semaphores' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MT nD τ sig (HIx 1) (Elt F) ℕ UU ℕ)).LandsIn (upEmb : UEmb _ (MT nD τ sig (HIx 1) (Elt F) ℕ UU ℕ)) := by
  unfold EB; infer_instance

end Cert.Proof.KW

end
-- ==== Proof.KWProto.lean ====
/-
  What each thread is handed and hands back, and what the barrier carries.

  The four arrays the workers read (index lists, dense features, flattened table, parameter vector) are never written
  after the host has made them, so every worker holds a read share of each, whole. The flat result is cut into the 32
  workers' runs of 512. The SparseCore's shared copy of the table is cut into 13 slabs of 80000 rows: tile `s < 13` of a
  SparseCore fills slab `s` from the table, and at the barrier hands every tile of its SparseCore a read share of that slab,
  filled; so after the barrier a tile holds a read share of each of the 13 slabs at the table's contents — of the whole
  shared copy.
-/
import proofs.«207416_g64579128263113_cont_9to1_m_974_55_alg».proof.Proof.KWSetup
import proofs.«207416_g64579128263113_cont_9to1_m_974_55_alg».proof.Proof.Spec
import proofs.«207416_g64579128263113_cont_9to1_m_974_55_alg».proof.Proof.Layout

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Locations -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5
/-- The index lists, the dense features, the flattened table, the parameter vector, the flat result, the result. -/
abbrev xwLoc (d : Dev nD) : Loc nD τ sig := (SparseCore.T d).loc main_v8
abbrev tbLoc (d : Dev nD) : Loc nD τ sig := (SparseCore.T d).loc main_v11
abbrev tabLoc (d : Dev nD) : Loc nD τ sig := (SparseCore.T d).loc main_v12
abbrev pvLoc (d : Dev nD) : Loc nD τ sig := (SparseCore.T d).loc main_v18
abbrev oLoc (d : Dev nD) : Loc nD τ sig := (SparseCore.T d).loc main_v19
abbrev rLoc (d : Dev nD) : Loc nD τ sig := (SparseCore.T d).loc main_v20

/-- SparseCore `c`'s shared copy of the table. -/
abbrev shRef (c : Fin τ.nSC) : DevRef τ sig := ⟨.shared, ⟨0, by decide⟩, c⟩
abbrev shLoc (d : Dev nD) (c : Fin τ.nSC) : Loc nD τ sig := (d, shRef c)

variable [FloatOps F]

/-! ## Contents, as functions of the launch memory's arguments -/

def xwC (d : Dev nD) : Buf (Elt F) (xwLoc d) := Layout.xw (m (a0Loc d))
def tbC (d : Dev nD) : Buf (Elt F) (tbLoc d) := Layout.tbw (F := F) (m (a1Loc d))
def tabC (d : Dev nD) : Buf (Elt F) (tabLoc d) := Layout.tabw (F := F) (m (a2Loc d))
def pvC (d : Dev nD) : Buf (Elt F) (pvLoc d) := Layout.pvw (F := F) (m (a3Loc d)) (m (a4Loc d)) (m (a5Loc d))
def shC (d : Dev nD) (c : Fin τ.nSC) : Buf (Elt F) (shLoc d c) := Layout.tabw (F := F) (m (a2Loc d))
/-- The flat result: entry `b` is batch row `b`'s number, in accumulation order. -/
def oC (d : Dev nD) : Buf (Elt F) (oLoc d) := fun p =>
  Spec.acc (F := F) (m (a0Loc d)) (m (a1Loc d)) (m (a2Loc d)) (m (a3Loc d)) (m (a4Loc d)) (m (a5Loc d)) (p 0)

/-! ## Slabs of the shared table, runs of the flat result -/

local notation "shV" => (Memref.whole Cert.Kernel.cc0_scratch5 : Memref Cert.Kernel.sig Kind.scVector Space.shared Cert.Kernel.S1040000 EltTy.f32)
local notation "oV" => (Memref.whole Cert.Kernel.main_v19_scv : Memref Cert.Kernel.sig Kind.scVector Space.hbm Cert.Kernel.S16384 EltTy.f32)

omit [FloatOps F] in
theorem hdiv13 : 13 ∣ S1040000.size 0 := ⟨80000, rfl⟩
omit [FloatOps F] in
theorem hdiv32 : 32 ∣ S16384.size 0 := ⟨512, rfl⟩
abbrev slab (n : Fin 13) : Rect S1040000 := Rect.part (s := S1040000) (a₀ := 0) hdiv13 n
abbrev slabSet (n : Fin 13) : Finset S1040000.Idx := ((shV).view.slice (slab n)).set
abbrev orun (w : Fin 32) : Rect S16384 := Rect.part (s := S16384) (a₀ := 0) hdiv32 w
abbrev orunSet (w : Fin 32) : Finset S16384.Idx := ((oV).view.slice (orun w)).set

/-- Worker number of tile `i` of SparseCore `c`: tiles are dealt worker numbers SparseCore-minor. -/
def wid (c i : ℕ) (hc : c < 2) (hi : i < 16) : Fin 32 := ⟨2 * i + c, by omega⟩

/-- Worker `w`'s read share of an array every worker reads: the `w`-th token of the full share. -/
abbrev rs (w : ℕ) : PosShare TreeShare := Transfers.shareTokN fullShare w

/-! ## The barrier semaphores' schedule -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Slab `n` of SparseCore `c`'s shared copy, filled with the table's rows, at tile `j`'s read share. -/
abbrev slabRd (d : Dev nD) (c : Fin τ.nSC) (n : Fin 13) (j : ℕ) : sProp 𝕄 := shLoc d c ↦[slabSet n]{rs j} shC m d c

/-- What tile number `n`'s unit in tile `j`'s round hands over: a filling tile, `j`'s read share of its slab, filled;
    the other three tiles, nothing. -/
def bPay (g : GSem nD τ sig) (n : ℕ) : sProp 𝕄 :=
  match g with
  | ((d, .scVector c j), _) => if h : n < 13 then slabRd m d c ⟨n, h⟩ j.val else iprop(emp)
  | _ => iprop(emp)

/-- One round on each barrier semaphore: a unit from every tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

end Cert.Proof.KW

end
-- ==== Proof.KWPay.lean ====
/-
  The handshakes' payloads.

  A tile is handed, with its go: its read shares of the four arrays every worker reads, its own run of the flat
  result, and — a filling tile — its slab of the shared copy at whatever it holds. It hands back, with its done: its
  run of the flat result at the numbers it computed, what it kept of its slab, and the read shares of the 13 slabs it
  received at the barrier. A SparseCore's start carries its sixteen tiles' shares and runs, its done their runs.
  For the barrier each tile owes, from the launch, a unit on every tile's barrier semaphore of its SparseCore, and is
  dealt the ghost state of those semaphores' rounds it needs to arrive and to wait.
-/
import proofs.«207416_g64579128263113_cont_9to1_m_974_55_alg».proof.Proof.KWProto

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's barrier semaphore of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's kit for the barrier: every barrier semaphore's round invariant of its SparseCore and that each has reached
    round 0, its own position at the start of round 0, its unit's token in every tile's round, and the credit for the
    sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev coreOf (c : Fin ((K (F := F)).nCore 0)) : Fin τ.nSC := (K (F := F)).core 0 c
/-- The worker number of task `i` of the call's SparseCore `c`. -/
abbrev widK (c : Fin ((K (F := F)).nCore 0)) (i : Fin ((K (F := F)).nSub 0)) : Fin 32 :=
  wid c.val i.val (lt_of_lt_of_eq c.isLt nCore_zero) (lt_of_lt_of_eq i.isLt nSub_zero)

local notation "shV" => (Memref.whole Cert.Kernel.cc0_scratch5 : Memref Cert.Kernel.sig Kind.scVector Space.shared Cert.Kernel.S1040000 EltTy.f32)

/-- Worker `w`'s read shares of the four arrays every worker reads, and its run of the flat result at `fo`. -/
abbrev hbmPart (d : Dev nD) (w : Fin 32) (fo : Buf (Elt F) (oLoc d)) : sProp 𝕄 :=
  iprop((xwLoc d ↦{rs w.val} xwC m d) ∗ (tbLoc d ↦{rs w.val} tbC m d) ∗ (tabLoc d ↦{rs w.val} tabC m d) ∗ (pvLoc d ↦{rs w.val} pvC m d)
    ∗ oLoc d ↦[orunSet w]{fullShare} fo)
/-- A filling tile's slab at any contents; nothing for the other three. -/
def slabOwn (d : Dev nD) (c : Fin τ.nSC) (i : ℕ) : sProp 𝕄 :=
  if h : i < 13 then iprop(∃ f, shLoc d c ↦[slabSet ⟨i, h⟩]{fullShare} f) else iprop(emp)
/-- What a filling tile keeps of its slab once the sixteen read shares are split off. -/
def slabKept (d : Dev nD) (c : Fin τ.nSC) (i : ℕ) : sProp 𝕄 :=
  if h : i < 13 then shLoc d c ↦[slabSet ⟨i, h⟩]{Transfers.shareDrop fullShare 16} shC m d c else iprop(emp)
/-- The thirteen slabs, filled, at tile `j`'s read share. -/
abbrev slabsRd (d : Dev nD) (c : Fin τ.nSC) (j : ℕ) : sProp 𝕄 := bigSep Finset.univ fun n : Fin 13 => slabRd m d c n j

instance slabOwn_storable (d : Dev nD) (c : Fin τ.nSC) (i : ℕ) : BI.Storable (upEmb : UEmb _ 𝕄) (slabOwn (F := F) d c i) := by
  unfold slabOwn; split <;> infer_instance
instance slabKept_storable (d : Dev nD) (c : Fin τ.nSC) (i : ℕ) : BI.Storable (upEmb : UEmb _ 𝕄) (slabKept m d c i) := by
  unfold slabKept; split <;> infer_instance

def P : (K (F := F)).Pay (nD := nD) (Val := Elt F) (Name := ℕ) (U := UU) where
  st := fun q d c => match q with
    | 0 => bigSep Finset.univ fun i : Fin ((K (F := F)).nSub 0) => hbmPart m d (widK c i) (m (oLoc d))
  dn := fun q d c => match q with
    | 0 => bigSep Finset.univ fun i : Fin ((K (F := F)).nSub 0) => oLoc d ↦[orunSet (widK c i)]{fullShare} oC m d
  go := fun q d c i => match q with
    | 0 => iprop(hbmPart m d (widK c i) (m (oLoc d)) ∗ slabOwn d (coreOf c) i.val)
  td := fun q d c i => match q with
    | 0 => iprop((oLoc d ↦[orunSet (widK c i)]{fullShare} oC m d) ∗ slabKept m d (coreOf c) i.val ∗ slabsRd m d (coreOf c) i.val)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin ((K (F := F)).nSub 0) => hbmPart m d (widK c i) (m (oLoc d))))
  dn q d c := match q with
    | 0 => (inferInstance : BI.Storable (upEmb : UEmb _ 𝕄) (bigSep Finset.univ fun i : Fin ((K (F := F)).nSub 0) => oLoc d ↦[orunSet (widK c i)]{fullShare} oC m d))
  go q d c i := match q with
    | 0 => (inferInstance : BI.Storable (upEmb : UEmb _ 𝕄) iprop(hbmPart m d (widK c i) (m (oLoc d)) ∗ slabOwn d (coreOf c) i.val))
  td q d c i := match q with
    | 0 => (inferInstance : BI.Storable (upEmb : UEmb _ 𝕄)
      iprop((oLoc d ↦[orunSet (widK c i)]{fullShare} oC m d) ∗ slabKept m d (coreOf c) i.val ∗ slabsRd m d (coreOf c) i.val))

end Cert.Proof.KW

end
-- ==== Proof.KWBarrier.lean ====
/-
  Slabs, runs and the barrier's payloads.

  The 13 slabs are pairwise disjoint and cover the shared copy; the 32 runs are pairwise disjoint and cover the flat
  result: a points-to of the whole is the separating conjunction of the points-to's of the pieces. A filling tile's slab,
  filled, at the full share, is what it keeps beside sixteen read shares, one per barrier round; the other tiles' units
  carry nothing. What a tile's own round has collected once it is full is a read share of each of the 13 slabs, filled:
  a read share of the whole shared copy at the table's contents.
-/
import proofs.«207416_g64579128263113_cont_9to1_m_974_55_alg».proof.Proof.KWPay

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

local notation "shV" => (Memref.whole Cert.Kernel.cc0_scratch5 : Memref Cert.Kernel.sig Kind.scVector Space.shared Cert.Kernel.S1040000 EltTy.f32)
local notation "oV" => (Memref.whole Cert.Kernel.main_v19_scv : Memref Cert.Kernel.sig Kind.scVector Space.hbm Cert.Kernel.S16384 EltTy.f32)

omit [FloatOps F] in
theorem slabSet_eq (n : Fin 13) : slabSet n = (slab n).set := by
  show ((View.whole (cc0_scratch5 : Ref sig .scVector)).slice (slab n)).set = _
  rw [View.set_slice]; exact Finset.map_refl
omit [FloatOps F] in
theorem slabs_disjoint : ∀ i ∈ (Finset.univ : Finset (Fin 13)), ∀ j ∈ (Finset.univ : Finset (Fin 13)), i ≠ j → Disjoint (slabSet i) (slabSet j) :=
  fun i _ j _ h => by rw [slabSet_eq, slabSet_eq]; exact Rect.part_disjoint hdiv13 h
omit [FloatOps F] in
theorem slabs_cover : (Finset.univ : Finset (Fin 13)).biUnion slabSet = Finset.univ :=
  (Finset.biUnion_congr rfl fun i _ => slabSet_eq i).trans (Rect.biUnion_part hdiv13)

omit [FloatOps F] in
theorem orunSet_eq (w : Fin 32) : orunSet w = (orun w).set := by
  show ((View.whole (main_v19_scv : Ref sig .scVector)).slice (orun w)).set = _
  rw [View.set_slice]; exact Finset.map_refl
omit [FloatOps F] in
theorem oruns_disjoint : ∀ i ∈ (Finset.univ : Finset (Fin 32)), ∀ j ∈ (Finset.univ : Finset (Fin 32)), i ≠ j → Disjoint (orunSet i) (orunSet j) :=
  fun i _ j _ h => by rw [orunSet_eq, orunSet_eq]; exact Rect.part_disjoint hdiv32 h
omit [FloatOps F] in
theorem oruns_cover : (Finset.univ : Finset (Fin 32)).biUnion orunSet = Finset.univ :=
  (Finset.biUnion_congr rfl fun i _ => orunSet_eq i).trans (Rect.biUnion_part hdiv32)

omit [FloatOps F] in
/-- The shared copy whole, at any share, is its 13 slabs. -/
theorem shPts_slabs (d : Dev nD) (c : Fin τ.nSC) (q : PosShare TreeShare) (f : Buf (Elt F) (shLoc d c)) :
    (shLoc d c ↦{q} f : sProp 𝕄) = bigSep Finset.univ fun n : Fin 13 => shLoc d c ↦[slabSet n]{q} f := by
  rw [← pointsTo_biUnion Finset.univ (ℓ := shLoc d c) slabSet slabs_disjoint, slabs_cover]
omit [FloatOps F] in
/-- The flat result whole is its 32 runs. -/
theorem oPts_runs (d : Dev nD) (f : Buf (Elt F) (oLoc d)) :
    (oLoc d ↦{fullShare} f : sProp 𝕄) = bigSep Finset.univ fun w : Fin 32 => oLoc d ↦[orunSet w]{fullShare} f := by
  rw [← pointsTo_biUnion Finset.univ (ℓ := oLoc d) orunSet oruns_disjoint, oruns_cover]

/-- The thirteen filled slabs at a tile's read share are the whole shared copy at that share, at the table's contents. -/
theorem slabsRd_eq (d : Dev nD) (c : Fin τ.nSC) (j : ℕ) : (slabsRd m d c j : sProp 𝕄) = shLoc d c ↦{rs j} shC m d c :=
  (shPts_slabs d c (rs j) (shC m d c)).symm

omit [FloatOps F] in
theorem bigSep_emp' {I : Type} (s : Finset I) : (bigSep s fun _ => iprop(emp)) = (iprop(emp) : sProp 𝕄) := bigSep_emp_const s

section Tile

variable (d : Dev nD) (c : Fin τ.nSC) (i : Fin τ.nSub)

/-- A filling tile: its slab, filled, at the full share, is what it keeps and one read share per barrier round. -/
theorem pays_fill (h : i.val < 13) :
    (shLoc d c ↦[slabSet ⟨i.val, h⟩]{fullShare} shC m d c : sProp 𝕄)
      ⊢ iprop(slabKept m d c i.val ∗ bigSep Finset.univ fun j : Fin (grid0.bound 1) => (bRd (F := F) m).payload (bcell d c (j.castLE hsub0)) 0 i.val) := by
  refine (Transfers.pointsTo_toks_split fullShare 16).trans (sep_mono (Entails.of_eq ?_) (Entails.of_eq ?_))
  · unfold slabKept; rw [dif_pos h]
  · refine bigSep_congr fun j _ => ?_
    show _ = bPay m (bcell d c (j.castLE hsub0)) i.val
    unfold bPay; dsimp only
    rw [dif_pos h]; rfl

/-- Another tile: nothing kept, nothing handed over. -/
theorem pays_idle (h : ¬ i.val < 13) :
    (iprop(emp) : sProp 𝕄)
      ⊢ iprop(slabKept m d c i.val ∗ bigSep Finset.univ fun j : Fin (grid0.bound 1) => (bRd (F := F) m).payload (bcell d c (j.castLE hsub0)) 0 i.val) := by
  have e : (bigSep Finset.univ fun j : Fin (grid0.bound 1) => (bRd (F := F) m).payload (bcell d c (j.castLE hsub0)) 0 i.val) = (iprop(emp) : sProp 𝕄) := by
    rw [← bigSep_emp' (F := F) (Finset.univ : Finset (Fin (grid0.bound 1)))]
    refine bigSep_congr fun j _ => ?_
    show bPay m (bcell d c (j.castLE hsub0)) i.val = _
    unfold bPay; dsimp only
    rw [dif_neg h]
  rw [e]; unfold slabKept; rw [dif_neg h]
  iintro -; isplitl <;> iempintro

/-- What a tile's own round has collected: the thirteen filled slabs at its read share. -/
theorem pays_elim : (bigSep ((bRd (F := F) m).duties (bcell d c i) 0 \ ∅) fun n => (bRd (F := F) m).payload (bcell d c i) 0 n)
    ⊢ (slabsRd m d c i.val : sProp 𝕄) := by
  rw [Finset.sdiff_empty, bRd_duties₀]
  have hsub : (Finset.univ : Finset (Fin 13)).image (fun n : Fin 13 => n.val) ⊆ (Finset.univ : Finset (Fin τ.nSub)).image Fin.val := by
    intro x hx
    obtain ⟨n, -, rfl⟩ := Finset.mem_image.mp hx
    exact Finset.mem_image.mpr ⟨⟨n.val, by have := n.isLt; show n.val < 16; omega⟩, Finset.mem_univ _, rfl⟩
  refine (bigSep_subset hsub).trans ?_
  rw [SparseCore.bigSep_image_of_injOn (fun a _ b _ e => Fin.ext e)]
  refine bigSep_mono fun n _ => ?_
  show bPay m (bcell d c i) n.val ⊢ _
  unfold bPay; dsimp only
  rw [dif_pos n.isLt]

end Tile

end Cert.Proof.KW

end
-- ==== Proof.KWTile.lean ====
/-
  One tile: its place, its worker number, its semaphores, and the pieces of the arrays as its program slices them.

  The tile at grid coordinates `L` is worker `2 * L 1 + L 0`. Its run of the flat result is the rectangle the program's
  own offset computation names, which is the worker's part of the 32; a filling tile's slab of the shared copy likewise
  is its part of the 13. A points-to stated by location is the same assertion stated through the program's view of
  the buffer, which is the form the rules for its copies, loads and stores are stated in.
-/
import proofs.«207416_g64579128263113_cont_9to1_m_974_55_alg».proof.Proof.KWBarrier
import proofs.«207416_g64579128263113_cont_9to1_m_974_55_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The worker number of the tile at grid coordinates `L`. -/
abbrev wL (L : grid0.Coords) : Fin 32 := wid (L 0).val (L 1).val (lt_of_lt_of_eq (L 0).isLt bound_zero) (lt_of_lt_of_eq (L 1).isLt bound_one)

local notation "xwV" => (Memref.whole Cert.Kernel.main_v8_scv : Memref Cert.Kernel.sig Kind.scVector Space.hbm Cert.Kernel.S425984 EltTy.i32)
local notation "tbV" => (Memref.whole Cert.Kernel.main_v11_scv : Memref Cert.Kernel.sig Kind.scVector Space.hbm Cert.Kernel.S262144 EltTy.f32)
local notation "tabV" => (Memref.whole Cert.Kernel.main_v12_scv : Memref Cert.Kernel.sig Kind.scVector Space.hbm Cert.Kernel.S1040000 EltTy.f32)
local notation "pvV" => (Memref.whole Cert.Kernel.main_v18_scv : Memref Cert.Kernel.sig Kind.scVector Space.hbm Cert.Kernel.S272 EltTy.f32)
local notation "oV" => (Memref.whole Cert.Kernel.main_v19_scv : Memref Cert.Kernel.sig Kind.scVector Space.hbm Cert.Kernel.S16384 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13312 EltTy.f32)
local notation "s2V" => (Memref.whole Cert.Kernel.cc0_scratch2 : Memref Cert.Kernel.sig Kind.scVector Space.vmem Cert.Kernel.S8192 EltTy.f32)
local notation "s3V" => (Memref.whole Cert.Kernel.cc0_scratch3 : Memref Cert.Kernel.sig Kind.scVector Space.vmem Cert.Kernel.S272 EltTy.f32)
local notation "s4V" => (Memref.whole Cert.Kernel.cc0_scratch4 : Memref Cert.Kernel.sig Kind.scVector Space.vmem Cert.Kernel.S512 EltTy.f32)
local notation "shV" => (Memref.whole Cert.Kernel.cc0_scratch5 : Memref Cert.Kernel.sig Kind.scVector Space.shared Cert.Kernel.S1040000 EltTy.f32)

/-- The tile's semaphores: the gather's, and the five copies' own. -/
abbrev cGcell (d : Dev nD) (c : Fin τ.nSC) (i : Fin τ.nSub) : GSem nD τ sig := (V d c i, .dma cc0_scratch6.sem)
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)
abbrev c3cell (d : Dev nD) (c : Fin τ.nSC) (i : Fin τ.nSub) : GSem nD τ sig := (V d c i, .dma cc0_scoped3.sem)
abbrev c4cell (d : Dev nD) (c : Fin τ.nSC) (i : Fin τ.nSub) : GSem nD τ sig := (V d c i, .dma cc0_scoped4.sem)

/-- The tile's run of the flat result, and (a filling tile's) slab of the shared copy, as the program slices them. -/
abbrev orunK (L : grid0.Coords) : Memref sig .scVector .hbm S512 .f32 :=
  (oV).slice (Rect.unit (s := S16384) (k0_off4 L) S512.size (k0_off4_inb L)) (fun _ => rfl)
abbrev slabK (L : grid0.Coords) (h : k0_cond1 L = 1#1) : Memref sig .scVector .shared S80000 .f32 :=
  (shV).slice (Rect.unit (s := S1040000) (k0_off1 L) S80000.size (k0_off1_inb L h)) (fun _ => rfl)

omit [FloatOps F] in
theorem cond1_iff : ∀ L : grid0.Coords, k0_cond1 L = 1#1 ↔ (L 1).val < 13 := by decide +kernel

omit [FloatOps F] in
theorem orunK_rect : Rect.unit (s := S16384) (k0_off4 L) S512.size (k0_off4_inb L) = orun (wL L) := by
  unfold orun Rect.part Rect.block
  congr 1 <;> funext a
  · rw [k0_off4_eq]
    match a with
    | 0 => simp [Shape.partIx, Shape.partSize, wid]; omega
  · match a with
    | 0 => simp [Shape.partSize]

omit [FloatOps F] in
theorem slabK_rect (h : k0_cond1 L = 1#1) : Rect.unit (s := S1040000) (k0_off1 L) S80000.size (k0_off1_inb L h) = slab ⟨(L 1).val, (cond1_iff L).mp h⟩ := by
  unfold slab Rect.part Rect.block
  congr 1 <;> funext a
  · rw [k0_off1_eq]
    match a with
    | 0 => simp [Shape.partIx, Shape.partSize]; omega
  · match a with
    | 0 => simp [Shape.partSize]

omit [FloatOps F] in
theorem set_orunK : (orunK L).view.set = orunSet (wL L) := by
  show ((oV).view.slice (Rect.unit (s := S16384) (k0_off4 L) S512.size (k0_off4_inb L))).set = ((oV).view.slice (orun (wL L))).set
  rw [orunK_rect]
omit [FloatOps F] in
theorem set_slabK (h : k0_cond1 L = 1#1) : (slabK L h).view.set = slabSet ⟨(L 1).val, (cond1_iff L).mp h⟩ := by
  show ((shV).view.slice (Rect.unit (s := S1040000) (k0_off1 L) S80000.size (k0_off1_inb L h))).set = ((shV).view.slice (slab ⟨(L 1).val, (cond1_iff L).mp h⟩)).set
  rw [slabK_rect L h]

omit [FloatOps F] in
theorem pts_orun (f : Buf (Elt F) (oLoc d)) :
    ((orunK L).view.loc (V d (cV L) (jV L)) ↦[(orunK L).view.set]{fullShare} f : sProp 𝕄) = oLoc d ↦[orunSet (wL L)]{fullShare} f := by
  rw [set_orunK]
omit [FloatOps F] in
theorem pts_slab (h : k0_cond1 L = 1#1) (q : PosShare TreeShare) (f : Buf (Elt F) (shLoc d (cV L))) :
    ((slabK L h).view.loc (V d (cV L) (jV L)) ↦[(slabK L h).view.set]{q} f : sProp 𝕄) = shLoc d (cV L) ↦[slabSet ⟨(L 1).val, (cond1_iff L).mp h⟩]{q} f := by
  rw [set_slabK]; rfl
omit [FloatOps F] in
theorem pts_xw (q : PosShare TreeShare) (f : Buf (Elt F) (xwLoc d)) : ((xwV).view.loc (V d (cV L) (jV L)) ↦{q} f : sProp 𝕄) = xwLoc d ↦{q} f := rfl
omit [FloatOps F] in
theorem pts_tb (q : PosShare TreeShare) (f : Buf (Elt F) (tbLoc d)) : ((tbV).view.loc (V d (cV L) (jV L)) ↦{q} f : sProp 𝕄) = tbLoc d ↦{q} f := rfl
omit [FloatOps F] in
theorem pts_tab (q : PosShare TreeShare) (f : Buf (Elt F) (tabLoc d)) : ((tabV).view.loc (V d (cV L) (jV L)) ↦{q} f : sProp 𝕄) = tabLoc d ↦{q} f := rfl
omit [FloatOps F] in
theorem pts_pv (q : PosShare TreeShare) (f : Buf (Elt F) (pvLoc d)) : ((pvV).view.loc (V d (cV L) (jV L)) ↦{q} f : sProp 𝕄) = pvLoc d ↦{q} f := rfl
omit [FloatOps F] in
theorem pts_sh (q : PosShare TreeShare) (f : Buf (Elt F) (shLoc d (cV L))) : ((shV).view.loc (V d (cV L) (jV L)) ↦{q} f : sProp 𝕄) = shLoc d (cV L) ↦{q} f := rfl
omit [FloatOps F] in
theorem pts_s0 (f : Buf (Elt F) ((V d (cV L) (jV L)).loc cc0_scratch0)) : ((s0V).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) : ((s1V).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) : ((s2V).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) : ((s3V).view.loc (V d (cV L) (jV L)) ↦{fullShare} f : sProp 𝕄) = (V d (cV L) (jV L)).loc cc0_scratch3 ↦{fullShare} f := rfl
omit [FloatOps F] in
theorem pts_s4 (f : Buf (Elt F) ((V d (cV L) (jV L)).loc cc0_scratch4)) : ((s4V).view.loc (V d (cV L) (jV L)) ↦{fullShare} f : sProp 𝕄) = (V d (cV L) (jV L)).loc cc0_scratch4 ↦{fullShare} f := rfl

omit [FloatOps F] in
/-- A view's own elements at two contents the view reads alike are one points-to. -/
theorem own_congr {c : Thread nD τ} {sp : Space} {s : Shape} {e : EltTy} (v : View sig c.2.kind sp s e) (q : PosShare TreeShare)
    (g g' : Buf (Elt F) (v.loc c)) (h : ∀ y, v.read (Elt F) g y = v.read (Elt F) g' y) :
    (v.loc c ↦[v.set]{q} g : sProp 𝕄) = v.loc c ↦[v.set]{q} g' :=
  pointsTo_congr fun i hi => by
    obtain ⟨x, -, rfl⟩ := Finset.mem_map.mp hi
    have hx := h x
    rw [View.read_apply, View.read_apply] at hx
    exact (cast_inj _).mp hx

end Tile

end Cert.Proof.KW

end
-- ==== Proof.KWValue.lean ====
/-
  The output scratch, lane group by lane group.

  The body stores 32 groups of 16 lanes. Group `j` (lanes `16 * j … 16 * j + 15`) is a chain of vector operations:
  start from lanes 256 … 271 of the parameter scratch, add the 26 runs of 16 gathered entries at `512 * f + 16 * j`, then
  for each of the 16 features add the product of lanes `16 * k …` of the parameter scratch and the 16 features at
  `512 * k + 16 * j`. Read at lane `x` that is the worker's running sum for its row `16 * j + x`: each vector operation
  acts lane by lane, a change of shape to the same shape changes nothing, and a load of 16 lanes at an offset reads the
  array at offset + lane.
-/
import proofs.«207416_g64579128263113_cont_9to1_m_974_55_alg».proof.Proof.KWTile
import proofs.«207416_g64579128263113_cont_9to1_m_974_55_alg».proof.Proof.LocalValue
import proofs.«207416_g64579128263113_cont_9to1_m_974_55_alg».proof.Proof.Gen.Kernel.Skeleton
import Idealize.ShloMosaic.Lib.Pipeline.Value
import Idealize.ShloMosaic.Lib.Writes

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable [FloatOps F]

/-! ## Vector operations, lane by lane -/

theorem addf_ap {s : Shape} {φ : FTy} (a b : FVec F s φ) (x : s.Idx) : addf a b x = FloatOps.addf (a x) (b x) := rfl
theorem mulf_ap {s : Shape} {φ : FTy} (a b : FVec F s φ) (x : s.Idx) : mulf a b x = FloatOps.mulf (a x) (b x) := rfl

omit [FloatOps F] in
/-- A load after one whole-buffer write reads the written function at the load's indices. -/
theorem readCov_whole_apply {sg : RefSig} {κ : Kind} {sp : Space} {s : Shape} {e : EltTy} {Val : EltTy → Type} [∀ e, Nonempty (Val e)]
    (v : View sg κ sp s e) (w : s.Idx → Val e) (B : LoadRect s) (x : B.shape.Idx) :
    v.readCov [⟨Rect.whole s, w⟩] B x = w (B.idx x) := by
  unfold View.readCov
  rw [View.readAt_apply, View.read_writes_whole]

omit [FloatOps F] in
/-- Sixteen lanes at offset `off` of a flat array: lane `x` is position `off + x`. -/
theorem unit_idx {n : ℕ} (off : ℕ) (h : ∀ a, (![off] : Fin 1 → ℕ) a + S16.size a ≤ (⟨1, ![n]⟩ : Shape).size a) (x : S16.Idx) :
    (Rect.unit (s := ⟨1, ![n]⟩) ![off] S16.size h).toLoadRect.idx x
      = ix1 ⟨off + (x 0).val, by have h0 : off + 16 ≤ n := h 0; have hx : (x 0).val < 16 := (x 0).isLt; omega⟩ := by
  funext a
  match a with
  | ⟨0, _⟩ => exact Fin.ext (by show off + 1 * (x 0).val = off + (x 0).val; omega)

omit [FloatOps F] in
theorem unit_emb {n : ℕ} (off : ℕ) (h : ∀ a, (![off] : Fin 1 → ℕ) a + S16.size a ≤ (⟨1, ![n]⟩ : Shape).size a) (x : S16.Idx) :
    (Rect.unit (s := ⟨1, ![n]⟩) ![off] S16.size h).emb x
      = ix1 ⟨off + (x 0).val, by have h0 : off + 16 ≤ n := h 0; have hx : (x 0).val < 16 := (x 0).isLt; omega⟩ := by
  funext a
  match a with
  | ⟨0, _⟩ => exact Fin.ext (by show off + 1 * (x 0).val = off + (x 0).val; omega)

/-! ## One lane group of the worker's numbers -/

omit [FloatOps F] in
/-- Sixteen lanes at `off` fit in a flat array of `n` when `off + 16 ≤ n`. -/
theorem inb1 (n off : ℕ) (h : off + 16 ≤ n) : ∀ a, (![off] : Fin 1 → ℕ) a + S16.size a ≤ (⟨1, ![n]⟩ : Shape).size a := fun a => by
  match a with
  | ⟨0, _⟩ => exact h

/-- Lane `x` of the group at offset `off`: the worker's running sum for row `off + x`, each entry read as the body's
    loads read it — sixteen lanes at an offset, the lane last. -/
def grp (A : FVec F S13312 .f32) (B : FVec F S8192 .f32) (C : FVec F S272 .f32) (off : ℕ) (hlt : off + 16 ≤ 512) (x : S16.Idx) : F .f32 :=
  (List.finRange 16).foldl (fun a k => FloatOps.addf a (FloatOps.mulf
      (C ((Rect.unit (s := S272) ![16 * k.val] S16.size (inb1 272 _ (by have := k.isLt; omega))).toLoadRect.idx x))
      (B ((Rect.unit (s := S8192) ![512 * k.val + off] S16.size (inb1 8192 _ (by have := k.isLt; omega))).toLoadRect.idx x))))
    ((List.finRange 26).foldl (fun a f => FloatOps.addf a
        (A ((Rect.unit (s := S13312) ![512 * f.val + off] S16.size (inb1 13312 _ (by have := f.isLt; omega))).toLoadRect.idx x)))
      (C ((Rect.unit (s := S272) ![256] S16.size (inb1 272 _ (by norm_num))).toLoadRect.idx x)))

/-- It is the worker's number at position `off + x`, when `off` is a multiple of 16. -/
theorem grp_eq (A : FVec F S13312 .f32) (B : FVec F S8192 .f32) (C : FVec F S272 .f32) (off : ℕ) (hoff : off % 16 = 0) (hlt : off + 16 ≤ 512)
    (h : ∀ a, (![off] : Fin 1 → ℕ) a + S16.size a ≤ S512.size a) (x : S16.Idx) :
    Local.loc A B C ((Rect.unit (s := S512) ![off] S16.size h).emb x) = grp A B C off hlt x := by
  have hx : (x 0).val < 16 := (x 0).isLt
  rw [unit_emb]
  unfold Local.loc grp
  refine Local.foldl_congr _ (fun a k => congrArg (FloatOps.addf a) (congrArg₂ FloatOps.mulf ?_ ?_))
    (Local.foldl_congr _ (fun a f => congrArg (FloatOps.addf a) ?_) ?_)
  · rw [unit_idx]
    exact congrArg C (congrArg ix1 (Fin.ext (by show 16 * k.val + (off + (x 0).val) % 16 = 16 * k.val + (x 0).val; omega)))
  · rw [unit_idx]
    exact congrArg B (congrArg ix1 (Fin.ext (by show 512 * k.val + (off + (x 0).val) = 512 * k.val + off + (x 0).val; omega)))
  · rw [unit_idx]
    exact congrArg A (congrArg ix1 (Fin.ext (by show 512 * f.val + (off + (x 0).val) = 512 * f.val + off + (x 0).val; omega)))
  · rw [unit_idx]
    exact congrArg C (congrArg ix1 (Fin.ext (by show 256 + (off + (x 0).val) % 16 = 256 + (x 0).val; omega)))

/-! ## The 32 stores, one tactic

Each store's payload, read at a lane, unfolds to the chain of scalar operations over the loads' entries; the chain is
the group's running sum with the offsets computed. -/

/-- One store: its payload at lane `x` is the worker's number at the store's position. -/
macro "ki_piece" : tactic => `(tactic|
  (intro (x : S16.Idx)
   refine Eq.trans ?_ (Cert.Proof.KW.grp_eq _ _ _ _ (by rfl) (by decide) (Cert.Proof.KW.inb1 512 _ (by decide)) x).symm
   first
   | (set_option maxRecDepth 8192 in
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, shapeCast_self, Cert.Proof.KW.addf_ap, Cert.Proof.KW.mulf_ap, View.readAt_apply, Cert.Proof.KW.readCov_whole_apply])
   | fail "ki_piece: the payload did not unfold"
   first
   | rfl
   | fail "ki_piece: the chain is not the group's"))

/-- All the stores of a literal list. -/
macro "ki_pieces" : tactic => `(tactic|
  (repeat' (first | exact List.forall_mem_nil _ | refine List.forall_mem_cons.2 ⟨?_, ?_⟩)
   all_goals ki_piece))

end Cert.Proof.KW

end
-- ==== Proof.KWScratch.lean ====
/-
  What a tile's scratch arrays hold once its copies and its gather have landed, and what its run of the flat result
  is to hold, each as the flat arrays' entries at the tile's worker number.

  The tile at grid coordinates `L` is worker `w = 2 * L 1 + L 0`. The program slices the index lists at offset
  `26624 * L 1 + 13312 * L 0 = 13312 * w`, the dense features at `16384 * L 1 + 8192 * L 0 = 8192 * w`, and the flat
  result at `1024 * L 1 + 512 * L 0 = 512 * w`; a unit-stride slice read at index `n` reads the array at offset plus
  `n`, and a whole buffer written everywhere reads back what was written. So the copied parameter vector is the
  parameter vector, the copied features are entries `8192 * w + n` of the feature array, the copied indices are
  entries `13312 * w + n` of the index list, and the gathered values — at each position the shared table's row that
  the index at that position names (for a list of rank one, position `n` of the list in row-major order is `n`) — are
  the table's entries at those rows. With the worker's running sums equal to the specification's at its batch rows,
  what the tile computes from its scratch arrays is what its run of the flat result is to hold.
-/
import proofs.«207416_g64579128263113_cont_9to1_m_974_55_alg».proof.Proof.KWTile
import proofs.«207416_g64579128263113_cont_9to1_m_974_55_alg».proof.Proof.LayoutFacts
import proofs.«207416_g64579128263113_cont_9to1_m_974_55_alg».proof.Proof.LocalValue

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid0.Coords)

local notation "xwV" => (Memref.whole Cert.Kernel.main_v8_scv : Memref Cert.Kernel.sig Kind.scVector Space.hbm Cert.Kernel.S425984 EltTy.i32)
local notation "tbV" => (Memref.whole Cert.Kernel.main_v11_scv : Memref Cert.Kernel.sig Kind.scVector Space.hbm Cert.Kernel.S262144 EltTy.f32)
local notation "tabV" => (Memref.whole Cert.Kernel.main_v12_scv : Memref Cert.Kernel.sig Kind.scVector Space.hbm Cert.Kernel.S1040000 EltTy.f32)
local notation "pvV" => (Memref.whole Cert.Kernel.main_v18_scv : Memref Cert.Kernel.sig Kind.scVector Space.hbm Cert.Kernel.S272 EltTy.f32)
local notation "oV" => (Memref.whole Cert.Kernel.main_v19_scv : Memref Cert.Kernel.sig Kind.scVector Space.hbm Cert.Kernel.S16384 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13312 EltTy.f32)
local notation "s2V" => (Memref.whole Cert.Kernel.cc0_scratch2 : Memref Cert.Kernel.sig Kind.scVector Space.vmem Cert.Kernel.S8192 EltTy.f32)
local notation "s3V" => (Memref.whole Cert.Kernel.cc0_scratch3 : Memref Cert.Kernel.sig Kind.scVector Space.vmem Cert.Kernel.S272 EltTy.f32)
local notation "s4V" => (Memref.whole Cert.Kernel.cc0_scratch4 : Memref Cert.Kernel.sig Kind.scVector Space.vmem Cert.Kernel.S512 EltTy.f32)
local notation "shV" => (Memref.whole Cert.Kernel.cc0_scratch5 : Memref Cert.Kernel.sig Kind.scVector Space.shared Cert.Kernel.S1040000 EltTy.f32)

/-! ## Reading through the program's views -/

/-- The copied parameter vector is the parameter vector. -/
theorem pv_holds (f3 : Buf (Elt F) ((V d (cV L) (jV L)).loc cc0_scratch3)) :
    (s3V).view.read (Elt F) (View.write (Elt F) (s3V).view f3 (ReadAs.same.apply (View.read (Elt F) (pvV).view (pvC m d))) Finset.univ)
      = Layout.pvw (m (a3Loc d)) (m (a4Loc d)) (m (a5Loc d)) :=
  (View.read_write_univ _ _).trans rfl

/-- The tile's slice of the dense features at `n` is entry `8192 * w + n`. -/
theorem tb_holds (f2 : Buf (Elt F) ((V d (cV L) (jV L)).loc cc0_scratch2)) (n : S8192.Idx) :
    (s2V).view.read (Elt F) (View.write (Elt F) (s2V).view f2 (ReadAs.same.apply (View.read (Elt F) ((tbV).slice (Rect.unit (s := S262144) (k0_off3 L) S8192.size (k0_off3_inb L)) (fun _ => rfl)).view (tbC m d))) Finset.univ) n
      = Layout.tbw (m (a1Loc d)) (ValueIdx.ix1 ⟨8192 * (wL L).val + (n 0).val, by
          have := (wL L).isLt; have h : (n 0).val < 8192 := (n 0).isLt; omega⟩) := by
  rw [View.read_write_univ]
  show Layout.tbw (F := F) (m (a1Loc d)) ((Rect.unit (s := S262144) (k0_off3 L) S8192.size (k0_off3_inb L)).emb n) = _
  refine congrArg (Layout.tbw (F := F) (m (a1Loc d))) (funext fun a => Fin.ext ?_)
  match a with
  | ⟨0, _⟩ =>
    have e : (k0_off3 L) 0 = 16384 * (L 1).val + 8192 * (L 0).val := congrFun (k0_off3_eq L) 0
    show (k0_off3 L) 0 + 1 * (n 0).val = 8192 * (2 * (L 1).val + (L 0).val) + (n 0).val
    omega

/-- The tile's slice of the index lists at `j` is entry `13312 * w + j`. -/
theorem xw_holds (f0 : Buf (Elt F) ((V d (cV L) (jV L)).loc cc0_scratch0)) (j : S13312.Idx) :
    (s0V).view.read (Elt F) (View.write (Elt F) (s0V).view f0 (ReadAs.same.apply (View.read (Elt F) ((xwV).slice (Rect.unit (s := S425984) (k0_off2 L) S13312.size (k0_off2_inb L)) (fun _ => rfl)).view (xwC m d))) Finset.univ) j
      = Layout.xw (m (a0Loc d)) (ValueIdx.ix1 ⟨13312 * (wL L).val + (j 0).val, by
          have := (wL L).isLt; have h : (j 0).val < 13312 := (j 0).isLt; omega⟩) := by
  rw [View.read_write_univ]
  show Layout.xw (m (a0Loc d)) ((Rect.unit (s := S425984) (k0_off2 L) S13312.size (k0_off2_inb L)).emb j) = _
  refine congrArg (Layout.xw (m (a0Loc d))) (funext fun a => Fin.ext ?_)
  match a with
  | ⟨0, _⟩ =>
    have e : (k0_off2 L) 0 = 26624 * (L 1).val + 13312 * (L 0).val := congrFun (k0_off2_eq L) 0
    show (k0_off2 L) 0 + 1 * (j 0).val = 13312 * (2 * (L 1).val + (L 0).val) + (j 0).val
    omega

/-- The shared copy of the table read through the program's whole-extent slice at offset 0 is the flattened table. -/
theorem sh_read (hsl : ∀ a, (![0] : Fin 1 → Nat) a + S1040000.size a ≤ S1040000.size a) (q : S1040000.Idx) :
    View.read (Elt F) ((shV).slice (Rect.unit (s := S1040000) ![0] S1040000.size hsl) (fun _ => rfl)).view (shC m d (cV L)) q
      = Layout.tabw (F := F) (m (a2Loc d)) q := by
  show Layout.tabw (F := F) (m (a2Loc d)) ((Rect.unit (s := S1040000) ![0] S1040000.size hsl).emb q) = _
  refine congrArg (Layout.tabw (F := F) (m (a2Loc d))) (funext fun a => Fin.ext ?_)
  match a with
  | ⟨0, _⟩ =>
    show 0 + 1 * (q 0).val = (q 0).val
    omega

/-- A gather from a list of rank one: position `n` of the target holds the source at the row the list's entry `n` names. -/
theorem gather1_apply {e : EltTy} (hg : S1040000.Gathers 0 S13312) (g : S1040000.Idx → Elt F e) (idx : S13312.Idx → Elt F .i32)
    (hn : S13312.numel = S13312.size hg.axis') (hin : ∀ x, (idx x).toNat < S1040000.size hg.axis) (n : S13312.Idx) :
    SparseCore.gatherPayload hg g (SparseCore.rows idx hn hin) n = g (ValueIdx.ix1 ⟨(idx n).toNat, hin n⟩) := by
  unfold SparseCore.gatherPayload
  refine congrArg g (funext fun a => Fin.ext ?_)
  match a with
  | ⟨0, _⟩ =>
    have h1 := congrArg Fin.val (Shape.Gathers.idx_axis hg (SparseCore.rows idx hn hin) n)
    have h2 : S13312.rowMajor.symm ((n hg.axis').cast hn.symm) = n := by
      rw [Equiv.symm_apply_eq]
      exact Fin.ext (by rw [Shape.rowMajor_val_one]; rfl)
    show (hg.idx (SparseCore.rows idx hn hin) n hg.axis).val = (idx n).toNat
    rw [h1]
    show (idx (S13312.rowMajor.symm ((n hg.axis').cast hn.symm))).toNat = _
    rw [h2]

/-- The gathered values at `n` are the table's entry at the row that entry `13312 * w + n` of the index list names. -/
theorem vals_hold (hpre : ∀ j, (m (a0Loc d) j).toNat ≤ 39999) (f0 : Buf (Elt F) ((V d (cV L) (jV L)).loc cc0_scratch0)) (f1 : Buf (Elt F) ((V d (cV L) (jV L)).loc cc0_scratch1))
    (hin : ∀ j, ((s0V).view.read (Elt F) (View.write (Elt F) (s0V).view f0 (ReadAs.same.apply (View.read (Elt F) ((xwV).slice (Rect.unit (s := S425984) (k0_off2 L) S13312.size (k0_off2_inb L)) (fun _ => rfl)).view (xwC m d))) Finset.univ) j).toNat < S1040000.size gathers_S1040000_S13312.axis)
    (hsl : ∀ a, (![0] : Fin 1 → Nat) a + S1040000.size a ≤ S1040000.size a) (hn : S13312.numel = S13312.size gathers_S1040000_S13312.axis') (n : S13312.Idx) :
    (s1V).view.read (Elt F) ((s1V).view.writes (Elt F) f1 [⟨Rect.whole _, SparseCore.gatherPayload gathers_S1040000_S13312 (View.read (Elt F) ((shV).slice (Rect.unit (s := S1040000) ![0] S1040000.size hsl) (fun _ => rfl)).view (shC m d (cV L))) (SparseCore.rows (View.read (Elt F) (s0V).view (View.write (Elt F) (s0V).view f0 (ReadAs.same.apply (View.read (Elt F) ((xwV).slice (Rect.unit (s := S425984) (k0_off2 L) S13312.size (k0_off2_inb L)) (fun _ => rfl)).view (xwC m d))) Finset.univ)) hn hin)⟩]) n
      = Layout.tabw (m (a2Loc d)) (ValueIdx.ix1 ⟨(Layout.xw (m (a0Loc d)) (ValueIdx.ix1 ⟨13312 * (wL L).val + (n 0).val, by
          have := (wL L).isLt; have h : (n 0).val < 13312 := (n 0).isLt; omega⟩)).toNat, Layout.xw_lt (m (a0Loc d)) hpre _⟩) := by
  rw [View.read_writes_whole, gather1_apply, sh_read]
  exact congrArg (fun q : Fin 1040000 => Layout.tabw (F := F) (m (a2Loc d)) (ValueIdx.ix1 q))
    (Fin.ext (congrArg BitVec.toNat (xw_holds m d L f0 n)))

/-- The tile's run of the flat result, holding the specification's numbers, reads at `y` batch row `512 * w + y`'s. -/
theorem run_reads (y : S512.Idx) :
    (orunK L).view.read (Elt F) (oC m d) y
      = Spec.acc (m (a0Loc d)) (m (a1Loc d)) (m (a2Loc d)) (m (a3Loc d)) (m (a4Loc d)) (m (a5Loc d)) ⟨512 * (wL L).val + (y 0).val, by
          have := (wL L).isLt; have h : (y 0).val < 512 := (y 0).isLt; omega⟩ := by
  show Spec.acc (F := F) (m (a0Loc d)) (m (a1Loc d)) (m (a2Loc d)) (m (a3Loc d)) (m (a4Loc d)) (m (a5Loc d))
    ((Rect.unit (s := S16384) (k0_off4 L) S512.size (k0_off4_inb L)).emb y 0) = _
  refine congrArg (Spec.acc (F := F) (m (a0Loc d)) (m (a1Loc d)) (m (a2Loc d)) (m (a3Loc d)) (m (a4Loc d)) (m (a5Loc d))) (Fin.ext ?_)
  have e : (k0_off4 L) 0 = 1024 * (L 1).val + 512 * (L 0).val := congrFun (k0_off4_eq L) 0
  show (k0_off4 L) 0 + 1 * (y 0).val = 512 * (2 * (L 1).val + (L 0).val) + (y 0).val
  omega

/-- What the tile computes from its scratch arrays is what its run of the flat result is to hold. -/
theorem loc_is_run (hpre : ∀ j, (m (a0Loc d) j).toNat ≤ 39999) (f0 : Buf (Elt F) ((V d (cV L) (jV L)).loc cc0_scratch0)) (f1 : Buf (Elt F) ((V d (cV L) (jV L)).loc cc0_scratch1)) (f2 : Buf (Elt F) ((V d (cV L) (jV L)).loc cc0_scratch2)) (f3 : Buf (Elt F) ((V d (cV L) (jV L)).loc cc0_scratch3))
    (hin : ∀ j, ((s0V).view.read (Elt F) (View.write (Elt F) (s0V).view f0 (ReadAs.same.apply (View.read (Elt F) ((xwV).slice (Rect.unit (s := S425984) (k0_off2 L) S13312.size (k0_off2_inb L)) (fun _ => rfl)).view (xwC m d))) Finset.univ) j).toNat < S1040000.size gathers_S1040000_S13312.axis)
    (hsl : ∀ a, (![0] : Fin 1 → Nat) a + S1040000.size a ≤ S1040000.size a) (hn : S13312.numel = S13312.size gathers_S1040000_S13312.axis') (y : S512.Idx) :
    Local.loc
        ((s1V).view.read (Elt F) ((s1V).view.writes (Elt F) f1 [⟨Rect.whole _, SparseCore.gatherPayload gathers_S1040000_S13312 (View.read (Elt F) ((shV).slice (Rect.unit (s := S1040000) ![0] S1040000.size hsl) (fun _ => rfl)).view (shC m d (cV L))) (SparseCore.rows (View.read (Elt F) (s0V).view (View.write (Elt F) (s0V).view f0 (ReadAs.same.apply (View.read (Elt F) ((xwV).slice (Rect.unit (s := S425984) (k0_off2 L) S13312.size (k0_off2_inb L)) (fun _ => rfl)).view (xwC m d))) Finset.univ)) hn hin)⟩]))
        ((s2V).view.read (Elt F) (View.write (Elt F) (s2V).view f2 (ReadAs.same.apply (View.read (Elt F) ((tbV).slice (Rect.unit (s := S262144) (k0_off3 L) S8192.size (k0_off3_inb L)) (fun _ => rfl)).view (tbC m d))) Finset.univ))
        ((s3V).view.read (Elt F) (View.write (Elt F) (s3V).view f3 (ReadAs.same.apply (View.read (Elt F) (pvV).view (pvC m d))) Finset.univ)) y
      = (orunK L).view.read (Elt F) (oC m d) y := by
  rw [run_reads]
  exact Local.loc_eq_acc (m (a0Loc d)) (m (a1Loc d)) (m (a2Loc d)) (m (a3Loc d)) (m (a4Loc d)) (m (a5Loc d)) hpre (wL L) _ _ _
    (fun n => vals_hold m d L hpre f0 f1 hin hsl hn n) (fun n => tb_holds m d L f2 n) (pv_holds m d L f3) y

end Tile

end Cert.Proof.KW

end
-- ==== Proof.KWBody.lean ====
/-
  One tile's run.

  A filling tile copies its slab of the table into the shared copy; every tile copies its index list, its dense features
  and the parameter vector into its scratch; at the barrier a filling tile hands every tile of its SparseCore a read share
  of the filled slab, and every tile receives the thirteen slabs' read shares, which are a read share of the whole shared
  copy; the tile gathers the rows its index list names; adds up, for each of its 512 batch rows, the biases, the 26
  gathered entries and the 16 products; and copies the 512 numbers to its run of the flat result.
-/
import proofs.«207416_g64579128263113_cont_9to1_m_974_55_alg».proof.Proof.KWTile
import proofs.«207416_g64579128263113_cont_9to1_m_974_55_alg».proof.Proof.LayoutFacts
import proofs.«207416_g64579128263113_cont_9to1_m_974_55_alg».proof.Proof.KWValue
import proofs.«207416_g64579128263113_cont_9to1_m_974_55_alg».proof.Proof.KWScratch

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]
section Tile
variable (d : Dev nD) (L : grid0.Coords)
local notation "xwV" => (Memref.whole Cert.Kernel.main_v8_scv : Memref Cert.Kernel.sig Kind.scVector Space.hbm Cert.Kernel.S425984 EltTy.i32)
local notation "tbV" => (Memref.whole Cert.Kernel.main_v11_scv : Memref Cert.Kernel.sig Kind.scVector Space.hbm Cert.Kernel.S262144 EltTy.f32)
local notation "tabV" => (Memref.whole Cert.Kernel.main_v12_scv : Memref Cert.Kernel.sig Kind.scVector Space.hbm Cert.Kernel.S1040000 EltTy.f32)
local notation "pvV" => (Memref.whole Cert.Kernel.main_v18_scv : Memref Cert.Kernel.sig Kind.scVector Space.hbm Cert.Kernel.S272 EltTy.f32)
local notation "oV" => (Memref.whole Cert.Kernel.main_v19_scv : Memref Cert.Kernel.sig Kind.scVector Space.hbm Cert.Kernel.S16384 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13312 EltTy.f32)
local notation "s2V" => (Memref.whole Cert.Kernel.cc0_scratch2 : Memref Cert.Kernel.sig Kind.scVector Space.vmem Cert.Kernel.S8192 EltTy.f32)
local notation "s3V" => (Memref.whole Cert.Kernel.cc0_scratch3 : Memref Cert.Kernel.sig Kind.scVector Space.vmem Cert.Kernel.S272 EltTy.f32)
local notation "s4V" => (Memref.whole Cert.Kernel.cc0_scratch4 : Memref Cert.Kernel.sig Kind.scVector Space.vmem Cert.Kernel.S512 EltTy.f32)
local notation "shV" => (Memref.whole Cert.Kernel.cc0_scratch5 : Memref Cert.Kernel.sig Kind.scVector Space.shared Cert.Kernel.S1040000 EltTy.f32)

set_option maxHeartbeats 4000000 in
theorem tile_run_fill (hF : (K (F := F)).Facts) (hpre : ∀ j, (m (a0Loc d) j).toNat ≤ 39999) (h13 : k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (R : sProp 𝕄)
    (fo : Buf (Elt F) (oLoc d)) (fsh : Buf (Elt F) (shLoc d (cV L)))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) :
    iprop(levAts (K (F := F)).L (K (F := F)).lev ∗ bkit m d (cV L) (jV L)
        ∗ (xwLoc d ↦{rs (wL L).val} xwC m d) ∗ (tbLoc d ↦{rs (wL L).val} tbC m d) ∗ (tabLoc d ↦{rs (wL L).val} tabC m d) ∗ (pvLoc d ↦{rs (wL L).val} pvC m d)
        ∗ (oLoc d ↦[orunSet (wL L)]{fullShare} fo)
        ∗ (shLoc d (cV L) ↦[slabSet ⟨(L 1).val, (cond1_iff L).mp h13⟩]{fullShare} fsh)
        ∗ ((V d (cV L) (jV L)).loc cc0_scratch0 ↦{fullShare} f0) ∗ ((V d (cV L) (jV L)).loc cc0_scratch1 ↦{fullShare} f1)
        ∗ ((V d (cV L) (jV L)).loc cc0_scratch2 ↦{fullShare} f2) ∗ ((V d (cV L) (jV L)).loc cc0_scratch3 ↦{fullShare} f3)
        ∗ ((V d (cV L) (jV L)).loc cc0_scratch4 ↦{fullShare} f4)
        ∗ semVal (cGcell d (cV L) (jV L)) 0 ∗ semVal (c0cell d (cV L) (jV L)) 0 ∗ semVal (c1cell d (cV L) (jV L)) 0 ∗ semVal (c2cell d (cV L) (jV L)) 0
        ∗ semVal (c3cell d (cV L) (jV L)) 0 ∗ semVal (c4cell d (cV L) (jV L)) 0
        ∗ owes (V d (cV L) (jV L)) (O + oxV d (cV L)) W ∗ R)
      ⊢ wp frame (wpE (defs₀ (F := F)) 𝒱₀ (V d (cV L) (jV L)) none) Set.univ
          (cc0__fl_kernel L xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4)
          fun _ => iprop((oLoc d ↦[orunSet (wL L)]{fullShare} oC m d) ∗ slabKept m d (cV L) (jV L).val ∗ slabsRd m d (cV L) (jV L).val
            ∗ ((∃ f, (V d (cV L) (jV L)).loc cc0_scratch0 ↦{fullShare} f) ∗ (∃ f, (V d (cV L) (jV L)).loc cc0_scratch1 ↦{fullShare} f)
              ∗ (∃ f, (V d (cV L) (jV L)).loc cc0_scratch2 ↦{fullShare} f) ∗ (∃ f, (V d (cV L) (jV L)).loc cc0_scratch3 ↦{fullShare} f)
              ∗ (∃ f, (V d (cV L) (jV L)).loc cc0_scratch4 ↦{fullShare} f))
            ∗ (semVal (cGcell d (cV L) (jV L)) 0 ∗ semVal (c0cell d (cV L) (jV L)) 0 ∗ semVal (c1cell d (cV L) (jV L)) 0 ∗ semVal (c2cell d (cV L) (jV L)) 0
              ∗ semVal (c3cell d (cV L) (jV L)) 0 ∗ semVal (c4cell d (cV L) (jV L)) 0)
            ∗ R
            ∗ ∃ W', ⌜∀ p ∈ W', p ∈ W ∨ p.2 = none ∨ p.2 = some (0 : Fin 1)⌝ ∗ owes (V d (cV L) (jV L)) O W') := by
  simp only [cc0__fl_kernel_eq_skeleton]; unfold cc0__fl_kernel_skel
  unfold bkit
  iintro ⟨#Hlv, ⟨⟨%κ, #Hinv⟩, Htoks, #Hrch, Hat, Hcred⟩, Hxw, Htb, Htab, Hpv, Ho, Hsh, Hs0, Hs1, Hs2, Hs3, Hs4, HsG, Hc0, Hc1, Hc2, Hc3, Hc4, HO, HR⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hxw := (Entails.of_eq (pts_xw (F := F) d L _ _).symm) $$ Hxw
  ihave Htb := (Entails.of_eq (pts_tb (F := F) d L _ _).symm) $$ Htb
  ihave Htab := (Entails.of_eq (pts_tab (F := F) d L _ _).symm) $$ Htab
  ihave Hpv := (Entails.of_eq (pts_pv (F := F) d L _ _).symm) $$ Hpv
  ihave Ho := (Entails.of_eq (pts_orun (F := F) d L _).symm) $$ Ho
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hsh := (Entails.of_eq (pts_slab (F := F) d L h13 _ _).symm) $$ Hsh
  sl_exec_parts
  sl_unfold_run_names
  -- the slab now holds the table's rows
  ihave Hsh := (Entails.of_eq (own_congr (F := F) (c := V d (cV L) (jV L)) (slabK L h13).view fullShare _ (shC m d (cV L)) (fun y => by rw [View.read_writes_whole]; rfl))) $$ Hsh
  ihave Hsh := (Entails.of_eq (pts_slab (F := F) d L h13 _ _)) $$ Hsh
  ihave Hp := (show (shLoc d (cV L) ↦[slabSet ⟨(L 1).val, (cond1_iff L).mp h13⟩]{fullShare} shC m d (cV L) : sProp 𝕄)
      ⊢ iprop(slabKept m d (cV L) (jV L).val ∗ bigSep Finset.univ fun j : Fin (grid0.bound 1) => (bRd (F := F) m).payload (bcell d (cV L) (j.castLE hsub0)) 0 (jV L).val)
      from pays_fill m d (cV L) (jV L) ((cond1_iff L).mp h13)) $$ Hsh
  icases Hp with ⟨Hkept, Hpays⟩
  -- the barrier: a unit to every tile's semaphore, each carrying this tile's payload for that round; then the wait
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- what the tile's own round collected: a read share of the whole shared copy, at the table's rows
  ihave Hrd := (pays_elim m d (cV L) (jV L)) $$ Hgot
  ihave Hrd := (Entails.of_eq (slabsRd_eq m d (cV L) (jV L).val)) $$ Hrd
  ihave Hrd := (Entails.of_eq (pts_sh (F := F) d L _ _).symm) $$ Hrd
  -- the index list holds rows of the table
  have hin : ∀ j, ((s0V).view.read (Elt F) (View.write (Elt F) (s0V).view f0
      (ReadAs.same.apply (View.read (Elt F) ((xwV).slice (Rect.unit (s := S425984) (k0_off2 L) S13312.size (k0_off2_inb L)) (fun _ => rfl)).view (xwC m d))) Finset.univ) j).toNat
      < S1040000.size gathers_S1040000_S13312.axis := fun j => by
    rw [View.read_write_univ]
    exact Layout.xw_lt (m (a0Loc d)) hpre _
  sl_exec_parts
  sl_step
  isplitl [Ho]
  · ihave Ho := (Entails.of_eq (own_congr (F := F) (c := V d (cV L) (jV L)) (orunK L).view fullShare _ (oC m d) (fun y => by
        rw [View.read_writes_whole]
        sl_unfold_run_names
        generalize hc2 : View.write (Elt F) (s2V).view f2
            (ReadAs.same.apply (View.read (Elt F) ((tbV).slice (Rect.unit (s := S262144) (k0_off3 L) S8192.size (k0_off3_inb L)) (fun _ => rfl)).view (tbC m d)))
            Finset.univ = c2
        generalize hc3 : View.write (Elt F) (s3V).view f3 (ReadAs.same.apply (View.read (Elt F) (pvV).view (pvC m d))) Finset.univ = c3
        refine (View.read_writes_apply_of_pieces _ _ (Local.loc
          (SparseCore.gatherPayload gathers_S1040000_S13312
            (View.read (Elt F) ((shV).slice (Rect.unit (s := S1040000) ![0] S1040000.size inb_S1040000_S1040000_0) (fun _ => rfl)).view (shC m d (cV L)))
            (SparseCore.rows (View.read (Elt F) (s0V).view (View.write (Elt F) (s0V).view f0
              (ReadAs.same.apply (View.read (Elt F) ((xwV).slice (Rect.unit (s := S425984) (k0_off2 L) S13312.size (k0_off2_inb L)) (fun _ => rfl)).view (xwC m d)))
              Finset.univ)) rfl hin))
          ((s2V).view.read (Elt F) c2) ((s3V).view.read (Elt F) c3)) _ ?_ y
          (View.cover_of_tiled _ ![16] (by sl_kernel_rfl) y)).trans ?_
        · ki_pieces
        · subst hc2 hc3
          exact (congrArg (fun a => Local.loc a _ _ y) (View.read_writes_whole (s1V).view f1 _).symm).trans
            (loc_is_run m d L hpre f0 f1 f2 f3 hin inb_S1040000_S1040000_0 rfl y)))) $$ Ho
    iapply (Entails.of_eq (pts_orun (F := F) d L _)); iexact Ho
  isplitl [Hkept]; · iexact Hkept
  isplitl [Hrd]
  · ihave Hrd := (Entails.of_eq (pts_sh (F := F) d L _ _)) $$ Hrd
    iapply (Entails.of_eq (slabsRd_eq m d (cV L) (jV L).val).symm); iexact Hrd
  isplitl [Hs0 Hs1 Hs2 Hs3 Hs4]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    isplitl [Hs3]; · iexists _; iapply (Entails.of_eq (pts_s3 (F := F) d L _)); iexact Hs3
    iexists _; iapply (Entails.of_eq (pts_s4 (F := F) d L _)); iexact Hs4
  isplitl [HsG Hc0 Hc1 Hc2 Hc3 Hc4]
  · isplitl [HsG]; · iexact HsG
    isplitl [Hc0]; · iexact Hc0
    isplitl [Hc1]; · iexact Hc1
    isplitl [Hc2]; · iexact Hc2
    isplitl [Hc3]; · iexact Hc3
    iexact Hc4
  isplitl [HR]; · iexact HR
  iexists _; isplitr
  swap; · iexact HO
  ipureintro; intro p hp
  simp only [Finset.mem_insert] at hp
  rcases hp with hp | hp | hp | hp | hp | hp | hp | hp
  all_goals first | exact .inl hp | (subst hp; first | exact .inr (.inl rfl) | exact .inr (.inr rfl))

set_option maxHeartbeats 4000000 in
theorem tile_run_idle (hF : (K (F := F)).Facts) (hpre : ∀ j, (m (a0Loc d) j).toNat ≤ 39999) (h13 : ¬ k0_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (R : sProp 𝕄)
    (fo : Buf (Elt F) (oLoc d))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) :
    iprop(levAts (K (F := F)).L (K (F := F)).lev ∗ bkit m d (cV L) (jV L)
        ∗ (xwLoc d ↦{rs (wL L).val} xwC m d) ∗ (tbLoc d ↦{rs (wL L).val} tbC m d) ∗ (tabLoc d ↦{rs (wL L).val} tabC m d) ∗ (pvLoc d ↦{rs (wL L).val} pvC m d)
        ∗ (oLoc d ↦[orunSet (wL L)]{fullShare} fo)

        ∗ ((V d (cV L) (jV L)).loc cc0_scratch0 ↦{fullShare} f0) ∗ ((V d (cV L) (jV L)).loc cc0_scratch1 ↦{fullShare} f1)
        ∗ ((V d (cV L) (jV L)).loc cc0_scratch2 ↦{fullShare} f2) ∗ ((V d (cV L) (jV L)).loc cc0_scratch3 ↦{fullShare} f3)
        ∗ ((V d (cV L) (jV L)).loc cc0_scratch4 ↦{fullShare} f4)
        ∗ semVal (cGcell d (cV L) (jV L)) 0 ∗ semVal (c0cell d (cV L) (jV L)) 0 ∗ semVal (c1cell d (cV L) (jV L)) 0 ∗ semVal (c2cell d (cV L) (jV L)) 0
        ∗ semVal (c3cell d (cV L) (jV L)) 0 ∗ semVal (c4cell d (cV L) (jV L)) 0
        ∗ owes (V d (cV L) (jV L)) (O + oxV d (cV L)) W ∗ R)
      ⊢ wp frame (wpE (defs₀ (F := F)) 𝒱₀ (V d (cV L) (jV L)) none) Set.univ
          (cc0__fl_kernel L xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4)
          fun _ => iprop((oLoc d ↦[orunSet (wL L)]{fullShare} oC m d) ∗ slabKept m d (cV L) (jV L).val ∗ slabsRd m d (cV L) (jV L).val
            ∗ ((∃ f, (V d (cV L) (jV L)).loc cc0_scratch0 ↦{fullShare} f) ∗ (∃ f, (V d (cV L) (jV L)).loc cc0_scratch1 ↦{fullShare} f)
              ∗ (∃ f, (V d (cV L) (jV L)).loc cc0_scratch2 ↦{fullShare} f) ∗ (∃ f, (V d (cV L) (jV L)).loc cc0_scratch3 ↦{fullShare} f)
              ∗ (∃ f, (V d (cV L) (jV L)).loc cc0_scratch4 ↦{fullShare} f))
            ∗ (semVal (cGcell d (cV L) (jV L)) 0 ∗ semVal (c0cell d (cV L) (jV L)) 0 ∗ semVal (c1cell d (cV L) (jV L)) 0 ∗ semVal (c2cell d (cV L) (jV L)) 0
              ∗ semVal (c3cell d (cV L) (jV L)) 0 ∗ semVal (c4cell d (cV L) (jV L)) 0)
            ∗ R
            ∗ ∃ W', ⌜∀ p ∈ W', p ∈ W ∨ p.2 = none ∨ p.2 = some (0 : Fin 1)⌝ ∗ owes (V d (cV L) (jV L)) O W') := by
  simp only [cc0__fl_kernel_eq_skeleton]; unfold cc0__fl_kernel_skel
  unfold bkit
  iintro ⟨#Hlv, ⟨⟨%κ, #Hinv⟩, Htoks, #Hrch, Hat, Hcred⟩, Hxw, Htb, Htab, Hpv, Ho, Hs0, Hs1, Hs2, Hs3, Hs4, HsG, Hc0, Hc1, Hc2, Hc3, Hc4, HO, HR⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hxw := (Entails.of_eq (pts_xw (F := F) d L _ _).symm) $$ Hxw
  ihave Htb := (Entails.of_eq (pts_tb (F := F) d L _ _).symm) $$ Htb
  ihave Htab := (Entails.of_eq (pts_tab (F := F) d L _ _).symm) $$ Htab
  ihave Hpv := (Entails.of_eq (pts_pv (F := F) d L _ _).symm) $$ Hpv
  ihave Ho := (Entails.of_eq (pts_orun (F := F) d L _).symm) $$ Ho
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  sl_exec_parts
  sl_unfold_run_names
  -- nothing to hand over
  ihave Hp := (show (iprop(emp) : sProp 𝕄)
      ⊢ iprop(slabKept m d (cV L) (jV L).val ∗ bigSep Finset.univ fun j : Fin (grid0.bound 1) => (bRd (F := F) m).payload (bcell d (cV L) (j.castLE hsub0)) 0 (jV L).val)
      from pays_idle m d (cV L) (jV L) (fun h => h13 ((cond1_iff L).mpr h))) $$ []
  · iempintro
  icases Hp with ⟨Hkept, Hpays⟩
  -- the barrier: a unit to every tile's semaphore, each carrying this tile's payload for that round; then the wait
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- what the tile's own round collected: a read share of the whole shared copy, at the table's rows
  ihave Hrd := (pays_elim m d (cV L) (jV L)) $$ Hgot
  ihave Hrd := (Entails.of_eq (slabsRd_eq m d (cV L) (jV L).val)) $$ Hrd
  ihave Hrd := (Entails.of_eq (pts_sh (F := F) d L _ _).symm) $$ Hrd
  -- the index list holds rows of the table
  have hin : ∀ j, ((s0V).view.read (Elt F) (View.write (Elt F) (s0V).view f0
      (ReadAs.same.apply (View.read (Elt F) ((xwV).slice (Rect.unit (s := S425984) (k0_off2 L) S13312.size (k0_off2_inb L)) (fun _ => rfl)).view (xwC m d))) Finset.univ) j).toNat
      < S1040000.size gathers_S1040000_S13312.axis := fun j => by
    rw [View.read_write_univ]
    exact Layout.xw_lt (m (a0Loc d)) hpre _
  sl_exec_parts
  sl_step
  isplitl [Ho]
  · ihave Ho := (Entails.of_eq (own_congr (F := F) (c := V d (cV L) (jV L)) (orunK L).view fullShare _ (oC m d) (fun y => by
        rw [View.read_writes_whole]
        sl_unfold_run_names
        generalize hc2 : View.write (Elt F) (s2V).view f2
            (ReadAs.same.apply (View.read (Elt F) ((tbV).slice (Rect.unit (s := S262144) (k0_off3 L) S8192.size (k0_off3_inb L)) (fun _ => rfl)).view (tbC m d)))
            Finset.univ = c2
        generalize hc3 : View.write (Elt F) (s3V).view f3 (ReadAs.same.apply (View.read (Elt F) (pvV).view (pvC m d))) Finset.univ = c3
        refine (View.read_writes_apply_of_pieces _ _ (Local.loc
          (SparseCore.gatherPayload gathers_S1040000_S13312
            (View.read (Elt F) ((shV).slice (Rect.unit (s := S1040000) ![0] S1040000.size inb_S1040000_S1040000_0) (fun _ => rfl)).view (shC m d (cV L)))
            (SparseCore.rows (View.read (Elt F) (s0V).view (View.write (Elt F) (s0V).view f0
              (ReadAs.same.apply (View.read (Elt F) ((xwV).slice (Rect.unit (s := S425984) (k0_off2 L) S13312.size (k0_off2_inb L)) (fun _ => rfl)).view (xwC m d)))
              Finset.univ)) rfl hin))
          ((s2V).view.read (Elt F) c2) ((s3V).view.read (Elt F) c3)) _ ?_ y
          (View.cover_of_tiled _ ![16] (by sl_kernel_rfl) y)).trans ?_
        · ki_pieces
        · subst hc2 hc3
          exact (congrArg (fun a => Local.loc a _ _ y) (View.read_writes_whole (s1V).view f1 _).symm).trans
            (loc_is_run m d L hpre f0 f1 f2 f3 hin inb_S1040000_S1040000_0 rfl y)))) $$ Ho
    iapply (Entails.of_eq (pts_orun (F := F) d L _)); iexact Ho
  isplitl [Hkept]; · iexact Hkept
  isplitl [Hrd]
  · ihave Hrd := (Entails.of_eq (pts_sh (F := F) d L _ _)) $$ Hrd
    iapply (Entails.of_eq (slabsRd_eq m d (cV L) (jV L).val).symm); iexact Hrd
  isplitl [Hs0 Hs1 Hs2 Hs3 Hs4]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    isplitl [Hs3]; · iexists _; iapply (Entails.of_eq (pts_s3 (F := F) d L _)); iexact Hs3
    iexists _; iapply (Entails.of_eq (pts_s4 (F := F) d L _)); iexact Hs4
  isplitl [HsG Hc0 Hc1 Hc2 Hc3 Hc4]
  · isplitl [HsG]; · iexact HsG
    isplitl [Hc0]; · iexact Hc0
    isplitl [Hc1]; · iexact Hc1
    isplitl [Hc2]; · iexact Hc2
    isplitl [Hc3]; · iexact Hc3
    iexact Hc4
  isplitl [HR]; · iexact HR
  iexists _; isplitr
  swap; · iexact HO
  ipureintro; intro p hp
  simp only [Finset.mem_insert] at hp
  rcases hp with hp | hp | hp | hp | hp | hp | hp
  all_goals first | exact .inl hp | (subst hp; first | exact .inr (.inl rfl) | exact .inr (.inr rfl))

end Tile
end Cert.Proof.KW
end
-- ==== Proof.KWTileRes.lean ====
/-
  A tile's own storage, item by item.

  What a tile owns for the length of its task is its six copy semaphores, each at zero, and its five scratch buffers,
  each whole at some contents. The assertions "all of its own semaphores at zero" and "all of its own buffers at some
  contents" range over the sets of the tile's scoped cells and of the buffers it is home to; taking the named items out
  of those sets one at a time leaves the named items and a remainder over the set with them erased.
-/
import proofs.«207416_g64579128263113_cont_9to1_m_974_55_alg».proof.Proof.KWTile

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (c : Fin τ.nSC) (i : Fin τ.nSub)

/-- Two cells of one thread on different semaphores are different cells. -/
theorem cell_ne {thr : Thread nD τ} {s s' : SemLoc sig} (h : s ≠ s') : ((thr, s) : GSem nD τ sig) ≠ (thr, s') :=
  fun e => h (Prod.mk.inj e).2

/-- A scoped semaphore of a tile is one of the tile's own cells. -/
theorem mem_own {s : SemLoc sig} (h : s.isScoped .scVector = true) : ((V d c i, s) : GSem nD τ sig) ∈ ownCells (V d c i) :=
  mem_ownCells.mpr ⟨rfl, h⟩

/-- The tile's own semaphores at zero: the gather's, the five copies', and the rest — the remainder is over the tile's
    own cells with the six erased in the order gather, copy 0, …, copy 4. -/
theorem ownSems0_V :
    (ownSems0 (V d c i) : sProp 𝕄)
      = iprop(semVal (cGcell d c i) 0 ∗ semVal (c0cell d c i) 0 ∗ semVal (c1cell d c i) 0 ∗ semVal (c2cell d c i) 0
          ∗ semVal (c3cell d c i) 0 ∗ semVal (c4cell d c i) 0
          ∗ bigSep (((((((ownCells (V d c i)).erase (cGcell d c i)).erase (c0cell d c i)).erase (c1cell d c i)).erase (c2cell d c i)).erase
              (c3cell d c i)).erase (c4cell d c i)) fun g => semVal g 0) := by
  unfold SparseCore.Cfg.ownSems0
  have mG : cGcell d c i ∈ ownCells (V d c i) := mem_own d c i (by decide)
  have m0 : c0cell d c i ∈ ownCells (V d c i) := mem_own d c i (by decide)
  have m1 : c1cell d c i ∈ ownCells (V d c i) := mem_own d c i (by decide)
  have m2 : c2cell d c i ∈ ownCells (V d c i) := mem_own d c i (by decide)
  have m3 : c3cell d c i ∈ ownCells (V d c i) := mem_own d c i (by decide)
  have m4 : c4cell d c i ∈ ownCells (V d c i) := mem_own d c i (by decide)
  rw [SparseCore.bigSep_erase' mG,
    SparseCore.bigSep_erase' (Finset.mem_erase.mpr ⟨cell_ne (by decide), m0⟩),
    SparseCore.bigSep_erase' (Finset.mem_erase.mpr ⟨cell_ne (by decide), Finset.mem_erase.mpr ⟨cell_ne (by decide), m1⟩⟩),
    SparseCore.bigSep_erase' (Finset.mem_erase.mpr ⟨cell_ne (by decide), Finset.mem_erase.mpr ⟨cell_ne (by decide),
      Finset.mem_erase.mpr ⟨cell_ne (by decide), m2⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), m3⟩⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide), Finset.mem_erase.mpr ⟨cell_ne (by decide), m4⟩⟩⟩⟩⟩)]

/-- A tile is home to each of its scratch buffers. -/
theorem mem_refs (b : Ref sig .scVector) (h : ((Proc.scVector c i).devRef b : DevRef τ sig).owner = .proc (.scVector c i)) :
    (Proc.scVector c i).devRef b ∈ ownRefs (τ := τ) (.scVector c i) :=
  SparseCore.Cfg.mem_ownRefs_of_owner (p := Proc.scVector c i) (b := (Proc.scVector c i).devRef b) h

/-- Different scratch references of one tile are different buffers. -/
theorem ref_ne {b b' : Ref sig .scVector} (h : b ≠ b') : ((Proc.scVector c i).devRef b : DevRef τ sig) ≠ (Proc.scVector c i).devRef b' :=
  fun e => h (Proc.devRef_injective _ e)

/-- The tile's own buffers at some contents: the five scratch buffers and the rest — the remainder is over the buffers
    the tile is home to with the five erased in the order 0, …, 4. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (.scVector c i)).erase ((Proc.scVector c i).devRef cc0_scratch0)).erase
              ((Proc.scVector c i).devRef cc0_scratch1)).erase ((Proc.scVector c i).devRef cc0_scratch2)).erase
              ((Proc.scVector c i).devRef cc0_scratch3)).erase ((Proc.scVector c i).devRef cc0_scratch4))
              fun b => iprop(∃ f, ((d, b) : Loc nD τ sig) ↦{fullShare} f)) := by
  unfold SparseCore.Cfg.ownBufs
  have m0 := mem_refs c i cc0_scratch0 rfl
  have m1 := mem_refs c i cc0_scratch1 rfl
  have m2 := mem_refs c i cc0_scratch2 rfl
  have m3 := mem_refs c i cc0_scratch3 rfl
  have m4 := mem_refs c i cc0_scratch4 rfl
  refine (SparseCore.bigSep_erase' m0).trans ?_
  rw [SparseCore.bigSep_erase' (Finset.mem_erase.mpr ⟨ref_ne c i (by decide), m1⟩),
    SparseCore.bigSep_erase' (Finset.mem_erase.mpr ⟨ref_ne c i (by decide), Finset.mem_erase.mpr ⟨ref_ne c i (by decide), m2⟩⟩),
    SparseCore.bigSep_erase' (Finset.mem_erase.mpr ⟨ref_ne c i (by decide), Finset.mem_erase.mpr ⟨ref_ne c i (by decide),
      Finset.mem_erase.mpr ⟨ref_ne c i (by decide), m3⟩⟩⟩),
    SparseCore.bigSep_erase' (Finset.mem_erase.mpr ⟨ref_ne c i (by decide), Finset.mem_erase.mpr ⟨ref_ne c i (by decide),
      Finset.mem_erase.mpr ⟨ref_ne c i (by decide), Finset.mem_erase.mpr ⟨ref_ne c i (by decide), m4⟩⟩⟩⟩)]

end Tile

end Cert.Proof.KW

end
-- ==== Proof.KWObl.lean ====
/-
  A tile's task, as the launch theorem asks for it.

  Handed its go payload (its read shares, its run of the flat result, a filling tile's slab), its scoped storage and its
  barrier kit, owing the barrier's units beside what it owed, the tile's task ends with its done payload (its run at the
  numbers of its 512 batch rows, what it kept of its slab, the thirteen read shares), its scoped storage back and the
  barrier's units paid. The task is the tile's run with the rest of its scoped storage carried along untouched; which of
  the two runs it is depends only on whether the tile's number is below 13.
-/
import proofs.«207416_g64579128263113_cont_9to1_m_974_55_alg».proof.Proof.KWBody
import proofs.«207416_g64579128263113_cont_9to1_m_974_55_alg».proof.Proof.KWTileRes

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]
section Tile
variable (d : Dev nD) (L : grid0.Coords)
local notation "xwV" => (Memref.whole Cert.Kernel.main_v8_scv : Memref Cert.Kernel.sig Kind.scVector Space.hbm Cert.Kernel.S425984 EltTy.i32)
local notation "tbV" => (Memref.whole Cert.Kernel.main_v11_scv : Memref Cert.Kernel.sig Kind.scVector Space.hbm Cert.Kernel.S262144 EltTy.f32)
local notation "tabV" => (Memref.whole Cert.Kernel.main_v12_scv : Memref Cert.Kernel.sig Kind.scVector Space.hbm Cert.Kernel.S1040000 EltTy.f32)
local notation "pvV" => (Memref.whole Cert.Kernel.main_v18_scv : Memref Cert.Kernel.sig Kind.scVector Space.hbm Cert.Kernel.S272 EltTy.f32)
local notation "oV" => (Memref.whole Cert.Kernel.main_v19_scv : Memref Cert.Kernel.sig Kind.scVector Space.hbm Cert.Kernel.S16384 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13312 EltTy.f32)
local notation "s2V" => (Memref.whole Cert.Kernel.cc0_scratch2 : Memref Cert.Kernel.sig Kind.scVector Space.vmem Cert.Kernel.S8192 EltTy.f32)
local notation "s3V" => (Memref.whole Cert.Kernel.cc0_scratch3 : Memref Cert.Kernel.sig Kind.scVector Space.vmem Cert.Kernel.S272 EltTy.f32)
local notation "s4V" => (Memref.whole Cert.Kernel.cc0_scratch4 : Memref Cert.Kernel.sig Kind.scVector Space.vmem Cert.Kernel.S512 EltTy.f32)
local notation "shV" => (Memref.whole Cert.Kernel.cc0_scratch5 : Memref Cert.Kernel.sig Kind.scVector Space.shared Cert.Kernel.S1040000 EltTy.f32)

/-- The rest of a tile's own buffers and semaphores, beside the five scratch buffers and the six copy semaphores. -/
abbrev restBufs (d : Dev nD) (c : Fin τ.nSC) (i : Fin τ.nSub) : sProp 𝕄 :=
  bigSep ((((((ownRefs (τ := τ) (.scVector c i)).erase ((Proc.scVector c i).devRef cc0_scratch0)).erase
      ((Proc.scVector c i).devRef cc0_scratch1)).erase ((Proc.scVector c i).devRef cc0_scratch2)).erase
      ((Proc.scVector c i).devRef cc0_scratch3)).erase ((Proc.scVector c i).devRef cc0_scratch4))
    fun b => iprop(∃ f, ((d, b) : Loc nD τ sig) ↦{fullShare} f)
abbrev restSems (d : Dev nD) (c : Fin τ.nSC) (i : Fin τ.nSub) : sProp 𝕄 :=
  bigSep (((((((ownCells (V d c i)).erase (cGcell d c i)).erase (c0cell d c i)).erase (c1cell d c i)).erase (c2cell d c i)).erase
      (c3cell d c i)).erase (c4cell d c i)) fun g => semVal g 0

/-- The run's result, regrouped as the task's. -/
theorem post_regroup (O : CellTallies nD τ sig (HIx 1)) (W : Waits sig (HIx 1)) :
    iprop((oLoc d ↦[orunSet (wL L)]{fullShare} oC m d) ∗ slabKept m d (cV L) (jV L).val ∗ slabsRd m d (cV L) (jV L).val
        ∗ ((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f))
        ∗ (semVal (cGcell d (cV L) (jV L)) 0 ∗ semVal (c0cell d (cV L) (jV L)) 0 ∗ semVal (c1cell d (cV L) (jV L)) 0 ∗ semVal (c2cell d (cV L) (jV L)) 0
          ∗ semVal (c3cell d (cV L) (jV L)) 0 ∗ semVal (c4cell d (cV L) (jV L)) 0)
        ∗ iprop(restBufs d (cV L) (jV L) ∗ restSems d (cV L) (jV L))
        ∗ ∃ W', ⌜∀ p ∈ W', p ∈ W ∨ p.2 = none ∨ p.2 = some (0 : Fin 1)⌝ ∗ owes (V d (cV L) (jV L)) O W')
      ⊢ iprop(((oLoc d ↦[orunSet (wL L)]{fullShare} oC m d) ∗ slabKept m d (cV L) (jV L).val ∗ slabsRd m d (cV L) (jV L).val)
          ∗ ((∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f) ∗ (∃ f, (V d (cV L) (jV L)).loc cc0_scratch3 ↦{fullShare} f)
            ∗ (∃ f, (V d (cV L) (jV L)).loc cc0_scratch4 ↦{fullShare} f) ∗ restBufs d (cV L) (jV L))
          ∗ (semVal (cGcell d (cV L) (jV L)) 0 ∗ semVal (c0cell d (cV L) (jV L)) 0 ∗ semVal (c1cell d (cV L) (jV L)) 0 ∗ semVal (c2cell d (cV L) (jV L)) 0
            ∗ semVal (c3cell d (cV L) (jV L)) 0 ∗ semVal (c4cell d (cV L) (jV L)) 0 ∗ restSems d (cV L) (jV L))
          ∗ ∃ W', ⌜∀ p ∈ W', p ∈ W ∨ p.2 = none ∨ p.2 = some (0 : Fin 1)⌝ ∗ owes (V d (cV L) (jV L)) O W') := by
  iintro ⟨Ho, Hk, Hrd, ⟨B0, B1, B2, B3, B4⟩, ⟨S0, S1, S2, S3, S4, S5⟩, ⟨RB, RS⟩, HW⟩
  isplitl [Ho Hk Hrd]
  · isplitl [Ho]; · iexact Ho
    isplitl [Hk]; · iexact Hk
    iexact Hrd
  isplitl [B0 B1 B2 B3 B4 RB]
  · isplitl [B0]; · iexact B0
    isplitl [B1]; · iexact B1
    isplitl [B2]; · iexact B2
    isplitl [B3]; · iexact B3
    isplitl [B4]; · iexact B4
    iexact RB
  isplitl [S0 S1 S2 S3 S4 S5 RS]
  · isplitl [S0]; · iexact S0
    isplitl [S1]; · iexact S1
    isplitl [S2]; · iexact S2
    isplitl [S3]; · iexact S3
    isplitl [S4]; · iexact S4
    isplitl [S5]; · iexact S5
    iexact RS
  iexact HW

set_option maxHeartbeats 1000000 in
theorem tile_body (hF : (K (F := F)).Facts) (hpre : ∀ j, (m (a0Loc d) j).toNat ≤ 39999)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (hbmPart m d (wL L) (m (oLoc d)) ∗ slabOwn d (cV L) (jV L).val)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__fl_kernel L xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4)
          fun _ => iprop(((oLoc d ↦[orunSet (wL L)]{fullShare} oC m d) ∗ slabKept m d (cV L) (jV L).val ∗ slabsRd m d (cV L) (jV L).val)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L),
    ownSems0_V d (cV L) (jV L), ownBufs_V d (cV L) (jV L)]
  by_cases h13 : k0_cond1 L = 1#1
  · have hlt : (jV L).val < 13 := (cond1_iff L).mp h13
    unfold slabOwn; rw [dif_pos hlt]
    iintro ⟨Hlv, Hkit, ⟨⟨Hxw, Htb, Htab, Hpv, Ho⟩, ⟨%fsh, Hsh⟩⟩, ⟨⟨%f0, Hs0⟩, ⟨%f1, Hs1⟩, ⟨%f2, Hs2⟩, ⟨%f3, Hs3⟩, ⟨%f4, Hs4⟩, Hbufs⟩, ⟨HsG, Hc0, Hc1, Hc2, Hc3, Hc4, Hsems⟩, HO⟩
    iapply (wp_mono frame _ _ (fun _ => post_regroup m d L O W))
    iapply (tile_run_fill m d L hF hpre h13 O W hO hOlev (iprop(restBufs d (cV L) (jV L) ∗ restSems d (cV L) (jV L))) (m (oLoc d)) fsh f0 f1 f2 f3 f4)
    isplitl [Hlv]; · iexact Hlv
    isplitl [Hkit]; · iexact Hkit
    isplitl [Hxw]; · iexact Hxw
    isplitl [Htb]; · iexact Htb
    isplitl [Htab]; · iexact Htab
    isplitl [Hpv]; · iexact Hpv
    isplitl [Ho]; · iexact Ho
    isplitl [Hsh]; · iexact Hsh
    isplitl [Hs0]; · iexact Hs0
    isplitl [Hs1]; · iexact Hs1
    isplitl [Hs2]; · iexact Hs2
    isplitl [Hs3]; · iexact Hs3
    isplitl [Hs4]; · iexact Hs4
    isplitl [HsG]; · iexact HsG
    isplitl [Hc0]; · iexact Hc0
    isplitl [Hc1]; · iexact Hc1
    isplitl [Hc2]; · iexact Hc2
    isplitl [Hc3]; · iexact Hc3
    isplitl [Hc4]; · iexact Hc4
    isplitl [HO]; · iexact HO
    isplitl [Hbufs]; · iexact Hbufs
    iexact Hsems
  · have hge : ¬ (jV L).val < 13 := fun h => h13 ((cond1_iff L).mpr h)
    unfold slabOwn; rw [dif_neg hge]
    iintro ⟨Hlv, Hkit, ⟨⟨Hxw, Htb, Htab, Hpv, Ho⟩, -⟩, ⟨⟨%f0, Hs0⟩, ⟨%f1, Hs1⟩, ⟨%f2, Hs2⟩, ⟨%f3, Hs3⟩, ⟨%f4, Hs4⟩, Hbufs⟩, ⟨HsG, Hc0, Hc1, Hc2, Hc3, Hc4, Hsems⟩, HO⟩
    iapply (wp_mono frame _ _ (fun _ => post_regroup m d L O W))
    iapply (tile_run_idle m d L hF hpre h13 O W hO hOlev (iprop(restBufs d (cV L) (jV L) ∗ restSems d (cV L) (jV L))) (m (oLoc d)) f0 f1 f2 f3 f4)
    isplitl [Hlv]; · iexact Hlv
    isplitl [Hkit]; · iexact Hkit
    isplitl [Hxw]; · iexact Hxw
    isplitl [Htb]; · iexact Htb
    isplitl [Htab]; · iexact Htab
    isplitl [Hpv]; · iexact Hpv
    isplitl [Ho]; · iexact Ho
    isplitl [Hs0]; · iexact Hs0
    isplitl [Hs1]; · iexact Hs1
    isplitl [Hs2]; · iexact Hs2
    isplitl [Hs3]; · iexact Hs3
    isplitl [Hs4]; · iexact Hs4
    isplitl [HsG]; · iexact HsG
    isplitl [Hc0]; · iexact Hc0
    isplitl [Hc1]; · iexact Hc1
    isplitl [Hc2]; · iexact Hc2
    isplitl [Hc3]; · iexact Hc3
    isplitl [Hc4]; · iexact Hc4
    isplitl [HO]; · iexact HO
    isplitl [Hbufs]; · iexact Hbufs
    iexact Hsems

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

local notation "xwV" => (Memref.whole Cert.Kernel.main_v8_scv : Memref Cert.Kernel.sig Kind.scVector Space.hbm Cert.Kernel.S425984 EltTy.i32)
local notation "tbV" => (Memref.whole Cert.Kernel.main_v11_scv : Memref Cert.Kernel.sig Kind.scVector Space.hbm Cert.Kernel.S262144 EltTy.f32)
local notation "tabV" => (Memref.whole Cert.Kernel.main_v12_scv : Memref Cert.Kernel.sig Kind.scVector Space.hbm Cert.Kernel.S1040000 EltTy.f32)
local notation "pvV" => (Memref.whole Cert.Kernel.main_v18_scv : Memref Cert.Kernel.sig Kind.scVector Space.hbm Cert.Kernel.S272 EltTy.f32)
local notation "oV" => (Memref.whole Cert.Kernel.main_v19_scv : Memref Cert.Kernel.sig Kind.scVector Space.hbm Cert.Kernel.S16384 EltTy.f32)
local notation "s0V" => (Memref.whole Cert.Kernel.cc0_scratch0 : Memref Cert.Kernel.sig Kind.scVector Space.vmem Cert.Kernel.S13312 EltTy.i32)
local notation "s1V" => (Memref.whole Cert.Kernel.cc0_scratch1 : Memref Cert.Kernel.sig Kind.scVector Space.vmem Cert.Kernel.S13312 EltTy.f32)
local notation "s2V" => (Memref.whole Cert.Kernel.cc0_scratch2 : Memref Cert.Kernel.sig Kind.scVector Space.vmem Cert.Kernel.S8192 EltTy.f32)
local notation "s3V" => (Memref.whole Cert.Kernel.cc0_scratch3 : Memref Cert.Kernel.sig Kind.scVector Space.vmem Cert.Kernel.S272 EltTy.f32)
local notation "s4V" => (Memref.whole Cert.Kernel.cc0_scratch4 : Memref Cert.Kernel.sig Kind.scVector Space.vmem Cert.Kernel.S512 EltTy.f32)
local notation "shV" => (Memref.whole Cert.Kernel.cc0_scratch5 : Memref Cert.Kernel.sig Kind.scVector Space.shared Cert.Kernel.S1040000 EltTy.f32)

theorem defs₀_vector (c : Fin τ.nSC) (s : Fin τ.nSub) :
    defs₀ (F := F) (.scVector c s) 0 ()
      = SparseCore.onTile hcore0 hsub0 (fun c s => cc0__fl_kernel (coordsV c s) xwV (Memref.isWhole_whole _) tbV (Memref.isWhole_whole _) tabV (Memref.isWhole_whole _) pvV (Memref.isWhole_whole _) oV (Memref.isWhole_whole _)
            s0V (Memref.isWhole_whole _) s1V (Memref.isWhole_whole _) s2V (Memref.isWhole_whole _) s3V (Memref.isWhole_whole _) s4V (Memref.isWhole_whole _)
            shV (Memref.isWhole_whole _) cc0_scratch6 cc0_scoped0 cc0_scoped1 cc0_scoped2 cc0_scoped3 cc0_scoped4) ⟨⟩ c s := rfl

set_option maxRecDepth 16384 in
theorem tileObl (hF : (K (F := F)).Facts) (hpre : ∀ (d : Dev nD) j, (m (a0Loc d) j).toNat ≤ 39999) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hpre d) O W hO hOlev

end Cert.Proof.KW

end
-- ==== Proof.KHostOps.lean ====
/-
  The host side of the program as data: the operations that prepare the four flat arrays the lane-parallel
  call reads, in the order the program runs them, and the one operation that reads its flat result back as a column.

  The program is: these twenty operations, the call, the last operation, return. Every operation touches only
  tensor values of the program — the twenty-eight device buffers — and none of them leaves a buffer undetermined.
-/
import proofs.«207416_g64579128263113_cont_9to1_m_974_55_alg».proof.Proof.Gen.Kernel
import Idealize.ShloMosaic.Lib.StableHlo.Run

noncomputable section

namespace Cert.Proof.KHost

open Cert.Kernel Cert.Kernel.Gen Idealize.ShloMosaic Idealize.ShloMosaic.TcCoe Idealize.SL.Sem Idealize.ShloMosaic.StableHlo

variable {F : FTy → Type} [FloatOps F]

/-- The twenty operations before the call, in order: the field offsets `iota(26) * 40000` added to the indices and the
    sum dealt to the 32 workers field-major; the dense features dealt likewise; the table flattened; the parameter
    vector assembled from the weights and the two biases. -/
abbrev opsPre : List (HloOp τ sig (Elt F)) :=
  [ nullary main_v0 (iotaInDim S26 32 0),
    nullary main_c (constantI S_ 32 40000#32),
    unary main_c main_v1 (broadcastInDim S26 ![] bcast_S_S26 : (⟨S_, .i32⟩ : BufTy).Contents (Elt F) → (⟨S26, .i32⟩ : BufTy).Contents (Elt F)),
    binary main_v0 main_v1 main_v2 (muli : (⟨S26, .i32⟩ : BufTy).Contents (Elt F) → (⟨S26, .i32⟩ : BufTy).Contents (Elt F) → (⟨S26, .i32⟩ : BufTy).Contents (Elt F)),
    unary main_v2 main_v3 (broadcastInDim S1x26 ![1] bcast_S26_S1x26_1 : (⟨S26, .i32⟩ : BufTy).Contents (Elt F) → (⟨S1x26, .i32⟩ : BufTy).Contents (Elt F)),
    unary main_v3 main_v4 (broadcastInDim S16384x26 ![0, 1] bcast_S1x26_S16384x26_0_1 : (⟨S1x26, .i32⟩ : BufTy).Contents (Elt F) → (⟨S16384x26, .i32⟩ : BufTy).Contents (Elt F)),
    binary main_arg0 main_v4 main_v5 (addi : (⟨S16384x26, .i32⟩ : BufTy).Contents (Elt F) → (⟨S16384x26, .i32⟩ : BufTy).Contents (Elt F) → (⟨S16384x26, .i32⟩ : BufTy).Contents (Elt F)),
    reshape main_v5 main_v6 rfl shapeCasts_S16384x26_S32x512x26,
    unary main_v6 main_v7 ((transpose S32x26x512 [0, 2, 1] · transposes_S32x512x26_S32x26x512_0_2_1) : (⟨S32x512x26, .i32⟩ : BufTy).Contents (Elt F) → (⟨S32x26x512, .i32⟩ : BufTy).Contents (Elt F)),
    reshape main_v7 main_v8 rfl shapeCasts_S32x26x512_S425984,
    reshape main_arg1 main_v9 rfl shapeCasts_S16384x16_S32x512x16,
    unary main_v9 main_v10 ((transpose S32x16x512 [0, 2, 1] · transposes_S32x512x16_S32x16x512_0_2_1) : (⟨S32x512x16, .f32⟩ : BufTy).Contents (Elt F) → (⟨S32x16x512, .f32⟩ : BufTy).Contents (Elt F)),
    reshape main_v10 main_v11 rfl shapeCasts_S32x16x512_S262144,
    reshape main_arg2 main_v12 rfl shapeCasts_S1040000x1_S1040000,
    reshape main_arg3 main_v13 rfl shapeCasts_S16x1_S16,
    unary main_v13 main_v14 (broadcastInDim S16x16 ![0] bcast_S16_S16x16_0 : (⟨S16, .f32⟩ : BufTy).Contents (Elt F) → (⟨S16x16, .f32⟩ : BufTy).Contents (Elt F)),
    reshape main_v14 main_v15 rfl shapeCasts_S16x16_S256,
    binary main_arg4 main_arg5 main_v16 (addf : (⟨S1, .f32⟩ : BufTy).Contents (Elt F) → (⟨S1, .f32⟩ : BufTy).Contents (Elt F) → (⟨S1, .f32⟩ : BufTy).Contents (Elt F)),
    unary main_v16 main_v17 (broadcastInDim S16 ![0] bcast_S1_S16_0 : (⟨S1, .f32⟩ : BufTy).Contents (Elt F) → (⟨S16, .f32⟩ : BufTy).Contents (Elt F)),
    binary main_v15 main_v17 main_v18 ((fun a b => concatenate S272 0 [⟨S256, a⟩, ⟨S16, b⟩] concatenates_S256_S16_S272_d0) : (⟨S256, .f32⟩ : BufTy).Contents (Elt F) → (⟨S16, .f32⟩ : BufTy).Contents (Elt F) → (⟨S272, .f32⟩ : BufTy).Contents (Elt F)) ]

/-- The one operation after the call: the flat result of 16384 numbers read back as a column. -/
abbrev opPost : HloOp τ sig (Elt F) :=
  reshape main_v19 main_v20 rfl shapeCasts_S16384_S16384x1

/-- The program is the twenty operations, the call, the last operation, return. -/
theorem main_eq (d : Dev nD) :
    main (F := F) d = (seq opsPre >>= fun _ => (sc (F := F)).run d 0 >>= fun _ => seq [opPost] >>= fun _ => pure ⟨⟩) := rfl

/-- The twenty-eight tensor values of the program — its six arguments and twenty-two intermediate values — as buffers
    of the device. -/
abbrev SAll : Finset (DevRef τ sig) :=
  {(main_arg0 : DevRef τ sig), (main_arg1 : DevRef τ sig), (main_arg2 : DevRef τ sig), (main_arg3 : DevRef τ sig),
   (main_arg4 : DevRef τ sig), (main_arg5 : DevRef τ sig), (main_v0 : DevRef τ sig), (main_c : DevRef τ sig),
   (main_v1 : DevRef τ sig), (main_v2 : DevRef τ sig), (main_v3 : DevRef τ sig), (main_v4 : DevRef τ sig),
   (main_v5 : DevRef τ sig), (main_v6 : DevRef τ sig), (main_v7 : DevRef τ sig), (main_v8 : DevRef τ sig),
   (main_v9 : DevRef τ sig), (main_v10 : DevRef τ sig), (main_v11 : DevRef τ sig), (main_v12 : DevRef τ sig),
   (main_v13 : DevRef τ sig), (main_v14 : DevRef τ sig), (main_v15 : DevRef τ sig), (main_v16 : DevRef τ sig),
   (main_v17 : DevRef τ sig), (main_v18 : DevRef τ sig), (main_v19 : DevRef τ sig), (main_v20 : DevRef τ sig)}

/-- They are all the buffers the program's own processor names: it names no other, and none of them is scoped. -/
theorem SAll_eq_tcRefs : SAll = tcRefs τ sig := by decide

/-- The same set as the unscoped references, each read as a device buffer. -/
theorem SAll_eq_map : SAll = (Finset.univ.filter fun b : Ref sig .tc => ¬ b.isScoped).map
    ⟨Proc.devRef (sig := sig) (.tc : Proc τ), Proc.devRef_injective _⟩ := by decide

theorem SAll_eq : SAll = (Finset.univ.filter fun b : Ref sig .tc => ¬ b.isScoped).image (Proc.devRef (τ := τ) .tc) := by
  rw [SAll_eq_map, Finset.map_eq_image]; rfl

/-- Every reference of the program's processor is one of the twenty-eight. -/
theorem mem_SAll (b : Ref sig .tc) : Proc.devRef (τ := τ) .tc b ∈ SAll := by
  rw [SAll_eq_tcRefs]; exact devRef_mem_tcRefs b

/-- Each operation before the call touches only those buffers … -/
theorem opsPre_sub : ∀ op ∈ (opsPre (F := F)), op.bufs ⊆ SAll := by
  rw [SAll_eq_tcRefs]
  exact List.forall_iff_forall_mem.mp (show (opsPre (F := F)).Forall fun op => op.bufs ⊆ tcRefs τ sig from
    ⟨nullary_bufs_sub .., nullary_bufs_sub .., unary_bufs_sub .., binary_bufs_sub .., unary_bufs_sub .., unary_bufs_sub ..,
     binary_bufs_sub .., reshape_bufs_sub .., unary_bufs_sub .., reshape_bufs_sub .., reshape_bufs_sub .., unary_bufs_sub ..,
     reshape_bufs_sub .., reshape_bufs_sub .., reshape_bufs_sub .., unary_bufs_sub .., reshape_bufs_sub .., binary_bufs_sub ..,
     unary_bufs_sub .., binary_bufs_sub ..⟩)

/-- … and determines everything it writes. -/
theorem opsPre_fresh : ∀ op ∈ (opsPre (F := F)), op.fresh = ∅ :=
  List.forall_iff_forall_mem.mp (show (opsPre (F := F)).Forall fun op => op.fresh = ∅ from
    ⟨rfl, rfl, rfl, rfl, rfl, rfl, rfl, rfl, rfl, rfl, rfl, rfl, rfl, rfl, rfl, rfl, rfl, rfl, rfl, rfl⟩)

/-- So does the operation after the call. -/
theorem opPost_sub : (opPost (F := F)).bufs ⊆ SAll := by
  rw [SAll_eq_tcRefs]; exact reshape_bufs_sub ..

theorem opPost_fresh : (opPost (F := F)).fresh = ∅ := rfl

/-- The one-operation list after the call, in the form a run of a list asks. -/
theorem opPost_sub' : ∀ op ∈ [opPost (F := F)], op.bufs ⊆ SAll := by
  intro op hop; rw [List.mem_singleton.mp hop]; exact opPost_sub

theorem opPost_fresh' : ∀ op ∈ [opPost (F := F)], op.fresh = ∅ := by
  intro op hop; rw [List.mem_singleton.mp hop]; exact opPost_fresh

end Cert.Proof.KHost

end
-- ==== Proof.KHostValue.lean ====
/-
  What the host operations compute, buffer by buffer.

  Each of the four arrays the lane-parallel call reads is a chain of layout operations — a change of shape keeps the
  row-major position, an exchange of axes exchanges coordinates, a broadcast forgets the new axis, a concatenation
  reads one piece or the other — applied to an argument (for the indices, after the field offsets are added). Read at
  one flat position, each chain lands on one element of the argument: the element the functions of `Layout` name.
-/
import proofs.«207416_g64579128263113_cont_9to1_m_974_55_alg».proof.Proof.KHostOps
import proofs.«207416_g64579128263113_cont_9to1_m_974_55_alg».proof.Proof.Layout
import Idealize.ShloMosaic.Lib.ValueIdx
import Idealize.ShloMosaic.Lib.ValueLayout
import Idealize.ShloMosaic.Lib.Pipeline.Value

noncomputable section

namespace Cert.Proof.KHost

open Cert.Kernel Cert.Kernel.Gen Idealize.ShloMosaic Idealize.ShloMosaic.TcCoe Idealize.SL.Sem Idealize.ShloMosaic.StableHlo
open Idealize.ShloMosaic.ValueIdx

variable {F : FTy → Type} [FloatOps F]

/-! ## The index lists

Flat position `n` of the index list belongs to worker `n / 13312`, field `(n % 13312) / 512`, and row `n % 512` of
that worker's 512 rows: the cast to a flat array, the exchange of the last two axes and the cast of the batch axis
to (worker, row) each keep the row-major position, so the entry is the shifted index of batch row
`512 * (n / 13312) + n % 512` at that field. -/

/-- The field offsets, broadcast over the batch: at field `f` the word `40000 * f`. The product of the two words
    `f` and `40000` is the word of the product of the numbers. -/
theorem offs_apply (b : Fin 16384) (f : Fin 26) :
    broadcastInDim S16384x26 ![0, 1] bcast_S1x26_S16384x26_0_1
        (broadcastInDim S1x26 ![1] bcast_S26_S1x26_1
          (muli (iotaInDim S26 32 0) (broadcastInDim S26 ![] bcast_S_S26 (constantI S_ 32 40000#32)))) (ix2 b f)
      = BitVec.ofNat 32 (40000 * f.val) := by
  refine (broadcastInDim_apply _ _ _ (ix2 b f) (ix2 (0 : Fin 1) f) fun a => ?_).trans ?_
  · match a with
    | ⟨0, _⟩ => rfl
    | ⟨1, _⟩ => rfl
  refine (broadcastInDim_apply _ _ _ (ix2 (0 : Fin 1) f) (ix1 f) fun a => ?_).trans ?_
  · match a with
    | ⟨0, _⟩ => rfl
  show BitVec.ofNat 32 f.val * BitVec.ofNat 32 40000 = _
  rw [Nat.mul_comm 40000 f.val, BitVec.ofNat_mul]

theorem xw_eq (x : IVec S16384x26 32) :
    shapeCast S425984
      (transpose S32x26x512 [0, 2, 1]
        (shapeCast S32x512x26
          (addi x (broadcastInDim S16384x26 ![0, 1] bcast_S1x26_S16384x26_0_1
            (broadcastInDim S1x26 ![1] bcast_S26_S1x26_1
              (muli (iotaInDim S26 32 0) (broadcastInDim S26 ![] bcast_S_S26 (constantI S_ 32 40000#32))))))
          shapeCasts_S16384x26_S32x512x26)
        transposes_S32x512x26_S32x26x512_0_2_1)
      shapeCasts_S32x26x512_S425984 = Layout.xw x := by
  funext p
  obtain ⟨n, rfl⟩ : ∃ n : Fin 425984, p = ix1 n := ⟨p 0, eq_ix1 p⟩
  have hn := n.isLt
  have hw : n.val / 13312 < 32 := by omega
  have hf : n.val % 13312 / 512 < 26 := by omega
  have hr : n.val % 512 < 512 := by omega
  have hb : 512 * (n.val / 13312) + n.val % 512 < 16384 := by omega
  refine (shapeCast_apply _ _ (ix1 n)
    (ix3 (⟨n.val / 13312, hw⟩ : Fin 32) (⟨n.val % 13312 / 512, hf⟩ : Fin 26) (⟨n.val % 512, hr⟩ : Fin 512)) ?_).trans ?_
  · rw [Shape.rowMajor_val_three, Shape.rowMajor_val_one]
    show (n.val / 13312 * 26 + n.val % 13312 / 512) * 512 + n.val % 512 = n.val
    omega
  refine (transpose_ix3_021_apply _ _ _ _ _).trans ?_
  refine (shapeCast_apply _ _ _
    (ix2 (⟨512 * (n.val / 13312) + n.val % 512, hb⟩ : Fin 16384) (⟨n.val % 13312 / 512, hf⟩ : Fin 26)) ?_).trans ?_
  · rw [Shape.rowMajor_val_three, Shape.rowMajor_val_two]
    show (512 * (n.val / 13312) + n.val % 512) * 26 + n.val % 13312 / 512
      = (n.val / 13312 * 512 + n.val % 512) * 26 + n.val % 13312 / 512
    omega
  show x _ + _ = _
  rw [offs_apply]
  rfl

/-! ## The dense features: the same dealing, 16 features and 8192 entries per worker, nothing added. -/

theorem tbw_eq (t : FVec F S16384x16 .f32) :
    shapeCast S262144
      (transpose S32x16x512 [0, 2, 1] (shapeCast S32x512x16 t shapeCasts_S16384x16_S32x512x16)
        transposes_S32x512x16_S32x16x512_0_2_1)
      shapeCasts_S32x16x512_S262144 = Layout.tbw t := by
  funext p
  obtain ⟨n, rfl⟩ : ∃ n : Fin 262144, p = ix1 n := ⟨p 0, eq_ix1 p⟩
  have hn := n.isLt
  have hw : n.val / 8192 < 32 := by omega
  have hf : n.val % 8192 / 512 < 16 := by omega
  have hr : n.val % 512 < 512 := by omega
  have hb : 512 * (n.val / 8192) + n.val % 512 < 16384 := by omega
  refine (shapeCast_apply _ _ (ix1 n)
    (ix3 (⟨n.val / 8192, hw⟩ : Fin 32) (⟨n.val % 8192 / 512, hf⟩ : Fin 16) (⟨n.val % 512, hr⟩ : Fin 512)) ?_).trans ?_
  · rw [Shape.rowMajor_val_three, Shape.rowMajor_val_one]
    show (n.val / 8192 * 16 + n.val % 8192 / 512) * 512 + n.val % 512 = n.val
    omega
  refine (transpose_ix3_021_apply _ _ _ _ _).trans ?_
  refine (shapeCast_apply _ _ _
    (ix2 (⟨512 * (n.val / 8192) + n.val % 512, hb⟩ : Fin 16384) (⟨n.val % 8192 / 512, hf⟩ : Fin 16)) ?_).trans ?_
  · rw [Shape.rowMajor_val_three, Shape.rowMajor_val_two]
    show (512 * (n.val / 8192) + n.val % 512) * 16 + n.val % 8192 / 512
      = (n.val / 8192 * 512 + n.val % 512) * 16 + n.val % 8192 / 512
    omega
  rfl

/-! ## The table: the unit axis dropped. -/

theorem tabw_eq (tab : FVec F S1040000x1 .f32) :
    shapeCast S1040000 tab shapeCasts_S1040000x1_S1040000 = Layout.tabw tab := by
  funext p
  obtain ⟨n, rfl⟩ : ∃ n : Fin 1040000, p = ix1 n := ⟨p 0, eq_ix1 p⟩
  refine (shapeCast_apply _ _ (ix1 n) (ix2 n (0 : Fin 1)) ?_).trans ?_
  · rw [Shape.rowMajor_val_two, Shape.rowMajor_val_one]
    show n.val * 1 + 0 = n.val
    omega
  rfl

/-! ## The parameter vector

Positions below 256 read the 16 × 16 array whose row `k` is 16 copies of weight `k`, flattened: position `n` is in
row `n / 16`. The last 16 positions read the one-element sum of the two biases, broadcast. -/

theorem pvw_lt (W : FVec F S16x1 .f32) (lb bias : FVec F S1 .f32) (n : Fin 272) (h : n.val < 256) :
    Layout.pvw W lb bias (ix1 n) = W (ix2 (⟨n.val / 16, by omega⟩ : Fin 16) (0 : Fin 1)) := dif_pos h

theorem pvw_ge (W : FVec F S16x1 .f32) (lb bias : FVec F S1 .f32) (n : Fin 272) (h : ¬ n.val < 256) :
    Layout.pvw W lb bias (ix1 n) = FloatOps.addf (lb (ix1 0)) (bias (ix1 0)) := dif_neg h

theorem pvw_eq (W : FVec F S16x1 .f32) (lb bias : FVec F S1 .f32) :
    concatenate S272 0
      [⟨S256, shapeCast S256 (broadcastInDim S16x16 ![0] bcast_S16_S16x16_0 (shapeCast S16 W shapeCasts_S16x1_S16))
          shapeCasts_S16x16_S256⟩,
       ⟨S16, broadcastInDim S16 ![0] bcast_S1_S16_0 (addf lb bias)⟩]
      concatenates_S256_S16_S272_d0 = Layout.pvw W lb bias := by
  funext p
  obtain ⟨n, rfl⟩ : ∃ n : Fin 272, p = ix1 n := ⟨p 0, eq_ix1 p⟩
  have hn := n.isLt
  by_cases h : n.val < 256
  · rw [pvw_lt W lb bias n h]
    refine (concatenate_pair_apply_left (t := S272) (s₁ := S256) (s₂ := S16) _ _ _ _ (ix1 n) rfl (ix1 (⟨n.val, h⟩ : Fin 256)) fun b => ?_).trans ?_
    · match b with
      | ⟨0, _⟩ => rfl
    have h16 : n.val / 16 < 16 := by omega
    have hm : n.val % 16 < 16 := by omega
    refine (shapeCast_apply _ _ _ (ix2 (⟨n.val / 16, h16⟩ : Fin 16) (⟨n.val % 16, hm⟩ : Fin 16)) ?_).trans ?_
    · rw [Shape.rowMajor_val_two, Shape.rowMajor_val_one]
      show n.val / 16 * 16 + n.val % 16 = n.val
      omega
    refine (broadcastInDim_apply _ _ _ _ (ix1 (⟨n.val / 16, h16⟩ : Fin 16)) fun a => ?_).trans ?_
    · match a with
      | ⟨0, _⟩ => rfl
    refine (shapeCast_apply _ _ _ (ix2 (⟨n.val / 16, h16⟩ : Fin 16) (0 : Fin 1)) ?_).trans ?_
    · rw [Shape.rowMajor_val_two, Shape.rowMajor_val_one]
      show n.val / 16 * 1 + 0 = n.val / 16
      omega
    rfl
  · rw [pvw_ge W lb bias n h]
    have h16 : n.val - 256 < 16 := by omega
    refine (concatenate_pair_apply_right (t := S272) (s₁ := S256) (s₂ := S16) _ _ _ _ (ix1 n) rfl rfl (ix1 (⟨n.val - 256, h16⟩ : Fin 16))
      (fun b hb => ?_) ?_).trans ?_
    · match b with
      | ⟨0, _⟩ => exact absurd rfl hb
    · show n.val - 256 + 256 = n.val
      omega
    refine (broadcastInDim_apply _ _ _ _ (ix1 (0 : Fin 1)) fun a => ?_).trans ?_
    · match a with
      | ⟨0, _⟩ => rfl
    rfl

/-! ## The result read back: a unit axis added. -/

theorem colw_eq (o : FVec F S16384 .f32) :
    shapeCast S16384x1 o shapeCasts_S16384_S16384x1 = Layout.colw o := by
  funext i
  obtain ⟨a, b, rfl⟩ : ∃ (a : Fin 16384) (b : Fin 1), i = ix2 a b := ⟨i 0, i 1, eq_ix2 i⟩
  have hb := b.isLt
  refine (shapeCast_apply _ _ (ix2 a b) (ix1 a) ?_).trans ?_
  · rw [Shape.rowMajor_val_two, Shape.rowMajor_val_one]
    show a.val = a.val * 1 + b.val
    omega
  rfl

/-! ## What the operations leave in the buffers

From any contents `V` of the device's buffers: after the twenty operations the four buffers the call reads hold the
flat arrays of `Layout` of the arguments' contents, and the arguments, the call's result buffer and the program's
result buffer hold what they held; after the last operation the program's result is the column of the call's
result, and the arguments hold what they held. -/

variable (V : Valuation τ sig (Elt F))

theorem pre_v8 : after opsPre V (main_v8 : DevRef τ sig) = Layout.xw (V (main_arg0 : DevRef τ sig)) := by
  after_results
  exact xw_eq _

theorem pre_v11 : after opsPre V (main_v11 : DevRef τ sig) = Layout.tbw (V (main_arg1 : DevRef τ sig)) := by
  after_results
  exact tbw_eq _

theorem pre_v12 : after opsPre V (main_v12 : DevRef τ sig) = Layout.tabw (V (main_arg2 : DevRef τ sig)) := by
  after_results
  exact tabw_eq _

theorem pre_v18 : after opsPre V (main_v18 : DevRef τ sig)
    = Layout.pvw (V (main_arg3 : DevRef τ sig)) (V (main_arg4 : DevRef τ sig)) (V (main_arg5 : DevRef τ sig)) := by
  after_results
  exact pvw_eq _ _ _

theorem pre_arg0 : after opsPre V (main_arg0 : DevRef τ sig) = V (main_arg0 : DevRef τ sig) := by after_results
theorem pre_arg1 : after opsPre V (main_arg1 : DevRef τ sig) = V (main_arg1 : DevRef τ sig) := by after_results
theorem pre_arg2 : after opsPre V (main_arg2 : DevRef τ sig) = V (main_arg2 : DevRef τ sig) := by after_results
theorem pre_arg3 : after opsPre V (main_arg3 : DevRef τ sig) = V (main_arg3 : DevRef τ sig) := by after_results
theorem pre_arg4 : after opsPre V (main_arg4 : DevRef τ sig) = V (main_arg4 : DevRef τ sig) := by after_results
theorem pre_arg5 : after opsPre V (main_arg5 : DevRef τ sig) = V (main_arg5 : DevRef τ sig) := by after_results
theorem pre_v19 : after opsPre V (main_v19 : DevRef τ sig) = V (main_v19 : DevRef τ sig) := by after_results
theorem pre_v20 : after opsPre V (main_v20 : DevRef τ sig) = V (main_v20 : DevRef τ sig) := by after_results

theorem post_v20 : after [opPost] V (main_v20 : DevRef τ sig) = Layout.colw (V (main_v19 : DevRef τ sig)) := by
  after_results
  exact colw_eq _

theorem post_arg0 : after [opPost] V (main_arg0 : DevRef τ sig) = V (main_arg0 : DevRef τ sig) := by after_results
theorem post_arg1 : after [opPost] V (main_arg1 : DevRef τ sig) = V (main_arg1 : DevRef τ sig) := by after_results
theorem post_arg2 : after [opPost] V (main_arg2 : DevRef τ sig) = V (main_arg2 : DevRef τ sig) := by after_results
theorem post_arg3 : after [opPost] V (main_arg3 : DevRef τ sig) = V (main_arg3 : DevRef τ sig) := by after_results
theorem post_arg4 : after [opPost] V (main_arg4 : DevRef τ sig) = V (main_arg4 : DevRef τ sig) := by after_results
theorem post_arg5 : after [opPost] V (main_arg5 : DevRef τ sig) = V (main_arg5 : DevRef τ sig) := by after_results

end Cert.Proof.KHost

end
-- ==== Proof.KWMain.lean ====
/-
  The program's own thread: the host operations, the call, the operation after it.

  From the launch the thread holds every tensor value's buffer whole at its launch contents. The twenty operations
  leave the four arrays the workers read at the flat arrays of the arguments, and everything else as it was. The four
  are dealt out as 32 read shares each and the flat result as its 32 runs of 512; worker `2 * i + c` is tile `i` of
  SparseCore `c`, so the 32 pieces are the two SparseCores' sixteen each. The call takes them and hands back the 32 runs
  at the numbers the workers computed: the flat result whole. The last operation reads it as a column. What is left
  is the six arguments at their launch contents and the result at that column.
-/
import proofs.«207416_g64579128263113_cont_9to1_m_974_55_alg».proof.Proof.KWTile
import proofs.«207416_g64579128263113_cont_9to1_m_974_55_alg».proof.Proof.KHostOps
import proofs.«207416_g64579128263113_cont_9to1_m_974_55_alg».proof.Proof.KHostValue

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr wp_seq after)

variable (m : (ℓ : Loc nD τ sig) → Buf (Elt F) ℓ) (ρ : Dev nD → PrngReg)

variable [FloatOps F]

/-! ## The buffers by name, and the valuations the thread passes through -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev b4 : DevRef τ sig := Proc.devRef .tc (main_arg4 : Ref sig .tc)
abbrev b5 : DevRef τ sig := Proc.devRef .tc (main_arg5 : Ref sig .tc)
abbrev bxw : DevRef τ sig := Proc.devRef .tc (main_v8 : Ref sig .tc)
abbrev btb : DevRef τ sig := Proc.devRef .tc (main_v11 : Ref sig .tc)
abbrev btab : DevRef τ sig := Proc.devRef .tc (main_v12 : Ref sig .tc)
abbrev bpv : DevRef τ sig := Proc.devRef .tc (main_v18 : Ref sig .tc)
abbrev bo : DevRef τ sig := Proc.devRef .tc (main_v19 : Ref sig .tc)
abbrev br : DevRef τ sig := Proc.devRef .tc (main_v20 : Ref sig .tc)

/-- The five buffers the call uses; the four it only reads; the seven the program's claim speaks of. -/
abbrev T5 : Finset (DevRef τ sig) := {bxw, btb, btab, bpv, bo}
abbrev T4 : Finset (DevRef τ sig) := {bxw, btb, btab, bpv}
abbrev T7 : Finset (DevRef τ sig) := {b0, b1, b2, b3, b4, b5, br}

/-- The launch contents; after the twenty operations; with the flat result at what the call left; after the last operation. -/
def V0 (d : Dev nD) : Valuation τ sig (Elt F) := fun b => m (d, b)
abbrev V1 (d : Dev nD) : Valuation τ sig (Elt F) := after KHost.opsPre (V0 m d)
def V2 (d : Dev nD) : Valuation τ sig (Elt F) := Function.update (V1 m d) bo (oC m d)
abbrev V3 (d : Dev nD) : Valuation τ sig (Elt F) := after [KHost.opPost] (V2 m d)

omit [FloatOps F] in
/-- The launch's unscoped buffers are the twenty-eight, held at the launch contents. -/
theorem unscoped_held (d : Dev nD) :
    (unscopedBufs d (fun b => m ((SparseCore.T d).loc b)) : sProp 𝕄) = held (SparseCore.T d) KHost.SAll (V0 m d) := by
  unfold unscopedBufs held
  rw [KHost.SAll_eq_map, bigSep_map]
  rfl

/-! ## Contents -/

theorem V1_xw (d : Dev nD) : V1 m d bxw = xwC m d := KHost.pre_v8 (V0 m d)
theorem V1_tb (d : Dev nD) : V1 m d btb = tbC m d := KHost.pre_v11 (V0 m d)
theorem V1_tab (d : Dev nD) : V1 m d btab = tabC m d := KHost.pre_v12 (V0 m d)
theorem V1_pv (d : Dev nD) : V1 m d bpv = pvC m d := KHost.pre_v18 (V0 m d)
theorem V1_o (d : Dev nD) : V1 m d bo = m (oLoc d) := KHost.pre_v19 (V0 m d)

theorem V3_0 (d : Dev nD) : V3 m d b0 = m (a0Loc d) :=
  (KHost.post_arg0 (V2 m d)).trans ((Function.update_of_ne (show b0 ≠ bo by decide) _ _).trans (KHost.pre_arg0 (V0 m d)))
theorem V3_1 (d : Dev nD) : V3 m d b1 = m (a1Loc d) :=
  (KHost.post_arg1 (V2 m d)).trans ((Function.update_of_ne (show b1 ≠ bo by decide) _ _).trans (KHost.pre_arg1 (V0 m d)))
theorem V3_2 (d : Dev nD) : V3 m d b2 = m (a2Loc d) :=
  (KHost.post_arg2 (V2 m d)).trans ((Function.update_of_ne (show b2 ≠ bo by decide) _ _).trans (KHost.pre_arg2 (V0 m d)))
theorem V3_3 (d : Dev nD) : V3 m d b3 = m (a3Loc d) :=
  (KHost.post_arg3 (V2 m d)).trans ((Function.update_of_ne (show b3 ≠ bo by decide) _ _).trans (KHost.pre_arg3 (V0 m d)))
theorem V3_4 (d : Dev nD) : V3 m d b4 = m (a4Loc d) :=
  (KHost.post_arg4 (V2 m d)).trans ((Function.update_of_ne (show b4 ≠ bo by decide) _ _).trans (KHost.pre_arg4 (V0 m d)))
theorem V3_5 (d : Dev nD) : V3 m d b5 = m (a5Loc d) :=
  (KHost.post_arg5 (V2 m d)).trans ((Function.update_of_ne (show b5 ≠ bo by decide) _ _).trans (KHost.pre_arg5 (V0 m d)))
theorem V3_r (d : Dev nD) : V3 m d br = Layout.colw (oC m d) :=
  (KHost.post_v20 (V2 m d)).trans (congrArg Layout.colw (Function.update_self _ _ _))

/-! ## The held sets, buffer by buffer -/

omit [FloatOps F] in
theorem held_T5 (d : Dev nD) (W : Valuation τ sig (Elt F)) :
    (held (SparseCore.T d) T5 W : sProp 𝕄)
      = iprop((xwLoc d ↦{fullShare} W bxw) ∗ (tbLoc d ↦{fullShare} W btb) ∗ (tabLoc d ↦{fullShare} W btab) ∗ (pvLoc d ↦{fullShare} W bpv)
          ∗ oLoc d ↦{fullShare} W bo) := by
  unfold held T5
  rw [SparseCore.bigSep_insert' (by decide), SparseCore.bigSep_insert' (by decide), SparseCore.bigSep_insert' (by decide),
    SparseCore.bigSep_insert' (by decide), bigSep_singleton]

omit [FloatOps F] in
theorem held_T7 (d : Dev nD) (W : Valuation τ sig (Elt F)) :
    (held (SparseCore.T d) T7 W : sProp 𝕄)
      = iprop((a0Loc d ↦{fullShare} W b0) ∗ (a1Loc d ↦{fullShare} W b1) ∗ (a2Loc d ↦{fullShare} W b2) ∗ (a3Loc d ↦{fullShare} W b3)
          ∗ (a4Loc d ↦{fullShare} W b4) ∗ (a5Loc d ↦{fullShare} W b5) ∗ rLoc d ↦{fullShare} W br) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem T5_sub : T5 ⊆ (KHost.SAll : Finset (DevRef τ sig)) := by decide
omit [FloatOps F] in
theorem T7_sub : T7 ⊆ (KHost.SAll \ T4 : Finset (DevRef τ sig)) := by decide
omit [FloatOps F] in
theorem rest_eq : (KHost.SAll \ T4 : Finset (DevRef τ sig)) = insert bo (KHost.SAll \ T5) := by decide
omit [FloatOps F] in
theorem bo_notMem : bo ∉ (KHost.SAll \ T5 : Finset (DevRef τ sig)) := by decide

/-- After the twenty operations the call's five buffers hold the flat arrays of the arguments and the flat result's
    launch contents. -/
theorem held_T5_V1 (d : Dev nD) :
    (held (SparseCore.T d) T5 (V1 m d) : sProp 𝕄)
      = iprop((xwLoc d ↦{fullShare} xwC m d) ∗ (tbLoc d ↦{fullShare} tbC m d) ∗ (tabLoc d ↦{fullShare} tabC m d) ∗ (pvLoc d ↦{fullShare} pvC m d)
          ∗ oLoc d ↦{fullShare} m (oLoc d)) := by
  rw [held_T5, V1_xw, V1_tb, V1_tab, V1_pv, V1_o]

/-- With the flat result back whole, what is held besides the four arrays the workers read. -/
theorem held_V2 (d : Dev nD) :
    (held (SparseCore.T d) (KHost.SAll \ T4) (V2 m d) : sProp 𝕄)
      = iprop((oLoc d ↦{fullShare} oC m d) ∗ held (SparseCore.T d) (KHost.SAll \ T5) (V1 m d)) := by
  have e1 : V2 m d bo = oC m d := Function.update_self _ _ _
  have e2 : (held (SparseCore.T d) (KHost.SAll \ T5) (V2 m d) : sProp 𝕄) = held (SparseCore.T d) (KHost.SAll \ T5) (V1 m d) :=
    held_congr (SparseCore.T d) fun b hb => Function.update_of_ne (show b ≠ bo from fun e => bo_notMem (e ▸ hb)) _ _
  rw [rest_eq, ← e2, ← e1]
  unfold held
  exact SparseCore.bigSep_insert' bo_notMem

/-- What @main leaves: the six arguments at their launch contents, the result at the column of the flat result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{fullShare} m (a4Loc d)) ∗ (a5Loc d ↦{fullShare} m (a5Loc d))
    ∗ rLoc d ↦{fullShare} Layout.colw (oC m d))

theorem held_fin (d : Dev nD) : (held (SparseCore.T d) (KHost.SAll \ T4) (V3 m d) : sProp 𝕄) ⊢ FIN m d := by
  rw [held_sub_split (SparseCore.T d) T7_sub (V3 m d), held_T7, V3_0, V3_1, V3_2, V3_3, V3_4, V3_5, V3_r]
  exact sep_elim_left

/-! ## The 32 workers as the two SparseCores' sixteen tiles -/

/-- Tile `i` of SparseCore `c` is worker `2 * i + c`: every worker is exactly one of them. -/
def widEquiv : Fin ((K (F := F)).nCore 0) × Fin ((K (F := F)).nSub 0) ≃ Fin 32 where
  toFun p := widK p.1 p.2
  invFun w := (⟨w.val % 2, lt_of_lt_of_eq (Nat.mod_lt _ (by norm_num)) nCore_zero.symm⟩,
    ⟨w.val / 2, lt_of_lt_of_eq (by have := w.isLt; omega) nSub_zero.symm⟩)
  left_inv p := by
    rcases p with ⟨c, i⟩
    have hc : c.val < 2 := lt_of_lt_of_eq c.isLt nCore_zero
    have hi : i.val < 16 := lt_of_lt_of_eq i.isLt nSub_zero
    refine Prod.ext (Fin.ext ?_) (Fin.ext ?_)
    · show (2 * i.val + c.val) % 2 = c.val
      omega
    · show (2 * i.val + c.val) / 2 = i.val
      omega
  right_inv w := Fin.ext (by
    show 2 * (w.val / 2) + w.val % 2 = w.val
    omega)

omit [FloatOps F] in
theorem bigSep_wid (Φ : Fin 32 → sProp 𝕄) :
    bigSep Finset.univ Φ
      = bigSep Finset.univ fun c : Fin ((K (F := F)).nCore 0) => bigSep Finset.univ fun i : Fin ((K (F := F)).nSub 0) => Φ (widK c i) := by
  rw [bigSep_univ_equiv (widEquiv (F := F)) Φ, bigSep_univ_prod]
  rfl

/-- What the call takes is every worker's part. -/
theorem st0_eq (d : Dev nD) :
    (bigSep Finset.univ fun c : Fin ((K (F := F)).nCore 0) => (P m).st 0 d c) = bigSep Finset.univ fun w : Fin 32 => hbmPart m d w (m (oLoc d)) :=
  (bigSep_wid (fun w : Fin 32 => hbmPart m d w (m (oLoc d)))).symm

/-- What it hands back is the flat result whole, at the workers' numbers. -/
theorem dn0_eq (d : Dev nD) :
    (bigSep Finset.univ fun c : Fin ((K (F := F)).nCore 0) => (P m).dn 0 d c) = (oLoc d ↦{fullShare} oC m d : sProp 𝕄) := by
  rw [oPts_runs, bigSep_wid]
  rfl

/-- The four arrays the workers read, each whole, and the flat result whole, are every worker's part: a read share of
    each of the four (what is left of each after 32 read shares is let go) and the worker's run of the flat result. -/
theorem deal (d : Dev nD) (fo : Buf (Elt F) (oLoc d)) :
    iprop((xwLoc d ↦{fullShare} xwC m d) ∗ (tbLoc d ↦{fullShare} tbC m d) ∗ (tabLoc d ↦{fullShare} tabC m d) ∗ (pvLoc d ↦{fullShare} pvC m d)
        ∗ oLoc d ↦{fullShare} fo)
      ⊢ (bigSep Finset.univ fun w : Fin 32 => hbmPart m d w fo : sProp 𝕄) := by
  have toks : ∀ {ℓ : Loc nD τ sig} (f : Buf (Elt F) ℓ),
      (ℓ ↦{fullShare} f : sProp 𝕄) ⊢ bigSep Finset.univ fun w : Fin 32 => ℓ ↦{rs w.val} f := fun f =>
    (Transfers.pointsTo_toks_split fullShare 32).trans (sep_comm.1.trans sep_elim_left)
  show _ ⊢ bigSep Finset.univ fun w : Fin 32 => iprop((xwLoc d ↦{rs w.val} xwC m d) ∗ (tbLoc d ↦{rs w.val} tbC m d)
    ∗ (tabLoc d ↦{rs w.val} tabC m d) ∗ (pvLoc d ↦{rs w.val} pvC m d) ∗ oLoc d ↦[orunSet w]{fullShare} fo)
  rw [bigSep_sep', bigSep_sep', bigSep_sep', bigSep_sep', ← oPts_runs]
  exact BIClass.sep_mono (toks _) (BIClass.sep_mono (toks _) (BIClass.sep_mono (toks _) (BIClass.sep_mono (toks _) .rfl)))

theorem to_st0 (d : Dev nD) :
    (held (SparseCore.T d) T5 (V1 m d) : sProp 𝕄) ⊢ bigSep Finset.univ fun c : Fin ((K (F := F)).nCore 0) => (P m).st 0 d c := by
  rw [held_T5_V1, st0_eq]
  exact deal m d (m (oLoc d))

omit [FloatOps F] in
theorem opPost_sub : ∀ op ∈ [KHost.opPost (F := F)], op.bufs ⊆ (KHost.SAll \ T4 : Finset (DevRef τ sig)) := by
  intro op hop
  rw [List.mem_singleton.mp hop]
  show ({bo, br} : Finset (DevRef τ sig)) ⊆ KHost.SAll \ T4
  decide

/-! ## The thread's run -/

/-- @main on device `d`'s own thread: the twenty operations over all its buffers; the call, from the five buffers it
    uses; the last operation over what is still held whole; the arguments and the result kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, KHost.main_eq]
  iintro ⟨#Hctx, Hst, ⟨Hb, Hheld, -, -⟩, -⟩
  iapply (wp_seq 𝒱 none Set.univ d KHost.SAll _ KHost.opsPre KHost.opsPre_sub KHost.opsPre_fresh (V0 m d)) $$ [Hb Hheld]
  · isplitl [Hb]; · iexact Hb
    iexact Hheld
  iintro ⟨Hb, Hheld⟩
  ihave Hh := (Entails.of_eq (held_sub_split (SparseCore.T d) T5_sub (V1 m d))) $$ Hheld
  icases Hh with ⟨H5, Hrest⟩
  ihave Hst0 := (to_st0 m d) $$ H5
  rw [wp_bind]
  iapply ((K (F := F)).wp_run (D (F := F)) 𝒱 (EH := EH) (P := P m) κ d 0) $$ [Hst Hst0 Hb Hrest]
  isplitr; · iexact Hctx
  isplitl [Hst]; · iexact Hst
  isplitl [Hst0]; · iexact Hst0
  iintro ⟨Hst, Hdn⟩
  ihave Ho := (Entails.of_eq (dn0_eq m d)) $$ Hdn
  ihave Hheld := (Entails.of_eq (held_V2 m d).symm) $$ [Ho Hrest]
  · isplitl [Ho]; · iexact Ho
    iexact Hrest
  iapply (wp_seq 𝒱 none Set.univ d (KHost.SAll \ T4) _ [KHost.opPost] opPost_sub KHost.opPost_fresh' (V2 m d)) $$ [Hb Hheld]
  · isplitl [Hb]; · iexact Hb
    iexact Hheld
  iintro ⟨Hb, Hheld⟩
  ihave Hfin := (held_fin m d) $$ Hheld
  rw [wp_pure]
  imodintro
  isplitl [Hst]; · iexact Hst
  iexact Hfin

def fq (d : Dev nD) (s' : Phys nD τ sig (Elt F)) : Prop :=
  s'.mem.mem (rLoc d) = Layout.colw (oC m d) ∧ s'.mem.mem (a0Loc d) = m (a0Loc d) ∧ s'.mem.mem (a1Loc d) = m (a1Loc d)
    ∧ s'.mem.mem (a2Loc d) = m (a2Loc d) ∧ s'.mem.mem (a3Loc d) = m (a3Loc d) ∧ s'.mem.mem (a4Loc d) = m (a4Loc d)
    ∧ s'.mem.mem (a5Loc d) = m (a5Loc d)

/-- A buffer held whole, under the state interpretation, is the physical buffer. -/
theorem agree (s' : Phys nD τ sig (Elt F)) (ℓ : Loc nD τ sig) (f : Buf (Elt F) ℓ) :
    iprop(SI s' ∗ ℓ ↦{fullShare} f) ⊢ iprop(⌜s'.mem.mem ℓ = f⌝ ∗ (SI s' : sProp 𝕄)) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, Hr⟩, HSI⟩
  ihave H := (agree s' (a0Loc d) (m (a0Loc d))) $$ [HSI H0]
  · isplitl [HSI] <;> iassumption
  icases H with ⟨%h0, HSI⟩
  ihave H := (agree s' (a1Loc d) (m (a1Loc d))) $$ [HSI H1]
  · isplitl [HSI] <;> iassumption
  icases H with ⟨%h1, HSI⟩
  ihave H := (agree s' (a2Loc d) (m (a2Loc d))) $$ [HSI H2]
  · isplitl [HSI] <;> iassumption
  icases H with ⟨%h2, HSI⟩
  ihave H := (agree s' (a3Loc d) (m (a3Loc d))) $$ [HSI H3]
  · isplitl [HSI] <;> iassumption
  icases H with ⟨%h3, HSI⟩
  ihave H := (agree s' (a4Loc d) (m (a4Loc d))) $$ [HSI H4]
  · isplitl [HSI] <;> iassumption
  icases H with ⟨%h4, HSI⟩
  ihave H := (agree s' (a5Loc d) (m (a5Loc d))) $$ [HSI H5]
  · isplitl [HSI] <;> iassumption
  icases H with ⟨%h5, HSI⟩
  ihave H := (agree s' (rLoc d) (Layout.colw (oC m d))) $$ [HSI Hr]
  · isplitl [HSI] <;> iassumption
  icases H with ⟨%hr, -⟩
  ipureintro; exact ⟨hr, h0, h1, h2, h3, h4, h5⟩

end Cert.Proof.KW

end
-- ==== Proof.KWSplit.lean ====
/-
  How a SparseCore's share of the call is dealt to its sixteen tasks, and gathered back.

  What the SparseCore is handed for the call is already its sixteen tasks' parts of the arrays in device memory. Its
  shared copy of the table is among its sequencer's own buffers: whole, at whatever it holds. It is cut into the 13
  slabs, and slab `n` goes to task `n`; tasks 13, 14 and 15 get nothing of it. Coming back, every task hands in its
  run of the flat result, what it kept of its slab, and its read share of each of the 13 slabs, all filled with the
  table's rows. Slab by slab, the kept remainder and the sixteen read shares make the slab whole again; the 13 slabs
  make the shared copy whole, now at the table's contents; and that is again one of the sequencer's own buffers at
  some contents.
-/
import proofs.«207416_g64579128263113_cont_9to1_m_974_55_alg».proof.Proof.KWBarrier

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A family over the first `N` of `M` indices -/

omit [FloatOps F] in
/-- Over `M` indices, a family that is `Ψ` on the first `N` and empty on the others is `Ψ` over its `N`. -/
theorem bigSep_dite_lt {N M : ℕ} (hNM : N ≤ M) (Ψ : Fin N → sProp 𝕄) :
    (bigSep (Finset.univ : Finset (Fin M)) fun i => if h : i.val < N then Ψ ⟨i.val, h⟩ else iprop(emp)) = bigSep Finset.univ Ψ := by
  rw [SparseCore.bigSep_filter_split' Finset.univ (fun i : Fin M => i.val < N)]
  have e2 : (bigSep ((Finset.univ : Finset (Fin M)).filter fun i => ¬ i.val < N) fun i => if h : i.val < N then Ψ ⟨i.val, h⟩ else iprop(emp))
      = (iprop(emp) : sProp 𝕄) := by
    refine (bigSep_congr (Ψ := fun _ => iprop(emp)) fun i hi => dif_neg (Finset.mem_filter.mp hi).2).trans ?_
    exact bigSep_emp_const _
  have hset : ((Finset.univ : Finset (Fin M)).filter fun i => i.val < N) = (Finset.univ : Finset (Fin N)).map (Fin.castLEEmb hNM) := by
    ext i
    simp only [Finset.mem_filter, Finset.mem_univ, _root_.true_and, Finset.mem_map]
    constructor
    · intro h; exact ⟨⟨i.val, h⟩, Fin.ext rfl⟩
    · rintro ⟨n, rfl⟩; exact n.isLt
  have e1 : (bigSep ((Finset.univ : Finset (Fin M)).filter fun i => i.val < N) fun i => if h : i.val < N then Ψ ⟨i.val, h⟩ else iprop(emp))
      = bigSep Finset.univ Ψ := by
    rw [hset, bigSep_map]
    exact bigSep_congr fun n _ => dif_pos n.isLt
  rw [e1, e2]
  exact equiv_iff.mp sep_emp

/-! ## The sequencer's own buffers -/

omit [FloatOps F] in
/-- The shared copy of the table is one of the sequencer's own buffers: it, at some contents, and the others. -/
theorem ownBufs_S (d : Dev nD) (c : Fin τ.nSC) :
    (ownBufs (SparseCore.S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-! ## Dealing the slabs out, and gathering them -/

omit [FloatOps F] in
theorem le_nSub : 13 ≤ (K (F := F)).nSub 0 := by rw [nSub_zero]; norm_num

omit [FloatOps F] in
/-- The shared copy whole, at any contents, is a slab for each of the first 13 tasks and nothing for the last three. -/
theorem slabs_deal (d : Dev nD) (c : Fin τ.nSC) (f : Buf (Elt F) (shLoc d c)) :
    (shLoc d c ↦{fullShare} f : sProp 𝕄) ⊢ bigSep Finset.univ fun i : Fin ((K (F := F)).nSub 0) => slabOwn (F := F) d c i.val := by
  have e : (bigSep Finset.univ fun i : Fin ((K (F := F)).nSub 0) => slabOwn (F := F) d c i.val)
      = bigSep Finset.univ fun n : Fin 13 => (iprop(∃ g, shLoc d c ↦[slabSet n]{fullShare} g) : sProp 𝕄) :=
    bigSep_dite_lt (F := F) le_nSub (fun n : Fin 13 => (iprop(∃ g, shLoc d c ↦[slabSet n]{fullShare} g) : sProp 𝕄))
  rw [e, shPts_slabs]
  exact bigSep_mono fun n _ => BI.BIClass.exists_intro (Φ := fun g => (shLoc d c ↦[slabSet n]{fullShare} g : sProp 𝕄)) f

/-- A slab's kept remainder and the sixteen tasks' read shares of it, all filled, are the slab whole, filled. -/
theorem slab_join (d : Dev nD) (c : Fin τ.nSC) (n : Fin 13) :
    iprop((shLoc d c ↦[slabSet n]{Transfers.shareDrop fullShare 16} shC m d c)
        ∗ bigSep Finset.univ fun i : Fin ((K (F := F)).nSub 0) => slabRd m d c n i.val)
      ⊢ (shLoc d c ↦[slabSet n]{fullShare} shC m d c : sProp 𝕄) :=
  Transfers.pointsTo_toks_join fullShare 16

/-- What the sixteen tasks hand in of the shared copy — each what it kept of its slab and its read share of every slab —
    is the shared copy whole, at the table's contents. -/
theorem slabs_join (d : Dev nD) (c : Fin τ.nSC) :
    (bigSep Finset.univ fun i : Fin ((K (F := F)).nSub 0) => iprop(slabKept m d c i.val ∗ slabsRd m d c i.val))
      ⊢ (shLoc d c ↦{fullShare} shC m d c : sProp 𝕄) := by
  have eK : (bigSep Finset.univ fun i : Fin ((K (F := F)).nSub 0) => slabKept m d c i.val)
      = bigSep Finset.univ fun n : Fin 13 => (shLoc d c ↦[slabSet n]{Transfers.shareDrop fullShare 16} shC m d c : sProp 𝕄) :=
    bigSep_dite_lt (F := F) le_nSub (fun n : Fin 13 => (shLoc d c ↦[slabSet n]{Transfers.shareDrop fullShare 16} shC m d c : sProp 𝕄))
  have eR : (bigSep Finset.univ fun i : Fin ((K (F := F)).nSub 0) => slabsRd m d c i.val)
      = bigSep Finset.univ fun n : Fin 13 => bigSep Finset.univ fun i : Fin ((K (F := F)).nSub 0) => slabRd m d c n i.val :=
    bigSep_univ_comm (fun (i : Fin ((K (F := F)).nSub 0)) (n : Fin 13) => slabRd m d c n i.val)
  rw [bigSep_sep' Finset.univ (fun i : Fin ((K (F := F)).nSub 0) => slabKept m d c i.val) (fun i => slabsRd m d c i.val), eK, eR,
    ← bigSep_sep', shPts_slabs]
  exact bigSep_mono fun n _ => slab_join m d c n

/-! ## The split -/

theorem vecSplit : (K (F := F)).VecSplit (P m) 0 := by
  intro d c
  show iprop((bigSep Finset.univ fun i : Fin ((K (F := F)).nSub 0) => hbmPart m d (widK c i) (m (oLoc d))) ∗ ownBufs (SparseCore.S d (coreOf c)))
    ⊢ |={Set.univ}=> iprop(
      (bigSep Finset.univ fun i : Fin ((K (F := F)).nSub 0) => iprop(hbmPart m d (widK c i) (m (oLoc d)) ∗ slabOwn d (coreOf c) i.val))
      ∗ ((bigSep Finset.univ fun i : Fin ((K (F := F)).nSub 0) =>
            iprop((oLoc d ↦[orunSet (widK c i)]{fullShare} oC m d) ∗ slabKept m d (coreOf c) i.val ∗ slabsRd m d (coreOf c) i.val))
          -∗ iprop((bigSep Finset.univ fun i : Fin ((K (F := F)).nSub 0) => oLoc d ↦[orunSet (widK c i)]{fullShare} oC m d)
            ∗ ownBufs (SparseCore.S d (coreOf c)))))
  rw [bigSep_sep' Finset.univ (fun i : Fin ((K (F := F)).nSub 0) => hbmPart m d (widK c i) (m (oLoc d))) (fun i => slabOwn (F := F) d (coreOf c) i.val),
    bigSep_sep' Finset.univ (fun i : Fin ((K (F := F)).nSub 0) => (oLoc d ↦[orunSet (widK c i)]{fullShare} oC m d : sProp 𝕄))
      (fun i => iprop(slabKept m d (coreOf c) i.val ∗ slabsRd m d (coreOf c) i.val)),
    ownBufs_S]
  iintro ⟨Hst, ⟨%fsh, Hsh⟩, Hrest⟩; imodintro
  isplitl [Hst Hsh]
  · isplitl [Hst]; · iexact Hst
    iapply (slabs_deal d (coreOf c) fsh); iexact Hsh
  iintro ⟨Ho, Hkr⟩
  isplitl [Ho]; · iexact Ho
  isplitl [Hkr]
  · iexists (shC m d (coreOf c)); iapply (slabs_join m d (coreOf c)); iexact Hkr
  iexact Hrest

end Cert.Proof.KW

end
-- ==== Proof.KWLaunchElem.lean ====
/-
  The launch element: the ghost state the run starts from, and what it buys.

  Beside the handshakes' rounds the run needs one round per barrier semaphore — every tile's — with sixteen duties,
  one per tile of its SparseCore. The launch element funds each of those cells at counter zero: its round state, the
  fact that round 0 is reached, its owner's position, and a token per duty. The semaphores themselves, at zero, come
  with the free semaphores the launch hands over, and with the round states they open the cells' invariants, all at
  once. The launch's credit for what the tiles owe — a unit on every barrier semaphore of the SparseCore, from each
  tile — is, counted by semaphore, sixteen units on each: its owner's credit for a full round. Every tile is then
  handed the invariants and reached-facts of its SparseCore's sixteen cells (they are persistent: everyone gets
  them), its own position, its sixteen tokens, and its credit.
-/
import proofs.«207416_g64579128263113_cont_9to1_m_974_55_alg».proof.Proof.KWBarrier

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The barrier cells and their tokens -/

abbrev DCI : Type := Dev nD × Fin τ.nSC × Fin τ.nSub
/-- The barrier cell of the tile at `x`. -/
abbrev tileCell (x : DCI) : GSem nD τ sig := bcell x.1 x.2.1 x.2.2

/-- Every tile's barrier cell. -/
def bCells : Finset (GSem nD τ sig) := Finset.univ.image tileCell
/-- Tile `i`'s unit in round 0 of tile `j`'s cell, for every two tiles `i`, `j` of one SparseCore. -/
def bToks : Finset (GSem nD τ sig × ℕ × ℕ) :=
  Finset.univ.image fun x : DCI × Fin (grid0.bound 1) => (bcell x.1.1 x.1.2.1 (x.2.castLE hsub0), 0, x.1.2.2.val)

def u₀ : UU := (initOf (K (F := F)).hsCells (K (F := F)).hsToks, (initOf bCells bToks, 1))

omit [FloatOps F] in
theorem tileCell_injective : Function.Injective (tileCell : DCI → GSem nD τ sig) := by
  rintro ⟨d, c, i⟩ ⟨d', c', i'⟩ e
  have h1 := (Prod.mk.inj (Prod.mk.inj e).1)
  obtain ⟨hc, hi⟩ := Proc.scVector.inj h1.2
  exact Prod.ext h1.1 (Prod.ext hc hi)

omit [FloatOps F] in
/-- A family over the barrier cells is a family over the tiles. -/
theorem bCells_tiles (Φ : GSem nD τ sig → sProp 𝕄) : bigSep bCells Φ = bigSep Finset.univ fun x : DCI => Φ (tileCell x) := by
  unfold bCells
  exact SparseCore.bigSep_image_of_injOn (fun a _ b _ e => tileCell_injective e) Φ

omit [FloatOps F] in
/-- The tokens, tile by tile: each tile's unit in every cell of its SparseCore. -/
theorem bToks_tiles : (bigSep bToks fun x => (dutyTok EB x.1 x.2.1 x.2.2 : sProp 𝕄))
    = bigSep Finset.univ fun x : DCI => bigSep Finset.univ fun j : Fin (grid0.bound 1) =>
        dutyTok EB (bcell x.1 x.2.1 (j.castLE hsub0)) 0 x.2.2.val := by
  unfold bToks
  rw [SparseCore.bigSep_image_of_injOn, bigSep_univ_prod]
  rintro ⟨⟨d, c, i⟩, j⟩ - ⟨⟨d', c', i'⟩, j'⟩ - e
  have e1 := Prod.mk.inj e
  have e2 := Prod.mk.inj (Prod.mk.inj e1.1).1
  obtain ⟨hc, hj⟩ := Proc.scVector.inj e2.2
  have hi : i = i' := Fin.ext (Prod.mk.inj e1.2).2
  have hj' : j = j' := Fin.ext (congrArg Fin.val hj)
  obtain rfl := e2.1
  subst hc hi hj'
  rfl

/-! ## The element's two halves -/

omit [FloatOps F] in
theorem own_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The semaphores and the invariants -/

omit [FloatOps F] in
/-- Every barrier semaphore at zero is among the free semaphores. -/
theorem barrier_sems : ((K (F := F)).freeSems0 : sProp 𝕄) ⊢ bigSep bCells fun g => semVal g 0 := by
  rw [bCells_tiles]
  unfold SparseCore.Cfg.freeSems0
  refine sep_elim_right.trans (bigSep_mono fun x _ => ?_)
  unfold SparseCore.Cfg.vcSems0
  exact bigSep_elim (Φ := fun sm : SemLoc sig => (semVal (V x.1 x.2.1 x.2.2, sm) 0 : sProp 𝕄))
    (Finset.mem_erase.mpr ⟨fun h => sc_bar0_ne_go (SemLoc.reg.inj h), Finset.mem_filter.mpr ⟨Finset.mem_univ _, by decide⟩⟩)

/-- The cells' invariants, opened all at once from the semaphores and the round states at zero. -/
theorem barrier_invs :
    iprop((bigSep bCells fun g => (semVal g 0 : sProp 𝕄)) ∗ bigSep bCells fun g => roundState EB (bRd (F := F) m) g 0)
      ⊢ |={Set.univ}=> iprop(∃ κ : GSem nD τ sig → ℕ, bigSep bCells fun g => cellInv EB (bRd (F := F) m) (κ g) g) := by
  refine (Rounds.bodies_intro EB (bRd (F := F) m) bCells).trans
    ((inv_alloc_family bCells (Rounds.body EB (bRd (F := F) m)) ∅ (E := Set.univ)).trans ?_)
  iintro H
  imod H with ⟨%κ, -, Hinv⟩
  imodintro; iexists κ; iexact Hinv

/-! ## The credit, counted by semaphore -/

omit [FloatOps F] in
/-- `n` unit tallies on one cell are the tally of `n`. -/
theorem tally_units (g : GSem nD τ sig) (ι : HIx 1) : ∀ n : ℕ, (∑ _k : Fin n, tallyAt g ι 1) = (tallyAt g ι n : CellTallies nD τ sig (HIx 1))
  | 0 => by rw [Finset.univ_eq_empty, Finset.sum_empty, tallyAt_zero]
  | n + 1 => by rw [Fin.sum_univ_castSucc, tally_units g ι n, tallyAt_add]

omit [FloatOps F] in
theorem nSub_eq : grid0.bound 1 = τ.nSub := rfl

/-- What a tile owes over the whole run is what it owes at the one call: a unit on every barrier semaphore of its
    SparseCore. -/
theorem oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]
  rfl

omit [FloatOps F] in
/-- On one SparseCore: a unit from each of the sixteen tiles on each of the sixteen barrier semaphores is, semaphore by
    semaphore, sixteen units. -/
theorem creds_core (d : Dev nD) (c : Fin τ.nSC) :
    (bigSep Finset.univ fun _i : Fin τ.nSub => (cred (oxV d c) : sProp 𝕄))
      = bigSep Finset.univ fun i : Fin τ.nSub => cred (tallyAt (bcell d c i) (some 0) (grid0.bound 1)) := by
  unfold oxV
  have e1 : (bigSep Finset.univ fun _i : Fin τ.nSub =>
        (cred (∑ j : Fin (grid0.bound 1), tallyAt (bcell d c (j.castLE hsub0)) (some 0) 1) : sProp 𝕄))
      = bigSep Finset.univ fun j : Fin (grid0.bound 1) => cred (tallyAt (bcell d c (j.castLE hsub0)) (some 0) τ.nSub) := by
    rw [show (fun _i : Fin τ.nSub => (cred (∑ j : Fin (grid0.bound 1), tallyAt (bcell d c (j.castLE hsub0)) (some 0) 1) : sProp 𝕄))
        = fun _i : Fin τ.nSub => bigSep Finset.univ fun j : Fin (grid0.bound 1) => (cred (tallyAt (bcell d c (j.castLE hsub0)) (some 0) 1) : sProp 𝕄)
      from funext fun _ => SparseCore.Cfg.cred_finsum _ _,
      bigSep_univ_comm]
    refine bigSep_congr fun j _ => ?_
    rw [← SparseCore.Cfg.cred_finsum, tally_units]
  rw [e1, bigSep_univ_equiv (finCongr nSub_eq)
    (fun i : Fin τ.nSub => (cred (tallyAt (bcell d c i) (some 0) (grid0.bound 1)) : sProp 𝕄))]
  rfl

/-- The launch's credit for the tiles' debts is, tile by tile, the credit for a full round of the tile's own cell. -/
theorem barrier_creds : ((P (F := F) m).oxCred : sProp 𝕄)
    ⊢ bigSep Finset.univ fun x : DCI => cred (tallyAt (tileCell x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans (Entails.of_eq ?_))
  rw [bigSep_univ_prod, bigSep_univ_prod (fun x : DCI => (cred (tallyAt (tileCell x) (some 0) (grid0.bound 1)) : sProp 𝕄))]
  refine bigSep_congr fun d _ => ?_
  rw [bigSep_univ_prod, bigSep_univ_prod (fun ci : Fin τ.nSC × Fin τ.nSub => (cred (tallyAt (tileCell (d, ci)) (some 0) (grid0.bound 1)) : sProp 𝕄))]
  refine bigSep_congr fun c _ => ?_
  simp only [oxFrom_V]
  exact creds_core d c

/-! ## Persistent facts go to everyone -/

omit [FloatOps F] in
/-- A persistent fact beside a family goes to each member. -/
theorem pers_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a (Finset.mem_insert_self _ _))
      isplitr; · iexact HR
      iexact Ha
    · iapply (ih fun i hi => h i (Finset.mem_insert_of_mem hi))
      isplitr; · iexact HR
      iexact Hs

omit [FloatOps F] in
/-- From a family of persistent facts, any selection of its members, with repetition. -/
theorem pers_pick {I J : Type} [Fintype I] [DecidableEq I] [DecidableEq J] (Φ : I → sProp 𝕄) [∀ i, BI.Persistent (Φ i)] (s : Finset J) (f : J → I) :
    (bigSep Finset.univ Φ : sProp 𝕄) ⊢ bigSep s fun j => Φ (f j) := by
  induction s using Finset.induction_on with
  | empty => rw [bigSep_empty]; iintro -; iempintro
  | insert a s ha ih =>
    rw [SparseCore.bigSep_insert' ha]
    iintro #H
    isplitl
    · iapply (SparseCore.ent (bigSep_elim (Φ := Φ) (Finset.mem_univ (f a)))); iexact H
    · iapply ih; iexact H

/-! ## Every tile's kit -/

/-- What every tile is handed alike. -/
abbrev everyone : sProp 𝕄 :=
  iprop((∃ κ : GSem nD τ sig → ℕ, bigSep Finset.univ fun x : DCI => cellInv EB (bRd (F := F) m) (κ (tileCell x)) (tileCell x))
    ∗ bigSep Finset.univ fun x : DCI => reached EB (tileCell x) 0)
/-- What a tile is handed of its own. -/
abbrev itsOwn (x : DCI) : sProp 𝕄 :=
  iprop(atPos EB (tileCell x) 0 ∅ 0
    ∗ (bigSep Finset.univ fun j : Fin (grid0.bound 1) => dutyTok EB (bcell x.1 x.2.1 (j.castLE hsub0)) 0 x.2.2.val)
    ∗ cred (tallyAt (tileCell x) (some 0) (grid0.bound 1)))

theorem kit_of (x : DCI) : iprop(everyone (F := F) m ∗ itsOwn (F := F) x) ⊢ (bkit (F := F) m x.1 x.2.1 x.2.2 : sProp 𝕄) := by
  obtain ⟨d, c, i⟩ := x
  unfold bkit
  iintro ⟨⟨⟨%κ, #Hinv⟩, #Hr⟩, Hat, Htok, Hcred⟩
  isplitr
  · iexists κ
    iapply (pers_pick (F := F) (fun x : DCI => cellInv EB (bRd (F := F) m) (κ (tileCell x)) (tileCell x)) Finset.univ
      (fun j : Fin (grid0.bound 1) => ((d, c, j.castLE hsub0) : DCI)))
    iexact Hinv
  isplitl [Htok]; · iexact Htok
  isplitr
  · iapply (pers_pick (F := F) (fun x : DCI => (reached EB (tileCell x) 0 : sProp 𝕄)) Finset.univ
      (fun j : Fin (grid0.bound 1) => ((d, c, j.castLE hsub0) : DCI)))
    iexact Hr
  isplitl [Hat]; · iexact Hat
  iexact Hcred

omit [FloatOps F] in
theorem emp_family {I : Type} (s : Finset I) : (bigSep s fun _ => iprop(emp)) = (iprop(emp) : sProp 𝕄) := bigSep_emp_const s

/-- Each thread what the payloads promise it from the launch: a tile its kit, the others nothing. -/
theorem kits :
    iprop(everyone (F := F) m ∗ bigSep Finset.univ fun x : DCI => itsOwn (F := F) x)
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  have eT : ∀ d : Dev nD, (bigSep Finset.univ fun q : Fin 1 => (P (F := F) m).x q (SparseCore.T d)) = iprop(emp) :=
    fun d => bigSep_univ_of_subsingleton (0 : Fin 1)
  have eS : ∀ dc : Dev nD × Fin τ.nSC, (bigSep Finset.univ fun q : Fin 1 => (P (F := F) m).x q (SparseCore.S dc.1 dc.2)) = iprop(emp) :=
    fun dc => bigSep_univ_of_subsingleton (0 : Fin 1)
  have eV : ∀ x : DCI, (bigSep Finset.univ fun q : Fin 1 => (P (F := F) m).x q (V x.1 x.2.1 x.2.2)) = bkit m x.1 x.2.1 x.2.2 :=
    fun x => bigSep_univ_of_subsingleton (0 : Fin 1)
  simp only [eT, eS, eV, emp_family]
  iintro ⟨#Hall, Hown⟩
  isplitr; · iempintro
  isplitr; · iempintro
  iapply (pers_frame (F := F) (R := everyone (F := F) m) (Φ := itsOwn (F := F)) fun x _ => kit_of (F := F) m x)
  isplitr; · iexact Hall
  iexact Hown

/-! ## The launch element -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (own_split _ _) $$ Hu
  icases H with ⟨HH, HB⟩
  imod (Rounds.fund EB (bRd (F := F) m) bCells bToks) $$ HB with ⟨Hst, #Hr, Hat, Htok⟩
  ihave Hsems := (barrier_sems (F := F)) $$ Hfree
  imod (barrier_invs (F := F) m) $$ [Hsems Hst] with ⟨%κ, #Hinv⟩
  · isplitl [Hsems] <;> iassumption
  ihave Hcred' := (barrier_creds m) $$ Hcred
  ihave Hinv' := (Entails.of_eq (bCells_tiles (F := F) fun g => cellInv EB (bRd (F := F) m) (κ g) g)) $$ Hinv
  ihave Hr' := (Entails.of_eq (bCells_tiles (F := F) fun g => reached EB g 0)) $$ Hr
  ihave Hat' := (Entails.of_eq (bCells_tiles (F := F) fun g => atPos EB g 0 ∅ 0)) $$ Hat
  ihave Htok' := (Entails.of_eq (bToks_tiles (F := F))) $$ Htok
  imodintro
  isplitl [HH]; · iexact HH
  isplitr; · rw [emp_family]; iempintro
  iapply (kits m)
  isplitr
  · isplitl; · iexists κ; iexact Hinv'
    iexact Hr'
  unfold itsOwn
  rw [bigSep_sep', bigSep_sep']
  isplitl [Hat']; · iexact Hat'
  isplitl [Htok']; · iexact Htok'
  iexact Hcred'

end Cert.Proof.KW

end
-- ==== Proof.KWLaunch.lean ====
/-
  The program's run.

  Every weakly fair execution of the TensorCore's @main and the two SparseCores' thirty-four threads, from a memory
  whose index argument holds field indices in [0, 40000), terminates without a fault, with the six arguments unchanged
  and the result the column of the flat result: entry b is batch row b's number in accumulation order.
-/
import proofs.«207416_g64579128263113_cont_9to1_m_974_55_alg».proof.Proof.KWObl
import proofs.«207416_g64579128263113_cont_9to1_m_974_55_alg».proof.Proof.KWMain
import proofs.«207416_g64579128263113_cont_9to1_m_974_55_alg».proof.Proof.KWSplit
import proofs.«207416_g64579128263113_cont_9to1_m_974_55_alg».proof.Proof.KWLaunchElem

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the claim reads off the final memory. -/
def QC : PUnit × MemSt nD τ sig (Elt F) → Prop := fun r => ∀ c : Dev nD,
  r.2.mem (rLoc c) = Layout.colw (oC m c) ∧ r.2.mem (a0Loc c) = m (a0Loc c) ∧ r.2.mem (a1Loc c) = m (a1Loc c) ∧ r.2.mem (a2Loc c) = m (a2Loc c)
    ∧ r.2.mem (a3Loc c) = m (a3Loc c) ∧ r.2.mem (a4Loc c) = m (a4Loc c) ∧ r.2.mem (a5Loc c) = m (a5Loc c)

theorem run_main [∀ e, Nonempty (Elt F e)] (hpre : ∀ (d : Dev nD) j, (m (a0Loc d) j).toNat ≤ 39999) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (fq m) (hfin m) (QC m) (fun _ h => h)

end Cert.Proof.KW

end
-- ==== Proof.KWClaims.lean ====
/-
  The word-level kernel's frame: its run, which is the idealized kernel's run read at the word-level float instance
  (the two programs are one text, and the run's proof does not depend on the instance), with the value dropped.
-/
import proofs.«207416_g64579128263113_cont_9to1_m_974_55_alg».proof.Defs
import proofs.«207416_g64579128263113_cont_9to1_m_974_55_alg».proof.Proof.KWLaunch
import proofs.«207416_g64579128263113_cont_9to1_m_974_55_alg».proof.Proof.PreRange

noncomputable section

namespace Cert.Proof.KWClaims

open Idealize.ShloMosaic Idealize.SL.Sem Cert.Proof.KW

/-- The precondition's integer conjunct on every device. -/
theorem pre_range (m : (ℓ : Loc Cert.Kernel.nD Cert.Kernel.τ Cert.Kernel.sig) → Buf (Elt Bits) ℓ) (h : Cert.Pre_Kernel m) :
    ∀ (d : Dev Cert.Kernel.nD) j, (m (a0Loc d) j).toNat ≤ 39999 :=
  fun d => Cert.Proof.PreRange.x_le (F := Bits) _ _ _ _ _ _ (h d)

theorem frame_K : Cert.frame_Kernel := fun m ρ hpre =>
  (θ_run Cert.Kernel.defs _ _).mono (fun _ h c => (h c).2) (run_main (F := Bits) m ρ (pre_range m hpre))

end Cert.Proof.KWClaims

end
-- ==== Proof.lean ====
/-
  The certificate's five claims.

  Both programs compute, for each of the 16384 batch rows, one number: the two bias terms, the 26 table entries the
  row's fields select (field f selects inside its own block of 40000 rows of the table) and the inner product of the
  row's 16 dense features with the weight column. The lane-parallel program deals the rows to 32 workers; each stages the
  table in its SparseCore's shared memory (thirteen tiles fill a slab each, and the barrier hands every tile a read share
  of every slab), gathers its rows' entries and adds everything up lane by lane from the biases; the reference gathers,
  multiplies and reduces over the whole arrays. Over the extended reals the two orders of addition give one sum, because
  addition there is associative and commutative; no input needs to be finite for that. The index precondition is what
  keeps every gathered row inside the table, on both sides.
  The three frames are the programs' runs with the values dropped; nothing was rewritten by the ideal pass, so there is
  nothing to preserve.
-/
import proofs.«207416_g64579128263113_cont_9to1_m_974_55_alg».proof.Defs
import proofs.«207416_g64579128263113_cont_9to1_m_974_55_alg».proof.Proof.KIClaims
import proofs.«207416_g64579128263113_cont_9to1_m_974_55_alg».proof.Proof.KWClaims
import proofs.«207416_g64579128263113_cont_9to1_m_974_55_alg».proof.Proof.RefRun
import proofs.«207416_g64579128263113_cont_9to1_m_974_55_alg».proof.Proof.Gen.Kernel
import proofs.«207416_g64579128263113_cont_9to1_m_974_55_alg».proof.Proof.Gen.KernelIdeal
import proofs.«207416_g64579128263113_cont_9to1_m_974_55_alg».proof.Proof.Gen.ReferenceIdeal
import proofs.«207416_g64579128263113_cont_9to1_m_974_55_alg».proof.Proof.Gen.Pre_input_domain

noncomputable section

namespace Cert.Proof

open Idealize.ShloMosaic Idealize.SL.Sem

/-- The reference's frame: its run with the value dropped. -/
theorem frame_R : Cert.frame_ReferenceIdeal := fun m ρ hpre =>
  (θ_run Cert.ReferenceIdeal.defs _ _).mono (fun _ h c => (h c).2) (Cert.Proof.RefRun.run m ρ hpre)

theorem claim : Cert.Claim :=
  ⟨Cert.Kernel.Gen.facts, Cert.KernelIdeal.Gen.facts, Cert.ReferenceIdeal.Gen.facts, Cert.Pre_input_domain.Gen.facts,
    Cert.Proof.KWClaims.frame_K, Cert.Proof.KIClaims.frame_KI, frame_R, trivial, Cert.Proof.KIClaims.algebraic⟩

end Cert.Proof

end
